-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v191)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v191) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v194) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S200000x128 : Shape := ⟨2, ![200000, 128]⟩
abbrev S3x128x128 : Shape := ⟨3, ![3, 128, 128]⟩
abbrev S400000 : Shape := ⟨1, ![400000]⟩
abbrev S2x200000 : Shape := ⟨2, ![2, 200000]⟩
abbrev S200000 : Shape := ⟨1, ![200000]⟩
abbrev S2x400000 : Shape := ⟨2, ![2, 400000]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S200000x128 : S_.BroadcastsInDim S200000x128 (![] : Fin 0 → Fin S200000x128.rank)
  reducesTo_S200000x128_S_d0_1 : S200000x128.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S400000 : S_.BroadcastsInDim S400000 (![] : Fin 0 → Fin S400000.rank)
  reducesTo_S400000_S_d0 : S400000.ReducesTo [0] S_

variable [Facts]

def fn_part2 {F : FTy → Type} [FloatOps F] (main_arg7 : FVec F S400000 .f32) (main_v33 : IVec S_ 1) : IVec S_ 1 :=
  let main_v34 : FVec F S400000 .f32 := Host.absf main_arg7
  let main_cst_12 : FVec F S_ .f32 := constant S_ .f32 0x7F800000#32
  let main_v35 : FVec F S400000 .f32 := broadcastInDim S400000 ![] bcast_S_S400000 main_cst_12
  let main_v36 : IVec S400000 1 := cmpf .olt main_v34 main_v35
  let main_c_13 : IVec S_ 1 := constantI S_ 1 1#1
  let main_v37 : IVec S_ 1 := (fun x v => Host.reduce IntOp.andi x v reducesTo_S400000_S_d0 h_S_) main_v36 main_c_13
  let main_v38 : IVec S_ 1 := andi main_v33 main_v37
  main_v38

def fn_part1 {F : FTy → Type} [FloatOps F] (main_arg4 : FVec F S3x128x128 .f32) (main_arg5 : FVec F S3x128x128 .f32) (main_arg6 : FVec F S400000 .f32) (main_arg7 : FVec F S400000 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128x128 .f32 := Host.absf main_arg4
  let main_cst_6 : FVec F S_ .f32 := constant S_ .f32 0x7F800000#32
  let main_v20 : FVec F S3x128x128 .f32 := broadcastInDim S3x128x128 ![] bcast_S_S3x128x128 main_cst_6
  let main_v21 : IVec S3x128x128 1 := cmpf .olt main_v19 main_v20
  let main_c_7 : IVec S_ 1 := constantI S_ 1 1#1
  let main_v22 : IVec S_ 1 := (fun x v => Host.reduce IntOp.andi x v reducesTo_S3x128x128_S_d0_1_2 h_S_) main_v21 main_c_7
  let main_v23 : IVec S_ 1 := andi main_v18 main_v22
  let main_v24 : FVec F S3x128x128 .f32 := Host.absf main_arg5
  let main_cst_8 : FVec F S_ .f32 := constant S_ .f32 0x7F800000#32
  let main_v25 : FVec F S3x128x128 .f32 := broadcastInDim S3x128x128 ![] bcast_S_S3x128x128 main_cst_8
  let main_v26 : IVec S3x128x128 1 := cmpf .olt main_v24 main_v25
  let main_c_9 : IVec S_ 1 := constantI S_ 1 1#1
  let main_v27 : IVec S_ 1 := (fun x v => Host.reduce IntOp.andi x v reducesTo_S3x128x128_S_d0_1_2 h_S_) main_v26 main_c_9
  let main_v28 : IVec S_ 1 := andi main_v23 main_v27
  let main_v29 : FVec F S400000 .f32 := Host.absf main_arg6
  let main_cst_10 : FVec F S_ .f32 := constant S_ .f32 0x7F800000#32
  let main_v30 : FVec F S400000 .f32 := broadcastInDim S400000 ![] bcast_S_S400000 main_cst_10
  let main_v31 : IVec S400000 1 := cmpf .olt main_v29 main_v30
  let main_c_11 : IVec S_ 1 := constantI S_ 1 1#1
  let main_v32 : IVec S_ 1 := (fun x v => Host.reduce IntOp.andi x v reducesTo_S400000_S_d0 h_S_) main_v31 main_c_11
  let main_v33 : IVec S_ 1 := andi main_v28 main_v32
  fn_part2 (F := F) main_arg7 main_v33

def fn {F : FTy → Type} [FloatOps F] (main_arg0 : FVec F S20000x128 .f32) (main_arg1 : FVec F S200000x128 .f32) (main_arg2 : FVec F S3x128x128 .f32) (main_arg3 : FVec F S3x128x128 .f32) (main_arg4 : FVec F S3x128x128 .f32) (main_arg5 : FVec F S3x128x128 .f32) (main_arg6 : FVec F S400000 .f32) (main_arg7 : FVec F S400000 .f32) (main_arg8 : IVec S2x200000 32) (main_arg9 : IVec S200000 32) (main_arg10 : IVec S200000 32) (main_arg11 : IVec S2x400000 32) (main_arg12 : IVec S2x400000 32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S200000x128 .f32 := Host.absf main_arg1
  let main_cst_0 : FVec F S_ .f32 := constant S_ .f32 0x7F800000#32
  let main_v5 : FVec F S200000x128 .f32 := broadcastInDim S200000x128 ![] bcast_S_S200000x128 main_cst_0
  let main_v6 : IVec S200000x128 1 := cmpf .olt main_v4 main_v5
  let main_c_1 : IVec S_ 1 := constantI S_ 1 1#1
  let main_v7 : IVec S_ 1 := (fun x v => Host.reduce IntOp.andi x v reducesTo_S200000x128_S_d0_1 h_S_) main_v6 main_c_1
  let main_v8 : IVec S_ 1 := andi main_v3 main_v7
  let main_v9 : FVec F S3x128x128 .f32 := Host.absf main_arg2
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128x128 .f32 := Host.absf main_arg3
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg4 main_arg5 main_arg6 main_arg7 main_v13 main_v16
-- ==== Kernel.lean ====
abbrev S20000x128 : Shape := ⟨2, ![20000, 128]⟩
abbrev S200000x128 : Shape := ⟨2, ![200000, 128]⟩
abbrev S3x128x128 : Shape := ⟨3, ![3, 128, 128]⟩
abbrev S400000 : Shape := ⟨1, ![400000]⟩
abbrev S2x200000 : Shape := ⟨2, ![2, 200000]⟩
abbrev S200000 : Shape := ⟨1, ![200000]⟩
abbrev S2x400000 : Shape := ⟨2, ![2, 400000]⟩
abbrev S1x200000 : Shape := ⟨2, ![1, 200000]⟩
abbrev S_ : Shape := ⟨0, ![]⟩
abbrev S200000x1 : Shape := ⟨2, ![200000, 1]⟩
abbrev S1x128x128 : Shape := ⟨3, ![1, 128, 128]⟩
abbrev S128x128 : Shape := ⟨2, ![128, 128]⟩
abbrev S2000x128 : Shape := ⟨2, ![2000, 128]⟩
abbrev S128x384 : Shape := ⟨2, ![128, 384]⟩
abbrev S200000x384 : Shape := ⟨2, ![200000, 384]⟩
abbrev S4000x128 : Shape := ⟨2, ![4000, 128]⟩
abbrev S4000x384 : Shape := ⟨2, ![4000, 384]⟩
abbrev S400000x1 : Shape := ⟨2, ![400000, 1]⟩
abbrev S1x400000 : Shape := ⟨2, ![1, 400000]⟩
abbrev S400000x128 : Shape := ⟨2, ![400000, 128]⟩
abbrev S2000x384 : Shape := ⟨2, ![2000, 384]⟩
abbrev S20000x256 : Shape := ⟨2, ![20000, 256]⟩
abbrev S2000x256 : Shape := ⟨2, ![2000, 256]⟩

abbrev nBuf : Space → Nat
  | .hbm => 234
  | .vmem => 60
  | .smem => 0
  | _ => 0

abbrev hbmTy0_0 (i : Nat) : BufTy := match i % 128 with
  | 0 => ⟨S20000x128, .f32⟩
  | 1 => ⟨S200000x128, .f32⟩
  | 2 => ⟨S3x128x128, .f32⟩
  | 3 => ⟨S3x128x128, .f32⟩
  | 4 => ⟨S3x128x128, .f32⟩
  | 5 => ⟨S3x128x128, .f32⟩
  | 6 => ⟨S400000, .f32⟩
  | 7 => ⟨S400000, .f32⟩
  | 8 => ⟨S2x200000, .i32⟩
  | 9 => ⟨S200000, .i32⟩
  | 10 => ⟨S200000, .i32⟩
  | 11 => ⟨S2x400000, .i32⟩
  | 12 => ⟨S2x400000, .i32⟩
  | 13 => ⟨S1x200000, .i32⟩
  | 14 => ⟨S200000, .i32⟩
  | 15 => ⟨S1x200000, .i32⟩
  | 16 => ⟨S200000, .i32⟩
  | 17 => ⟨S_, .i32⟩
  | 18 => ⟨S200000, .i32⟩
  | 19 => ⟨S200000, .i1⟩
  | 20 => ⟨S_, .i32⟩
  | 21 => ⟨S200000, .i32⟩
  | 22 => ⟨S200000, .i32⟩
  | 23 => ⟨S200000, .i32⟩
  | 24 => ⟨S200000x1, .i32⟩
  | 25 => ⟨S200000x128, .f32⟩
  | 26 => ⟨S_, .f32⟩
  | 27 => ⟨S20000x128, .f32⟩
  | 28 => ⟨S200000x1, .i32⟩
  | 29 => ⟨S20000x128, .f32⟩
  | 30 => ⟨S1x128x128, .f32⟩
  | 31 => ⟨S128x128, .f32⟩
  | 32 => ⟨S20000x128, .f32⟩
  | 33 => ⟨S_, .i32⟩
  | 34 => ⟨S200000, .i32⟩
  | 35 => ⟨S200000, .i1⟩
  | 36 => ⟨S_, .i32⟩
  | 37 => ⟨S200000, .i32⟩
  | 38 => ⟨S200000, .i32⟩
  | 39 => ⟨S200000, .i32⟩
  | 40 => ⟨S200000x1, .i32⟩
  | 41 => ⟨S200000x128, .f32⟩
  | 42 => ⟨S_, .f32⟩
  | 43 => ⟨S20000x128, .f32⟩
  | 44 => ⟨S200000x1, .i32⟩
  | 45 => ⟨S20000x128, .f32⟩
  | 46 => ⟨S1x128x128, .f32⟩
  | 47 => ⟨S128x128, .f32⟩
  | 48 => ⟨S20000x128, .f32⟩
  | 49 => ⟨S_, .i32⟩
  | 50 => ⟨S200000, .i32⟩
  | 51 => ⟨S200000, .i1⟩
  | 52 => ⟨S_, .i32⟩
  | 53 => ⟨S200000, .i32⟩
  | 54 => ⟨S200000, .i32⟩
  | 55 => ⟨S200000, .i32⟩
  | 56 => ⟨S200000x1, .i32⟩
  | 57 => ⟨S200000x128, .f32⟩
  | 58 => ⟨S_, .f32⟩
  | 59 => ⟨S20000x128, .f32⟩
  | 60 => ⟨S200000x1, .i32⟩
  | 61 => ⟨S20000x128, .f32⟩
  | 62 => ⟨S1x128x128, .f32⟩
  | 63 => ⟨S128x128, .f32⟩
  | 64 => ⟨S20000x128, .f32⟩
  | 65 => ⟨S1x128x128, .f32⟩
  | 66 => ⟨S128x128, .f32⟩
  | 67 => ⟨S1x128x128, .f32⟩
  | 68 => ⟨S128x128, .f32⟩
  | 69 => ⟨S1x128x128, .f32⟩
  | 70 => ⟨S128x128, .f32⟩
  | 71 => ⟨S128x384, .f32⟩
  | 72 => ⟨S200000x384, .bf16⟩
  | 73 => ⟨S200000x128, .bf16⟩
  | 74 => ⟨S200000x128, .bf16⟩
  | 75 => ⟨S200000x128, .bf16⟩
  | 76 => ⟨S400000x1, .f32⟩
  | 77 => ⟨S1x400000, .i32⟩
  | 78 => ⟨S400000, .i32⟩
  | 79 => ⟨S_, .i32⟩
  | 80 => ⟨S400000, .i32⟩
  | 81 => ⟨S400000, .i1⟩
  | 82 => ⟨S_, .i32⟩
  | 83 => ⟨S400000, .i32⟩
  | 84 => ⟨S400000, .i32⟩
  | 85 => ⟨S400000, .i32⟩
  | 86 => ⟨S400000x1, .i32⟩
  | 87 => ⟨S400000x128, .bf16⟩
  | 88 => ⟨S400000x128, .f32⟩
  | 89 => ⟨S400000x128, .f32⟩
  | 90 => ⟨S400000x128, .f32⟩
  | 91 => ⟨S1x400000, .i32⟩
  | 92 => ⟨S400000, .i32⟩
  | 93 => ⟨S_, .f32⟩
  | 94 => ⟨S200000x128, .f32⟩
  | 95 => ⟨S400000x1, .i32⟩
  | 96 => ⟨S200000x128, .f32⟩
  | 97 => ⟨S400000x1, .f32⟩
  | 98 => ⟨S1x400000, .i32⟩
  | 99 => ⟨S400000, .i32⟩
  | 100 => ⟨S_, .i32⟩
  | 101 => ⟨S400000, .i32⟩
  | 102 => ⟨S400000, .i1⟩
  | 103 => ⟨S_, .i32⟩
  | 104 => ⟨S400000, .i32⟩
  | 105 => ⟨S400000, .i32⟩
  | 106 => ⟨S400000, .i32⟩
  | 107 => ⟨S400000x1, .i32⟩
  | 108 => ⟨S400000x128, .bf16⟩
  | 109 => ⟨S400000x128, .f32⟩
  | 110 => ⟨S400000x128, .f32⟩
  | 111 => ⟨S400000x128, .f32⟩
  | 112 => ⟨S1x400000, .i32⟩
  | 113 => ⟨S400000, .i32⟩
  | 114 => ⟨S_, .f32⟩
  | 115 => ⟨S200000x128, .f32⟩
  | 116 => ⟨S400000x1, .i32⟩
  | 117 => ⟨S200000x128, .f32⟩
  | 118 => ⟨S1x128x128, .f32⟩
  | 119 => ⟨S128x128, .f32⟩
  | 120 => ⟨S1x128x128, .f32⟩
  | 121 => ⟨S128x128, .f32⟩
  | 122 => ⟨S1x128x128, .f32⟩
  | 123 => ⟨S128x128, .f32⟩
  | 124 => ⟨S128x384, .f32⟩
  | 125 => ⟨S200000x384, .bf16⟩
  | 126 => ⟨S200000x128, .bf16⟩
  | 127 => ⟨S200000x128, .bf16⟩
  | _ => ⟨S20000x128, .f32⟩

abbrev hbmTy0_1 (i : Nat) : BufTy := match i % 128 with
  | 0 => ⟨S200000x128, .bf16⟩
  | 1 => ⟨S400000x1, .f32⟩
  | 2 => ⟨S1x400000, .i32⟩
  | 3 => ⟨S400000, .i32⟩
  | 4 => ⟨S_, .i32⟩
  | 5 => ⟨S400000, .i32⟩
  | 6 => ⟨S400000, .i1⟩
  | 7 => ⟨S_, .i32⟩
  | 8 => ⟨S400000, .i32⟩
  | 9 => ⟨S400000, .i32⟩
  | 10 => ⟨S400000, .i32⟩
  | 11 => ⟨S400000x1, .i32⟩
  | 12 => ⟨S400000x128, .bf16⟩
  | 13 => ⟨S400000x128, .f32⟩
  | 14 => ⟨S400000x128, .f32⟩
  | 15 => ⟨S400000x128, .f32⟩
  | 16 => ⟨S1x400000, .i32⟩
  | 17 => ⟨S400000, .i32⟩
  | 18 => ⟨S_, .f32⟩
  | 19 => ⟨S200000x128, .f32⟩
  | 20 => ⟨S400000x1, .i32⟩
  | 21 => ⟨S200000x128, .f32⟩
  | 22 => ⟨S400000x1, .f32⟩
  | 23 => ⟨S1x400000, .i32⟩
  | 24 => ⟨S400000, .i32⟩
  | 25 => ⟨S_, .i32⟩
  | 26 => ⟨S400000, .i32⟩
  | 27 => ⟨S400000, .i1⟩
  | 28 => ⟨S_, .i32⟩
  | 29 => ⟨S400000, .i32⟩
  | 30 => ⟨S400000, .i32⟩
  | 31 => ⟨S400000, .i32⟩
  | 32 => ⟨S400000x1, .i32⟩
  | 33 => ⟨S400000x128, .bf16⟩
  | 34 => ⟨S400000x128, .f32⟩
  | 35 => ⟨S400000x128, .f32⟩
  | 36 => ⟨S400000x128, .f32⟩
  | 37 => ⟨S1x400000, .i32⟩
  | 38 => ⟨S400000, .i32⟩
  | 39 => ⟨S_, .f32⟩
  | 40 => ⟨S200000x128, .f32⟩
  | 41 => ⟨S400000x1, .i32⟩
  | 42 => ⟨S200000x128, .f32⟩
  | 43 => ⟨S1x128x128, .f32⟩
  | 44 => ⟨S128x128, .f32⟩
  | 45 => ⟨S1x128x128, .f32⟩
  | 46 => ⟨S128x128, .f32⟩
  | 47 => ⟨S1x128x128, .f32⟩
  | 48 => ⟨S128x128, .f32⟩
  | 49 => ⟨S128x384, .f32⟩
  | 50 => ⟨S200000x384, .bf16⟩
  | 51 => ⟨S200000x128, .bf16⟩
  | 52 => ⟨S200000x128, .bf16⟩
  | 53 => ⟨S200000x128, .bf16⟩
  | 54 => ⟨S400000x1, .f32⟩
  | 55 => ⟨S1x400000, .i32⟩
  | 56 => ⟨S400000, .i32⟩
  | 57 => ⟨S_, .i32⟩
  | 58 => ⟨S400000, .i32⟩
  | 59 => ⟨S400000, .i1⟩
  | 60 => ⟨S_, .i32⟩
  | 61 => ⟨S400000, .i32⟩
  | 62 => ⟨S400000, .i32⟩
  | 63 => ⟨S400000, .i32⟩
  | 64 => ⟨S400000x1, .i32⟩
  | 65 => ⟨S400000x128, .bf16⟩
  | 66 => ⟨S400000x128, .f32⟩
  | 67 => ⟨S400000x128, .f32⟩
  | 68 => ⟨S400000x128, .f32⟩
  | 69 => ⟨S1x400000, .i32⟩
  | 70 => ⟨S400000, .i32⟩
  | 71 => ⟨S_, .f32⟩
  | 72 => ⟨S200000x128, .f32⟩
  | 73 => ⟨S400000x1, .i32⟩
  | 74 => ⟨S200000x128, .f32⟩
  | 75 => ⟨S400000x1, .f32⟩
  | 76 => ⟨S1x400000, .i32⟩
  | 77 => ⟨S400000, .i32⟩
  | 78 => ⟨S_, .i32⟩
  | 79 => ⟨S400000, .i32⟩
  | 80 => ⟨S400000, .i1⟩
  | 81 => ⟨S_, .i32⟩
  | 82 => ⟨S400000, .i32⟩
  | 83 => ⟨S400000, .i32⟩
  | 84 => ⟨S400000, .i32⟩
  | 85 => ⟨S400000x1, .i32⟩
  | 86 => ⟨S400000x128, .bf16⟩
  | 87 => ⟨S400000x128, .f32⟩
  | 88 => ⟨S400000x128, .f32⟩
  | 89 => ⟨S400000x128, .f32⟩
  | 90 => ⟨S1x400000, .i32⟩
  | 91 => ⟨S400000, .i32⟩
  | 92 => ⟨S_, .f32⟩
  | 93 => ⟨S200000x128, .f32⟩
  | 94 => ⟨S400000x1, .i32⟩
  | 95 => ⟨S200000x128, .f32⟩
  | 96 => ⟨S200000x128, .f32⟩
  | 97 => ⟨S_, .f32⟩
  | 98 => ⟨S20000x128, .f32⟩
  | 99 => ⟨S200000x1, .i32⟩
  | 100 => ⟨S20000x128, .f32⟩
  | 101 => ⟨S_, .f32⟩
  | 102 => ⟨S20000x128, .f32⟩
  | 103 => ⟨S200000x1, .i32⟩
  | 104 => ⟨S20000x128, .f32⟩
  | 105 => ⟨S20000x256, .f32⟩
  | _ => ⟨S20000x128, .f32⟩

abbrev hbmTy (i : Nat) : BufTy := match i / 128 with
  | 0 => hbmTy0_0 i
  | 1 => hbmTy0_1 i
  | _ => ⟨S20000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S128x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S128x128, .f32⟩
  | .local _ .vmem, ⟨19, _⟩ => ⟨S2000x128, .f32⟩
  | .local _ .vmem, ⟨20, _⟩ => ⟨S2000x128, .f32⟩
  | .local _ .vmem, ⟨21, _⟩ => ⟨S4000x128, .f32⟩
  | .local _ .vmem, ⟨22, _⟩ => ⟨S4000x128, .f32⟩
  | .local _ .vmem, ⟨23, _⟩ => ⟨S128x384, .f32⟩
  | .local _ .vmem, ⟨24, _⟩ => ⟨S4000x384, .bf16⟩
  | .local _ .vmem, ⟨25, _⟩ => ⟨S4000x384, .bf16⟩
  | .local _ .vmem, ⟨26, _⟩ => ⟨S2000x128, .bf16⟩
  | .local _ .vmem, ⟨27, _⟩ => ⟨S2000x128, .bf16⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S128x384, .f32⟩
  | .local _ .vmem, ⟨33, _⟩ => ⟨S2000x384, .bf16⟩
  | .local _ .vmem, ⟨34, _⟩ => ⟨S2000x384, .bf16⟩
  | .local _ .vmem, ⟨35, _⟩ => ⟨S2000x128, .bf16⟩
  | .local _ .vmem, ⟨36, _⟩ => ⟨S2000x128, .bf16⟩
  | .local _ .vmem, ⟨37, _⟩ => ⟨S2000x128, .f32⟩
  | .local _ .vmem, ⟨38, _⟩ => ⟨S2000x128, .f32⟩
  | .local _ .vmem, ⟨39, _⟩ => ⟨S2000x128, .f32⟩
  | .local _ .vmem, ⟨40, _⟩ => ⟨S2000x128, .f32⟩
  | .local _ .vmem, ⟨41, _⟩ => ⟨S128x384, .f32⟩
  | .local _ .vmem, ⟨42, _⟩ => ⟨S2000x384, .bf16⟩
  | .local _ .vmem, ⟨43, _⟩ => ⟨S2000x384, .bf16⟩
  | .local _ .vmem, ⟨44, _⟩ => ⟨S4000x128, .bf16⟩
  | .local _ .vmem, ⟨45, _⟩ => ⟨S4000x128, .bf16⟩
  | .local _ .vmem, ⟨46, _⟩ => ⟨S4000x128, .f32⟩
  | .local _ .vmem, ⟨47, _⟩ => ⟨S4000x128, .f32⟩
  | .local _ .vmem, ⟨48, _⟩ => ⟨S4000x128, .f32⟩
  | .local _ .vmem, ⟨49, _⟩ => ⟨S4000x128, .f32⟩
  | .local _ .vmem, ⟨50, _⟩ => ⟨S4000x128, .f32⟩
  | .local _ .vmem, ⟨51, _⟩ => ⟨S4000x128, .f32⟩
  | .local _ .vmem, ⟨52, _⟩ => ⟨S2000x128, .f32⟩
  | .local _ .vmem, ⟨53, _⟩ => ⟨S2000x128, .f32⟩
  | .local _ .vmem, ⟨54, _⟩ => ⟨S2000x128, .f32⟩
  | .local _ .vmem, ⟨55, _⟩ => ⟨S2000x128, .f32⟩
  | .local _ .vmem, ⟨56, _⟩ => ⟨S2000x128, .f32⟩
  | .local _ .vmem, ⟨57, _⟩ => ⟨S2000x128, .f32⟩
  | .local _ .vmem, ⟨58, _⟩ => ⟨S2000x256, .f32⟩
  | .local _ .vmem, ⟨59, _⟩ => ⟨S2000x256, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_1 : Ref sig .tc := ⟨.hbm, 33, rfl⟩
abbrev main_v17 : Ref sig .tc := ⟨.hbm, 34, rfl⟩
abbrev main_v18 : Ref sig .tc := ⟨.hbm, 35, rfl⟩
abbrev main_c_2 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_3 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_4 : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_7 : Ref sig .tc := ⟨.hbm, 79, rfl⟩
abbrev main_v57 : Ref sig .tc := ⟨.hbm, 80, rfl⟩
abbrev main_v58 : Ref sig .tc := ⟨.hbm, 81, rfl⟩
abbrev main_c_8 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_9 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_c_10 : Ref sig .tc := ⟨.hbm, 100, rfl⟩
abbrev main_v75 : Ref sig .tc := ⟨.hbm, 101, rfl⟩
abbrev main_v76 : Ref sig .tc := ⟨.hbm, 102, rfl⟩
abbrev main_c_11 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_cst_12 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_c_13 : Ref sig .tc := ⟨.hbm, 132, rfl⟩
abbrev main_v104 : Ref sig .tc := ⟨.hbm, 133, rfl⟩
abbrev main_v105 : Ref sig .tc := ⟨.hbm, 134, rfl⟩
abbrev main_c_14 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_cst_15 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_c_16 : Ref sig .tc := ⟨.hbm, 153, rfl⟩
abbrev main_v122 : Ref sig .tc := ⟨.hbm, 154, rfl⟩
abbrev main_v123 : Ref sig .tc := ⟨.hbm, 155, rfl⟩
abbrev main_c_17 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_cst_18 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_c_19 : Ref sig .tc := ⟨.hbm, 185, rfl⟩
abbrev main_v151 : Ref sig .tc := ⟨.hbm, 186, rfl⟩
abbrev main_v152 : Ref sig .tc := ⟨.hbm, 187, rfl⟩
abbrev main_c_20 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_cst_21 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_c_22 : Ref sig .tc := ⟨.hbm, 206, rfl⟩
abbrev main_v169 : Ref sig .tc := ⟨.hbm, 207, rfl⟩
abbrev main_v170 : Ref sig .tc := ⟨.hbm, 208, rfl⟩
abbrev main_c_23 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_v177 : Ref sig .tc := ⟨.hbm, 216, rfl⟩
abbrev main_v178 : Ref sig .tc := ⟨.hbm, 217, rfl⟩
abbrev main_v179 : Ref sig .tc := ⟨.hbm, 218, rfl⟩
abbrev main_v180 : Ref sig .tc := ⟨.hbm, 219, rfl⟩
abbrev main_cst_24 : Ref sig .tc := ⟨.hbm, 220, rfl⟩
abbrev main_v181 : Ref sig .tc := ⟨.hbm, 221, rfl⟩
abbrev main_v182 : Ref sig .tc := ⟨.hbm, 222, rfl⟩
abbrev main_v183 : Ref sig .tc := ⟨.hbm, 223, rfl⟩
abbrev main_v184 : Ref sig .tc := ⟨.hbm, 224, rfl⟩
abbrev main_cst_25 : Ref sig .tc := ⟨.hbm, 225, rfl⟩
abbrev main_v185 : Ref sig .tc := ⟨.hbm, 226, rfl⟩
abbrev main_v186 : Ref sig .tc := ⟨.hbm, 227, rfl⟩
abbrev main_v187 : Ref sig .tc := ⟨.hbm, 228, rfl⟩
abbrev main_cst_26 : Ref sig .tc := ⟨.hbm, 229, rfl⟩
abbrev main_v188 : Ref sig .tc := ⟨.hbm, 230, rfl⟩
abbrev main_v189 : Ref sig .tc := ⟨.hbm, 231, rfl⟩
abbrev main_v190 : Ref sig .tc := ⟨.hbm, 232, rfl⟩
abbrev main_v191 : Ref sig .tc := ⟨.hbm, 233, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg2_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc4_stg3_0 : Ref sig .tc := ⟨.vmem, 32, rfl⟩
abbrev cc4_stg4_0 : Ref sig .tc := ⟨.vmem, 33, rfl⟩
abbrev cc4_stg4_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg2_1 : Ref sig .tc := ⟨.vmem, 40, rfl⟩
abbrev cc5_stg3_0 : Ref sig .tc := ⟨.vmem, 41, rfl⟩
abbrev cc5_stg4_0 : Ref sig .tc := ⟨.vmem, 42, rfl⟩
abbrev cc5_stg4_1 : Ref sig .tc := ⟨.vmem, 43, rfl⟩
abbrev cc6_stg0_0 : Ref sig .tc := ⟨.vmem, 44, rfl⟩
abbrev cc6_stg0_1 : Ref sig .tc := ⟨.vmem, 45, rfl⟩
abbrev cc6_stg1_0 : Ref sig .tc := ⟨.vmem, 46, rfl⟩
abbrev cc6_stg1_1 : Ref sig .tc := ⟨.vmem, 47, rfl⟩
abbrev cc6_stg2_0 : Ref sig .tc := ⟨.vmem, 48, rfl⟩
abbrev cc6_stg2_1 : Ref sig .tc := ⟨.vmem, 49, rfl⟩
abbrev cc6_stg3_0 : Ref sig .tc := ⟨.vmem, 50, rfl⟩
abbrev cc6_stg3_1 : Ref sig .tc := ⟨.vmem, 51, rfl⟩
abbrev cc7_stg0_0 : Ref sig .tc := ⟨.vmem, 52, rfl⟩
abbrev cc7_stg0_1 : Ref sig .tc := ⟨.vmem, 53, rfl⟩
abbrev cc7_stg1_0 : Ref sig .tc := ⟨.vmem, 54, rfl⟩
abbrev cc7_stg1_1 : Ref sig .tc := ⟨.vmem, 55, rfl⟩
abbrev cc7_stg2_0 : Ref sig .tc := ⟨.vmem, 56, rfl⟩
abbrev cc7_stg2_1 : Ref sig .tc := ⟨.vmem, 57, rfl⟩
abbrev cc7_stg3_0 : Ref sig .tc := ⟨.vmem, 58, rfl⟩
abbrev cc7_stg3_1 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem2_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem2_1 : DmaSem sig := 31
abbrev cc4_sem3_0 : DmaSem sig := 32
abbrev cc4_sem4_0 : DmaSem sig := 33
abbrev cc4_sem4_1 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem2_1 : DmaSem sig := 40
abbrev cc5_sem3_0 : DmaSem sig := 41
abbrev cc5_sem4_0 : DmaSem sig := 42
abbrev cc5_sem4_1 : DmaSem sig := 43
abbrev cc6_sem0_0 : DmaSem sig := 44
abbrev cc6_sem0_1 : DmaSem sig := 45
abbrev cc6_sem1_0 : DmaSem sig := 46
abbrev cc6_sem1_1 : DmaSem sig := 47
abbrev cc6_sem2_0 : DmaSem sig := 48
abbrev cc6_sem2_1 : DmaSem sig := 49
abbrev cc6_sem3_0 : DmaSem sig := 50
abbrev cc6_sem3_1 : DmaSem sig := 51
abbrev cc7_sem0_0 : DmaSem sig := 52
abbrev cc7_sem0_1 : DmaSem sig := 53
abbrev cc7_sem1_0 : DmaSem sig := 54
abbrev cc7_sem1_1 : DmaSem sig := 55
abbrev cc7_sem2_0 : DmaSem sig := 56
abbrev cc7_sem2_1 : DmaSem sig := 57
abbrev cc7_sem3_0 : DmaSem sig := 58
abbrev cc7_sem3_1 : DmaSem sig := 59

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x384 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4000x384 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x384 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S2000x384 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![100], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S128x384 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2000x384 .bf16 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4000x128 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S4000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S4000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S4000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S2000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S2000x256 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S200000_S200000x1_0 : S200000.BroadcastsInDim S200000x1 (![0] : Fin 1 → Fin S200000x1.rank)
  bcast_S_S20000x128 : S_.BroadcastsInDim S20000x128 (![] : Fin 0 → Fin S20000x128.rank)
  slices_S3x128x128_S1x128x128_0_0_0 : S3x128x128.Slices ![0, 0, 0] S1x128x128
  shapeCasts_S1x128x128_S128x128 : S1x128x128.ShapeCasts S128x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S3x128x128_S1x128x128_1_0_0 : S3x128x128.Slices ![1, 0, 0] S1x128x128
  slices_S3x128x128_S1x128x128_2_0_0 : S3x128x128.Slices ![2, 0, 0] S1x128x128
  concatenates_S128x128_S128x128_S128x128_S128x384_d1 : Shape.Concatenates [S128x128, S128x128, S128x128] S128x384 1
  inb_S4000x128_S4000x128_0_0 : ∀ a, (![0, 0] : Fin 2 → Nat) a + S4000x128.size a ≤ S4000x128.size a
  h_S4000x128 : 0 < S4000x128.numel
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S4000x384_S4000x384_0_0 : ∀ a, (![0, 0] : Fin 2 → Nat) a + S4000x384.size a ≤ S4000x384.size a
  h_S4000x384 : 0 < S4000x384.numel
  packedbf16_S4000x384_S4000x384_0_0 : (Rect.unit (s := S4000x384) ![0, 0] S4000x384.size inb_S4000x384_S4000x384_0_0).PackedRows (EltTy.packing .bf16)
  slices_S200000x384_S200000x128_0_0 : S200000x384.Slices ![0, 0] S200000x128
  slices_S200000x384_S200000x128_0_128 : S200000x384.Slices ![0, 128] S200000x128
  slices_S200000x384_S200000x128_0_256 : S200000x384.Slices ![0, 256] S200000x128
  bcast_S400000_S400000x1_0 : S400000.BroadcastsInDim S400000x1 (![0] : Fin 1 → Fin S400000x1.rank)
  slices_S2x400000_S1x400000_1_0 : S2x400000.Slices ![1, 0] S1x400000
  shapeCasts_S1x400000_S400000 : S1x400000.ShapeCasts S400000
  bcast_S_S400000 : S_.BroadcastsInDim S400000 (![] : Fin 0 → Fin S400000.rank)
  bcast_S400000x1_S400000x128_0_1 : S400000x1.BroadcastsInDim S400000x128 (![0, 1] : Fin 2 → Fin S400000x128.rank)
  slices_S2x400000_S1x400000_0_0 : S2x400000.Slices ![0, 0] S1x400000
  bcast_S_S200000x128 : S_.BroadcastsInDim S200000x128 (![] : Fin 0 → Fin S200000x128.rank)
  inb_S2000x384_S2000x384_0_0 : ∀ a, (![0, 0] : Fin 2 → Nat) a + S2000x384.size a ≤ S2000x384.size a
  h_S2000x384 : 0 < S2000x384.numel
  packedbf16_S2000x384_S2000x384_0_0 : (Rect.unit (s := S2000x384) ![0, 0] S2000x384.size inb_S2000x384_S2000x384_0_0).PackedRows (EltTy.packing .bf16)
  shapeCasts_S4000x128_S4000x128 : S4000x128.ShapeCasts S4000x128
  inb_S2000x256_S2000x128_0_0 : ∀ a, (![0, 0] : Fin 2 → Nat) a + S2000x128.size a ≤ S2000x256.size a
  inb_S2000x256_S2000x128_0_128 : ∀ a, (![0, 128] : Fin 2 → Nat) a + S2000x128.size a ≤ S2000x256.size a
  gather_S20000x128_S200000x1_S200000x128_1_0_n_n_0_1_1128_wf : GatherDims.WF S20000x128 S200000x1 S200000x128 [1] [0] [] [0] [] 1 ![1, 128]
  scatter_S20000x128_S200000x1_S200000x128_1_0_0_1_wf : ScatterDims.WF S20000x128 S200000x1 S200000x128 [1] [0] [0] 1
  dot_S2000x128_S128x128_S2000x128_1_0_0_1_n_n_wf : DotDims.WF S2000x128 S128x128 S2000x128 [1] [0] [0] [1] [] []
  dot_S4000x128_S128x384_S4000x384_1_0_0_1_n_n_wf : DotDims.WF S4000x128 S128x384 S4000x384 [1] [0] [0] [1] [] []
  gather_S200000x128_S400000x1_S400000x128_1_0_n_n_0_1_1128_wf : GatherDims.WF S200000x128 S400000x1 S400000x128 [1] [0] [] [0] [] 1 ![1, 128]
  scatter_S200000x128_S400000x1_S400000x128_1_0_0_1_wf : ScatterDims.WF S200000x128 S400000x1 S400000x128 [1] [0] [0] 1
  dot_S2000x128_S128x384_S2000x384_1_0_0_1_n_n_wf : DotDims.WF S2000x128 S128x384 S2000x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S20000x128.size a
  hwx0_0 : ∀ i : grid0.Coords, EltTy.bits .f32 = 32 ∨ (Rect.block (s := S20000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S20000x128.size a
  hwx0_1 : ∀ i : grid0.Coords, EltTy.bits .f32 = 32 ∨ (Rect.block (s := S20000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S20000x128.size a
  hwx0_3 : ∀ i : grid0.Coords, EltTy.bits .f32 = 32 ∨ (Rect.block (s := S20000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S20000x128.size a
  hwx1_0 : ∀ i : grid1.Coords, EltTy.bits .f32 = 32 ∨ (Rect.block (s := S20000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S20000x128.size a
  hwx1_1 : ∀ i : grid1.Coords, EltTy.bits .f32 = 32 ∨ (Rect.block (s := S20000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S20000x128.size a
  hwx1_3 : ∀ i : grid1.Coords, EltTy.bits .f32 = 32 ∨ (Rect.block (s := S20000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S20000x128.size a
  hwx2_0 : ∀ i : grid2.Coords, EltTy.bits .f32 = 32 ∨ (Rect.block (s := S20000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S20000x128.size a
  hwx2_1 : ∀ i : grid2.Coords, EltTy.bits .f32 = 32 ∨ (Rect.block (s := S20000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S20000x128.size a
  hwx2_3 : ∀ i : grid2.Coords, EltTy.bits .f32 = 32 ∨ (Rect.block (s := S20000x128) S2000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S200000x128.size a
  hwx3_0 : ∀ i : grid3.Coords, EltTy.bits .f32 = 32 ∨ (Rect.block (s := S200000x128) S4000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x384.size a ≤ S128x384.size a
  hwx3_1 : ∀ i : grid3.Coords, EltTy.bits .f32 = 32 ∨ (Rect.block (s := S128x384) S128x384.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x384.size a ≤ S200000x384.size a
  hwx3_2 : ∀ i : grid3.Coords, EltTy.bits .bf16 = 32 ∨ (Rect.block (s := S200000x384) S4000x384.size (cc3_transform_2 i) (hinb3_2 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S200000x128.size a
  hwx4_0 : ∀ i : grid4.Coords, EltTy.bits .bf16 = 32 ∨ (Rect.block (s := S200000x128) S2000x128.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S200000x128.size a
  hwx4_1 : ∀ i : grid4.Coords, EltTy.bits .f32 = 32 ∨ (Rect.block (s := S200000x128) S2000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S200000x128.size a
  hwx4_2 : ∀ i : grid4.Coords, EltTy.bits .f32 = 32 ∨ (Rect.block (s := S200000x128) S2000x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x384.size a ≤ S128x384.size a
  hwx4_3 : ∀ i : grid4.Coords, EltTy.bits .f32 = 32 ∨ (Rect.block (s := S128x384) S128x384.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x384.size a ≤ S200000x384.size a
  hwx4_4 : ∀ i : grid4.Coords, EltTy.bits .bf16 = 32 ∨ (Rect.block (s := S200000x384) S2000x384.size (cc4_transform_4 i) (hinb4_4 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S200000x128.size a
  hwx5_0 : ∀ i : grid5.Coords, EltTy.bits .bf16 = 32 ∨ (Rect.block (s := S200000x128) S2000x128.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x128.size a ≤ S200000x128.size a
  hwx5_1 : ∀ i : grid5.Coords, EltTy.bits .f32 = 32 ∨ (Rect.block (s := S200000x128) S2000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x128.size a ≤ S200000x128.size a
  hwx5_2 : ∀ i : grid5.Coords, EltTy.bits .f32 = 32 ∨ (Rect.block (s := S200000x128) S2000x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x384.size a ≤ S128x384.size a
  hwx5_3 : ∀ i : grid5.Coords, EltTy.bits .f32 = 32 ∨ (Rect.block (s := S128x384) S128x384.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x384.size a ≤ S200000x384.size a
  hwx5_4 : ∀ i : grid5.Coords, EltTy.bits .bf16 = 32 ∨ (Rect.block (s := S200000x384) S2000x384.size (cc5_transform_4 i) (hinb5_4 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x128.size a ≤ S200000x128.size a
  hwx6_0 : ∀ i : grid6.Coords, EltTy.bits .bf16 = 32 ∨ (Rect.block (s := S200000x128) S4000x128.size (cc6_transform_0 i) (hinb6_0 i)).WholeWords (EltTy.packing .bf16)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S4000x128.size a ≤ S200000x128.size a
  hwx6_1 : ∀ i : grid6.Coords, EltTy.bits .f32 = 32 ∨ (Rect.block (s := S200000x128) S4000x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S4000x128.size a ≤ S200000x128.size a
  hwx6_2 : ∀ i : grid6.Coords, EltTy.bits .f32 = 32 ∨ (Rect.block (s := S200000x128) S4000x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S4000x128.size a ≤ S200000x128.size a
  hwx6_3 : ∀ i : grid6.Coords, EltTy.bits .f32 = 32 ∨ (Rect.block (s := S200000x128) S4000x128.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S20000x128.size a
  hwx7_0 : ∀ i : grid7.Coords, EltTy.bits .f32 = 32 ∨ (Rect.block (s := S20000x128) S2000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x128.size a ≤ S20000x128.size a
  hwx7_1 : ∀ i : grid7.Coords, EltTy.bits .f32 = 32 ∨ (Rect.block (s := S20000x128) S2000x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x128.size a ≤ S20000x128.size a
  hwx7_2 : ∀ i : grid7.Coords, EltTy.bits .f32 = 32 ∨ (Rect.block (s := S20000x128) S2000x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S2000x256.size a ≤ S20000x256.size a
  hwx7_3 : ∀ i : grid7.Coords, EltTy.bits .f32 = 32 ∨ (Rect.block (s := S20000x256) S2000x256.size (cc7_transform_3 i) (hinb7_3 i)).WholeWords (EltTy.packing .f32)

variable [Facts₀]

def gather_S20000x128_S200000x1_S200000x128_1_0_n_n_0_1_1128 : GatherDims S20000x128 S200000x1 S200000x128 where
  offsetDims := [1]
  collapsedSliceDims := [0]
  operandBatchingDims := []
  startIndicesBatchingDims := []
  startIndexMap := [0]
  indexVectorDim := 1
  sliceSizes := ![1, 128]
  wf := gather_S20000x128_S200000x1_S200000x128_1_0_n_n_0_1_1128_wf
def scatter_S20000x128_S200000x1_S200000x128_1_0_0_1 : ScatterDims S20000x128 S200000x1 S200000x128 where
  updateWindowDims := [1]
  insertedWindowDims := [0]
  scatterDimsToOperandDims := [0]
  indexVectorDim := 1
  wf := scatter_S20000x128_S200000x1_S200000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S4000x128_S128x384_S4000x384_1_0_0_1_n_n : DotDims S4000x128 S128x384 S4000x384 where
  lhsContracting := [1]
  rhsContracting := [0]
  lhsNonContracting := [0]
  rhsNonContracting := [1]
  lhsBatch := []
  rhsBatch := []
  wf := dot_S4000x128_S128x384_S4000x384_1_0_0_1_n_n_wf
def gather_S200000x128_S400000x1_S400000x128_1_0_n_n_0_1_1128 : GatherDims S200000x128 S400000x1 S400000x128 where
  offsetDims := [1]
  collapsedSliceDims := [0]
  operandBatchingDims := []
  startIndicesBatchingDims := []
  startIndexMap := [0]
  indexVectorDim := 1
  sliceSizes := ![1, 128]
  wf := gather_S200000x128_S400000x1_S400000x128_1_0_n_n_0_1_1128_wf
def scatter_S200000x128_S400000x1_S400000x128_1_0_0_1 : ScatterDims S200000x128 S400000x1 S400000x128 where
  updateWindowDims := [1]
  insertedWindowDims := [0]
  scatterDimsToOperandDims := [0]
  indexVectorDim := 1
  wf := scatter_S200000x128_S400000x1_S400000x128_1_0_0_1_wf
def dot_S2000x128_S128x384_S2000x384_1_0_0_1_n_n : DotDims S2000x128 S128x384 S2000x384 where
  lhsContracting := [1]
  rhsContracting := [0]
  lhsNonContracting := [0]
  rhsNonContracting := [1]
  lhsBatch := []
  rhsBatch := []
  wf := dot_S2000x128_S128x384_S2000x384_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v16) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v29) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v41) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v42) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_arg1) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v49) S128x384.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v50) S4000x384.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v51) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v71) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v89) S2000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v96) S128x384.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v97) S2000x384.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v98) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v118) S2000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v136) S2000x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v143) S128x384.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v144) S2000x384.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v145) S4000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v165) S4000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v183) S4000x128.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v184) S4000x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v42) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v187) S2000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v190) S2000x128.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v191) S2000x256.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S20000x128 : Shape := ⟨2, ![20000, 128]⟩
abbrev S200000x128 : Shape := ⟨2, ![200000, 128]⟩
abbrev S3x128x128 : Shape := ⟨3, ![3, 128, 128]⟩
abbrev S400000 : Shape := ⟨1, ![400000]⟩
abbrev S2x200000 : Shape := ⟨2, ![2, 200000]⟩
abbrev S200000 : Shape := ⟨1, ![200000]⟩
abbrev S2x400000 : Shape := ⟨2, ![2, 400000]⟩
abbrev S1x200000 : Shape := ⟨2, ![1, 200000]⟩
abbrev S_ : Shape := ⟨0, ![]⟩
abbrev S200000x1 : Shape := ⟨2, ![200000, 1]⟩
abbrev S1x128x128 : Shape := ⟨3, ![1, 128, 128]⟩
abbrev S128x128 : Shape := ⟨2, ![128, 128]⟩
abbrev S400000x1 : Shape := ⟨2, ![400000, 1]⟩
abbrev S1x400000 : Shape := ⟨2, ![1, 400000]⟩
abbrev S400000x128 : Shape := ⟨2, ![400000, 128]⟩
abbrev S20000x256 : Shape := ⟨2, ![20000, 256]⟩

abbrev nBuf : Space → Nat
  | .hbm => 249
  | .vmem => 0
  | .smem => 0
  | _ => 0

abbrev hbmTy0_0 (i : Nat) : BufTy := match i % 128 with
  | 0 => ⟨S20000x128, .f32⟩
  | 1 => ⟨S200000x128, .f32⟩
  | 2 => ⟨S3x128x128, .f32⟩
  | 3 => ⟨S3x128x128, .f32⟩
  | 4 => ⟨S3x128x128, .f32⟩
  | 5 => ⟨S3x128x128, .f32⟩
  | 6 => ⟨S400000, .f32⟩
  | 7 => ⟨S400000, .f32⟩
  | 8 => ⟨S2x200000, .i32⟩
  | 9 => ⟨S200000, .i32⟩
  | 10 => ⟨S200000, .i32⟩
  | 11 => ⟨S2x400000, .i32⟩
  | 12 => ⟨S2x400000, .i32⟩
  | 13 => ⟨S1x200000, .i32⟩
  | 14 => ⟨S200000, .i32⟩
  | 15 => ⟨S1x200000, .i32⟩
  | 16 => ⟨S200000, .i32⟩
  | 17 => ⟨S_, .i32⟩
  | 18 => ⟨S200000, .i32⟩
  | 19 => ⟨S200000, .i1⟩
  | 20 => ⟨S_, .i32⟩
  | 21 => ⟨S200000, .i32⟩
  | 22 => ⟨S200000, .i32⟩
  | 23 => ⟨S200000, .i32⟩
  | 24 => ⟨S200000x1, .i32⟩
  | 25 => ⟨S200000x128, .f32⟩
  | 26 => ⟨S_, .f32⟩
  | 27 => ⟨S20000x128, .f32⟩
  | 28 => ⟨S200000x1, .i32⟩
  | 29 => ⟨S20000x128, .f32⟩
  | 30 => ⟨S20000x128, .f32⟩
  | 31 => ⟨S1x128x128, .f32⟩
  | 32 => ⟨S128x128, .f32⟩
  | 33 => ⟨S20000x128, .f32⟩
  | 34 => ⟨S_, .f32⟩
  | 35 => ⟨S20000x128, .f32⟩
  | 36 => ⟨S20000x128, .f32⟩
  | 37 => ⟨S_, .i32⟩
  | 38 => ⟨S200000, .i32⟩
  | 39 => ⟨S200000, .i1⟩
  | 40 => ⟨S_, .i32⟩
  | 41 => ⟨S200000, .i32⟩
  | 42 => ⟨S200000, .i32⟩
  | 43 => ⟨S200000, .i32⟩
  | 44 => ⟨S200000x1, .i32⟩
  | 45 => ⟨S200000x128, .f32⟩
  | 46 => ⟨S_, .f32⟩
  | 47 => ⟨S20000x128, .f32⟩
  | 48 => ⟨S200000x1, .i32⟩
  | 49 => ⟨S20000x128, .f32⟩
  | 50 => ⟨S20000x128, .f32⟩
  | 51 => ⟨S1x128x128, .f32⟩
  | 52 => ⟨S128x128, .f32⟩
  | 53 => ⟨S20000x128, .f32⟩
  | 54 => ⟨S_, .f32⟩
  | 55 => ⟨S20000x128, .f32⟩
  | 56 => ⟨S20000x128, .f32⟩
  | 57 => ⟨S_, .i32⟩
  | 58 => ⟨S200000, .i32⟩
  | 59 => ⟨S200000, .i1⟩
  | 60 => ⟨S_, .i32⟩
  | 61 => ⟨S200000, .i32⟩
  | 62 => ⟨S200000, .i32⟩
  | 63 => ⟨S200000, .i32⟩
  | 64 => ⟨S200000x1, .i32⟩
  | 65 => ⟨S200000x128, .f32⟩
  | 66 => ⟨S_, .f32⟩
  | 67 => ⟨S20000x128, .f32⟩
  | 68 => ⟨S200000x1, .i32⟩
  | 69 => ⟨S20000x128, .f32⟩
  | 70 => ⟨S20000x128, .f32⟩
  | 71 => ⟨S1x128x128, .f32⟩
  | 72 => ⟨S128x128, .f32⟩
  | 73 => ⟨S20000x128, .f32⟩
  | 74 => ⟨S_, .f32⟩
  | 75 => ⟨S20000x128, .f32⟩
  | 76 => ⟨S20000x128, .f32⟩
  | 77 => ⟨S1x128x128, .f32⟩
  | 78 => ⟨S128x128, .f32⟩
  | 79 => ⟨S200000x128, .f32⟩
  | 80 => ⟨S1x128x128, .f32⟩
  | 81 => ⟨S128x128, .f32⟩
  | 82 => ⟨S200000x128, .f32⟩
  | 83 => ⟨S400000x1, .f32⟩
  | 84 => ⟨S1x400000, .i32⟩
  | 85 => ⟨S400000, .i32⟩
  | 86 => ⟨S_, .i32⟩
  | 87 => ⟨S400000, .i32⟩
  | 88 => ⟨S400000, .i1⟩
  | 89 => ⟨S_, .i32⟩
  | 90 => ⟨S400000, .i32⟩
  | 91 => ⟨S400000, .i32⟩
  | 92 => ⟨S400000, .i32⟩
  | 93 => ⟨S400000x1, .i32⟩
  | 94 => ⟨S400000x128, .f32⟩
  | 95 => ⟨S400000x128, .f32⟩
  | 96 => ⟨S400000x128, .f32⟩
  | 97 => ⟨S1x400000, .i32⟩
  | 98 => ⟨S400000, .i32⟩
  | 99 => ⟨S_, .f32⟩
  | 100 => ⟨S200000x128, .f32⟩
  | 101 => ⟨S400000x1, .i32⟩
  | 102 => ⟨S200000x128, .f32⟩
  | 103 => ⟨S200000x128, .f32⟩
  | 104 => ⟨S1x128x128, .f32⟩
  | 105 => ⟨S128x128, .f32⟩
  | 106 => ⟨S200000x128, .f32⟩
  | 107 => ⟨S400000x1, .f32⟩
  | 108 => ⟨S1x400000, .i32⟩
  | 109 => ⟨S400000, .i32⟩
  | 110 => ⟨S_, .i32⟩
  | 111 => ⟨S400000, .i32⟩
  | 112 => ⟨S400000, .i1⟩
  | 113 => ⟨S_, .i32⟩
  | 114 => ⟨S400000, .i32⟩
  | 115 => ⟨S400000, .i32⟩
  | 116 => ⟨S400000, .i32⟩
  | 117 => ⟨S400000x1, .i32⟩
  | 118 => ⟨S400000x128, .f32⟩
  | 119 => ⟨S400000x128, .f32⟩
  | 120 => ⟨S400000x128, .f32⟩
  | 121 => ⟨S1x400000, .i32⟩
  | 122 => ⟨S400000, .i32⟩
  | 123 => ⟨S_, .f32⟩
  | 124 => ⟨S200000x128, .f32⟩
  | 125 => ⟨S400000x1, .i32⟩
  | 126 => ⟨S200000x128, .f32⟩
  | 127 => ⟨S200000x128, .f32⟩
  | _ => ⟨S20000x128, .f32⟩

abbrev hbmTy0_1 (i : Nat) : BufTy := match i % 128 with
  | 0 => ⟨S_, .f32⟩
  | 1 => ⟨S200000x128, .f32⟩
  | 2 => ⟨S200000x128, .f32⟩
  | 3 => ⟨S1x128x128, .f32⟩
  | 4 => ⟨S128x128, .f32⟩
  | 5 => ⟨S200000x128, .f32⟩
  | 6 => ⟨S1x128x128, .f32⟩
  | 7 => ⟨S128x128, .f32⟩
  | 8 => ⟨S200000x128, .f32⟩
  | 9 => ⟨S400000x1, .f32⟩
  | 10 => ⟨S1x400000, .i32⟩
  | 11 => ⟨S400000, .i32⟩
  | 12 => ⟨S_, .i32⟩
  | 13 => ⟨S400000, .i32⟩
  | 14 => ⟨S400000, .i1⟩
  | 15 => ⟨S_, .i32⟩
  | 16 => ⟨S400000, .i32⟩
  | 17 => ⟨S400000, .i32⟩
  | 18 => ⟨S400000, .i32⟩
  | 19 => ⟨S400000x1, .i32⟩
  | 20 => ⟨S400000x128, .f32⟩
  | 21 => ⟨S400000x128, .f32⟩
  | 22 => ⟨S400000x128, .f32⟩
  | 23 => ⟨S1x400000, .i32⟩
  | 24 => ⟨S400000, .i32⟩
  | 25 => ⟨S_, .f32⟩
  | 26 => ⟨S200000x128, .f32⟩
  | 27 => ⟨S400000x1, .i32⟩
  | 28 => ⟨S200000x128, .f32⟩
  | 29 => ⟨S200000x128, .f32⟩
  | 30 => ⟨S1x128x128, .f32⟩
  | 31 => ⟨S128x128, .f32⟩
  | 32 => ⟨S200000x128, .f32⟩
  | 33 => ⟨S400000x1, .f32⟩
  | 34 => ⟨S1x400000, .i32⟩
  | 35 => ⟨S400000, .i32⟩
  | 36 => ⟨S_, .i32⟩
  | 37 => ⟨S400000, .i32⟩
  | 38 => ⟨S400000, .i1⟩
  | 39 => ⟨S_, .i32⟩
  | 40 => ⟨S400000, .i32⟩
  | 41 => ⟨S400000, .i32⟩
  | 42 => ⟨S400000, .i32⟩
  | 43 => ⟨S400000x1, .i32⟩
  | 44 => ⟨S400000x128, .f32⟩
  | 45 => ⟨S400000x128, .f32⟩
  | 46 => ⟨S400000x128, .f32⟩
  | 47 => ⟨S1x400000, .i32⟩
  | 48 => ⟨S400000, .i32⟩
  | 49 => ⟨S_, .f32⟩
  | 50 => ⟨S200000x128, .f32⟩
  | 51 => ⟨S400000x1, .i32⟩
  | 52 => ⟨S200000x128, .f32⟩
  | 53 => ⟨S200000x128, .f32⟩
  | 54 => ⟨S_, .f32⟩
  | 55 => ⟨S200000x128, .f32⟩
  | 56 => ⟨S200000x128, .f32⟩
  | 57 => ⟨S1x128x128, .f32⟩
  | 58 => ⟨S128x128, .f32⟩
  | 59 => ⟨S200000x128, .f32⟩
  | 60 => ⟨S1x128x128, .f32⟩
  | 61 => ⟨S128x128, .f32⟩
  | 62 => ⟨S200000x128, .f32⟩
  | 63 => ⟨S400000x1, .f32⟩
  | 64 => ⟨S1x400000, .i32⟩
  | 65 => ⟨S400000, .i32⟩
  | 66 => ⟨S_, .i32⟩
  | 67 => ⟨S400000, .i32⟩
  | 68 => ⟨S400000, .i1⟩
  | 69 => ⟨S_, .i32⟩
  | 70 => ⟨S400000, .i32⟩
  | 71 => ⟨S400000, .i32⟩
  | 72 => ⟨S400000, .i32⟩
  | 73 => ⟨S400000x1, .i32⟩
  | 74 => ⟨S400000x128, .f32⟩
  | 75 => ⟨S400000x128, .f32⟩
  | 76 => ⟨S400000x128, .f32⟩
  | 77 => ⟨S1x400000, .i32⟩
  | 78 => ⟨S400000, .i32⟩
  | 79 => ⟨S_, .f32⟩
  | 80 => ⟨S200000x128, .f32⟩
  | 81 => ⟨S400000x1, .i32⟩
  | 82 => ⟨S200000x128, .f32⟩
  | 83 => ⟨S200000x128, .f32⟩
  | 84 => ⟨S1x128x128, .f32⟩
  | 85 => ⟨S128x128, .f32⟩
  | 86 => ⟨S200000x128, .f32⟩
  | 87 => ⟨S400000x1, .f32⟩
  | 88 => ⟨S1x400000, .i32⟩
  | 89 => ⟨S400000, .i32⟩
  | 90 => ⟨S_, .i32⟩
  | 91 => ⟨S400000, .i32⟩
  | 92 => ⟨S400000, .i1⟩
  | 93 => ⟨S_, .i32⟩
  | 94 => ⟨S400000, .i32⟩
  | 95 => ⟨S400000, .i32⟩
  | 96 => ⟨S400000, .i32⟩
  | 97 => ⟨S400000x1, .i32⟩
  | 98 => ⟨S400000x128, .f32⟩
  | 99 => ⟨S400000x128, .f32⟩
  | 100 => ⟨S400000x128, .f32⟩
  | 101 => ⟨S1x400000, .i32⟩
  | 102 => ⟨S400000, .i32⟩
  | 103 => ⟨S_, .f32⟩
  | 104 => ⟨S200000x128, .f32⟩
  | 105 => ⟨S400000x1, .i32⟩
  | 106 => ⟨S200000x128, .f32⟩
  | 107 => ⟨S200000x128, .f32⟩
  | 108 => ⟨S_, .f32⟩
  | 109 => ⟨S200000x128, .f32⟩
  | 110 => ⟨S200000x128, .f32⟩
  | 111 => ⟨S_, .f32⟩
  | 112 => ⟨S20000x128, .f32⟩
  | 113 => ⟨S200000x1, .i32⟩
  | 114 => ⟨S20000x128, .f32⟩
  | 115 => ⟨S_, .f32⟩
  | 116 => ⟨S20000x128, .f32⟩
  | 117 => ⟨S200000x1, .i32⟩
  | 118 => ⟨S20000x128, .f32⟩
  | 119 => ⟨S20000x128, .f32⟩
  | 120 => ⟨S20000x256, .f32⟩
  | _ => ⟨S20000x128, .f32⟩

abbrev hbmTy (i : Nat) : BufTy := match i / 128 with
  | 0 => hbmTy0_0 i
  | 1 => hbmTy0_1 i
  | _ => ⟨S20000x128, .f32⟩

abbrev bufTy : (tb : Table) → Fin (tcTables nBuf tb) → BufTy
  | .hbm, ⟨i, _⟩ => hbmTy i
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_call0_cst : Ref sig .tc := ⟨.hbm, 34, rfl⟩
abbrev main_call0_v0 : Ref sig .tc := ⟨.hbm, 35, rfl⟩
abbrev main_v18 : Ref sig .tc := ⟨.hbm, 36, rfl⟩
abbrev main_c_1 : Ref sig .tc := ⟨.hbm, 37, rfl⟩
abbrev main_v19 : Ref sig .tc := ⟨.hbm, 38, rfl⟩
abbrev main_v20 : Ref sig .tc := ⟨.hbm, 39, rfl⟩
abbrev main_c_2 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_3 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_call1_cst : Ref sig .tc := ⟨.hbm, 54, rfl⟩
abbrev main_call1_v0 : Ref sig .tc := ⟨.hbm, 55, rfl⟩
abbrev main_v33 : Ref sig .tc := ⟨.hbm, 56, rfl⟩
abbrev main_c_4 : Ref sig .tc := ⟨.hbm, 57, rfl⟩
abbrev main_v34 : Ref sig .tc := ⟨.hbm, 58, rfl⟩
abbrev main_v35 : Ref sig .tc := ⟨.hbm, 59, rfl⟩
abbrev main_c_5 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_6 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_call2_cst : Ref sig .tc := ⟨.hbm, 74, rfl⟩
abbrev main_call2_v0 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_c_7 : Ref sig .tc := ⟨.hbm, 86, rfl⟩
abbrev main_v58 : Ref sig .tc := ⟨.hbm, 87, rfl⟩
abbrev main_v59 : Ref sig .tc := ⟨.hbm, 88, rfl⟩
abbrev main_c_8 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_9 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_10 : Ref sig .tc := ⟨.hbm, 110, rfl⟩
abbrev main_v79 : Ref sig .tc := ⟨.hbm, 111, rfl⟩
abbrev main_v80 : Ref sig .tc := ⟨.hbm, 112, rfl⟩
abbrev main_c_11 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_cst_12 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_call3_cst : Ref sig .tc := ⟨.hbm, 128, rfl⟩
abbrev main_call3_v0 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_c_13 : Ref sig .tc := ⟨.hbm, 140, rfl⟩
abbrev main_v104 : Ref sig .tc := ⟨.hbm, 141, rfl⟩
abbrev main_v105 : Ref sig .tc := ⟨.hbm, 142, rfl⟩
abbrev main_c_14 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_cst_15 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_c_16 : Ref sig .tc := ⟨.hbm, 164, rfl⟩
abbrev main_v125 : Ref sig .tc := ⟨.hbm, 165, rfl⟩
abbrev main_v126 : Ref sig .tc := ⟨.hbm, 166, rfl⟩
abbrev main_c_17 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_cst_18 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_call4_cst : Ref sig .tc := ⟨.hbm, 182, rfl⟩
abbrev main_call4_v0 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_c_19 : Ref sig .tc := ⟨.hbm, 194, rfl⟩
abbrev main_v150 : Ref sig .tc := ⟨.hbm, 195, rfl⟩
abbrev main_v151 : Ref sig .tc := ⟨.hbm, 196, rfl⟩
abbrev main_c_20 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_cst_21 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_c_22 : Ref sig .tc := ⟨.hbm, 218, rfl⟩
abbrev main_v171 : Ref sig .tc := ⟨.hbm, 219, rfl⟩
abbrev main_v172 : Ref sig .tc := ⟨.hbm, 220, rfl⟩
abbrev main_c_23 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_v179 : Ref sig .tc := ⟨.hbm, 228, rfl⟩
abbrev main_v180 : Ref sig .tc := ⟨.hbm, 229, rfl⟩
abbrev main_v181 : Ref sig .tc := ⟨.hbm, 230, rfl⟩
abbrev main_cst_24 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_call5_cst : Ref sig .tc := ⟨.hbm, 236, rfl⟩
abbrev main_call5_v0 : Ref sig .tc := ⟨.hbm, 237, rfl⟩
abbrev main_v186 : Ref sig .tc := ⟨.hbm, 238, rfl⟩
abbrev main_cst_25 : Ref sig .tc := ⟨.hbm, 239, rfl⟩
abbrev main_v187 : Ref sig .tc := ⟨.hbm, 240, rfl⟩
abbrev main_v188 : Ref sig .tc := ⟨.hbm, 241, rfl⟩
abbrev main_v189 : Ref sig .tc := ⟨.hbm, 242, rfl⟩
abbrev main_cst_26 : Ref sig .tc := ⟨.hbm, 243, rfl⟩
abbrev main_v190 : Ref sig .tc := ⟨.hbm, 244, rfl⟩
abbrev main_v191 : Ref sig .tc := ⟨.hbm, 245, rfl⟩
abbrev main_v192 : Ref sig .tc := ⟨.hbm, 246, rfl⟩
abbrev main_v193 : Ref sig .tc := ⟨.hbm, 247, rfl⟩
abbrev main_v194 : Ref sig .tc := ⟨.hbm, 248, rfl⟩

abbrev nD : Nat := 1
abbrev τ : Topo := Topo.v7x

variable {F : FTy → Type} [FloatOps F]

class Facts₀ : Prop where
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S200000_S200000x1_0 : S200000.BroadcastsInDim S200000x1 (![0] : Fin 1 → Fin S200000x1.rank)
  bcast_S_S20000x128 : S_.BroadcastsInDim S20000x128 (![] : Fin 0 → Fin S20000x128.rank)
  slices_S3x128x128_S1x128x128_0_0_0 : S3x128x128.Slices ![0, 0, 0] S1x128x128
  shapeCasts_S1x128x128_S128x128 : S1x128x128.ShapeCasts S128x128
  slices_S3x128x128_S1x128x128_1_0_0 : S3x128x128.Slices ![1, 0, 0] S1x128x128
  slices_S3x128x128_S1x128x128_2_0_0 : S3x128x128.Slices ![2, 0, 0] S1x128x128
  bcast_S400000_S400000x1_0 : S400000.BroadcastsInDim S400000x1 (![0] : Fin 1 → Fin S400000x1.rank)
  slices_S2x400000_S1x400000_1_0 : S2x400000.Slices ![1, 0] S1x400000
  shapeCasts_S1x400000_S400000 : S1x400000.ShapeCasts S400000
  bcast_S_S400000 : S_.BroadcastsInDim S400000 (![] : Fin 0 → Fin S400000.rank)
  bcast_S400000x1_S400000x128_0_1 : S400000x1.BroadcastsInDim S400000x128 (![0, 1] : Fin 2 → Fin S400000x128.rank)
  slices_S2x400000_S1x400000_0_0 : S2x400000.Slices ![0, 0] S1x400000
  bcast_S_S200000x128 : S_.BroadcastsInDim S200000x128 (![] : Fin 0 → Fin S200000x128.rank)
  concatenates_S20000x128_S20000x128_S20000x256_d1 : Shape.Concatenates [S20000x128, S20000x128] S20000x256 1
  gather_S20000x128_S200000x1_S200000x128_1_0_n_n_0_1_1128_wf : GatherDims.WF S20000x128 S200000x1 S200000x128 [1] [0] [] [0] [] 1 ![1, 128]
  scatter_S20000x128_S200000x1_S200000x128_1_0_0_1_wf : ScatterDims.WF S20000x128 S200000x1 S200000x128 [1] [0] [0] 1
  dot_S20000x128_S128x128_S20000x128_1_0_0_1_n_n_wf : DotDims.WF S20000x128 S128x128 S20000x128 [1] [0] [0] [1] [] []
  dot_S200000x128_S128x128_S200000x128_1_0_0_1_n_n_wf : DotDims.WF S200000x128 S128x128 S200000x128 [1] [0] [0] [1] [] []
  gather_S200000x128_S400000x1_S400000x128_1_0_n_n_0_1_1128_wf : GatherDims.WF S200000x128 S400000x1 S400000x128 [1] [0] [] [0] [] 1 ![1, 128]
  scatter_S200000x128_S400000x1_S400000x128_1_0_0_1_wf : ScatterDims.WF S200000x128 S400000x1 S400000x128 [1] [0] [0] 1

variable [Facts₀]

def gather_S20000x128_S200000x1_S200000x128_1_0_n_n_0_1_1128 : GatherDims S20000x128 S200000x1 S200000x128 where
  offsetDims := [1]
  collapsedSliceDims := [0]
  operandBatchingDims := []
  startIndicesBatchingDims := []
  startIndexMap := [0]
  indexVectorDim := 1
  sliceSizes := ![1, 128]
  wf := gather_S20000x128_S200000x1_S200000x128_1_0_n_n_0_1_1128_wf
def scatter_S20000x128_S200000x1_S200000x128_1_0_0_1 : ScatterDims S20000x128 S200000x1 S200000x128 where
  updateWindowDims := [1]
  insertedWindowDims := [0]
  scatterDimsToOperandDims := [0]
  indexVectorDim := 1
  wf := scatter_S20000x128_S200000x1_S200000x128_1_0_0_1_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def gather_S200000x128_S400000x1_S400000x128_1_0_n_n_0_1_1128 : GatherDims S200000x128 S400000x1 S400000x128 where
  offsetDims := [1]
  collapsedSliceDims := [0]
  operandBatchingDims := []
  startIndicesBatchingDims := []
  startIndexMap := [0]
  indexVectorDim := 1
  sliceSizes := ![1, 128]
  wf := gather_S200000x128_S400000x1_S400000x128_1_0_n_n_0_1_1128_wf
def scatter_S200000x128_S400000x1_S400000x128_1_0_0_1 : ScatterDims S200000x128 S400000x1 S400000x128 where
  updateWindowDims := [1]
  insertedWindowDims := [0]
  scatterDimsToOperandDims := [0]
  indexVectorDim := 1
  wf := scatter_S200000x128_S400000x1_S400000x128_1_0_0_1_wf

class Facts : Prop extends Facts₀ where

variable [Facts]
-- ==== Proof.KernelRegion0.lean ====
/-
  Region 0 of @main (a graph layer: one grid point takes a 2000-row block of the node features, the same rows of the aggregated neighbour features and the whole 128x128 weight matrix, and stores max((h + agg) · W, 0) of them, once, over the whole output block.)
  Stated at a parameter `V`, the buffers' contents when the region is entered: the blocks the windows read, what the body
  leaves in the output's staging buffer, the body's triple, the pipeline's proof data and the body obligation at every
  grid point.
-/
import proofs.«160791_j62036507623881_2_alg».proof.Proof.Gen.Kernel.Launch
import proofs.«160791_j62036507623881_2_alg».proof.Proof.Gen.Kernel.Skeleton
import proofs.«160791_j62036507623881_2_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The rectangles the body loads and stores through. -/
abbrev r0_a : Rect S2000x128 := Rect.unit (s := S2000x128) ![0, 0] S2000x128.size inb_S2000x128_S2000x128_0_0
abbrev r0_b : Rect S128x128 := Rect.unit (s := S128x128) ![0, 0] S128x128.size inb_S128x128_S128x128_0_0

/-- The output's staging buffer after the body, from the input blocks: the body's stores as pieces, last first. -/
def out0_3 (x0 : Vec F S2000x128 .f32) (x1 : Vec F S2000x128 .f32) (x2 : Vec F S128x128 .f32) : Vec F S2000x128 .f32 :=
  View.canon [⟨r0_a, k0_pay1 (View.ld x0 r0_a) (View.ld x1 r0_a) (View.ld x2 r0_b)⟩]

/-- The stores cover the buffer. -/
theorem cover0_3 (p0 : Vec F S2000x128 .f32) (y : S2000x128.Idx) :
    ∃ pc ∈ ([⟨r0_a, p0⟩] : List (View.Piece (Elt F) S2000x128 .f32)), y ∈ pc.1.set :=
  View.cover_of_tiled [⟨r0_a, p0⟩] S2000x128.size (by rfl) y

set_option maxHeartbeats 1000000 in
/-- The body on whole staging memrefs, the inputs' at contents `xW` and the output's at anything, runs to the continuation
    holding the inputs' as they were and the output's at `out0_3` of them. -/
theorem sound_kernel0 (c : Dev nD) (E : Set ℕ) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S2000x128 .f32) (harg4 : arg4.IsWhole)
    (x0 : Vec F S2000x128 .f32) (x1 : Vec F S2000x128 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__gnn_layer_kernel i arg1 harg1 arg2 harg2 arg3 harg3 arg4 harg4) K := by
  simp only [cc0__gnn_layer_kernel_eq_skeleton]; unfold cc0__gnn_layer_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of pipeline 0 on core `c`: the arrays as the region finds them; after the body at point `t` each
    input's buffer at its block and the output's at `out0_3` of the input blocks; the scoped rest and the generator
    register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Frame

end
-- ==== Proof.KernelRegion1.lean ====
/-
  Region 1 of @main (a graph layer: one grid point takes a 2000-row block of the node features, the same rows of the aggregated neighbour features and the whole 128x128 weight matrix, and stores max((h + agg) · W, 0) of them, once, over the whole output block.)
  Stated at a parameter `V`, the buffers' contents when the region is entered: the blocks the windows read, what the body
  leaves in the output's staging buffer, the body's triple, the pipeline's proof data and the body obligation at every
  grid point.
-/
import proofs.«160791_j62036507623881_2_alg».proof.Proof.Gen.Kernel.Launch
import proofs.«160791_j62036507623881_2_alg».proof.Proof.Gen.Kernel.Skeleton
import proofs.«160791_j62036507623881_2_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The rectangles the body loads and stores through. -/
abbrev r1_a : Rect S2000x128 := Rect.unit (s := S2000x128) ![0, 0] S2000x128.size inb_S2000x128_S2000x128_0_0
abbrev r1_b : Rect S128x128 := Rect.unit (s := S128x128) ![0, 0] S128x128.size inb_S128x128_S128x128_0_0

/-- The output's staging buffer after the body, from the input blocks: the body's stores as pieces, last first. -/
def out1_3 (x0 : Vec F S2000x128 .f32) (x1 : Vec F S2000x128 .f32) (x2 : Vec F S128x128 .f32) : Vec F S2000x128 .f32 :=
  View.canon [⟨r1_a, k1_pay1 (View.ld x0 r1_a) (View.ld x1 r1_a) (View.ld x2 r1_b)⟩]

/-- The stores cover the buffer. -/
theorem cover1_3 (p0 : Vec F S2000x128 .f32) (y : S2000x128.Idx) :
    ∃ pc ∈ ([⟨r1_a, p0⟩] : List (View.Piece (Elt F) S2000x128 .f32)), y ∈ pc.1.set :=
  View.cover_of_tiled [⟨r1_a, p0⟩] S2000x128.size (by rfl) y

set_option maxHeartbeats 1000000 in
/-- The body on whole staging memrefs, the inputs' at contents `xW` and the output's at anything, runs to the continuation
    holding the inputs' as they were and the output's at `out1_3` of them. -/
theorem sound_kernel1 (c : Dev nD) (E : Set ℕ) (i : grid1.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S2000x128 .f32) (harg4 : arg4.IsWhole)
    (x0 : Vec F S2000x128 .f32) (x1 : Vec F S2000x128 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__gnn_layer_kernel i arg1 harg1 arg2 harg2 arg3 harg3 arg4 harg4) K := by
  simp only [cc1__gnn_layer_kernel_eq_skeleton]; unfold cc1__gnn_layer_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of pipeline 1 on core `c`: the arrays as the region finds them; after the body at point `t` each
    input's buffer at its block and the output's at `out1_3` of the input blocks; the scoped rest and the generator
    register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Frame

end
-- ==== Proof.KernelRegion2.lean ====
/-
  Region 2 of @main (a graph layer: one grid point takes a 2000-row block of the node features, the same rows of the aggregated neighbour features and the whole 128x128 weight matrix, and stores max((h + agg) · W, 0) of them, once, over the whole output block.)
  Stated at a parameter `V`, the buffers' contents when the region is entered: the blocks the windows read, what the body
  leaves in the output's staging buffer, the body's triple, the pipeline's proof data and the body obligation at every
  grid point.
-/
import proofs.«160791_j62036507623881_2_alg».proof.Proof.Gen.Kernel.Launch
import proofs.«160791_j62036507623881_2_alg».proof.Proof.Gen.Kernel.Skeleton
import proofs.«160791_j62036507623881_2_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The rectangles the body loads and stores through. -/
abbrev r2_a : Rect S2000x128 := Rect.unit (s := S2000x128) ![0, 0] S2000x128.size inb_S2000x128_S2000x128_0_0
abbrev r2_b : Rect S128x128 := Rect.unit (s := S128x128) ![0, 0] S128x128.size inb_S128x128_S128x128_0_0

/-- The output's staging buffer after the body, from the input blocks: the body's stores as pieces, last first. -/
def out2_3 (x0 : Vec F S2000x128 .f32) (x1 : Vec F S2000x128 .f32) (x2 : Vec F S128x128 .f32) : Vec F S2000x128 .f32 :=
  View.canon [⟨r2_a, k2_pay1 (View.ld x0 r2_a) (View.ld x1 r2_a) (View.ld x2 r2_b)⟩]

/-- The stores cover the buffer. -/
theorem cover2_3 (p0 : Vec F S2000x128 .f32) (y : S2000x128.Idx) :
    ∃ pc ∈ ([⟨r2_a, p0⟩] : List (View.Piece (Elt F) S2000x128 .f32)), y ∈ pc.1.set :=
  View.cover_of_tiled [⟨r2_a, p0⟩] S2000x128.size (by rfl) y

set_option maxHeartbeats 1000000 in
/-- The body on whole staging memrefs, the inputs' at contents `xW` and the output's at anything, runs to the continuation
    holding the inputs' as they were and the output's at `out2_3` of them. -/
theorem sound_kernel2 (c : Dev nD) (E : Set ℕ) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S2000x128 .f32) (harg4 : arg4.IsWhole)
    (x0 : Vec F S2000x128 .f32) (x1 : Vec F S2000x128 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__gnn_layer_kernel i arg1 harg1 arg2 harg2 arg3 harg3 arg4 harg4) K := by
  simp only [cc2__gnn_layer_kernel_eq_skeleton]; unfold cc2__gnn_layer_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of pipeline 2 on core `c`: the arrays as the region finds them; after the body at point `t` each
    input's buffer at its block and the output's at `out2_3` of the input blocks; the scoped rest and the generator
    register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Frame

end
-- ==== Proof.KernelRegion3.lean ====
/-
  Region 3 of @main (the first cell layer's product: one grid point takes a 4000-row block of the cell features and the whole 128x384 matrix of the three weight matrices side by side, and stores their product, once, over the whole output block.)
  Stated at a parameter `V`, the buffers' contents when the region is entered: the blocks the windows read, what the body
  leaves in the output's staging buffer, the body's triple, the pipeline's proof data and the body obligation at every
  grid point.
-/
import proofs.«160791_j62036507623881_2_alg».proof.Proof.Gen.Kernel.Launch
import proofs.«160791_j62036507623881_2_alg».proof.Proof.Gen.Kernel.Skeleton
import proofs.«160791_j62036507623881_2_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The rectangles the body loads and stores through. -/
abbrev r3_a : Rect S4000x128 := Rect.unit (s := S4000x128) ![0, 0] S4000x128.size inb_S4000x128_S4000x128_0_0
abbrev r3_b : Rect S128x384 := Rect.unit (s := S128x384) ![0, 0] S128x384.size inb_S128x384_S128x384_0_0
abbrev r3_c : Rect S4000x384 := Rect.unit (s := S4000x384) ![0, 0] S4000x384.size inb_S4000x384_S4000x384_0_0

/-- The output's staging buffer after the body, from the input blocks: the body's stores as pieces, last first. -/
def out3_2 (x0 : Vec F S4000x128 .f32) (x1 : Vec F S128x384 .f32) : Vec F S4000x384 .bf16 :=
  View.canon [⟨r3_c, k3_pay1 (View.ld x0 r3_a) (View.ld x1 r3_b)⟩]

/-- The stores cover the buffer. -/
theorem cover3_2 (p0 : Vec F S4000x384 .bf16) (y : S4000x384.Idx) :
    ∃ pc ∈ ([⟨r3_c, p0⟩] : List (View.Piece (Elt F) S4000x384 .bf16)), y ∈ pc.1.set :=
  View.cover_of_tiled [⟨r3_c, p0⟩] S4000x384.size (by rfl) y

set_option maxHeartbeats 1000000 in
/-- The body on whole staging memrefs, the inputs' at contents `xW` and the output's at anything, runs to the continuation
    holding the inputs' as they were and the output's at `out3_2` of them. -/
theorem sound_kernel3 (c : Dev nD) (E : Set ℕ) (i : grid3.Coords) (arg1 : Memref sig .tc .vmem S4000x128 .f32) (harg1 : arg1.IsWhole) (arg2 : Memref sig .tc .vmem S128x384 .f32) (harg2 : arg2.IsWhole) (arg3 : Memref sig .tc .vmem S4000x384 .bf16) (harg3 : arg3.IsWhole)
    (x0 : Vec F S4000x128 .f32) (x1 : Vec F S128x384 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__cwnn_first_matmul_kernel i arg1 harg1 arg2 harg2 arg3 harg3) K := by
  simp only [cc3__cwnn_first_matmul_kernel_eq_skeleton]; unfold cc3__cwnn_first_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The proof data of pipeline 3 on core `c`: the arrays as the region finds them; after the body at point `t` each
    input's buffer at its block and the output's at `out3_2` of the input blocks; the scoped rest and the generator
    register untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Frame

end
-- ==== Proof.KernelRegion4.lean ====
/-
  Region 4 of @main (a cell layer's combination fused with the next layer's product: one grid point takes 2000-row blocks of the three summands and the whole 128x384 matrix of the next layer's weights, and stores max(t0 + sd + su, 0) · W, once, over the whole output block.)
  Stated at a parameter `V`, the buffers' contents when the region is entered: the blocks the windows read, what the body
  leaves in the output's staging buffer, the body's triple, the pipeline's proof data and the body obligation at every
  grid point.
-/
import proofs.«160791_j62036507623881_2_alg».proof.Proof.Gen.Kernel.Launch
import proofs.«160791_j62036507623881_2_alg».proof.Proof.Gen.Kernel.Skeleton
import proofs.«160791_j62036507623881_2_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- The rectangles the body loads and stores through. -/
abbrev r4_a : Rect S2000x128 := Rect.unit (s := S2000x128) ![0, 0] S2000x128.size inb_S2000x128_S2000x128_0_0
abbrev r4_b : Rect S128x384 := Rect.unit (s := S128x384) ![0, 0] S128x384.size inb_S128x384_S128x384_0_0
abbrev r4_c : Rect S2000x384 := Rect.unit (s := S2000x384) ![0, 0] S2000x384.size inb_S2000x384_S2000x384_0_0

/-- The output's staging buffer after the body, from the input blocks: the body's stores as pieces, last first. -/
def out4_4 (x0 : Vec F S2000x128 .bf16) (x1 : Vec F S2000x128 .f32) (x2 : Vec F S2000x128 .f32) (x3 : Vec F S128x384 .f32) : Vec F S2000x384 .bf16 :=
  View.canon [⟨r4_c, k4_pay1 (View.ld x0 r4_a) (View.ld x1 r4_a) (View.ld x2 r4_a) (View.ld x3 r4_b)⟩]

/-- The stores cover the buffer. -/
theorem cover4_4 (p0 : Vec F S2000x384 .bf16) (y : S2000x384.Idx) :
    ∃ pc ∈ ([⟨r4_c, p0⟩] : List (View.Piece (Elt F) S2000x384 .bf16)), y ∈ pc.1.set :=
  View.cover_of_tiled [⟨r4_c, p0⟩] S2000x384.size (by rfl) y

set_option maxHeartbeats 1000000 in
/-- The body on whole staging memrefs, the inputs' at contents `xW` and the output's at anything, runs to the continuation
    holding the inputs' as they were and the output's at `out4_4` of them. -/
theorem sound_kernel4 (c : Dev nD) (E : Set ℕ) (i : grid4.Coords) (arg1 : Memref sig .tc .vmem S2000x128 .bf16) (harg1 : arg1.IsWhole) (arg2 : Memref sig .tc .vmem S2000x128 .f32) (harg2 : arg2.IsWhole) (arg3 : Memref sig .tc .vmem S2000x128 .f32) (harg3 : arg3.IsWhole) (arg4 : Memref sig .tc .vmem S128x384 .f32) (harg4 : arg4.IsWhole) (arg5 : Memref sig .tc .vmem S2000x384 .bf16) (harg5 : arg5.IsWhole)
    (x0 : Vec F S2000x128 .bf16) (x1 : Vec F S2000x128 .f32) (x2 : Vec F S2000x128 .f32) (x3 : Vec F S128x384 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out4_4 x0 x1 x2 x3)) -∗ K ⟨⟩))
      ⊢ wp frame (wpE (defs₀ (F := F)) Variants.none c none) E (cc4__cwnn_fused_combine_matmul_kernel i arg1 harg1 arg2 harg2 arg3 harg3 arg4 harg4 arg5 harg5) K := by
  simp only [cc4__cwnn_fused_combine_matmul_kernel_eq_skeleton]; unfold cc4__cwnn_fused_combine_matmul_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4_4 _)

/-- The proof data of pipeline 4 on core `c`: the arrays as the region finds them; after the body at point `t` each
    input's buffer at its block and the output's at `out4_4` of the input blocks; the scoped rest and the generator
    register untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = out4_4 (iblk4 V c 0 t) (iblk4 V c 1 t) (iblk4 V c 2 t) (iblk4 V c 3 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

/-- The body at any point: the inputs' memrefs hold their blocks, so the body's triple applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ _ _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Frame

end
-- ==== Proof.KernelRegion5.lean ====
/-
  Region 5 of @main (a cell layer's combination fused with the next layer's product: one grid point takes 2000-row blocks of the three summands and the whole 128x384 matrix of the next layer's weights, and stores max(t0 + sd + su, 0) · W, once, over the whole output block.)
  Stated at a parameter `V`, the buffers' contents when the region is entered: the blocks the windows read, what the body
  leaves in the output's staging buffer, the body's triple, the pipeline's proof data and the body obligation at every
  grid point.
-/
import proofs.«160791_j62036507623881_2_alg».proof.Proof.Gen.Kernel.Launch
import proofs.«160791_j62036507623881_2_alg».proof.Proof.Gen.Kernel.Skeleton
import proofs.«160791_j62036507623881_2_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- The rectangles the body loads and stores through. -/
abbrev r5_a : Rect S2000x128 := Rect.unit (s := S2000x128) ![0, 0] S2000x128.size inb_S2000x128_S2000x128_0_0
abbrev r5_b : Rect S128x384 := Rect.unit (s := S128x384) ![0, 0] S128x384.size inb_S128x384_S128x384_0_0
abbrev r5_c : Rect S2000x384 := Rect.unit (s := S2000x384) ![0, 0] S2000x384.size inb_S2000x384_S2000x384_0_0

/-- The output's staging buffer after the body, from the input blocks: the body's stores as pieces, last first. -/
def out5_4 (x0 : Vec F S2000x128 .bf16) (x1 : Vec F S2000x128 .f32) (x2 : Vec F S2000x128 .f32) (x3 : Vec F S128x384 .f32) : Vec F S2000x384 .bf16 :=
  View.canon [⟨r5_c, k5_pay1 (View.ld x0 r5_a) (View.ld x1 r5_a) (View.ld x2 r5_a) (View.ld x3 r5_b)⟩]

/-- The stores cover the buffer. -/
theorem cover5_4 (p0 : Vec F S2000x384 .bf16) (y : S2000x384.Idx) :
    ∃ pc ∈ ([⟨r5_c, p0⟩] : List (View.Piece (Elt F) S2000x384 .bf16)), y ∈ pc.1.set :=
  View.cover_of_tiled [⟨r5_c, p0⟩] S2000x384.size (by rfl) y

set_option maxHeartbeats 1000000 in
/-- The body on whole staging memrefs, the inputs' at contents `xW` and the output's at anything, runs to the continuation
    holding the inputs' as they were and the output's at `out5_4` of them. -/
theorem sound_kernel5 (c : Dev nD) (E : Set ℕ) (i : grid5.Coords) (arg1 : Memref sig .tc .vmem S2000x128 .bf16) (harg1 : arg1.IsWhole) (arg2 : Memref sig .tc .vmem S2000x128 .f32) (harg2 : arg2.IsWhole) (arg3 : Memref sig .tc .vmem S2000x128 .f32) (harg3 : arg3.IsWhole) (arg4 : Memref sig .tc .vmem S128x384 .f32) (harg4 : arg4.IsWhole) (arg5 : Memref sig .tc .vmem S2000x384 .bf16) (harg5 : arg5.IsWhole)
    (x0 : Vec F S2000x128 .bf16) (x1 : Vec F S2000x128 .f32) (x2 : Vec F S2000x128 .f32) (x3 : Vec F S128x384 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out5_4 x0 x1 x2 x3)) -∗ K ⟨⟩))
      ⊢ wp frame (wpE (defs₀ (F := F)) Variants.none c none) E (cc5__cwnn_fused_combine_matmul_kernel i arg1 harg1 arg2 harg2 arg3 harg3 arg4 harg4 arg5 harg5) K := by
  simp only [cc5__cwnn_fused_combine_matmul_kernel_eq_skeleton]; unfold cc5__cwnn_fused_combine_matmul_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover5_4 _)

/-- The proof data of pipeline 5 on core `c`: the arrays as the region finds them; after the body at point `t` each
    input's buffer at its block and the output's at `out5_4` of the input blocks; the scoped rest and the generator
    register untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = out5_4 (iblk5 V c 0 t) (iblk5 V c 1 t) (iblk5 V c 2 t) (iblk5 V c 3 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

/-- The body at any point: the inputs' memrefs hold their blocks, so the body's triple applies; the invariant and the
    core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ _ _ _ _ _ _ _ _ _ _ _ (iblk5 V c 0 t) (iblk5 V c 1 t) (iblk5 V c 2 t) (iblk5 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Frame

end
-- ==== Proof.KernelRegion6.lean ====
/-
  Region 6 of @main (the last cell layer's combination: one grid point takes 4000-row blocks of the three summands and stores max(t0 + sd + su, 0), once, over the whole output block.)
  Stated at a parameter `V`, the buffers' contents when the region is entered: the blocks the windows read, what the body
  leaves in the output's staging buffer, the body's triple, the pipeline's proof data and the body obligation at every
  grid point.
-/
import proofs.«160791_j62036507623881_2_alg».proof.Proof.Gen.Kernel.Launch
import proofs.«160791_j62036507623881_2_alg».proof.Proof.Gen.Kernel.Skeleton
import proofs.«160791_j62036507623881_2_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- The rectangles the body loads and stores through. -/
abbrev r6_a : Rect S4000x128 := Rect.unit (s := S4000x128) ![0, 0] S4000x128.size inb_S4000x128_S4000x128_0_0

/-- The output's staging buffer after the body, from the input blocks: the body's stores as pieces, last first. -/
def out6_3 (x0 : Vec F S4000x128 .bf16) (x1 : Vec F S4000x128 .f32) (x2 : Vec F S4000x128 .f32) : Vec F S4000x128 .f32 :=
  View.canon [⟨r6_a, k6_pay1 (View.ld x0 r6_a) (View.ld x1 r6_a) (View.ld x2 r6_a)⟩]

/-- The stores cover the buffer. -/
theorem cover6_3 (p0 : Vec F S4000x128 .f32) (y : S4000x128.Idx) :
    ∃ pc ∈ ([⟨r6_a, p0⟩] : List (View.Piece (Elt F) S4000x128 .f32)), y ∈ pc.1.set :=
  View.cover_of_tiled [⟨r6_a, p0⟩] S4000x128.size (by rfl) y

set_option maxHeartbeats 1000000 in
/-- The body on whole staging memrefs, the inputs' at contents `xW` and the output's at anything, runs to the continuation
    holding the inputs' as they were and the output's at `out6_3` of them. -/
theorem sound_kernel6 (c : Dev nD) (E : Set ℕ) (i : grid6.Coords) (arg1 : Memref sig .tc .vmem S4000x128 .bf16) (harg1 : arg1.IsWhole) (arg2 : Memref sig .tc .vmem S4000x128 .f32) (harg2 : arg2.IsWhole) (arg3 : Memref sig .tc .vmem S4000x128 .f32) (harg3 : arg3.IsWhole) (arg4 : Memref sig .tc .vmem S4000x128 .f32) (harg4 : arg4.IsWhole)
    (x0 : Vec F S4000x128 .bf16) (x1 : Vec F S4000x128 .f32) (x2 : Vec F S4000x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out6_3 x0 x1 x2)) -∗ K ⟨⟩))
      ⊢ wp frame (wpE (defs₀ (F := F)) Variants.none c none) E (cc6__cwnn_final_combine_kernel i arg1 harg1 arg2 harg2 arg3 harg3 arg4 harg4) K := by
  simp only [cc6__cwnn_final_combine_kernel_eq_skeleton]; unfold cc6__cwnn_final_combine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-- The proof data of pipeline 6 on core `c`: the arrays as the region finds them; after the body at point `t` each
    input's buffer at its block and the output's at `out6_3` of the input blocks; the scoped rest and the generator
    register untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the inputs' memrefs hold their blocks, so the body's triple applies; the invariant and the
    core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Frame

end
-- ==== Proof.KernelRegion7.lean ====
/-
  Region 7 of @main (the final concatenation: one grid point takes 2000-row blocks of the node features and of the two scattered cell sums, and stores the node features over the left 128 columns of the output block and the sum of the two others over the right 128 columns.)
  Stated at a parameter `V`, the buffers' contents when the region is entered: the blocks the windows read, what the body
  leaves in the output's staging buffer, the body's triple, the pipeline's proof data and the body obligation at every
  grid point.
-/
import proofs.«160791_j62036507623881_2_alg».proof.Proof.Gen.Kernel.Launch
import proofs.«160791_j62036507623881_2_alg».proof.Proof.Gen.Kernel.Skeleton
import proofs.«160791_j62036507623881_2_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, fetched there or not. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- The rectangles the body loads and stores through. -/
abbrev r7_a : Rect S2000x128 := Rect.unit (s := S2000x128) ![0, 0] S2000x128.size inb_S2000x128_S2000x128_0_0
abbrev r7_l : Rect S2000x256 := Rect.unit (s := S2000x256) ![0, 0] S2000x128.size inb_S2000x256_S2000x128_0_0
abbrev r7_r : Rect S2000x256 := Rect.unit (s := S2000x256) ![0, 128] S2000x128.size inb_S2000x256_S2000x128_0_128

/-- The output's staging buffer after the body, from the input blocks: the body's stores as pieces, last first. -/
def out7_3 (x0 : Vec F S2000x128 .f32) (x1 : Vec F S2000x128 .f32) (x2 : Vec F S2000x128 .f32) : Vec F S2000x256 .f32 :=
  View.canon [⟨r7_r, k7_pay2 (View.ld x1 r7_a) (View.ld x2 r7_a)⟩, ⟨r7_l, k7_pay1 (View.ld x0 r7_a)⟩]

/-- The stores cover the buffer. -/
theorem cover7_3 (p0 : Vec F S2000x128 .f32) (p1 : Vec F S2000x128 .f32) (y : S2000x256.Idx) :
    ∃ pc ∈ ([⟨r7_r, p0⟩, ⟨r7_l, p1⟩] : List (View.Piece (Elt F) S2000x256 .f32)), y ∈ pc.1.set :=
  View.cover_of_tiled [⟨r7_r, p0⟩, ⟨r7_l, p1⟩] S2000x128.size (by rfl) y

set_option maxHeartbeats 1000000 in
/-- The body on whole staging memrefs, the inputs' at contents `xW` and the output's at anything, runs to the continuation
    holding the inputs' as they were and the output's at `out7_3` of them. -/
theorem sound_kernel7 (c : Dev nD) (E : Set ℕ) (i : grid7.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S2000x256 .f32) (harg4 : arg4.IsWhole)
    (x0 : Vec F S2000x128 .f32) (x1 : Vec F S2000x128 .f32) (x2 : Vec F S2000x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out7_3 x0 x1 x2)) -∗ K ⟨⟩))
      ⊢ wp frame (wpE (defs₀ (F := F)) Variants.none c none) E (cc7__concat_kernel i arg1 harg1 arg2 harg2 arg3 harg3 arg4 harg4) K := by
  simp only [cc7__concat_kernel_eq_skeleton]; unfold cc7__concat_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover7_3 _ _)

/-- The proof data of pipeline 7 on core `c`: the arrays as the region finds them; after the body at point `t` each
    input's buffer at its block and the output's at `out7_3` of the input blocks; the scoped rest and the generator
    register untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = out7_3 (iblk7 V c 0 t) (iblk7 V c 1 t) (iblk7 V c 2 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

/-- The body at any point: the inputs' memrefs hold their blocks, so the body's triple applies; the invariant and the
    core's dues pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%d0, H0⟩, ⟨%d1, H1⟩, ⟨%d2, H2⟩, ⟨%d3, H3⟩⟩
  iapply (sound_kernel7 c Set.univ _ _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Frame

end
-- ==== Proof.KernelRun.lean ====
/-
  The run of @main as sixteen segments: eight stretches of host operations, each followed by one kernel region.
  `B0` is a core's buffers at launch; `B(2K+1)` is what host stretch K leaves (the fold of its operations over
  `B(2K)`) and `B(2K+2)` what region K leaves: its arrays at what its pipeline's write-backs leave, every other buffer
  as entered.  Every weakly fair execution of @main terminates without a fault in a state whose unscoped buffers are
  `B16`; no stretch and no region writes an argument, so each argument's buffer walks back through the sixteen
  boundaries to its launch contents.
-/
import proofs.«160791_j62036507623881_2_alg».proof.Proof.Gen.Kernel.Regions
import proofs.«160791_j62036507623881_2_alg».proof.Proof.KernelRegion0
import proofs.«160791_j62036507623881_2_alg».proof.Proof.KernelRegion1
import proofs.«160791_j62036507623881_2_alg».proof.Proof.KernelRegion2
import proofs.«160791_j62036507623881_2_alg».proof.Proof.KernelRegion3
import proofs.«160791_j62036507623881_2_alg».proof.Proof.KernelRegion4
import proofs.«160791_j62036507623881_2_alg».proof.Proof.KernelRegion5
import proofs.«160791_j62036507623881_2_alg».proof.Proof.KernelRegion6
import proofs.«160791_j62036507623881_2_alg».proof.Proof.KernelRegion7
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev B0 : Dev nD → Valuation τ sig (Elt F) := fun c b => (s₀ m ρ).mem ((c : Dev nD), b)

/-- After host stretch 0: what region 0 is entered from, -/
abbrev B1 : Dev nD → Valuation τ sig (Elt F) := fun c => StableHlo.after hostOps0 (B0 m ρ c)
/-- the same read at the TensorCore's references, -/
abbrev E1 : (c : Dev nD) → (b : Ref sig .tc) → Buf (Elt F) ((c : Thread nD τ).loc b) := fun c b => B1 m ρ c b
/-- and what region 0 leaves: its arrays at what the pipeline's write-backs leave, every other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- After host stretch 1: what region 1 is entered from, -/
abbrev B3 : Dev nD → Valuation τ sig (Elt F) := fun c => StableHlo.after hostOps1 (B2 m ρ c)
/-- the same read at the TensorCore's references, -/
abbrev E3 : (c : Dev nD) → (b : Ref sig .tc) → Buf (Elt F) ((c : Thread nD τ).loc b) := fun c b => B3 m ρ c b
/-- and what region 1 leaves: its arrays at what the pipeline's write-backs leave, every other buffer as entered. -/
def B4 (c : Dev nD) : Valuation τ sig (Elt F) :=
  Pipeline.withArrays spec1 c (B3 m ρ c) fun w => (dat1 (E3 m ρ) c).arrAt w cfg1.N
theorem B4_arr (c : Dev nD) (w : Fin cfg1.W) :
    B4 m ρ c (Proc.devRef .tc (Pipeline.arrRef spec1 w)) = (dat1 (E3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev E4 : (c : Dev nD) → (b : Ref sig .tc) → Buf (Elt F) ((c : Thread nD τ).loc b) := fun c b => B4 m ρ c b
theorem hF1 (c : Dev nD) (w : Fin cfg1.W) : (dat1 (E3 m ρ) c).arrAt w cfg1.N = E4 m ρ c (Pipeline.arrRef spec1 w) :=
  (B4_arr m ρ c w).symm
theorem hrest1 (c : Dev nD) : ∀ b, b ∉ Finset.univ.image (Pipeline.arrRef spec1) → E4 m ρ c b = E3 m ρ c b :=
  fun b hb => B4_of_ne m ρ c b fun w e => hb (Finset.mem_image.mpr ⟨w, Finset.mem_univ _, e⟩)

/-- After host stretch 2: what region 2 is entered from, -/
abbrev B5 : Dev nD → Valuation τ sig (Elt F) := fun c => StableHlo.after hostOps2 (B4 m ρ c)
/-- the same read at the TensorCore's references, -/
abbrev E5 : (c : Dev nD) → (b : Ref sig .tc) → Buf (Elt F) ((c : Thread nD τ).loc b) := fun c b => B5 m ρ c b
/-- and what region 2 leaves: its arrays at what the pipeline's write-backs leave, every other buffer as entered. -/
def B6 (c : Dev nD) : Valuation τ sig (Elt F) :=
  Pipeline.withArrays spec2 c (B5 m ρ c) fun w => (dat2 (E5 m ρ) c).arrAt w cfg2.N
theorem B6_arr (c : Dev nD) (w : Fin cfg2.W) :
    B6 m ρ c (Proc.devRef .tc (Pipeline.arrRef spec2 w)) = (dat2 (E5 m ρ) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m ρ c (Proc.devRef .tc b) = B5 m ρ c (Proc.devRef .tc b) := by
  unfold B6; exact Pipeline.withArrays_of_ne spec2 c _ _ b hb
abbrev E6 : (c : Dev nD) → (b : Ref sig .tc) → Buf (Elt F) ((c : Thread nD τ).loc b) := fun c b => B6 m ρ c b
theorem hF2 (c : Dev nD) (w : Fin cfg2.W) : (dat2 (E5 m ρ) c).arrAt w cfg2.N = E6 m ρ c (Pipeline.arrRef spec2 w) :=
  (B6_arr m ρ c w).symm
theorem hrest2 (c : Dev nD) : ∀ b, b ∉ Finset.univ.image (Pipeline.arrRef spec2) → E6 m ρ c b = E5 m ρ c b :=
  fun b hb => B6_of_ne m ρ c b fun w e => hb (Finset.mem_image.mpr ⟨w, Finset.mem_univ _, e⟩)

/-- After host stretch 3: what region 3 is entered from, -/
abbrev B7 : Dev nD → Valuation τ sig (Elt F) := fun c => StableHlo.after hostOps3 (B6 m ρ c)
/-- the same read at the TensorCore's references, -/
abbrev E7 : (c : Dev nD) → (b : Ref sig .tc) → Buf (Elt F) ((c : Thread nD τ).loc b) := fun c b => B7 m ρ c b
/-- and what region 3 leaves: its arrays at what the pipeline's write-backs leave, every other buffer as entered. -/
def B8 (c : Dev nD) : Valuation τ sig (Elt F) :=
  Pipeline.withArrays spec3 c (B7 m ρ c) fun w => (dat3 (E7 m ρ) c).arrAt w cfg3.N
theorem B8_arr (c : Dev nD) (w : Fin cfg3.W) :
    B8 m ρ c (Proc.devRef .tc (Pipeline.arrRef spec3 w)) = (dat3 (E7 m ρ) c).arrAt w cfg3.N := by
  unfold B8; exact Pipeline.withArrays_arr spec3 launch3.win.arr_inj c _ _ w
theorem B8_of_ne (c : Dev nD) (b : Ref sig .tc) (hb : ∀ w, Pipeline.arrRef spec3 w ≠ b) :
    B8 m ρ c (Proc.devRef .tc b) = B7 m ρ c (Proc.devRef .tc b) := by
  unfold B8; exact Pipeline.withArrays_of_ne spec3 c _ _ b hb
abbrev E8 : (c : Dev nD) → (b : Ref sig .tc) → Buf (Elt F) ((c : Thread nD τ).loc b) := fun c b => B8 m ρ c b
theorem hF3 (c : Dev nD) (w : Fin cfg3.W) : (dat3 (E7 m ρ) c).arrAt w cfg3.N = E8 m ρ c (Pipeline.arrRef spec3 w) :=
  (B8_arr m ρ c w).symm
theorem hrest3 (c : Dev nD) : ∀ b, b ∉ Finset.univ.image (Pipeline.arrRef spec3) → E8 m ρ c b = E7 m ρ c b :=
  fun b hb => B8_of_ne m ρ c b fun w e => hb (Finset.mem_image.mpr ⟨w, Finset.mem_univ _, e⟩)

/-- After host stretch 4: what region 4 is entered from, -/
abbrev B9 : Dev nD → Valuation τ sig (Elt F) := fun c => StableHlo.after hostOps4 (B8 m ρ c)
/-- the same read at the TensorCore's references, -/
abbrev E9 : (c : Dev nD) → (b : Ref sig .tc) → Buf (Elt F) ((c : Thread nD τ).loc b) := fun c b => B9 m ρ c b
/-- and what region 4 leaves: its arrays at what the pipeline's write-backs leave, every other buffer as entered. -/
def B10 (c : Dev nD) : Valuation τ sig (Elt F) :=
  Pipeline.withArrays spec4 c (B9 m ρ c) fun w => (dat4 (E9 m ρ) c).arrAt w cfg4.N
theorem B10_arr (c : Dev nD) (w : Fin cfg4.W) :
    B10 m ρ c (Proc.devRef .tc (Pipeline.arrRef spec4 w)) = (dat4 (E9 m ρ) c).arrAt w cfg4.N := by
  unfold B10; exact Pipeline.withArrays_arr spec4 launch4.win.arr_inj c _ _ w
theorem B10_of_ne (c : Dev nD) (b : Ref sig .tc) (hb : ∀ w, Pipeline.arrRef spec4 w ≠ b) :
    B10 m ρ c (Proc.devRef .tc b) = B9 m ρ c (Proc.devRef .tc b) := by
  unfold B10; exact Pipeline.withArrays_of_ne spec4 c _ _ b hb
abbrev E10 : (c : Dev nD) → (b : Ref sig .tc) → Buf (Elt F) ((c : Thread nD τ).loc b) := fun c b => B10 m ρ c b
theorem hF4 (c : Dev nD) (w : Fin cfg4.W) : (dat4 (E9 m ρ) c).arrAt w cfg4.N = E10 m ρ c (Pipeline.arrRef spec4 w) :=
  (B10_arr m ρ c w).symm
theorem hrest4 (c : Dev nD) : ∀ b, b ∉ Finset.univ.image (Pipeline.arrRef spec4) → E10 m ρ c b = E9 m ρ c b :=
  fun b hb => B10_of_ne m ρ c b fun w e => hb (Finset.mem_image.mpr ⟨w, Finset.mem_univ _, e⟩)

/-- After host stretch 5: what region 5 is entered from, -/
abbrev B11 : Dev nD → Valuation τ sig (Elt F) := fun c => StableHlo.after hostOps5 (B10 m ρ c)
/-- the same read at the TensorCore's references, -/
abbrev E11 : (c : Dev nD) → (b : Ref sig .tc) → Buf (Elt F) ((c : Thread nD τ).loc b) := fun c b => B11 m ρ c b
/-- and what region 5 leaves: its arrays at what the pipeline's write-backs leave, every other buffer as entered. -/
def B12 (c : Dev nD) : Valuation τ sig (Elt F) :=
  Pipeline.withArrays spec5 c (B11 m ρ c) fun w => (dat5 (E11 m ρ) c).arrAt w cfg5.N
theorem B12_arr (c : Dev nD) (w : Fin cfg5.W) :
    B12 m ρ c (Proc.devRef .tc (Pipeline.arrRef spec5 w)) = (dat5 (E11 m ρ) c).arrAt w cfg5.N := by
  unfold B12; exact Pipeline.withArrays_arr spec5 launch5.win.arr_inj c _ _ w
theorem B12_of_ne (c : Dev nD) (b : Ref sig .tc) (hb : ∀ w, Pipeline.arrRef spec5 w ≠ b) :
    B12 m ρ c (Proc.devRef .tc b) = B11 m ρ c (Proc.devRef .tc b) := by
  unfold B12; exact Pipeline.withArrays_of_ne spec5 c _ _ b hb
abbrev E12 : (c : Dev nD) → (b : Ref sig .tc) → Buf (Elt F) ((c : Thread nD τ).loc b) := fun c b => B12 m ρ c b
theorem hF5 (c : Dev nD) (w : Fin cfg5.W) : (dat5 (E11 m ρ) c).arrAt w cfg5.N = E12 m ρ c (Pipeline.arrRef spec5 w) :=
  (B12_arr m ρ c w).symm
theorem hrest5 (c : Dev nD) : ∀ b, b ∉ Finset.univ.image (Pipeline.arrRef spec5) → E12 m ρ c b = E11 m ρ c b :=
  fun b hb => B12_of_ne m ρ c b fun w e => hb (Finset.mem_image.mpr ⟨w, Finset.mem_univ _, e⟩)

/-- After host stretch 6: what region 6 is entered from, -/
abbrev B13 : Dev nD → Valuation τ sig (Elt F) := fun c => StableHlo.after hostOps6 (B12 m ρ c)
/-- the same read at the TensorCore's references, -/
abbrev E13 : (c : Dev nD) → (b : Ref sig .tc) → Buf (Elt F) ((c : Thread nD τ).loc b) := fun c b => B13 m ρ c b
/-- and what region 6 leaves: its arrays at what the pipeline's write-backs leave, every other buffer as entered. -/
def B14 (c : Dev nD) : Valuation τ sig (Elt F) :=
  Pipeline.withArrays spec6 c (B13 m ρ c) fun w => (dat6 (E13 m ρ) c).arrAt w cfg6.N
theorem B14_arr (c : Dev nD) (w : Fin cfg6.W) :
    B14 m ρ c (Proc.devRef .tc (Pipeline.arrRef spec6 w)) = (dat6 (E13 m ρ) c).arrAt w cfg6.N := by
  unfold B14; exact Pipeline.withArrays_arr spec6 launch6.win.arr_inj c _ _ w
theorem B14_of_ne (c : Dev nD) (b : Ref sig .tc) (hb : ∀ w, Pipeline.arrRef spec6 w ≠ b) :
    B14 m ρ c (Proc.devRef .tc b) = B13 m ρ c (Proc.devRef .tc b) := by
  unfold B14; exact Pipeline.withArrays_of_ne spec6 c _ _ b hb
abbrev E14 : (c : Dev nD) → (b : Ref sig .tc) → Buf (Elt F) ((c : Thread nD τ).loc b) := fun c b => B14 m ρ c b
theorem hF6 (c : Dev nD) (w : Fin cfg6.W) : (dat6 (E13 m ρ) c).arrAt w cfg6.N = E14 m ρ c (Pipeline.arrRef spec6 w) :=
  (B14_arr m ρ c w).symm
theorem hrest6 (c : Dev nD) : ∀ b, b ∉ Finset.univ.image (Pipeline.arrRef spec6) → E14 m ρ c b = E13 m ρ c b :=
  fun b hb => B14_of_ne m ρ c b fun w e => hb (Finset.mem_image.mpr ⟨w, Finset.mem_univ _, e⟩)

/-- After host stretch 7: what region 7 is entered from, -/
abbrev B15 : Dev nD → Valuation τ sig (Elt F) := fun c => StableHlo.after hostOps7 (B14 m ρ c)
/-- the same read at the TensorCore's references, -/
abbrev E15 : (c : Dev nD) → (b : Ref sig .tc) → Buf (Elt F) ((c : Thread nD τ).loc b) := fun c b => B15 m ρ c b
/-- and what region 7 leaves: its arrays at what the pipeline's write-backs leave, every other buffer as entered. -/
def B16 (c : Dev nD) : Valuation τ sig (Elt F) :=
  Pipeline.withArrays spec7 c (B15 m ρ c) fun w => (dat7 (E15 m ρ) c).arrAt w cfg7.N
theorem B16_arr (c : Dev nD) (w : Fin cfg7.W) :
    B16 m ρ c (Proc.devRef .tc (Pipeline.arrRef spec7 w)) = (dat7 (E15 m ρ) c).arrAt w cfg7.N := by
  unfold B16; exact Pipeline.withArrays_arr spec7 launch7.win.arr_inj c _ _ w
theorem B16_of_ne (c : Dev nD) (b : Ref sig .tc) (hb : ∀ w, Pipeline.arrRef spec7 w ≠ b) :
    B16 m ρ c (Proc.devRef .tc b) = B15 m ρ c (Proc.devRef .tc b) := by
  unfold B16; exact Pipeline.withArrays_of_ne spec7 c _ _ b hb
abbrev E16 : (c : Dev nD) → (b : Ref sig .tc) → Buf (Elt F) ((c : Thread nD τ).loc b) := fun c b => B16 m ρ c b
theorem hF7 (c : Dev nD) (w : Fin cfg7.W) : (dat7 (E15 m ρ) c).arrAt w cfg7.N = E16 m ρ c (Pipeline.arrRef spec7 w) :=
  (B16_arr m ρ c w).symm
theorem hrest7 (c : Dev nD) : ∀ b, b ∉ Finset.univ.image (Pipeline.arrRef spec7) → E16 m ρ c b = E15 m ρ c b :=
  fun b hb => B16_of_ne m ρ c b fun w e => hb (Finset.mem_image.mpr ⟨w, Finset.mem_univ _, e⟩)

/-! ## The arguments end as launched -/

theorem B16_main_arg0 (c : Dev nD) : B16 m ρ c (Proc.devRef .tc main_arg0) = m ((c : Thread nD τ).loc main_arg0) :=
  (B16_of_ne m ρ c main_arg0 (by decide)).trans <|
  (StableHlo.after_of_writes_sub hostOps7 _ Gen.hostOps7_writes (by decide : main_arg0 ∉ Gen.hostOps7_W)).trans <|
  (B14_of_ne m ρ c main_arg0 (by decide)).trans <|
  (StableHlo.after_of_writes_sub hostOps6 _ Gen.hostOps6_writes (by decide : main_arg0 ∉ Gen.hostOps6_W)).trans <|
  (B12_of_ne m ρ c main_arg0 (by decide)).trans <|
  (StableHlo.after_of_writes_sub hostOps5 _ Gen.hostOps5_writes (by decide : main_arg0 ∉ Gen.hostOps5_W)).trans <|
  (B10_of_ne m ρ c main_arg0 (by decide)).trans <|
  (StableHlo.after_of_writes_sub hostOps4 _ Gen.hostOps4_writes (by decide : main_arg0 ∉ Gen.hostOps4_W)).trans <|
  (B8_of_ne m ρ c main_arg0 (by decide)).trans <|
  (StableHlo.after_of_writes_sub hostOps3 _ Gen.hostOps3_writes (by decide : main_arg0 ∉ Gen.hostOps3_W)).trans <|
  (B6_of_ne m ρ c main_arg0 (by decide)).trans <|
  (StableHlo.after_of_writes_sub hostOps2 _ Gen.hostOps2_writes (by decide : main_arg0 ∉ Gen.hostOps2_W)).trans <|
  (B4_of_ne m ρ c main_arg0 (by decide)).trans <|
  (StableHlo.after_of_writes_sub hostOps1 _ Gen.hostOps1_writes (by decide : main_arg0 ∉ Gen.hostOps1_W)).trans <|
  ((B2_arr m ρ c 0).trans (((dat0 (E1 m ρ) c).arrAt_in 0 rfl _).trans (A_eq0 (E1 m ρ) c 0))).trans <|
  (StableHlo.after_of_writes_sub hostOps0 _ Gen.hostOps0_writes (by decide : main_arg0 ∉ Gen.hostOps0_W)).trans <|
  rfl
theorem B16_main_arg1 (c : Dev nD) : B16 m ρ c (Proc.devRef .tc main_arg1) = m ((c : Thread nD τ).loc main_arg1) :=
  (B16_of_ne m ρ c main_arg1 (by decide)).trans <|
  (StableHlo.after_of_writes_sub hostOps7 _ Gen.hostOps7_writes (by decide : main_arg1 ∉ Gen.hostOps7_W)).trans <|
  (B14_of_ne m ρ c main_arg1 (by decide)).trans <|
  (StableHlo.after_of_writes_sub hostOps6 _ Gen.hostOps6_writes (by decide : main_arg1 ∉ Gen.hostOps6_W)).trans <|
  (B12_of_ne m ρ c main_arg1 (by decide)).trans <|
  (StableHlo.after_of_writes_sub hostOps5 _ Gen.hostOps5_writes (by decide : main_arg1 ∉ Gen.hostOps5_W)).trans <|
  (B10_of_ne m ρ c main_arg1 (by decide)).trans <|
  (StableHlo.after_of_writes_sub hostOps4 _ Gen.hostOps4_writes (by decide : main_arg1 ∉ Gen.hostOps4_W)).trans <|
  ((B8_arr m ρ c 0).trans (((dat3 (E7 m ρ) c).arrAt_in 0 rfl _).trans (A_eq3 (E7 m ρ) c 0))).trans <|
  (StableHlo.after_of_writes_sub hostOps3 _ Gen.hostOps3_writes (by decide : main_arg1 ∉ Gen.hostOps3_W)).trans <|
  (B6_of_ne m ρ c main_arg1 (by decide)).trans <|
  (StableHlo.after_of_writes_sub hostOps2 _ Gen.hostOps2_writes (by decide : main_arg1 ∉ Gen.hostOps2_W)).trans <|
  (B4_of_ne m ρ c main_arg1 (by decide)).trans <|
  (StableHlo.after_of_writes_sub hostOps1 _ Gen.hostOps1_writes (by decide : main_arg1 ∉ Gen.hostOps1_W)).trans <|
  (B2_of_ne m ρ c main_arg1 (by decide)).trans <|
  (StableHlo.after_of_writes_sub hostOps0 _ Gen.hostOps0_writes (by decide : main_arg1 ∉ Gen.hostOps0_W)).trans <|
  rfl
theorem B16_main_arg2 (c : Dev nD) : B16 m ρ c (Proc.devRef .tc main_arg2) = m ((c : Thread nD τ).loc main_arg2) :=
  (B16_of_ne m ρ c main_arg2 (by decide)).trans <|
  (StableHlo.after_of_writes_sub hostOps7 _ Gen.hostOps7_writes (by decide : main_arg2 ∉ Gen.hostOps7_W)).trans <|
  (B14_of_ne m ρ c main_arg2 (by decide)).trans <|
  (StableHlo.after_of_writes_sub hostOps6 _ Gen.hostOps6_writes (by decide : main_arg2 ∉ Gen.hostOps6_W)).trans <|
  (B12_of_ne m ρ c main_arg2 (by decide)).trans <|
  (StableHlo.after_of_writes_sub hostOps5 _ Gen.hostOps5_writes (by decide : main_arg2 ∉ Gen.hostOps5_W)).trans <|
  (B10_of_ne m ρ c main_arg2 (by decide)).trans <|
  (StableHlo.after_of_writes_sub hostOps4 _ Gen.hostOps4_writes (by decide : main_arg2 ∉ Gen.hostOps4_W)).trans <|
  (B8_of_ne m ρ c main_arg2 (by decide)).trans <|
  (StableHlo.after_of_writes_sub hostOps3 _ Gen.hostOps3_writes (by decide : main_arg2 ∉ Gen.hostOps3_W)).trans <|
  (B6_of_ne m ρ c main_arg2 (by decide)).trans <|
  (StableHlo.after_of_writes_sub hostOps2 _ Gen.hostOps2_writes (by decide : main_arg2 ∉ Gen.hostOps2_W)).trans <|
  (B4_of_ne m ρ c main_arg2 (by decide)).trans <|
  (StableHlo.after_of_writes_sub hostOps1 _ Gen.hostOps1_writes (by decide : main_arg2 ∉ Gen.hostOps1_W)).trans <|
  (B2_of_ne m ρ c main_arg2 (by decide)).trans <|
  (StableHlo.after_of_writes_sub hostOps0 _ Gen.hostOps0_writes (by decide : main_arg2 ∉ Gen.hostOps0_W)).trans <|
  rfl
theorem B16_main_arg3 (c : Dev nD) : B16 m ρ c (Proc.devRef .tc main_arg3) = m ((c : Thread nD τ).loc main_arg3) :=
  (B16_of_ne m ρ c main_arg3 (by decide)).trans <|
  (StableHlo.after_of_writes_sub hostOps7 _ Gen.hostOps7_writes (by decide : main_arg3 ∉ Gen.hostOps7_W)).trans <|
  (B14_of_ne m ρ c main_arg3 (by decide)).trans <|
  (StableHlo.after_of_writes_sub hostOps6 _ Gen.hostOps6_writes (by decide : main_arg3 ∉ Gen.hostOps6_W)).trans <|
  (B12_of_ne m ρ c main_arg3 (by decide)).trans <|
  (StableHlo.after_of_writes_sub hostOps5 _ Gen.hostOps5_writes (by decide : main_arg3 ∉ Gen.hostOps5_W)).trans <|
  (B10_of_ne m ρ c main_arg3 (by decide)).trans <|
  (StableHlo.after_of_writes_sub hostOps4 _ Gen.hostOps4_writes (by decide : main_arg3 ∉ Gen.hostOps4_W)).trans <|
  (B8_of_ne m ρ c main_arg3 (by decide)).trans <|
  (StableHlo.after_of_writes_sub hostOps3 _ Gen.hostOps3_writes (by decide : main_arg3 ∉ Gen.hostOps3_W)).trans <|
  (B6_of_ne m ρ c main_arg3 (by decide)).trans <|
  (StableHlo.after_of_writes_sub hostOps2 _ Gen.hostOps2_writes (by decide : main_arg3 ∉ Gen.hostOps2_W)).trans <|
  (B4_of_ne m ρ c main_arg3 (by decide)).trans <|
  (StableHlo.after_of_writes_sub hostOps1 _ Gen.hostOps1_writes (by decide : main_arg3 ∉ Gen.hostOps1_W)).trans <|
  (B2_of_ne m ρ c main_arg3 (by decide)).trans <|
  (StableHlo.after_of_writes_sub hostOps0 _ Gen.hostOps0_writes (by decide : main_arg3 ∉ Gen.hostOps0_W)).trans <|
  rfl
theorem B16_main_arg4 (c : Dev nD) : B16 m ρ c (Proc.devRef .tc main_arg4) = m ((c : Thread nD τ).loc main_arg4) :=
  (B16_of_ne m ρ c main_arg4 (by decide)).trans <|
  (StableHlo.after_of_writes_sub hostOps7 _ Gen.hostOps7_writes (by decide : main_arg4 ∉ Gen.hostOps7_W)).trans <|
  (B14_of_ne m ρ c main_arg4 (by decide)).trans <|
  (StableHlo.after_of_writes_sub hostOps6 _ Gen.hostOps6_writes (by decide : main_arg4 ∉ Gen.hostOps6_W)).trans <|
  (B12_of_ne m ρ c main_arg4 (by decide)).trans <|
  (StableHlo.after_of_writes_sub hostOps5 _ Gen.hostOps5_writes (by decide : main_arg4 ∉ Gen.hostOps5_W)).trans <|
  (B10_of_ne m ρ c main_arg4 (by decide)).trans <|
  (StableHlo.after_of_writes_sub hostOps4 _ Gen.hostOps4_writes (by decide : main_arg4 ∉ Gen.hostOps4_W)).trans <|
  (B8_of_ne m ρ c main_arg4 (by decide)).trans <|
  (StableHlo.after_of_writes_sub hostOps3 _ Gen.hostOps3_writes (by decide : main_arg4 ∉ Gen.hostOps3_W)).trans <|
  (B6_of_ne m ρ c main_arg4 (by decide)).trans <|
  (StableHlo.after_of_writes_sub hostOps2 _ Gen.hostOps2_writes (by decide : main_arg4 ∉ Gen.hostOps2_W)).trans <|
  (B4_of_ne m ρ c main_arg4 (by decide)).trans <|
  (StableHlo.after_of_writes_sub hostOps1 _ Gen.hostOps1_writes (by decide : main_arg4 ∉ Gen.hostOps1_W)).trans <|
  (B2_of_ne m ρ c main_arg4 (by decide)).trans <|
  (StableHlo.after_of_writes_sub hostOps0 _ Gen.hostOps0_writes (by decide : main_arg4 ∉ Gen.hostOps0_W)).trans <|
  rfl
theorem B16_main_arg5 (c : Dev nD) : B16 m ρ c (Proc.devRef .tc main_arg5) = m ((c : Thread nD τ).loc main_arg5) :=
  (B16_of_ne m ρ c main_arg5 (by decide)).trans <|
  (StableHlo.after_of_writes_sub hostOps7 _ Gen.hostOps7_writes (by decide : main_arg5 ∉ Gen.hostOps7_W)).trans <|
  (B14_of_ne m ρ c main_arg5 (by decide)).trans <|
  (StableHlo.after_of_writes_sub hostOps6 _ Gen.hostOps6_writes (by decide : main_arg5 ∉ Gen.hostOps6_W)).trans <|
  (B12_of_ne m ρ c main_arg5 (by decide)).trans <|
  (StableHlo.after_of_writes_sub hostOps5 _ Gen.hostOps5_writes (by decide : main_arg5 ∉ Gen.hostOps5_W)).trans <|
  (B10_of_ne m ρ c main_arg5 (by decide)).trans <|
  (StableHlo.after_of_writes_sub hostOps4 _ Gen.hostOps4_writes (by decide : main_arg5 ∉ Gen.hostOps4_W)).trans <|
  (B8_of_ne m ρ c main_arg5 (by decide)).trans <|
  (StableHlo.after_of_writes_sub hostOps3 _ Gen.hostOps3_writes (by decide : main_arg5 ∉ Gen.hostOps3_W)).trans <|
  (B6_of_ne m ρ c main_arg5 (by decide)).trans <|
  (StableHlo.after_of_writes_sub hostOps2 _ Gen.hostOps2_writes (by decide : main_arg5 ∉ Gen.hostOps2_W)).trans <|
  (B4_of_ne m ρ c main_arg5 (by decide)).trans <|
  (StableHlo.after_of_writes_sub hostOps1 _ Gen.hostOps1_writes (by decide : main_arg5 ∉ Gen.hostOps1_W)).trans <|
  (B2_of_ne m ρ c main_arg5 (by decide)).trans <|
  (StableHlo.after_of_writes_sub hostOps0 _ Gen.hostOps0_writes (by decide : main_arg5 ∉ Gen.hostOps0_W)).trans <|
  rfl
theorem B16_main_arg6 (c : Dev nD) : B16 m ρ c (Proc.devRef .tc main_arg6) = m ((c : Thread nD τ).loc main_arg6) :=
  (B16_of_ne m ρ c main_arg6 (by decide)).trans <|
  (StableHlo.after_of_writes_sub hostOps7 _ Gen.hostOps7_writes (by decide : main_arg6 ∉ Gen.hostOps7_W)).trans <|
  (B14_of_ne m ρ c main_arg6 (by decide)).trans <|
  (StableHlo.after_of_writes_sub hostOps6 _ Gen.hostOps6_writes (by decide : main_arg6 ∉ Gen.hostOps6_W)).trans <|
  (B12_of_ne m ρ c main_arg6 (by decide)).trans <|
  (StableHlo.after_of_writes_sub hostOps5 _ Gen.hostOps5_writes (by decide : main_arg6 ∉ Gen.hostOps5_W)).trans <|
  (B10_of_ne m ρ c main_arg6 (by decide)).trans <|
  (StableHlo.after_of_writes_sub hostOps4 _ Gen.hostOps4_writes (by decide : main_arg6 ∉ Gen.hostOps4_W)).trans <|
  (B8_of_ne m ρ c main_arg6 (by decide)).trans <|
  (StableHlo.after_of_writes_sub hostOps3 _ Gen.hostOps3_writes (by decide : main_arg6 ∉ Gen.hostOps3_W)).trans <|
  (B6_of_ne m ρ c main_arg6 (by decide)).trans <|
  (StableHlo.after_of_writes_sub hostOps2 _ Gen.hostOps2_writes (by decide : main_arg6 ∉ Gen.hostOps2_W)).trans <|
  (B4_of_ne m ρ c main_arg6 (by decide)).trans <|
  (StableHlo.after_of_writes_sub hostOps1 _ Gen.hostOps1_writes (by decide : main_arg6 ∉ Gen.hostOps1_W)).trans <|
  (B2_of_ne m ρ c main_arg6 (by decide)).trans <|
  (StableHlo.after_of_writes_sub hostOps0 _ Gen.hostOps0_writes (by decide : main_arg6 ∉ Gen.hostOps0_W)).trans <|
  rfl
theorem B16_main_arg7 (c : Dev nD) : B16 m ρ c (Proc.devRef .tc main_arg7) = m ((c : Thread nD τ).loc main_arg7) :=
  (B16_of_ne m ρ c main_arg7 (by decide)).trans <|
  (StableHlo.after_of_writes_sub hostOps7 _ Gen.hostOps7_writes (by decide : main_arg7 ∉ Gen.hostOps7_W)).trans <|
  (B14_of_ne m ρ c main_arg7 (by decide)).trans <|
  (StableHlo.after_of_writes_sub hostOps6 _ Gen.hostOps6_writes (by decide : main_arg7 ∉ Gen.hostOps6_W)).trans <|
  (B12_of_ne m ρ c main_arg7 (by decide)).trans <|
  (StableHlo.after_of_writes_sub hostOps5 _ Gen.hostOps5_writes (by decide : main_arg7 ∉ Gen.hostOps5_W)).trans <|
  (B10_of_ne m ρ c main_arg7 (by decide)).trans <|
  (StableHlo.after_of_writes_sub hostOps4 _ Gen.hostOps4_writes (by decide : main_arg7 ∉ Gen.hostOps4_W)).trans <|
  (B8_of_ne m ρ c main_arg7 (by decide)).trans <|
  (StableHlo.after_of_writes_sub hostOps3 _ Gen.hostOps3_writes (by decide : main_arg7 ∉ Gen.hostOps3_W)).trans <|
  (B6_of_ne m ρ c main_arg7 (by decide)).trans <|
  (StableHlo.after_of_writes_sub hostOps2 _ Gen.hostOps2_writes (by decide : main_arg7 ∉ Gen.hostOps2_W)).trans <|
  (B4_of_ne m ρ c main_arg7 (by decide)).trans <|
  (StableHlo.after_of_writes_sub hostOps1 _ Gen.hostOps1_writes (by decide : main_arg7 ∉ Gen.hostOps1_W)).trans <|
  (B2_of_ne m ρ c main_arg7 (by decide)).trans <|
  (StableHlo.after_of_writes_sub hostOps0 _ Gen.hostOps0_writes (by decide : main_arg7 ∉ Gen.hostOps0_W)).trans <|
  rfl
theorem B16_main_arg8 (c : Dev nD) : B16 m ρ c (Proc.devRef .tc main_arg8) = m ((c : Thread nD τ).loc main_arg8) :=
  (B16_of_ne m ρ c main_arg8 (by decide)).trans <|
  (StableHlo.after_of_writes_sub hostOps7 _ Gen.hostOps7_writes (by decide : main_arg8 ∉ Gen.hostOps7_W)).trans <|
  (B14_of_ne m ρ c main_arg8 (by decide)).trans <|
  (StableHlo.after_of_writes_sub hostOps6 _ Gen.hostOps6_writes (by decide : main_arg8 ∉ Gen.hostOps6_W)).trans <|
  (B12_of_ne m ρ c main_arg8 (by decide)).trans <|
  (StableHlo.after_of_writes_sub hostOps5 _ Gen.hostOps5_writes (by decide : main_arg8 ∉ Gen.hostOps5_W)).trans <|
  (B10_of_ne m ρ c main_arg8 (by decide)).trans <|
  (StableHlo.after_of_writes_sub hostOps4 _ Gen.hostOps4_writes (by decide : main_arg8 ∉ Gen.hostOps4_W)).trans <|
  (B8_of_ne m ρ c main_arg8 (by decide)).trans <|
  (StableHlo.after_of_writes_sub hostOps3 _ Gen.hostOps3_writes (by decide : main_arg8 ∉ Gen.hostOps3_W)).trans <|
  (B6_of_ne m ρ c main_arg8 (by decide)).trans <|
  (StableHlo.after_of_writes_sub hostOps2 _ Gen.hostOps2_writes (by decide : main_arg8 ∉ Gen.hostOps2_W)).trans <|
  (B4_of_ne m ρ c main_arg8 (by decide)).trans <|
  (StableHlo.after_of_writes_sub hostOps1 _ Gen.hostOps1_writes (by decide : main_arg8 ∉ Gen.hostOps1_W)).trans <|
  (B2_of_ne m ρ c main_arg8 (by decide)).trans <|
  (StableHlo.after_of_writes_sub hostOps0 _ Gen.hostOps0_writes (by decide : main_arg8 ∉ Gen.hostOps0_W)).trans <|
  rfl
theorem B16_main_arg9 (c : Dev nD) : B16 m ρ c (Proc.devRef .tc main_arg9) = m ((c : Thread nD τ).loc main_arg9) :=
  (B16_of_ne m ρ c main_arg9 (by decide)).trans <|
  (StableHlo.after_of_writes_sub hostOps7 _ Gen.hostOps7_writes (by decide : main_arg9 ∉ Gen.hostOps7_W)).trans <|
  (B14_of_ne m ρ c main_arg9 (by decide)).trans <|
  (StableHlo.after_of_writes_sub hostOps6 _ Gen.hostOps6_writes (by decide : main_arg9 ∉ Gen.hostOps6_W)).trans <|
  (B12_of_ne m ρ c main_arg9 (by decide)).trans <|
  (StableHlo.after_of_writes_sub hostOps5 _ Gen.hostOps5_writes (by decide : main_arg9 ∉ Gen.hostOps5_W)).trans <|
  (B10_of_ne m ρ c main_arg9 (by decide)).trans <|
  (StableHlo.after_of_writes_sub hostOps4 _ Gen.hostOps4_writes (by decide : main_arg9 ∉ Gen.hostOps4_W)).trans <|
  (B8_of_ne m ρ c main_arg9 (by decide)).trans <|
  (StableHlo.after_of_writes_sub hostOps3 _ Gen.hostOps3_writes (by decide : main_arg9 ∉ Gen.hostOps3_W)).trans <|
  (B6_of_ne m ρ c main_arg9 (by decide)).trans <|
  (StableHlo.after_of_writes_sub hostOps2 _ Gen.hostOps2_writes (by decide : main_arg9 ∉ Gen.hostOps2_W)).trans <|
  (B4_of_ne m ρ c main_arg9 (by decide)).trans <|
  (StableHlo.after_of_writes_sub hostOps1 _ Gen.hostOps1_writes (by decide : main_arg9 ∉ Gen.hostOps1_W)).trans <|
  (B2_of_ne m ρ c main_arg9 (by decide)).trans <|
  (StableHlo.after_of_writes_sub hostOps0 _ Gen.hostOps0_writes (by decide : main_arg9 ∉ Gen.hostOps0_W)).trans <|
  rfl
theorem B16_main_arg10 (c : Dev nD) : B16 m ρ c (Proc.devRef .tc main_arg10) = m ((c : Thread nD τ).loc main_arg10) :=
  (B16_of_ne m ρ c main_arg10 (by decide)).trans <|
  (StableHlo.after_of_writes_sub hostOps7 _ Gen.hostOps7_writes (by decide : main_arg10 ∉ Gen.hostOps7_W)).trans <|
  (B14_of_ne m ρ c main_arg10 (by decide)).trans <|
  (StableHlo.after_of_writes_sub hostOps6 _ Gen.hostOps6_writes (by decide : main_arg10 ∉ Gen.hostOps6_W)).trans <|
  (B12_of_ne m ρ c main_arg10 (by decide)).trans <|
  (StableHlo.after_of_writes_sub hostOps5 _ Gen.hostOps5_writes (by decide : main_arg10 ∉ Gen.hostOps5_W)).trans <|
  (B10_of_ne m ρ c main_arg10 (by decide)).trans <|
  (StableHlo.after_of_writes_sub hostOps4 _ Gen.hostOps4_writes (by decide : main_arg10 ∉ Gen.hostOps4_W)).trans <|
  (B8_of_ne m ρ c main_arg10 (by decide)).trans <|
  (StableHlo.after_of_writes_sub hostOps3 _ Gen.hostOps3_writes (by decide : main_arg10 ∉ Gen.hostOps3_W)).trans <|
  (B6_of_ne m ρ c main_arg10 (by decide)).trans <|
  (StableHlo.after_of_writes_sub hostOps2 _ Gen.hostOps2_writes (by decide : main_arg10 ∉ Gen.hostOps2_W)).trans <|
  (B4_of_ne m ρ c main_arg10 (by decide)).trans <|
  (StableHlo.after_of_writes_sub hostOps1 _ Gen.hostOps1_writes (by decide : main_arg10 ∉ Gen.hostOps1_W)).trans <|
  (B2_of_ne m ρ c main_arg10 (by decide)).trans <|
  (StableHlo.after_of_writes_sub hostOps0 _ Gen.hostOps0_writes (by decide : main_arg10 ∉ Gen.hostOps0_W)).trans <|
  rfl
theorem B16_main_arg11 (c : Dev nD) : B16 m ρ c (Proc.devRef .tc main_arg11) = m ((c : Thread nD τ).loc main_arg11) :=
  (B16_of_ne m ρ c main_arg11 (by decide)).trans <|
  (StableHlo.after_of_writes_sub hostOps7 _ Gen.hostOps7_writes (by decide : main_arg11 ∉ Gen.hostOps7_W)).trans <|
  (B14_of_ne m ρ c main_arg11 (by decide)).trans <|
  (StableHlo.after_of_writes_sub hostOps6 _ Gen.hostOps6_writes (by decide : main_arg11 ∉ Gen.hostOps6_W)).trans <|
  (B12_of_ne m ρ c main_arg11 (by decide)).trans <|
  (StableHlo.after_of_writes_sub hostOps5 _ Gen.hostOps5_writes (by decide : main_arg11 ∉ Gen.hostOps5_W)).trans <|
  (B10_of_ne m ρ c main_arg11 (by decide)).trans <|
  (StableHlo.after_of_writes_sub hostOps4 _ Gen.hostOps4_writes (by decide : main_arg11 ∉ Gen.hostOps4_W)).trans <|
  (B8_of_ne m ρ c main_arg11 (by decide)).trans <|
  (StableHlo.after_of_writes_sub hostOps3 _ Gen.hostOps3_writes (by decide : main_arg11 ∉ Gen.hostOps3_W)).trans <|
  (B6_of_ne m ρ c main_arg11 (by decide)).trans <|
  (StableHlo.after_of_writes_sub hostOps2 _ Gen.hostOps2_writes (by decide : main_arg11 ∉ Gen.hostOps2_W)).trans <|
  (B4_of_ne m ρ c main_arg11 (by decide)).trans <|
  (StableHlo.after_of_writes_sub hostOps1 _ Gen.hostOps1_writes (by decide : main_arg11 ∉ Gen.hostOps1_W)).trans <|
  (B2_of_ne m ρ c main_arg11 (by decide)).trans <|
  (StableHlo.after_of_writes_sub hostOps0 _ Gen.hostOps0_writes (by decide : main_arg11 ∉ Gen.hostOps0_W)).trans <|
  rfl
theorem B16_main_arg12 (c : Dev nD) : B16 m ρ c (Proc.devRef .tc main_arg12) = m ((c : Thread nD τ).loc main_arg12) :=
  (B16_of_ne m ρ c main_arg12 (by decide)).trans <|
  (StableHlo.after_of_writes_sub hostOps7 _ Gen.hostOps7_writes (by decide : main_arg12 ∉ Gen.hostOps7_W)).trans <|
  (B14_of_ne m ρ c main_arg12 (by decide)).trans <|
  (StableHlo.after_of_writes_sub hostOps6 _ Gen.hostOps6_writes (by decide : main_arg12 ∉ Gen.hostOps6_W)).trans <|
  (B12_of_ne m ρ c main_arg12 (by decide)).trans <|
  (StableHlo.after_of_writes_sub hostOps5 _ Gen.hostOps5_writes (by decide : main_arg12 ∉ Gen.hostOps5_W)).trans <|
  (B10_of_ne m ρ c main_arg12 (by decide)).trans <|
  (StableHlo.after_of_writes_sub hostOps4 _ Gen.hostOps4_writes (by decide : main_arg12 ∉ Gen.hostOps4_W)).trans <|
  (B8_of_ne m ρ c main_arg12 (by decide)).trans <|
  (StableHlo.after_of_writes_sub hostOps3 _ Gen.hostOps3_writes (by decide : main_arg12 ∉ Gen.hostOps3_W)).trans <|
  (B6_of_ne m ρ c main_arg12 (by decide)).trans <|
  (StableHlo.after_of_writes_sub hostOps2 _ Gen.hostOps2_writes (by decide : main_arg12 ∉ Gen.hostOps2_W)).trans <|
  (B4_of_ne m ρ c main_arg12 (by decide)).trans <|
  (StableHlo.after_of_writes_sub hostOps1 _ Gen.hostOps1_writes (by decide : main_arg12 ∉ Gen.hostOps1_W)).trans <|
  (B2_of_ne m ρ c main_arg12 (by decide)).trans <|
  (StableHlo.after_of_writes_sub hostOps0 _ Gen.hostOps0_writes (by decide : main_arg12 ∉ Gen.hostOps0_W)).trans <|
  rfl

/-! ## The proof data family and the thread state -/

/-- Every pipeline's proof data, each at its region's entry contents. -/
def regionData : (p : Fin 8) → (c : Dev nD) → Dat τ (Elt F) Unit ℕ (UR sig nD τ) ℕ (Pipeline.pin (pcfgs (F := F)) Gen.adm p) c
  | ⟨0, _⟩ => fun c => dat0 (E1 m ρ) c
  | ⟨1, _⟩ => fun c => dat1 (E3 m ρ) c
  | ⟨2, _⟩ => fun c => dat2 (E5 m ρ) c
  | ⟨3, _⟩ => fun c => dat3 (E7 m ρ) c
  | ⟨4, _⟩ => fun c => dat4 (E9 m ρ) c
  | ⟨5, _⟩ => fun c => dat5 (E11 m ρ) c
  | ⟨6, _⟩ => fun c => dat6 (E13 m ρ) c
  | ⟨7, _⟩ => fun c => dat7 (E15 m ρ) c
/-- No core owes another anything: no level is assigned. -/
abbrev Lq : GSem nD τ sig → Finset Unit := fun _ => ∅
abbrev lvq : GSem nD τ sig → Unit → ℕ := fun _ _ => 0
/-- What rides beside the buffers through every segment: the core's generator register at some state and its dues, at nothing. -/
abbrev Rest (c : Dev nD) : sProp 𝕄 := iprop((∃ r, prngReg c r) ∗ ∃ W, owes (c : Thread nD τ) (0 : CellTallies nD τ sig Unit) W)
/-- A host stretch as a segment over the unscoped references from the contents `W`, `Rest` riding along. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none Lq lvq :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at `B16`, the generator register at some state. -/
abbrev lastState (c : Dev nD) : sProp 𝕄 := iprop(StableHlo.held (c : Thread nD τ) (Pipeline.ucRefs τ sig) (B16 m ρ c) ∗ ∃ r, prngReg c r)

/-! ## The regions as segments -/

set_option backward.isDefEq.respectTransparency.types false in
/-- Region 0 over the thread state: entered from every unscoped buffer at `B1`, left at `B2`. Its arrays are split
    out of the unscoped buffers and put back at the exit contents; the generator register goes into the pipeline's
    invariant and comes back; nothing is owed; the kernel has no semaphore of its own. -/
def reg0 : Pipeline.RegionSeg (pcfgs (F := F)) Gen.adm (regionData m ρ) () defs₀ Variants.none Lq lvq 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ Lq lvq 0 fun _ _ => rfl
  pre c := iprop(StableHlo.held (c : Thread nD τ) (Pipeline.ucRefs τ sig) (B1 m ρ c) ∗ Rest c)
  post c := iprop(StableHlo.held (c : Thread nD τ) (Pipeline.ucRefs τ sig) (B2 m ρ c) ∗ Rest c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) Gen.adm (regionData m ρ) launch0.win launch0.arr_whole c
      ((regionData m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (regionData m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (regionData m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (regionData m ρ) ((regionData m ρ 0 c).share_full fun _ => rfl)
      (E1 m ρ c) (E2 m ρ c) ((regionData m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `B3`, left at `B4`. Its arrays are split
    out of the unscoped buffers and put back at the exit contents; the generator register goes into the pipeline's
    invariant and comes back; nothing is owed; the kernel has no semaphore of its own. -/
def reg1 : Pipeline.RegionSeg (pcfgs (F := F)) Gen.adm (regionData m ρ) () defs₀ Variants.none Lq lvq 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ Lq lvq 1 fun _ _ => rfl
  pre c := iprop(StableHlo.held (c : Thread nD τ) (Pipeline.ucRefs τ sig) (B3 m ρ c) ∗ Rest c)
  post c := iprop(StableHlo.held (c : Thread nD τ) (Pipeline.ucRefs τ sig) (B4 m ρ c) ∗ Rest c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) Gen.adm (regionData m ρ) launch1.win launch1.arr_whole c
      ((regionData m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (regionData m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (regionData m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (regionData m ρ) ((regionData m ρ 1 c).share_full fun _ => rfl)
      (E3 m ρ c) (E4 m ρ c) ((regionData m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `B5`, left at `B6`. Its arrays are split
    out of the unscoped buffers and put back at the exit contents; the generator register goes into the pipeline's
    invariant and comes back; nothing is owed; the kernel has no semaphore of its own. -/
def reg2 : Pipeline.RegionSeg (pcfgs (F := F)) Gen.adm (regionData m ρ) () defs₀ Variants.none Lq lvq 2 where
  win := launch2.win.to₀
  block_pos := launch2.block_pos
  stage_whole := launch2.stage_whole
  K := PEmpty
  osem k := k.elim
  ho := Pipeline.OwnSemFacts.none _
  hbody c := (body_obligation2 (E5 m ρ) c).loose
  hwaits := Pipeline.hwaits_of_owed_zero _ _ _ _ Lq lvq 2 fun _ _ => rfl
  pre c := iprop(StableHlo.held (c : Thread nD τ) (Pipeline.ucRefs τ sig) (B5 m ρ c) ∗ Rest c)
  post c := iprop(StableHlo.held (c : Thread nD τ) (Pipeline.ucRefs τ sig) (B6 m ρ c) ∗ Rest c)
  X c := iprop(∃ r, prngReg c r)
  Y c := iprop(∃ r, prngReg c r)
  Z c := Pipeline.unscopedRest (Ix := Unit) (Name := ℕ) (U := UR sig nD τ) (Lvl := ℕ) spec2 c (E5 m ρ c)
  hentry c := by
    rw [Pipeline.ownSems0_none]
    have hsplit := Pipeline.arrays_of_unscopedBufs (p := 2) (pcfgs (F := F)) Gen.adm (regionData m ρ) launch2.win launch2.arr_whole c
      ((regionData m ρ 2 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (regionData m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (regionData m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (regionData m ρ) ((regionData m ρ 2 c).share_full fun _ => rfl)
      (E5 m ρ c) (E6 m ρ c) ((regionData m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `B7`, left at `B8`. Its arrays are split
    out of the unscoped buffers and put back at the exit contents; the generator register goes into the pipeline's
    invariant and comes back; nothing is owed; the kernel has no semaphore of its own. -/
def reg3 : Pipeline.RegionSeg (pcfgs (F := F)) Gen.adm (regionData m ρ) () defs₀ Variants.none Lq lvq 3 where
  win := launch3.win.to₀
  block_pos := launch3.block_pos
  stage_whole := launch3.stage_whole
  K := PEmpty
  osem k := k.elim
  ho := Pipeline.OwnSemFacts.none _
  hbody c := (body_obligation3 (E7 m ρ) c).loose
  hwaits := Pipeline.hwaits_of_owed_zero _ _ _ _ Lq lvq 3 fun _ _ => rfl
  pre c := iprop(StableHlo.held (c : Thread nD τ) (Pipeline.ucRefs τ sig) (B7 m ρ c) ∗ Rest c)
  post c := iprop(StableHlo.held (c : Thread nD τ) (Pipeline.ucRefs τ sig) (B8 m ρ c) ∗ Rest c)
  X c := iprop(∃ r, prngReg c r)
  Y c := iprop(∃ r, prngReg c r)
  Z c := Pipeline.unscopedRest (Ix := Unit) (Name := ℕ) (U := UR sig nD τ) (Lvl := ℕ) spec3 c (E7 m ρ c)
  hentry c := by
    rw [Pipeline.ownSems0_none]
    have hsplit := Pipeline.arrays_of_unscopedBufs (p := 3) (pcfgs (F := F)) Gen.adm (regionData m ρ) launch3.win launch3.arr_whole c
      ((regionData m ρ 3 c).share_full fun _ => rfl) (E7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (regionData m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (regionData m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (regionData m ρ) ((regionData m ρ 3 c).share_full fun _ => rfl)
      (E7 m ρ c) (E8 m ρ c) ((regionData m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `B9`, left at `B10`. Its arrays are split
    out of the unscoped buffers and put back at the exit contents; the generator register goes into the pipeline's
    invariant and comes back; nothing is owed; the kernel has no semaphore of its own. -/
def reg4 : Pipeline.RegionSeg (pcfgs (F := F)) Gen.adm (regionData m ρ) () defs₀ Variants.none Lq lvq 4 where
  win := launch4.win.to₀
  block_pos := launch4.block_pos
  stage_whole := launch4.stage_whole
  K := PEmpty
  osem k := k.elim
  ho := Pipeline.OwnSemFacts.none _
  hbody c := (body_obligation4 (E9 m ρ) c).loose
  hwaits := Pipeline.hwaits_of_owed_zero _ _ _ _ Lq lvq 4 fun _ _ => rfl
  pre c := iprop(StableHlo.held (c : Thread nD τ) (Pipeline.ucRefs τ sig) (B9 m ρ c) ∗ Rest c)
  post c := iprop(StableHlo.held (c : Thread nD τ) (Pipeline.ucRefs τ sig) (B10 m ρ c) ∗ Rest c)
  X c := iprop(∃ r, prngReg c r)
  Y c := iprop(∃ r, prngReg c r)
  Z c := Pipeline.unscopedRest (Ix := Unit) (Name := ℕ) (U := UR sig nD τ) (Lvl := ℕ) spec4 c (E9 m ρ c)
  hentry c := by
    rw [Pipeline.ownSems0_none]
    have hsplit := Pipeline.arrays_of_unscopedBufs (p := 4) (pcfgs (F := F)) Gen.adm (regionData m ρ) launch4.win launch4.arr_whole c
      ((regionData m ρ 4 c).share_full fun _ => rfl) (E9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (regionData m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (regionData m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) Gen.adm (Ix := Unit) (Name := ℕ) (U := UR sig nD τ) (Lvl := ℕ)
      launch4.win launch4.arr_whole c (regionData m ρ) ((regionData m ρ 4 c).share_full fun _ => rfl)
      (E9 m ρ c) (E10 m ρ c) ((regionData m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `B11`, left at `B12`. Its arrays are split
    out of the unscoped buffers and put back at the exit contents; the generator register goes into the pipeline's
    invariant and comes back; nothing is owed; the kernel has no semaphore of its own. -/
def reg5 : Pipeline.RegionSeg (pcfgs (F := F)) Gen.adm (regionData m ρ) () defs₀ Variants.none Lq lvq 5 where
  win := launch5.win.to₀
  block_pos := launch5.block_pos
  stage_whole := launch5.stage_whole
  K := PEmpty
  osem k := k.elim
  ho := Pipeline.OwnSemFacts.none _
  hbody c := (body_obligation5 (E11 m ρ) c).loose
  hwaits := Pipeline.hwaits_of_owed_zero _ _ _ _ Lq lvq 5 fun _ _ => rfl
  pre c := iprop(StableHlo.held (c : Thread nD τ) (Pipeline.ucRefs τ sig) (B11 m ρ c) ∗ Rest c)
  post c := iprop(StableHlo.held (c : Thread nD τ) (Pipeline.ucRefs τ sig) (B12 m ρ c) ∗ Rest c)
  X c := iprop(∃ r, prngReg c r)
  Y c := iprop(∃ r, prngReg c r)
  Z c := Pipeline.unscopedRest (Ix := Unit) (Name := ℕ) (U := UR sig nD τ) (Lvl := ℕ) spec5 c (E11 m ρ c)
  hentry c := by
    rw [Pipeline.ownSems0_none]
    have hsplit := Pipeline.arrays_of_unscopedBufs (p := 5) (pcfgs (F := F)) Gen.adm (regionData m ρ) launch5.win launch5.arr_whole c
      ((regionData m ρ 5 c).share_full fun _ => rfl) (E11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (regionData m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (regionData m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) Gen.adm (Ix := Unit) (Name := ℕ) (U := UR sig nD τ) (Lvl := ℕ)
      launch5.win launch5.arr_whole c (regionData m ρ) ((regionData m ρ 5 c).share_full fun _ => rfl)
      (E11 m ρ c) (E12 m ρ c) ((regionData m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at `B13`, left at `B14`. Its arrays are split
    out of the unscoped buffers and put back at the exit contents; the generator register goes into the pipeline's
    invariant and comes back; nothing is owed; the kernel has no semaphore of its own. -/
def reg6 : Pipeline.RegionSeg (pcfgs (F := F)) Gen.adm (regionData m ρ) () defs₀ Variants.none Lq lvq 6 where
  win := launch6.win.to₀
  block_pos := launch6.block_pos
  stage_whole := launch6.stage_whole
  K := PEmpty
  osem k := k.elim
  ho := Pipeline.OwnSemFacts.none _
  hbody c := (body_obligation6 (E13 m ρ) c).loose
  hwaits := Pipeline.hwaits_of_owed_zero _ _ _ _ Lq lvq 6 fun _ _ => rfl
  pre c := iprop(StableHlo.held (c : Thread nD τ) (Pipeline.ucRefs τ sig) (B13 m ρ c) ∗ Rest c)
  post c := iprop(StableHlo.held (c : Thread nD τ) (Pipeline.ucRefs τ sig) (B14 m ρ c) ∗ Rest c)
  X c := iprop(∃ r, prngReg c r)
  Y c := iprop(∃ r, prngReg c r)
  Z c := Pipeline.unscopedRest (Ix := Unit) (Name := ℕ) (U := UR sig nD τ) (Lvl := ℕ) spec6 c (E13 m ρ c)
  hentry c := by
    rw [Pipeline.ownSems0_none]
    have hsplit := Pipeline.arrays_of_unscopedBufs (p := 6) (pcfgs (F := F)) Gen.adm (regionData m ρ) launch6.win launch6.arr_whole c
      ((regionData m ρ 6 c).share_full fun _ => rfl) (E13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (regionData m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (regionData m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) Gen.adm (Ix := Unit) (Name := ℕ) (U := UR sig nD τ) (Lvl := ℕ)
      launch6.win launch6.arr_whole c (regionData m ρ) ((regionData m ρ 6 c).share_full fun _ => rfl)
      (E13 m ρ c) (E14 m ρ c) ((regionData m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 over the thread state: entered from every unscoped buffer at `B15`, left at `B16`. Its arrays are split
    out of the unscoped buffers and put back at the exit contents; the generator register goes into the pipeline's
    invariant and comes back; nothing is owed; the kernel has no semaphore of its own. -/
def reg7 : Pipeline.RegionSeg (pcfgs (F := F)) Gen.adm (regionData m ρ) () defs₀ Variants.none Lq lvq 7 where
  win := launch7.win.to₀
  block_pos := launch7.block_pos
  stage_whole := launch7.stage_whole
  K := PEmpty
  osem k := k.elim
  ho := Pipeline.OwnSemFacts.none _
  hbody c := (body_obligation7 (E15 m ρ) c).loose
  hwaits := Pipeline.hwaits_of_owed_zero _ _ _ _ Lq lvq 7 fun _ _ => rfl
  pre c := iprop(StableHlo.held (c : Thread nD τ) (Pipeline.ucRefs τ sig) (B15 m ρ c) ∗ Rest c)
  post c := iprop(lastState m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec7 c (E15 m ρ c)
  hentry c := by
    rw [Pipeline.ownSems0_none]
    have hsplit := Pipeline.arrays_of_unscopedBufs (p := 7) (pcfgs (F := F)) Gen.adm (regionData m ρ) launch7.win launch7.arr_whole c
      ((regionData m ρ 7 c).share_full fun _ => rfl) (E15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (regionData m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (regionData m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) Gen.adm (Ix := Unit) (Name := ℕ) (U := UR sig nD τ) (Lvl := ℕ)
      launch7.win launch7.arr_whole c (regionData m ρ) ((regionData m ρ 7 c).share_full fun _ => rfl)
      (E15 m ρ c) (E16 m ρ c) ((regionData m ρ 7 c).arrAt · cfg7.N) (hF7 m ρ c) (hrest7 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev mainSegs : List (Pipeline.Seg (pcfgs (F := F)) Gen.adm (regionData m ρ) () defs₀ Variants.none Lq lvq) :=
  [ .host (hostSeg hostOps0 hostOps0_sub Gen.hostOps0_fresh (B0 m ρ)),
    .region (reg0 m ρ),
    .host (hostSeg hostOps1 hostOps1_sub Gen.hostOps1_fresh (B2 m ρ)),
    .region (reg1 m ρ),
    .host (hostSeg hostOps2 hostOps2_sub Gen.hostOps2_fresh (B4 m ρ)),
    .region (reg2 m ρ),
    .host (hostSeg hostOps3 hostOps3_sub Gen.hostOps3_fresh (B6 m ρ)),
    .region (reg3 m ρ),
    .host (hostSeg hostOps4 hostOps4_sub Gen.hostOps4_fresh (B8 m ρ)),
    .region (reg4 m ρ),
    .host (hostSeg hostOps5 hostOps5_sub Gen.hostOps5_fresh (B10 m ρ)),
    .region (reg5 m ρ),
    .host (hostSeg hostOps6 hostOps6_sub Gen.hostOps6_fresh (B12 m ρ)),
    .region (reg6 m ρ),
    .host (hostSeg hostOps7 hostOps7_sub Gen.hostOps7_fresh (B14 m ρ)),
    .region (reg7 m ρ) ]

set_option backward.isDefEq.respectTransparency.types false in
/-- THE RUN: from any memory with zero counters, every weakly fair execution of @main on the TensorCores terminates,
    nothing faulting, and in every final state each unscoped buffer holds what the sixteenth boundary says. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B16 m ρ c b) :=
  Pipeline.θ_run_regions_kit (pcfgs (F := F)) Gen.adm (regionData m ρ) () cellOf_inj emb₁ defs₀ Variants.none Lq lvq m ρ main (mainSegs m ρ)
    (fun c Q => by
      rewrite [main_chain c, Pipeline.Seg.run_eq_chain,
        show (mainSegs m ρ).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()) ] from rfl]
      exact .rfl)
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Rest c)) (Tₙ := lastState m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach Lq lvq fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B16 m ρ c b)
    (hfin := fun c s' => by
      iintro ⟨⟨Hh, -⟩, HSI⟩
      unfold StableHlo.held
      imodintro
      iapply (pointsTo_read_all (Pipeline.ucRefs τ sig) (fun b => (((c : Thread nD τ)).1, b)) (B16 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_uc main_arg0 (by decide))).trans (B16_main_arg0 m ρ c),
    (h c _ (mem_uc main_arg1 (by decide))).trans (B16_main_arg1 m ρ c),
    (h c _ (mem_uc main_arg2 (by decide))).trans (B16_main_arg2 m ρ c),
    (h c _ (mem_uc main_arg3 (by decide))).trans (B16_main_arg3 m ρ c),
    (h c _ (mem_uc main_arg4 (by decide))).trans (B16_main_arg4 m ρ c),
    (h c _ (mem_uc main_arg5 (by decide))).trans (B16_main_arg5 m ρ c),
    (h c _ (mem_uc main_arg6 (by decide))).trans (B16_main_arg6 m ρ c),
    (h c _ (mem_uc main_arg7 (by decide))).trans (B16_main_arg7 m ρ c),
    (h c _ (mem_uc main_arg8 (by decide))).trans (B16_main_arg8 m ρ c),
    (h c _ (mem_uc main_arg9 (by decide))).trans (B16_main_arg9 m ρ c),
    (h c _ (mem_uc main_arg10 (by decide))).trans (B16_main_arg10 m ρ c),
    (h c _ (mem_uc main_arg11 (by decide))).trans (B16_main_arg11 m ρ c),
    (h c _ (mem_uc main_arg12 (by decide))).trans (B16_main_arg12 m ρ c)⟩) (run_all m ρ)

end Cert.Kernel.Frame

end
-- ==== Proof.KernelIdealRegion0.lean ====
/-
  Region 0 of @main (a graph layer: one grid point takes a 2000-row block of the node features, the same rows of the aggregated neighbour features and the whole 128x128 weight matrix, and stores max((h + agg) · W, 0) of them, once, over the whole output block.)
  Stated at a parameter `V`, the buffers' contents when the region is entered: the blocks the windows read, what the body
  leaves in the output's staging buffer, the body's triple, the pipeline's proof data and the body obligation at every
  grid point.
-/
import proofs.«160791_j62036507623881_2_alg».proof.Proof.Gen.KernelIdeal.Launch
import proofs.«160791_j62036507623881_2_alg».proof.Proof.Gen.KernelIdeal.Skeleton
import proofs.«160791_j62036507623881_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The rectangles the body loads and stores through. -/
abbrev r0_a : Rect S2000x128 := Rect.unit (s := S2000x128) ![0, 0] S2000x128.size inb_S2000x128_S2000x128_0_0
abbrev r0_b : Rect S128x128 := Rect.unit (s := S128x128) ![0, 0] S128x128.size inb_S128x128_S128x128_0_0

/-- The output's staging buffer after the body, from the input blocks: the body's stores as pieces, last first. -/
def out0_3 (x0 : Vec F S2000x128 .f32) (x1 : Vec F S2000x128 .f32) (x2 : Vec F S128x128 .f32) : Vec F S2000x128 .f32 :=
  View.canon [⟨r0_a, k0_pay1 (View.ld x0 r0_a) (View.ld x1 r0_a) (View.ld x2 r0_b)⟩]

/-- The stores cover the buffer. -/
theorem cover0_3 (p0 : Vec F S2000x128 .f32) (y : S2000x128.Idx) :
    ∃ pc ∈ ([⟨r0_a, p0⟩] : List (View.Piece (Elt F) S2000x128 .f32)), y ∈ pc.1.set :=
  View.cover_of_tiled [⟨r0_a, p0⟩] S2000x128.size (by rfl) y

set_option maxHeartbeats 1000000 in
/-- The body on whole staging memrefs, the inputs' at contents `xW` and the output's at anything, runs to the continuation
    holding the inputs' as they were and the output's at `out0_3` of them. -/
theorem sound_kernel0 (c : Dev nD) (E : Set ℕ) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S2000x128 .f32) (harg4 : arg4.IsWhole)
    (x0 : Vec F S2000x128 .f32) (x1 : Vec F S2000x128 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__gnn_layer_kernel i arg1 harg1 arg2 harg2 arg3 harg3 arg4 harg4) K := by
  simp only [cc0__gnn_layer_kernel_eq_skeleton]; unfold cc0__gnn_layer_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of pipeline 0 on core `c`: the arrays as the region finds them; after the body at point `t` each
    input's buffer at its block and the output's at `out0_3` of the input blocks; the scoped rest and the generator
    register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frame

end
-- ==== Proof.KernelIdealRegion1.lean ====
/-
  Region 1 of @main (a graph layer: one grid point takes a 2000-row block of the node features, the same rows of the aggregated neighbour features and the whole 128x128 weight matrix, and stores max((h + agg) · W, 0) of them, once, over the whole output block.)
  Stated at a parameter `V`, the buffers' contents when the region is entered: the blocks the windows read, what the body
  leaves in the output's staging buffer, the body's triple, the pipeline's proof data and the body obligation at every
  grid point.
-/
import proofs.«160791_j62036507623881_2_alg».proof.Proof.Gen.KernelIdeal.Launch
import proofs.«160791_j62036507623881_2_alg».proof.Proof.Gen.KernelIdeal.Skeleton
import proofs.«160791_j62036507623881_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The rectangles the body loads and stores through. -/
abbrev r1_a : Rect S2000x128 := Rect.unit (s := S2000x128) ![0, 0] S2000x128.size inb_S2000x128_S2000x128_0_0
abbrev r1_b : Rect S128x128 := Rect.unit (s := S128x128) ![0, 0] S128x128.size inb_S128x128_S128x128_0_0

/-- The output's staging buffer after the body, from the input blocks: the body's stores as pieces, last first. -/
def out1_3 (x0 : Vec F S2000x128 .f32) (x1 : Vec F S2000x128 .f32) (x2 : Vec F S128x128 .f32) : Vec F S2000x128 .f32 :=
  View.canon [⟨r1_a, k1_pay1 (View.ld x0 r1_a) (View.ld x1 r1_a) (View.ld x2 r1_b)⟩]

/-- The stores cover the buffer. -/
theorem cover1_3 (p0 : Vec F S2000x128 .f32) (y : S2000x128.Idx) :
    ∃ pc ∈ ([⟨r1_a, p0⟩] : List (View.Piece (Elt F) S2000x128 .f32)), y ∈ pc.1.set :=
  View.cover_of_tiled [⟨r1_a, p0⟩] S2000x128.size (by rfl) y

set_option maxHeartbeats 1000000 in
/-- The body on whole staging memrefs, the inputs' at contents `xW` and the output's at anything, runs to the continuation
    holding the inputs' as they were and the output's at `out1_3` of them. -/
theorem sound_kernel1 (c : Dev nD) (E : Set ℕ) (i : grid1.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S2000x128 .f32) (harg4 : arg4.IsWhole)
    (x0 : Vec F S2000x128 .f32) (x1 : Vec F S2000x128 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__gnn_layer_kernel i arg1 harg1 arg2 harg2 arg3 harg3 arg4 harg4) K := by
  simp only [cc1__gnn_layer_kernel_eq_skeleton]; unfold cc1__gnn_layer_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of pipeline 1 on core `c`: the arrays as the region finds them; after the body at point `t` each
    input's buffer at its block and the output's at `out1_3` of the input blocks; the scoped rest and the generator
    register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Frame

end
-- ==== Proof.KernelIdealRegion2.lean ====
/-
  Region 2 of @main (a graph layer: one grid point takes a 2000-row block of the node features, the same rows of the aggregated neighbour features and the whole 128x128 weight matrix, and stores max((h + agg) · W, 0) of them, once, over the whole output block.)
  Stated at a parameter `V`, the buffers' contents when the region is entered: the blocks the windows read, what the body
  leaves in the output's staging buffer, the body's triple, the pipeline's proof data and the body obligation at every
  grid point.
-/
import proofs.«160791_j62036507623881_2_alg».proof.Proof.Gen.KernelIdeal.Launch
import proofs.«160791_j62036507623881_2_alg».proof.Proof.Gen.KernelIdeal.Skeleton
import proofs.«160791_j62036507623881_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The rectangles the body loads and stores through. -/
abbrev r2_a : Rect S2000x128 := Rect.unit (s := S2000x128) ![0, 0] S2000x128.size inb_S2000x128_S2000x128_0_0
abbrev r2_b : Rect S128x128 := Rect.unit (s := S128x128) ![0, 0] S128x128.size inb_S128x128_S128x128_0_0

/-- The output's staging buffer after the body, from the input blocks: the body's stores as pieces, last first. -/
def out2_3 (x0 : Vec F S2000x128 .f32) (x1 : Vec F S2000x128 .f32) (x2 : Vec F S128x128 .f32) : Vec F S2000x128 .f32 :=
  View.canon [⟨r2_a, k2_pay1 (View.ld x0 r2_a) (View.ld x1 r2_a) (View.ld x2 r2_b)⟩]

/-- The stores cover the buffer. -/
theorem cover2_3 (p0 : Vec F S2000x128 .f32) (y : S2000x128.Idx) :
    ∃ pc ∈ ([⟨r2_a, p0⟩] : List (View.Piece (Elt F) S2000x128 .f32)), y ∈ pc.1.set :=
  View.cover_of_tiled [⟨r2_a, p0⟩] S2000x128.size (by rfl) y

set_option maxHeartbeats 1000000 in
/-- The body on whole staging memrefs, the inputs' at contents `xW` and the output's at anything, runs to the continuation
    holding the inputs' as they were and the output's at `out2_3` of them. -/
theorem sound_kernel2 (c : Dev nD) (E : Set ℕ) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S2000x128 .f32) (harg4 : arg4.IsWhole)
    (x0 : Vec F S2000x128 .f32) (x1 : Vec F S2000x128 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__gnn_layer_kernel i arg1 harg1 arg2 harg2 arg3 harg3 arg4 harg4) K := by
  simp only [cc2__gnn_layer_kernel_eq_skeleton]; unfold cc2__gnn_layer_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of pipeline 2 on core `c`: the arrays as the region finds them; after the body at point `t` each
    input's buffer at its block and the output's at `out2_3` of the input blocks; the scoped rest and the generator
    register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Frame

end
-- ==== Proof.KernelIdealRegion3.lean ====
/-
  Region 3 of @main (the first cell layer's product: one grid point takes a 4000-row block of the cell features and the whole 128x384 matrix of the three weight matrices side by side, and stores their product, once, over the whole output block.)
  Stated at a parameter `V`, the buffers' contents when the region is entered: the blocks the windows read, what the body
  leaves in the output's staging buffer, the body's triple, the pipeline's proof data and the body obligation at every
  grid point.
-/
import proofs.«160791_j62036507623881_2_alg».proof.Proof.Gen.KernelIdeal.Launch
import proofs.«160791_j62036507623881_2_alg».proof.Proof.Gen.KernelIdeal.Skeleton
import proofs.«160791_j62036507623881_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The rectangles the body loads and stores through. -/
abbrev r3_a : Rect S4000x128 := Rect.unit (s := S4000x128) ![0, 0] S4000x128.size inb_S4000x128_S4000x128_0_0
abbrev r3_b : Rect S128x384 := Rect.unit (s := S128x384) ![0, 0] S128x384.size inb_S128x384_S128x384_0_0
abbrev r3_c : Rect S4000x384 := Rect.unit (s := S4000x384) ![0, 0] S4000x384.size inb_S4000x384_S4000x384_0_0

/-- The output's staging buffer after the body, from the input blocks: the body's stores as pieces, last first. -/
def out3_2 (x0 : Vec F S4000x128 .f32) (x1 : Vec F S128x384 .f32) : Vec F S4000x384 .bf16 :=
  View.canon [⟨r3_c, k3_pay1 (View.ld x0 r3_a) (View.ld x1 r3_b)⟩]

/-- The stores cover the buffer. -/
theorem cover3_2 (p0 : Vec F S4000x384 .bf16) (y : S4000x384.Idx) :
    ∃ pc ∈ ([⟨r3_c, p0⟩] : List (View.Piece (Elt F) S4000x384 .bf16)), y ∈ pc.1.set :=
  View.cover_of_tiled [⟨r3_c, p0⟩] S4000x384.size (by rfl) y

set_option maxHeartbeats 1000000 in
/-- The body on whole staging memrefs, the inputs' at contents `xW` and the output's at anything, runs to the continuation
    holding the inputs' as they were and the output's at `out3_2` of them. -/
theorem sound_kernel3 (c : Dev nD) (E : Set ℕ) (i : grid3.Coords) (arg1 : Memref sig .tc .vmem S4000x128 .f32) (harg1 : arg1.IsWhole) (arg2 : Memref sig .tc .vmem S128x384 .f32) (harg2 : arg2.IsWhole) (arg3 : Memref sig .tc .vmem S4000x384 .bf16) (harg3 : arg3.IsWhole)
    (x0 : Vec F S4000x128 .f32) (x1 : Vec F S128x384 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__cwnn_first_matmul_kernel i arg1 harg1 arg2 harg2 arg3 harg3) K := by
  simp only [cc3__cwnn_first_matmul_kernel_eq_skeleton]; unfold cc3__cwnn_first_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The proof data of pipeline 3 on core `c`: the arrays as the region finds them; after the body at point `t` each
    input's buffer at its block and the output's at `out3_2` of the input blocks; the scoped rest and the generator
    register untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Frame

end
-- ==== Proof.KernelIdealRegion4.lean ====
/-
  Region 4 of @main (a cell layer's combination fused with the next layer's product: one grid point takes 2000-row blocks of the three summands and the whole 128x384 matrix of the next layer's weights, and stores max(t0 + sd + su, 0) · W, once, over the whole output block.)
  Stated at a parameter `V`, the buffers' contents when the region is entered: the blocks the windows read, what the body
  leaves in the output's staging buffer, the body's triple, the pipeline's proof data and the body obligation at every
  grid point.
-/
import proofs.«160791_j62036507623881_2_alg».proof.Proof.Gen.KernelIdeal.Launch
import proofs.«160791_j62036507623881_2_alg».proof.Proof.Gen.KernelIdeal.Skeleton
import proofs.«160791_j62036507623881_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- The rectangles the body loads and stores through. -/
abbrev r4_a : Rect S2000x128 := Rect.unit (s := S2000x128) ![0, 0] S2000x128.size inb_S2000x128_S2000x128_0_0
abbrev r4_b : Rect S128x384 := Rect.unit (s := S128x384) ![0, 0] S128x384.size inb_S128x384_S128x384_0_0
abbrev r4_c : Rect S2000x384 := Rect.unit (s := S2000x384) ![0, 0] S2000x384.size inb_S2000x384_S2000x384_0_0

/-- The output's staging buffer after the body, from the input blocks: the body's stores as pieces, last first. -/
def out4_4 (x0 : Vec F S2000x128 .bf16) (x1 : Vec F S2000x128 .f32) (x2 : Vec F S2000x128 .f32) (x3 : Vec F S128x384 .f32) : Vec F S2000x384 .bf16 :=
  View.canon [⟨r4_c, k4_pay1 (View.ld x0 r4_a) (View.ld x1 r4_a) (View.ld x2 r4_a) (View.ld x3 r4_b)⟩]

/-- The stores cover the buffer. -/
theorem cover4_4 (p0 : Vec F S2000x384 .bf16) (y : S2000x384.Idx) :
    ∃ pc ∈ ([⟨r4_c, p0⟩] : List (View.Piece (Elt F) S2000x384 .bf16)), y ∈ pc.1.set :=
  View.cover_of_tiled [⟨r4_c, p0⟩] S2000x384.size (by rfl) y

set_option maxHeartbeats 1000000 in
/-- The body on whole staging memrefs, the inputs' at contents `xW` and the output's at anything, runs to the continuation
    holding the inputs' as they were and the output's at `out4_4` of them. -/
theorem sound_kernel4 (c : Dev nD) (E : Set ℕ) (i : grid4.Coords) (arg1 : Memref sig .tc .vmem S2000x128 .bf16) (harg1 : arg1.IsWhole) (arg2 : Memref sig .tc .vmem S2000x128 .f32) (harg2 : arg2.IsWhole) (arg3 : Memref sig .tc .vmem S2000x128 .f32) (harg3 : arg3.IsWhole) (arg4 : Memref sig .tc .vmem S128x384 .f32) (harg4 : arg4.IsWhole) (arg5 : Memref sig .tc .vmem S2000x384 .bf16) (harg5 : arg5.IsWhole)
    (x0 : Vec F S2000x128 .bf16) (x1 : Vec F S2000x128 .f32) (x2 : Vec F S2000x128 .f32) (x3 : Vec F S128x384 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out4_4 x0 x1 x2 x3)) -∗ K ⟨⟩))
      ⊢ wp frame (wpE (defs₀ (F := F)) Variants.none c none) E (cc4__cwnn_fused_combine_matmul_kernel i arg1 harg1 arg2 harg2 arg3 harg3 arg4 harg4 arg5 harg5) K := by
  simp only [cc4__cwnn_fused_combine_matmul_kernel_eq_skeleton]; unfold cc4__cwnn_fused_combine_matmul_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4_4 _)

/-- The proof data of pipeline 4 on core `c`: the arrays as the region finds them; after the body at point `t` each
    input's buffer at its block and the output's at `out4_4` of the input blocks; the scoped rest and the generator
    register untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = out4_4 (iblk4 V c 0 t) (iblk4 V c 1 t) (iblk4 V c 2 t) (iblk4 V c 3 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

/-- The body at any point: the inputs' memrefs hold their blocks, so the body's triple applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ _ _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Frame

end
-- ==== Proof.KernelIdealRegion5.lean ====
/-
  Region 5 of @main (a cell layer's combination fused with the next layer's product: one grid point takes 2000-row blocks of the three summands and the whole 128x384 matrix of the next layer's weights, and stores max(t0 + sd + su, 0) · W, once, over the whole output block.)
  Stated at a parameter `V`, the buffers' contents when the region is entered: the blocks the windows read, what the body
  leaves in the output's staging buffer, the body's triple, the pipeline's proof data and the body obligation at every
  grid point.
-/
import proofs.«160791_j62036507623881_2_alg».proof.Proof.Gen.KernelIdeal.Launch
import proofs.«160791_j62036507623881_2_alg».proof.Proof.Gen.KernelIdeal.Skeleton
import proofs.«160791_j62036507623881_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- The rectangles the body loads and stores through. -/
abbrev r5_a : Rect S2000x128 := Rect.unit (s := S2000x128) ![0, 0] S2000x128.size inb_S2000x128_S2000x128_0_0
abbrev r5_b : Rect S128x384 := Rect.unit (s := S128x384) ![0, 0] S128x384.size inb_S128x384_S128x384_0_0
abbrev r5_c : Rect S2000x384 := Rect.unit (s := S2000x384) ![0, 0] S2000x384.size inb_S2000x384_S2000x384_0_0

/-- The output's staging buffer after the body, from the input blocks: the body's stores as pieces, last first. -/
def out5_4 (x0 : Vec F S2000x128 .bf16) (x1 : Vec F S2000x128 .f32) (x2 : Vec F S2000x128 .f32) (x3 : Vec F S128x384 .f32) : Vec F S2000x384 .bf16 :=
  View.canon [⟨r5_c, k5_pay1 (View.ld x0 r5_a) (View.ld x1 r5_a) (View.ld x2 r5_a) (View.ld x3 r5_b)⟩]

/-- The stores cover the buffer. -/
theorem cover5_4 (p0 : Vec F S2000x384 .bf16) (y : S2000x384.Idx) :
    ∃ pc ∈ ([⟨r5_c, p0⟩] : List (View.Piece (Elt F) S2000x384 .bf16)), y ∈ pc.1.set :=
  View.cover_of_tiled [⟨r5_c, p0⟩] S2000x384.size (by rfl) y

set_option maxHeartbeats 1000000 in
/-- The body on whole staging memrefs, the inputs' at contents `xW` and the output's at anything, runs to the continuation
    holding the inputs' as they were and the output's at `out5_4` of them. -/
theorem sound_kernel5 (c : Dev nD) (E : Set ℕ) (i : grid5.Coords) (arg1 : Memref sig .tc .vmem S2000x128 .bf16) (harg1 : arg1.IsWhole) (arg2 : Memref sig .tc .vmem S2000x128 .f32) (harg2 : arg2.IsWhole) (arg3 : Memref sig .tc .vmem S2000x128 .f32) (harg3 : arg3.IsWhole) (arg4 : Memref sig .tc .vmem S128x384 .f32) (harg4 : arg4.IsWhole) (arg5 : Memref sig .tc .vmem S2000x384 .bf16) (harg5 : arg5.IsWhole)
    (x0 : Vec F S2000x128 .bf16) (x1 : Vec F S2000x128 .f32) (x2 : Vec F S2000x128 .f32) (x3 : Vec F S128x384 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out5_4 x0 x1 x2 x3)) -∗ K ⟨⟩))
      ⊢ wp frame (wpE (defs₀ (F := F)) Variants.none c none) E (cc5__cwnn_fused_combine_matmul_kernel i arg1 harg1 arg2 harg2 arg3 harg3 arg4 harg4 arg5 harg5) K := by
  simp only [cc5__cwnn_fused_combine_matmul_kernel_eq_skeleton]; unfold cc5__cwnn_fused_combine_matmul_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover5_4 _)

/-- The proof data of pipeline 5 on core `c`: the arrays as the region finds them; after the body at point `t` each
    input's buffer at its block and the output's at `out5_4` of the input blocks; the scoped rest and the generator
    register untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = out5_4 (iblk5 V c 0 t) (iblk5 V c 1 t) (iblk5 V c 2 t) (iblk5 V c 3 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

/-- The body at any point: the inputs' memrefs hold their blocks, so the body's triple applies; the invariant and the
    core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ _ _ _ _ _ _ _ _ _ _ _ (iblk5 V c 0 t) (iblk5 V c 1 t) (iblk5 V c 2 t) (iblk5 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Frame

end
-- ==== Proof.KernelIdealRegion6.lean ====
/-
  Region 6 of @main (the last cell layer's combination: one grid point takes 4000-row blocks of the three summands and stores max(t0 + sd + su, 0), once, over the whole output block.)
  Stated at a parameter `V`, the buffers' contents when the region is entered: the blocks the windows read, what the body
  leaves in the output's staging buffer, the body's triple, the pipeline's proof data and the body obligation at every
  grid point.
-/
import proofs.«160791_j62036507623881_2_alg».proof.Proof.Gen.KernelIdeal.Launch
import proofs.«160791_j62036507623881_2_alg».proof.Proof.Gen.KernelIdeal.Skeleton
import proofs.«160791_j62036507623881_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- The rectangles the body loads and stores through. -/
abbrev r6_a : Rect S4000x128 := Rect.unit (s := S4000x128) ![0, 0] S4000x128.size inb_S4000x128_S4000x128_0_0

/-- The output's staging buffer after the body, from the input blocks: the body's stores as pieces, last first. -/
def out6_3 (x0 : Vec F S4000x128 .bf16) (x1 : Vec F S4000x128 .f32) (x2 : Vec F S4000x128 .f32) : Vec F S4000x128 .f32 :=
  View.canon [⟨r6_a, k6_pay1 (View.ld x0 r6_a) (View.ld x1 r6_a) (View.ld x2 r6_a)⟩]

/-- The stores cover the buffer. -/
theorem cover6_3 (p0 : Vec F S4000x128 .f32) (y : S4000x128.Idx) :
    ∃ pc ∈ ([⟨r6_a, p0⟩] : List (View.Piece (Elt F) S4000x128 .f32)), y ∈ pc.1.set :=
  View.cover_of_tiled [⟨r6_a, p0⟩] S4000x128.size (by rfl) y

set_option maxHeartbeats 1000000 in
/-- The body on whole staging memrefs, the inputs' at contents `xW` and the output's at anything, runs to the continuation
    holding the inputs' as they were and the output's at `out6_3` of them. -/
theorem sound_kernel6 (c : Dev nD) (E : Set ℕ) (i : grid6.Coords) (arg1 : Memref sig .tc .vmem S4000x128 .bf16) (harg1 : arg1.IsWhole) (arg2 : Memref sig .tc .vmem S4000x128 .f32) (harg2 : arg2.IsWhole) (arg3 : Memref sig .tc .vmem S4000x128 .f32) (harg3 : arg3.IsWhole) (arg4 : Memref sig .tc .vmem S4000x128 .f32) (harg4 : arg4.IsWhole)
    (x0 : Vec F S4000x128 .bf16) (x1 : Vec F S4000x128 .f32) (x2 : Vec F S4000x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out6_3 x0 x1 x2)) -∗ K ⟨⟩))
      ⊢ wp frame (wpE (defs₀ (F := F)) Variants.none c none) E (cc6__cwnn_final_combine_kernel i arg1 harg1 arg2 harg2 arg3 harg3 arg4 harg4) K := by
  simp only [cc6__cwnn_final_combine_kernel_eq_skeleton]; unfold cc6__cwnn_final_combine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-- The proof data of pipeline 6 on core `c`: the arrays as the region finds them; after the body at point `t` each
    input's buffer at its block and the output's at `out6_3` of the input blocks; the scoped rest and the generator
    register untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the inputs' memrefs hold their blocks, so the body's triple applies; the invariant and the
    core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Frame

end
-- ==== Proof.KernelIdealRegion7.lean ====
/-
  Region 7 of @main (the final concatenation: one grid point takes 2000-row blocks of the node features and of the two scattered cell sums, and stores the node features over the left 128 columns of the output block and the sum of the two others over the right 128 columns.)
  Stated at a parameter `V`, the buffers' contents when the region is entered: the blocks the windows read, what the body
  leaves in the output's staging buffer, the body's triple, the pipeline's proof data and the body obligation at every
  grid point.
-/
import proofs.«160791_j62036507623881_2_alg».proof.Proof.Gen.KernelIdeal.Launch
import proofs.«160791_j62036507623881_2_alg».proof.Proof.Gen.KernelIdeal.Skeleton
import proofs.«160791_j62036507623881_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, fetched there or not. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- The rectangles the body loads and stores through. -/
abbrev r7_a : Rect S2000x128 := Rect.unit (s := S2000x128) ![0, 0] S2000x128.size inb_S2000x128_S2000x128_0_0
abbrev r7_l : Rect S2000x256 := Rect.unit (s := S2000x256) ![0, 0] S2000x128.size inb_S2000x256_S2000x128_0_0
abbrev r7_r : Rect S2000x256 := Rect.unit (s := S2000x256) ![0, 128] S2000x128.size inb_S2000x256_S2000x128_0_128

/-- The output's staging buffer after the body, from the input blocks: the body's stores as pieces, last first. -/
def out7_3 (x0 : Vec F S2000x128 .f32) (x1 : Vec F S2000x128 .f32) (x2 : Vec F S2000x128 .f32) : Vec F S2000x256 .f32 :=
  View.canon [⟨r7_r, k7_pay2 (View.ld x1 r7_a) (View.ld x2 r7_a)⟩, ⟨r7_l, k7_pay1 (View.ld x0 r7_a)⟩]

/-- The stores cover the buffer. -/
theorem cover7_3 (p0 : Vec F S2000x128 .f32) (p1 : Vec F S2000x128 .f32) (y : S2000x256.Idx) :
    ∃ pc ∈ ([⟨r7_r, p0⟩, ⟨r7_l, p1⟩] : List (View.Piece (Elt F) S2000x256 .f32)), y ∈ pc.1.set :=
  View.cover_of_tiled [⟨r7_r, p0⟩, ⟨r7_l, p1⟩] S2000x128.size (by rfl) y

set_option maxHeartbeats 1000000 in
/-- The body on whole staging memrefs, the inputs' at contents `xW` and the output's at anything, runs to the continuation
    holding the inputs' as they were and the output's at `out7_3` of them. -/
theorem sound_kernel7 (c : Dev nD) (E : Set ℕ) (i : grid7.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S2000x256 .f32) (harg4 : arg4.IsWhole)
    (x0 : Vec F S2000x128 .f32) (x1 : Vec F S2000x128 .f32) (x2 : Vec F S2000x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out7_3 x0 x1 x2)) -∗ K ⟨⟩))
      ⊢ wp frame (wpE (defs₀ (F := F)) Variants.none c none) E (cc7__concat_kernel i arg1 harg1 arg2 harg2 arg3 harg3 arg4 harg4) K := by
  simp only [cc7__concat_kernel_eq_skeleton]; unfold cc7__concat_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover7_3 _ _)

/-- The proof data of pipeline 7 on core `c`: the arrays as the region finds them; after the body at point `t` each
    input's buffer at its block and the output's at `out7_3` of the input blocks; the scoped rest and the generator
    register untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = out7_3 (iblk7 V c 0 t) (iblk7 V c 1 t) (iblk7 V c 2 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

/-- The body at any point: the inputs' memrefs hold their blocks, so the body's triple applies; the invariant and the
    core's dues pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%d0, H0⟩, ⟨%d1, H1⟩, ⟨%d2, H2⟩, ⟨%d3, H3⟩⟩
  iapply (sound_kernel7 c Set.univ _ _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Frame

end
-- ==== Proof.KernelIdealRun.lean ====
/-
  The run of @main as sixteen segments: eight stretches of host operations, each followed by one kernel region.
  `B0` is a core's buffers at launch; `B(2K+1)` is what host stretch K leaves (the fold of its operations over
  `B(2K)`) and `B(2K+2)` what region K leaves: its arrays at what its pipeline's write-backs leave, every other buffer
  as entered.  Every weakly fair execution of @main terminates without a fault in a state whose unscoped buffers are
  `B16`; no stretch and no region writes an argument, so each argument's buffer walks back through the sixteen
  boundaries to its launch contents.
-/
import proofs.«160791_j62036507623881_2_alg».proof.Proof.Gen.KernelIdeal.Regions
import proofs.«160791_j62036507623881_2_alg».proof.Proof.KernelIdealRegion0
import proofs.«160791_j62036507623881_2_alg».proof.Proof.KernelIdealRegion1
import proofs.«160791_j62036507623881_2_alg».proof.Proof.KernelIdealRegion2
import proofs.«160791_j62036507623881_2_alg».proof.Proof.KernelIdealRegion3
import proofs.«160791_j62036507623881_2_alg».proof.Proof.KernelIdealRegion4
import proofs.«160791_j62036507623881_2_alg».proof.Proof.KernelIdealRegion5
import proofs.«160791_j62036507623881_2_alg».proof.Proof.KernelIdealRegion6
import proofs.«160791_j62036507623881_2_alg».proof.Proof.KernelIdealRegion7
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev B0 : Dev nD → Valuation τ sig (Elt F) := fun c b => (s₀ m ρ).mem ((c : Dev nD), b)

/-- After host stretch 0: what region 0 is entered from, -/
abbrev B1 : Dev nD → Valuation τ sig (Elt F) := fun c => StableHlo.after hostOps0 (B0 m ρ c)
/-- the same read at the TensorCore's references, -/
abbrev E1 : (c : Dev nD) → (b : Ref sig .tc) → Buf (Elt F) ((c : Thread nD τ).loc b) := fun c b => B1 m ρ c b
/-- and what region 0 leaves: its arrays at what the pipeline's write-backs leave, every other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- After host stretch 1: what region 1 is entered from, -/
abbrev B3 : Dev nD → Valuation τ sig (Elt F) := fun c => StableHlo.after hostOps1 (B2 m ρ c)
/-- the same read at the TensorCore's references, -/
abbrev E3 : (c : Dev nD) → (b : Ref sig .tc) → Buf (Elt F) ((c : Thread nD τ).loc b) := fun c b => B3 m ρ c b
/-- and what region 1 leaves: its arrays at what the pipeline's write-backs leave, every other buffer as entered. -/
def B4 (c : Dev nD) : Valuation τ sig (Elt F) :=
  Pipeline.withArrays spec1 c (B3 m ρ c) fun w => (dat1 (E3 m ρ) c).arrAt w cfg1.N
theorem B4_arr (c : Dev nD) (w : Fin cfg1.W) :
    B4 m ρ c (Proc.devRef .tc (Pipeline.arrRef spec1 w)) = (dat1 (E3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev E4 : (c : Dev nD) → (b : Ref sig .tc) → Buf (Elt F) ((c : Thread nD τ).loc b) := fun c b => B4 m ρ c b
theorem hF1 (c : Dev nD) (w : Fin cfg1.W) : (dat1 (E3 m ρ) c).arrAt w cfg1.N = E4 m ρ c (Pipeline.arrRef spec1 w) :=
  (B4_arr m ρ c w).symm
theorem hrest1 (c : Dev nD) : ∀ b, b ∉ Finset.univ.image (Pipeline.arrRef spec1) → E4 m ρ c b = E3 m ρ c b :=
  fun b hb => B4_of_ne m ρ c b fun w e => hb (Finset.mem_image.mpr ⟨w, Finset.mem_univ _, e⟩)

/-- After host stretch 2: what region 2 is entered from, -/
abbrev B5 : Dev nD → Valuation τ sig (Elt F) := fun c => StableHlo.after hostOps2 (B4 m ρ c)
/-- the same read at the TensorCore's references, -/
abbrev E5 : (c : Dev nD) → (b : Ref sig .tc) → Buf (Elt F) ((c : Thread nD τ).loc b) := fun c b => B5 m ρ c b
/-- and what region 2 leaves: its arrays at what the pipeline's write-backs leave, every other buffer as entered. -/
def B6 (c : Dev nD) : Valuation τ sig (Elt F) :=
  Pipeline.withArrays spec2 c (B5 m ρ c) fun w => (dat2 (E5 m ρ) c).arrAt w cfg2.N
theorem B6_arr (c : Dev nD) (w : Fin cfg2.W) :
    B6 m ρ c (Proc.devRef .tc (Pipeline.arrRef spec2 w)) = (dat2 (E5 m ρ) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m ρ c (Proc.devRef .tc b) = B5 m ρ c (Proc.devRef .tc b) := by
  unfold B6; exact Pipeline.withArrays_of_ne spec2 c _ _ b hb
abbrev E6 : (c : Dev nD) → (b : Ref sig .tc) → Buf (Elt F) ((c : Thread nD τ).loc b) := fun c b => B6 m ρ c b
theorem hF2 (c : Dev nD) (w : Fin cfg2.W) : (dat2 (E5 m ρ) c).arrAt w cfg2.N = E6 m ρ c (Pipeline.arrRef spec2 w) :=
  (B6_arr m ρ c w).symm
theorem hrest2 (c : Dev nD) : ∀ b, b ∉ Finset.univ.image (Pipeline.arrRef spec2) → E6 m ρ c b = E5 m ρ c b :=
  fun b hb => B6_of_ne m ρ c b fun w e => hb (Finset.mem_image.mpr ⟨w, Finset.mem_univ _, e⟩)

/-- After host stretch 3: what region 3 is entered from, -/
abbrev B7 : Dev nD → Valuation τ sig (Elt F) := fun c => StableHlo.after hostOps3 (B6 m ρ c)
/-- the same read at the TensorCore's references, -/
abbrev E7 : (c : Dev nD) → (b : Ref sig .tc) → Buf (Elt F) ((c : Thread nD τ).loc b) := fun c b => B7 m ρ c b
/-- and what region 3 leaves: its arrays at what the pipeline's write-backs leave, every other buffer as entered. -/
def B8 (c : Dev nD) : Valuation τ sig (Elt F) :=
  Pipeline.withArrays spec3 c (B7 m ρ c) fun w => (dat3 (E7 m ρ) c).arrAt w cfg3.N
theorem B8_arr (c : Dev nD) (w : Fin cfg3.W) :
    B8 m ρ c (Proc.devRef .tc (Pipeline.arrRef spec3 w)) = (dat3 (E7 m ρ) c).arrAt w cfg3.N := by
  unfold B8; exact Pipeline.withArrays_arr spec3 launch3.win.arr_inj c _ _ w
theorem B8_of_ne (c : Dev nD) (b : Ref sig .tc) (hb : ∀ w, Pipeline.arrRef spec3 w ≠ b) :
    B8 m ρ c (Proc.devRef .tc b) = B7 m ρ c (Proc.devRef .tc b) := by
  unfold B8; exact Pipeline.withArrays_of_ne spec3 c _ _ b hb
abbrev E8 : (c : Dev nD) → (b : Ref sig .tc) → Buf (Elt F) ((c : Thread nD τ).loc b) := fun c b => B8 m ρ c b
theorem hF3 (c : Dev nD) (w : Fin cfg3.W) : (dat3 (E7 m ρ) c).arrAt w cfg3.N = E8 m ρ c (Pipeline.arrRef spec3 w) :=
  (B8_arr m ρ c w).symm
theorem hrest3 (c : Dev nD) : ∀ b, b ∉ Finset.univ.image (Pipeline.arrRef spec3) → E8 m ρ c b = E7 m ρ c b :=
  fun b hb => B8_of_ne m ρ c b fun w e => hb (Finset.mem_image.mpr ⟨w, Finset.mem_univ _, e⟩)

/-- After host stretch 4: what region 4 is entered from, -/
abbrev B9 : Dev nD → Valuation τ sig (Elt F) := fun c => StableHlo.after hostOps4 (B8 m ρ c)
/-- the same read at the TensorCore's references, -/
abbrev E9 : (c : Dev nD) → (b : Ref sig .tc) → Buf (Elt F) ((c : Thread nD τ).loc b) := fun c b => B9 m ρ c b
/-- and what region 4 leaves: its arrays at what the pipeline's write-backs leave, every other buffer as entered. -/
def B10 (c : Dev nD) : Valuation τ sig (Elt F) :=
  Pipeline.withArrays spec4 c (B9 m ρ c) fun w => (dat4 (E9 m ρ) c).arrAt w cfg4.N
theorem B10_arr (c : Dev nD) (w : Fin cfg4.W) :
    B10 m ρ c (Proc.devRef .tc (Pipeline.arrRef spec4 w)) = (dat4 (E9 m ρ) c).arrAt w cfg4.N := by
  unfold B10; exact Pipeline.withArrays_arr spec4 launch4.win.arr_inj c _ _ w
theorem B10_of_ne (c : Dev nD) (b : Ref sig .tc) (hb : ∀ w, Pipeline.arrRef spec4 w ≠ b) :
    B10 m ρ c (Proc.devRef .tc b) = B9 m ρ c (Proc.devRef .tc b) := by
  unfold B10; exact Pipeline.withArrays_of_ne spec4 c _ _ b hb
abbrev E10 : (c : Dev nD) → (b : Ref sig .tc) → Buf (Elt F) ((c : Thread nD τ).loc b) := fun c b => B10 m ρ c b
theorem hF4 (c : Dev nD) (w : Fin cfg4.W) : (dat4 (E9 m ρ) c).arrAt w cfg4.N = E10 m ρ c (Pipeline.arrRef spec4 w) :=
  (B10_arr m ρ c w).symm
theorem hrest4 (c : Dev nD) : ∀ b, b ∉ Finset.univ.image (Pipeline.arrRef spec4) → E10 m ρ c b = E9 m ρ c b :=
  fun b hb => B10_of_ne m ρ c b fun w e => hb (Finset.mem_image.mpr ⟨w, Finset.mem_univ _, e⟩)

/-- After host stretch 5: what region 5 is entered from, -/
abbrev B11 : Dev nD → Valuation τ sig (Elt F) := fun c => StableHlo.after hostOps5 (B10 m ρ c)
/-- the same read at the TensorCore's references, -/
abbrev E11 : (c : Dev nD) → (b : Ref sig .tc) → Buf (Elt F) ((c : Thread nD τ).loc b) := fun c b => B11 m ρ c b
/-- and what region 5 leaves: its arrays at what the pipeline's write-backs leave, every other buffer as entered. -/
def B12 (c : Dev nD) : Valuation τ sig (Elt F) :=
  Pipeline.withArrays spec5 c (B11 m ρ c) fun w => (dat5 (E11 m ρ) c).arrAt w cfg5.N
theorem B12_arr (c : Dev nD) (w : Fin cfg5.W) :
    B12 m ρ c (Proc.devRef .tc (Pipeline.arrRef spec5 w)) = (dat5 (E11 m ρ) c).arrAt w cfg5.N := by
  unfold B12; exact Pipeline.withArrays_arr spec5 launch5.win.arr_inj c _ _ w
theorem B12_of_ne (c : Dev nD) (b : Ref sig .tc) (hb : ∀ w, Pipeline.arrRef spec5 w ≠ b) :
    B12 m ρ c (Proc.devRef .tc b) = B11 m ρ c (Proc.devRef .tc b) := by
  unfold B12; exact Pipeline.withArrays_of_ne spec5 c _ _ b hb
abbrev E12 : (c : Dev nD) → (b : Ref sig .tc) → Buf (Elt F) ((c : Thread nD τ).loc b) := fun c b => B12 m ρ c b
theorem hF5 (c : Dev nD) (w : Fin cfg5.W) : (dat5 (E11 m ρ) c).arrAt w cfg5.N = E12 m ρ c (Pipeline.arrRef spec5 w) :=
  (B12_arr m ρ c w).symm
theorem hrest5 (c : Dev nD) : ∀ b, b ∉ Finset.univ.image (Pipeline.arrRef spec5) → E12 m ρ c b = E11 m ρ c b :=
  fun b hb => B12_of_ne m ρ c b fun w e => hb (Finset.mem_image.mpr ⟨w, Finset.mem_univ _, e⟩)

/-- After host stretch 6: what region 6 is entered from, -/
abbrev B13 : Dev nD → Valuation τ sig (Elt F) := fun c => StableHlo.after hostOps6 (B12 m ρ c)
/-- the same read at the TensorCore's references, -/
abbrev E13 : (c : Dev nD) → (b : Ref sig .tc) → Buf (Elt F) ((c : Thread nD τ).loc b) := fun c b => B13 m ρ c b
/-- and what region 6 leaves: its arrays at what the pipeline's write-backs leave, every other buffer as entered. -/
def B14 (c : Dev nD) : Valuation τ sig (Elt F) :=
  Pipeline.withArrays spec6 c (B13 m ρ c) fun w => (dat6 (E13 m ρ) c).arrAt w cfg6.N
theorem B14_arr (c : Dev nD) (w : Fin cfg6.W) :
    B14 m ρ c (Proc.devRef .tc (Pipeline.arrRef spec6 w)) = (dat6 (E13 m ρ) c).arrAt w cfg6.N := by
  unfold B14; exact Pipeline.withArrays_arr spec6 launch6.win.arr_inj c _ _ w
theorem B14_of_ne (c : Dev nD) (b : Ref sig .tc) (hb : ∀ w, Pipeline.arrRef spec6 w ≠ b) :
    B14 m ρ c (Proc.devRef .tc b) = B13 m ρ c (Proc.devRef .tc b) := by
  unfold B14; exact Pipeline.withArrays_of_ne spec6 c _ _ b hb
abbrev E14 : (c : Dev nD) → (b : Ref sig .tc) → Buf (Elt F) ((c : Thread nD τ).loc b) := fun c b => B14 m ρ c b
theorem hF6 (c : Dev nD) (w : Fin cfg6.W) : (dat6 (E13 m ρ) c).arrAt w cfg6.N = E14 m ρ c (Pipeline.arrRef spec6 w) :=
  (B14_arr m ρ c w).symm
theorem hrest6 (c : Dev nD) : ∀ b, b ∉ Finset.univ.image (Pipeline.arrRef spec6) → E14 m ρ c b = E13 m ρ c b :=
  fun b hb => B14_of_ne m ρ c b fun w e => hb (Finset.mem_image.mpr ⟨w, Finset.mem_univ _, e⟩)

/-- After host stretch 7: what region 7 is entered from, -/
abbrev B15 : Dev nD → Valuation τ sig (Elt F) := fun c => StableHlo.after hostOps7 (B14 m ρ c)
/-- the same read at the TensorCore's references, -/
abbrev E15 : (c : Dev nD) → (b : Ref sig .tc) → Buf (Elt F) ((c : Thread nD τ).loc b) := fun c b => B15 m ρ c b
/-- and what region 7 leaves: its arrays at what the pipeline's write-backs leave, every other buffer as entered. -/
def B16 (c : Dev nD) : Valuation τ sig (Elt F) :=
  Pipeline.withArrays spec7 c (B15 m ρ c) fun w => (dat7 (E15 m ρ) c).arrAt w cfg7.N
theorem B16_arr (c : Dev nD) (w : Fin cfg7.W) :
    B16 m ρ c (Proc.devRef .tc (Pipeline.arrRef spec7 w)) = (dat7 (E15 m ρ) c).arrAt w cfg7.N := by
  unfold B16; exact Pipeline.withArrays_arr spec7 launch7.win.arr_inj c _ _ w
theorem B16_of_ne (c : Dev nD) (b : Ref sig .tc) (hb : ∀ w, Pipeline.arrRef spec7 w ≠ b) :
    B16 m ρ c (Proc.devRef .tc b) = B15 m ρ c (Proc.devRef .tc b) := by
  unfold B16; exact Pipeline.withArrays_of_ne spec7 c _ _ b hb
abbrev E16 : (c : Dev nD) → (b : Ref sig .tc) → Buf (Elt F) ((c : Thread nD τ).loc b) := fun c b => B16 m ρ c b
theorem hF7 (c : Dev nD) (w : Fin cfg7.W) : (dat7 (E15 m ρ) c).arrAt w cfg7.N = E16 m ρ c (Pipeline.arrRef spec7 w) :=
  (B16_arr m ρ c w).symm
theorem hrest7 (c : Dev nD) : ∀ b, b ∉ Finset.univ.image (Pipeline.arrRef spec7) → E16 m ρ c b = E15 m ρ c b :=
  fun b hb => B16_of_ne m ρ c b fun w e => hb (Finset.mem_image.mpr ⟨w, Finset.mem_univ _, e⟩)

/-! ## The arguments end as launched -/

theorem B16_main_arg0 (c : Dev nD) : B16 m ρ c (Proc.devRef .tc main_arg0) = m ((c : Thread nD τ).loc main_arg0) :=
  (B16_of_ne m ρ c main_arg0 (by decide)).trans <|
  (StableHlo.after_of_writes_sub hostOps7 _ Gen.hostOps7_writes (by decide : main_arg0 ∉ Gen.hostOps7_W)).trans <|
  (B14_of_ne m ρ c main_arg0 (by decide)).trans <|
  (StableHlo.after_of_writes_sub hostOps6 _ Gen.hostOps6_writes (by decide : main_arg0 ∉ Gen.hostOps6_W)).trans <|
  (B12_of_ne m ρ c main_arg0 (by decide)).trans <|
  (StableHlo.after_of_writes_sub hostOps5 _ Gen.hostOps5_writes (by decide : main_arg0 ∉ Gen.hostOps5_W)).trans <|
  (B10_of_ne m ρ c main_arg0 (by decide)).trans <|
  (StableHlo.after_of_writes_sub hostOps4 _ Gen.hostOps4_writes (by decide : main_arg0 ∉ Gen.hostOps4_W)).trans <|
  (B8_of_ne m ρ c main_arg0 (by decide)).trans <|
  (StableHlo.after_of_writes_sub hostOps3 _ Gen.hostOps3_writes (by decide : main_arg0 ∉ Gen.hostOps3_W)).trans <|
  (B6_of_ne m ρ c main_arg0 (by decide)).trans <|
  (StableHlo.after_of_writes_sub hostOps2 _ Gen.hostOps2_writes (by decide : main_arg0 ∉ Gen.hostOps2_W)).trans <|
  (B4_of_ne m ρ c main_arg0 (by decide)).trans <|
  (StableHlo.after_of_writes_sub hostOps1 _ Gen.hostOps1_writes (by decide : main_arg0 ∉ Gen.hostOps1_W)).trans <|
  ((B2_arr m ρ c 0).trans (((dat0 (E1 m ρ) c).arrAt_in 0 rfl _).trans (A_eq0 (E1 m ρ) c 0))).trans <|
  (StableHlo.after_of_writes_sub hostOps0 _ Gen.hostOps0_writes (by decide : main_arg0 ∉ Gen.hostOps0_W)).trans <|
  rfl
theorem B16_main_arg1 (c : Dev nD) : B16 m ρ c (Proc.devRef .tc main_arg1) = m ((c : Thread nD τ).loc main_arg1) :=
  (B16_of_ne m ρ c main_arg1 (by decide)).trans <|
  (StableHlo.after_of_writes_sub hostOps7 _ Gen.hostOps7_writes (by decide : main_arg1 ∉ Gen.hostOps7_W)).trans <|
  (B14_of_ne m ρ c main_arg1 (by decide)).trans <|
  (StableHlo.after_of_writes_sub hostOps6 _ Gen.hostOps6_writes (by decide : main_arg1 ∉ Gen.hostOps6_W)).trans <|
  (B12_of_ne m ρ c main_arg1 (by decide)).trans <|
  (StableHlo.after_of_writes_sub hostOps5 _ Gen.hostOps5_writes (by decide : main_arg1 ∉ Gen.hostOps5_W)).trans <|
  (B10_of_ne m ρ c main_arg1 (by decide)).trans <|
  (StableHlo.after_of_writes_sub hostOps4 _ Gen.hostOps4_writes (by decide : main_arg1 ∉ Gen.hostOps4_W)).trans <|
  ((B8_arr m ρ c 0).trans (((dat3 (E7 m ρ) c).arrAt_in 0 rfl _).trans (A_eq3 (E7 m ρ) c 0))).trans <|
  (StableHlo.after_of_writes_sub hostOps3 _ Gen.hostOps3_writes (by decide : main_arg1 ∉ Gen.hostOps3_W)).trans <|
  (B6_of_ne m ρ c main_arg1 (by decide)).trans <|
  (StableHlo.after_of_writes_sub hostOps2 _ Gen.hostOps2_writes (by decide : main_arg1 ∉ Gen.hostOps2_W)).trans <|
  (B4_of_ne m ρ c main_arg1 (by decide)).trans <|
  (StableHlo.after_of_writes_sub hostOps1 _ Gen.hostOps1_writes (by decide : main_arg1 ∉ Gen.hostOps1_W)).trans <|
  (B2_of_ne m ρ c main_arg1 (by decide)).trans <|
  (StableHlo.after_of_writes_sub hostOps0 _ Gen.hostOps0_writes (by decide : main_arg1 ∉ Gen.hostOps0_W)).trans <|
  rfl
theorem B16_main_arg2 (c : Dev nD) : B16 m ρ c (Proc.devRef .tc main_arg2) = m ((c : Thread nD τ).loc main_arg2) :=
  (B16_of_ne m ρ c main_arg2 (by decide)).trans <|
  (StableHlo.after_of_writes_sub hostOps7 _ Gen.hostOps7_writes (by decide : main_arg2 ∉ Gen.hostOps7_W)).trans <|
  (B14_of_ne m ρ c main_arg2 (by decide)).trans <|
  (StableHlo.after_of_writes_sub hostOps6 _ Gen.hostOps6_writes (by decide : main_arg2 ∉ Gen.hostOps6_W)).trans <|
  (B12_of_ne m ρ c main_arg2 (by decide)).trans <|
  (StableHlo.after_of_writes_sub hostOps5 _ Gen.hostOps5_writes (by decide : main_arg2 ∉ Gen.hostOps5_W)).trans <|
  (B10_of_ne m ρ c main_arg2 (by decide)).trans <|
  (StableHlo.after_of_writes_sub hostOps4 _ Gen.hostOps4_writes (by decide : main_arg2 ∉ Gen.hostOps4_W)).trans <|
  (B8_of_ne m ρ c main_arg2 (by decide)).trans <|
  (StableHlo.after_of_writes_sub hostOps3 _ Gen.hostOps3_writes (by decide : main_arg2 ∉ Gen.hostOps3_W)).trans <|
  (B6_of_ne m ρ c main_arg2 (by decide)).trans <|
  (StableHlo.after_of_writes_sub hostOps2 _ Gen.hostOps2_writes (by decide : main_arg2 ∉ Gen.hostOps2_W)).trans <|
  (B4_of_ne m ρ c main_arg2 (by decide)).trans <|
  (StableHlo.after_of_writes_sub hostOps1 _ Gen.hostOps1_writes (by decide : main_arg2 ∉ Gen.hostOps1_W)).trans <|
  (B2_of_ne m ρ c main_arg2 (by decide)).trans <|
  (StableHlo.after_of_writes_sub hostOps0 _ Gen.hostOps0_writes (by decide : main_arg2 ∉ Gen.hostOps0_W)).trans <|
  rfl
theorem B16_main_arg3 (c : Dev nD) : B16 m ρ c (Proc.devRef .tc main_arg3) = m ((c : Thread nD τ).loc main_arg3) :=
  (B16_of_ne m ρ c main_arg3 (by decide)).trans <|
  (StableHlo.after_of_writes_sub hostOps7 _ Gen.hostOps7_writes (by decide : main_arg3 ∉ Gen.hostOps7_W)).trans <|
  (B14_of_ne m ρ c main_arg3 (by decide)).trans <|
  (StableHlo.after_of_writes_sub hostOps6 _ Gen.hostOps6_writes (by decide : main_arg3 ∉ Gen.hostOps6_W)).trans <|
  (B12_of_ne m ρ c main_arg3 (by decide)).trans <|
  (StableHlo.after_of_writes_sub hostOps5 _ Gen.hostOps5_writes (by decide : main_arg3 ∉ Gen.hostOps5_W)).trans <|
  (B10_of_ne m ρ c main_arg3 (by decide)).trans <|
  (StableHlo.after_of_writes_sub hostOps4 _ Gen.hostOps4_writes (by decide : main_arg3 ∉ Gen.hostOps4_W)).trans <|
  (B8_of_ne m ρ c main_arg3 (by decide)).trans <|
  (StableHlo.after_of_writes_sub hostOps3 _ Gen.hostOps3_writes (by decide : main_arg3 ∉ Gen.hostOps3_W)).trans <|
  (B6_of_ne m ρ c main_arg3 (by decide)).trans <|
  (StableHlo.after_of_writes_sub hostOps2 _ Gen.hostOps2_writes (by decide : main_arg3 ∉ Gen.hostOps2_W)).trans <|
  (B4_of_ne m ρ c main_arg3 (by decide)).trans <|
  (StableHlo.after_of_writes_sub hostOps1 _ Gen.hostOps1_writes (by decide : main_arg3 ∉ Gen.hostOps1_W)).trans <|
  (B2_of_ne m ρ c main_arg3 (by decide)).trans <|
  (StableHlo.after_of_writes_sub hostOps0 _ Gen.hostOps0_writes (by decide : main_arg3 ∉ Gen.hostOps0_W)).trans <|
  rfl
theorem B16_main_arg4 (c : Dev nD) : B16 m ρ c (Proc.devRef .tc main_arg4) = m ((c : Thread nD τ).loc main_arg4) :=
  (B16_of_ne m ρ c main_arg4 (by decide)).trans <|
  (StableHlo.after_of_writes_sub hostOps7 _ Gen.hostOps7_writes (by decide : main_arg4 ∉ Gen.hostOps7_W)).trans <|
  (B14_of_ne m ρ c main_arg4 (by decide)).trans <|
  (StableHlo.after_of_writes_sub hostOps6 _ Gen.hostOps6_writes (by decide : main_arg4 ∉ Gen.hostOps6_W)).trans <|
  (B12_of_ne m ρ c main_arg4 (by decide)).trans <|
  (StableHlo.after_of_writes_sub hostOps5 _ Gen.hostOps5_writes (by decide : main_arg4 ∉ Gen.hostOps5_W)).trans <|
  (B10_of_ne m ρ c main_arg4 (by decide)).trans <|
  (StableHlo.after_of_writes_sub hostOps4 _ Gen.hostOps4_writes (by decide : main_arg4 ∉ Gen.hostOps4_W)).trans <|
  (B8_of_ne m ρ c main_arg4 (by decide)).trans <|
  (StableHlo.after_of_writes_sub hostOps3 _ Gen.hostOps3_writes (by decide : main_arg4 ∉ Gen.hostOps3_W)).trans <|
  (B6_of_ne m ρ c main_arg4 (by decide)).trans <|
  (StableHlo.after_of_writes_sub hostOps2 _ Gen.hostOps2_writes (by decide : main_arg4 ∉ Gen.hostOps2_W)).trans <|
  (B4_of_ne m ρ c main_arg4 (by decide)).trans <|
  (StableHlo.after_of_writes_sub hostOps1 _ Gen.hostOps1_writes (by decide : main_arg4 ∉ Gen.hostOps1_W)).trans <|
  (B2_of_ne m ρ c main_arg4 (by decide)).trans <|
  (StableHlo.after_of_writes_sub hostOps0 _ Gen.hostOps0_writes (by decide : main_arg4 ∉ Gen.hostOps0_W)).trans <|
  rfl
theorem B16_main_arg5 (c : Dev nD) : B16 m ρ c (Proc.devRef .tc main_arg5) = m ((c : Thread nD τ).loc main_arg5) :=
  (B16_of_ne m ρ c main_arg5 (by decide)).trans <|
  (StableHlo.after_of_writes_sub hostOps7 _ Gen.hostOps7_writes (by decide : main_arg5 ∉ Gen.hostOps7_W)).trans <|
  (B14_of_ne m ρ c main_arg5 (by decide)).trans <|
  (StableHlo.after_of_writes_sub hostOps6 _ Gen.hostOps6_writes (by decide : main_arg5 ∉ Gen.hostOps6_W)).trans <|
  (B12_of_ne m ρ c main_arg5 (by decide)).trans <|
  (StableHlo.after_of_writes_sub hostOps5 _ Gen.hostOps5_writes (by decide : main_arg5 ∉ Gen.hostOps5_W)).trans <|
  (B10_of_ne m ρ c main_arg5 (by decide)).trans <|
  (StableHlo.after_of_writes_sub hostOps4 _ Gen.hostOps4_writes (by decide : main_arg5 ∉ Gen.hostOps4_W)).trans <|
  (B8_of_ne m ρ c main_arg5 (by decide)).trans <|
  (StableHlo.after_of_writes_sub hostOps3 _ Gen.hostOps3_writes (by decide : main_arg5 ∉ Gen.hostOps3_W)).trans <|
  (B6_of_ne m ρ c main_arg5 (by decide)).trans <|
  (StableHlo.after_of_writes_sub hostOps2 _ Gen.hostOps2_writes (by decide : main_arg5 ∉ Gen.hostOps2_W)).trans <|
  (B4_of_ne m ρ c main_arg5 (by decide)).trans <|
  (StableHlo.after_of_writes_sub hostOps1 _ Gen.hostOps1_writes (by decide : main_arg5 ∉ Gen.hostOps1_W)).trans <|
  (B2_of_ne m ρ c main_arg5 (by decide)).trans <|
  (StableHlo.after_of_writes_sub hostOps0 _ Gen.hostOps0_writes (by decide : main_arg5 ∉ Gen.hostOps0_W)).trans <|
  rfl
theorem B16_main_arg6 (c : Dev nD) : B16 m ρ c (Proc.devRef .tc main_arg6) = m ((c : Thread nD τ).loc main_arg6) :=
  (B16_of_ne m ρ c main_arg6 (by decide)).trans <|
  (StableHlo.after_of_writes_sub hostOps7 _ Gen.hostOps7_writes (by decide : main_arg6 ∉ Gen.hostOps7_W)).trans <|
  (B14_of_ne m ρ c main_arg6 (by decide)).trans <|
  (StableHlo.after_of_writes_sub hostOps6 _ Gen.hostOps6_writes (by decide : main_arg6 ∉ Gen.hostOps6_W)).trans <|
  (B12_of_ne m ρ c main_arg6 (by decide)).trans <|
  (StableHlo.after_of_writes_sub hostOps5 _ Gen.hostOps5_writes (by decide : main_arg6 ∉ Gen.hostOps5_W)).trans <|
  (B10_of_ne m ρ c main_arg6 (by decide)).trans <|
  (StableHlo.after_of_writes_sub hostOps4 _ Gen.hostOps4_writes (by decide : main_arg6 ∉ Gen.hostOps4_W)).trans <|
  (B8_of_ne m ρ c main_arg6 (by decide)).trans <|
  (StableHlo.after_of_writes_sub hostOps3 _ Gen.hostOps3_writes (by decide : main_arg6 ∉ Gen.hostOps3_W)).trans <|
  (B6_of_ne m ρ c main_arg6 (by decide)).trans <|
  (StableHlo.after_of_writes_sub hostOps2 _ Gen.hostOps2_writes (by decide : main_arg6 ∉ Gen.hostOps2_W)).trans <|
  (B4_of_ne m ρ c main_arg6 (by decide)).trans <|
  (StableHlo.after_of_writes_sub hostOps1 _ Gen.hostOps1_writes (by decide : main_arg6 ∉ Gen.hostOps1_W)).trans <|
  (B2_of_ne m ρ c main_arg6 (by decide)).trans <|
  (StableHlo.after_of_writes_sub hostOps0 _ Gen.hostOps0_writes (by decide : main_arg6 ∉ Gen.hostOps0_W)).trans <|
  rfl
theorem B16_main_arg7 (c : Dev nD) : B16 m ρ c (Proc.devRef .tc main_arg7) = m ((c : Thread nD τ).loc main_arg7) :=
  (B16_of_ne m ρ c main_arg7 (by decide)).trans <|
  (StableHlo.after_of_writes_sub hostOps7 _ Gen.hostOps7_writes (by decide : main_arg7 ∉ Gen.hostOps7_W)).trans <|
  (B14_of_ne m ρ c main_arg7 (by decide)).trans <|
  (StableHlo.after_of_writes_sub hostOps6 _ Gen.hostOps6_writes (by decide : main_arg7 ∉ Gen.hostOps6_W)).trans <|
  (B12_of_ne m ρ c main_arg7 (by decide)).trans <|
  (StableHlo.after_of_writes_sub hostOps5 _ Gen.hostOps5_writes (by decide : main_arg7 ∉ Gen.hostOps5_W)).trans <|
  (B10_of_ne m ρ c main_arg7 (by decide)).trans <|
  (StableHlo.after_of_writes_sub hostOps4 _ Gen.hostOps4_writes (by decide : main_arg7 ∉ Gen.hostOps4_W)).trans <|
  (B8_of_ne m ρ c main_arg7 (by decide)).trans <|
  (StableHlo.after_of_writes_sub hostOps3 _ Gen.hostOps3_writes (by decide : main_arg7 ∉ Gen.hostOps3_W)).trans <|
  (B6_of_ne m ρ c main_arg7 (by decide)).trans <|
  (StableHlo.after_of_writes_sub hostOps2 _ Gen.hostOps2_writes (by decide : main_arg7 ∉ Gen.hostOps2_W)).trans <|
  (B4_of_ne m ρ c main_arg7 (by decide)).trans <|
  (StableHlo.after_of_writes_sub hostOps1 _ Gen.hostOps1_writes (by decide : main_arg7 ∉ Gen.hostOps1_W)).trans <|
  (B2_of_ne m ρ c main_arg7 (by decide)).trans <|
  (StableHlo.after_of_writes_sub hostOps0 _ Gen.hostOps0_writes (by decide : main_arg7 ∉ Gen.hostOps0_W)).trans <|
  rfl
theorem B16_main_arg8 (c : Dev nD) : B16 m ρ c (Proc.devRef .tc main_arg8) = m ((c : Thread nD τ).loc main_arg8) :=
  (B16_of_ne m ρ c main_arg8 (by decide)).trans <|
  (StableHlo.after_of_writes_sub hostOps7 _ Gen.hostOps7_writes (by decide : main_arg8 ∉ Gen.hostOps7_W)).trans <|
  (B14_of_ne m ρ c main_arg8 (by decide)).trans <|
  (StableHlo.after_of_writes_sub hostOps6 _ Gen.hostOps6_writes (by decide : main_arg8 ∉ Gen.hostOps6_W)).trans <|
  (B12_of_ne m ρ c main_arg8 (by decide)).trans <|
  (StableHlo.after_of_writes_sub hostOps5 _ Gen.hostOps5_writes (by decide : main_arg8 ∉ Gen.hostOps5_W)).trans <|
  (B10_of_ne m ρ c main_arg8 (by decide)).trans <|
  (StableHlo.after_of_writes_sub hostOps4 _ Gen.hostOps4_writes (by decide : main_arg8 ∉ Gen.hostOps4_W)).trans <|
  (B8_of_ne m ρ c main_arg8 (by decide)).trans <|
  (StableHlo.after_of_writes_sub hostOps3 _ Gen.hostOps3_writes (by decide : main_arg8 ∉ Gen.hostOps3_W)).trans <|
  (B6_of_ne m ρ c main_arg8 (by decide)).trans <|
  (StableHlo.after_of_writes_sub hostOps2 _ Gen.hostOps2_writes (by decide : main_arg8 ∉ Gen.hostOps2_W)).trans <|
  (B4_of_ne m ρ c main_arg8 (by decide)).trans <|
  (StableHlo.after_of_writes_sub hostOps1 _ Gen.hostOps1_writes (by decide : main_arg8 ∉ Gen.hostOps1_W)).trans <|
  (B2_of_ne m ρ c main_arg8 (by decide)).trans <|
  (StableHlo.after_of_writes_sub hostOps0 _ Gen.hostOps0_writes (by decide : main_arg8 ∉ Gen.hostOps0_W)).trans <|
  rfl
theorem B16_main_arg9 (c : Dev nD) : B16 m ρ c (Proc.devRef .tc main_arg9) = m ((c : Thread nD τ).loc main_arg9) :=
  (B16_of_ne m ρ c main_arg9 (by decide)).trans <|
  (StableHlo.after_of_writes_sub hostOps7 _ Gen.hostOps7_writes (by decide : main_arg9 ∉ Gen.hostOps7_W)).trans <|
  (B14_of_ne m ρ c main_arg9 (by decide)).trans <|
  (StableHlo.after_of_writes_sub hostOps6 _ Gen.hostOps6_writes (by decide : main_arg9 ∉ Gen.hostOps6_W)).trans <|
  (B12_of_ne m ρ c main_arg9 (by decide)).trans <|
  (StableHlo.after_of_writes_sub hostOps5 _ Gen.hostOps5_writes (by decide : main_arg9 ∉ Gen.hostOps5_W)).trans <|
  (B10_of_ne m ρ c main_arg9 (by decide)).trans <|
  (StableHlo.after_of_writes_sub hostOps4 _ Gen.hostOps4_writes (by decide : main_arg9 ∉ Gen.hostOps4_W)).trans <|
  (B8_of_ne m ρ c main_arg9 (by decide)).trans <|
  (StableHlo.after_of_writes_sub hostOps3 _ Gen.hostOps3_writes (by decide : main_arg9 ∉ Gen.hostOps3_W)).trans <|
  (B6_of_ne m ρ c main_arg9 (by decide)).trans <|
  (StableHlo.after_of_writes_sub hostOps2 _ Gen.hostOps2_writes (by decide : main_arg9 ∉ Gen.hostOps2_W)).trans <|
  (B4_of_ne m ρ c main_arg9 (by decide)).trans <|
  (StableHlo.after_of_writes_sub hostOps1 _ Gen.hostOps1_writes (by decide : main_arg9 ∉ Gen.hostOps1_W)).trans <|
  (B2_of_ne m ρ c main_arg9 (by decide)).trans <|
  (StableHlo.after_of_writes_sub hostOps0 _ Gen.hostOps0_writes (by decide : main_arg9 ∉ Gen.hostOps0_W)).trans <|
  rfl
theorem B16_main_arg10 (c : Dev nD) : B16 m ρ c (Proc.devRef .tc main_arg10) = m ((c : Thread nD τ).loc main_arg10) :=
  (B16_of_ne m ρ c main_arg10 (by decide)).trans <|
  (StableHlo.after_of_writes_sub hostOps7 _ Gen.hostOps7_writes (by decide : main_arg10 ∉ Gen.hostOps7_W)).trans <|
  (B14_of_ne m ρ c main_arg10 (by decide)).trans <|
  (StableHlo.after_of_writes_sub hostOps6 _ Gen.hostOps6_writes (by decide : main_arg10 ∉ Gen.hostOps6_W)).trans <|
  (B12_of_ne m ρ c main_arg10 (by decide)).trans <|
  (StableHlo.after_of_writes_sub hostOps5 _ Gen.hostOps5_writes (by decide : main_arg10 ∉ Gen.hostOps5_W)).trans <|
  (B10_of_ne m ρ c main_arg10 (by decide)).trans <|
  (StableHlo.after_of_writes_sub hostOps4 _ Gen.hostOps4_writes (by decide : main_arg10 ∉ Gen.hostOps4_W)).trans <|
  (B8_of_ne m ρ c main_arg10 (by decide)).trans <|
  (StableHlo.after_of_writes_sub hostOps3 _ Gen.hostOps3_writes (by decide : main_arg10 ∉ Gen.hostOps3_W)).trans <|
  (B6_of_ne m ρ c main_arg10 (by decide)).trans <|
  (StableHlo.after_of_writes_sub hostOps2 _ Gen.hostOps2_writes (by decide : main_arg10 ∉ Gen.hostOps2_W)).trans <|
  (B4_of_ne m ρ c main_arg10 (by decide)).trans <|
  (StableHlo.after_of_writes_sub hostOps1 _ Gen.hostOps1_writes (by decide : main_arg10 ∉ Gen.hostOps1_W)).trans <|
  (B2_of_ne m ρ c main_arg10 (by decide)).trans <|
  (StableHlo.after_of_writes_sub hostOps0 _ Gen.hostOps0_writes (by decide : main_arg10 ∉ Gen.hostOps0_W)).trans <|
  rfl
theorem B16_main_arg11 (c : Dev nD) : B16 m ρ c (Proc.devRef .tc main_arg11) = m ((c : Thread nD τ).loc main_arg11) :=
  (B16_of_ne m ρ c main_arg11 (by decide)).trans <|
  (StableHlo.after_of_writes_sub hostOps7 _ Gen.hostOps7_writes (by decide : main_arg11 ∉ Gen.hostOps7_W)).trans <|
  (B14_of_ne m ρ c main_arg11 (by decide)).trans <|
  (StableHlo.after_of_writes_sub hostOps6 _ Gen.hostOps6_writes (by decide : main_arg11 ∉ Gen.hostOps6_W)).trans <|
  (B12_of_ne m ρ c main_arg11 (by decide)).trans <|
  (StableHlo.after_of_writes_sub hostOps5 _ Gen.hostOps5_writes (by decide : main_arg11 ∉ Gen.hostOps5_W)).trans <|
  (B10_of_ne m ρ c main_arg11 (by decide)).trans <|
  (StableHlo.after_of_writes_sub hostOps4 _ Gen.hostOps4_writes (by decide : main_arg11 ∉ Gen.hostOps4_W)).trans <|
  (B8_of_ne m ρ c main_arg11 (by decide)).trans <|
  (StableHlo.after_of_writes_sub hostOps3 _ Gen.hostOps3_writes (by decide : main_arg11 ∉ Gen.hostOps3_W)).trans <|
  (B6_of_ne m ρ c main_arg11 (by decide)).trans <|
  (StableHlo.after_of_writes_sub hostOps2 _ Gen.hostOps2_writes (by decide : main_arg11 ∉ Gen.hostOps2_W)).trans <|
  (B4_of_ne m ρ c main_arg11 (by decide)).trans <|
  (StableHlo.after_of_writes_sub hostOps1 _ Gen.hostOps1_writes (by decide : main_arg11 ∉ Gen.hostOps1_W)).trans <|
  (B2_of_ne m ρ c main_arg11 (by decide)).trans <|
  (StableHlo.after_of_writes_sub hostOps0 _ Gen.hostOps0_writes (by decide : main_arg11 ∉ Gen.hostOps0_W)).trans <|
  rfl
theorem B16_main_arg12 (c : Dev nD) : B16 m ρ c (Proc.devRef .tc main_arg12) = m ((c : Thread nD τ).loc main_arg12) :=
  (B16_of_ne m ρ c main_arg12 (by decide)).trans <|
  (StableHlo.after_of_writes_sub hostOps7 _ Gen.hostOps7_writes (by decide : main_arg12 ∉ Gen.hostOps7_W)).trans <|
  (B14_of_ne m ρ c main_arg12 (by decide)).trans <|
  (StableHlo.after_of_writes_sub hostOps6 _ Gen.hostOps6_writes (by decide : main_arg12 ∉ Gen.hostOps6_W)).trans <|
  (B12_of_ne m ρ c main_arg12 (by decide)).trans <|
  (StableHlo.after_of_writes_sub hostOps5 _ Gen.hostOps5_writes (by decide : main_arg12 ∉ Gen.hostOps5_W)).trans <|
  (B10_of_ne m ρ c main_arg12 (by decide)).trans <|
  (StableHlo.after_of_writes_sub hostOps4 _ Gen.hostOps4_writes (by decide : main_arg12 ∉ Gen.hostOps4_W)).trans <|
  (B8_of_ne m ρ c main_arg12 (by decide)).trans <|
  (StableHlo.after_of_writes_sub hostOps3 _ Gen.hostOps3_writes (by decide : main_arg12 ∉ Gen.hostOps3_W)).trans <|
  (B6_of_ne m ρ c main_arg12 (by decide)).trans <|
  (StableHlo.after_of_writes_sub hostOps2 _ Gen.hostOps2_writes (by decide : main_arg12 ∉ Gen.hostOps2_W)).trans <|
  (B4_of_ne m ρ c main_arg12 (by decide)).trans <|
  (StableHlo.after_of_writes_sub hostOps1 _ Gen.hostOps1_writes (by decide : main_arg12 ∉ Gen.hostOps1_W)).trans <|
  (B2_of_ne m ρ c main_arg12 (by decide)).trans <|
  (StableHlo.after_of_writes_sub hostOps0 _ Gen.hostOps0_writes (by decide : main_arg12 ∉ Gen.hostOps0_W)).trans <|
  rfl

/-! ## The proof data family and the thread state -/

/-- Every pipeline's proof data, each at its region's entry contents. -/
def regionData : (p : Fin 8) → (c : Dev nD) → Dat τ (Elt F) Unit ℕ (UR sig nD τ) ℕ (Pipeline.pin (pcfgs (F := F)) Gen.adm p) c
  | ⟨0, _⟩ => fun c => dat0 (E1 m ρ) c
  | ⟨1, _⟩ => fun c => dat1 (E3 m ρ) c
  | ⟨2, _⟩ => fun c => dat2 (E5 m ρ) c
  | ⟨3, _⟩ => fun c => dat3 (E7 m ρ) c
  | ⟨4, _⟩ => fun c => dat4 (E9 m ρ) c
  | ⟨5, _⟩ => fun c => dat5 (E11 m ρ) c
  | ⟨6, _⟩ => fun c => dat6 (E13 m ρ) c
  | ⟨7, _⟩ => fun c => dat7 (E15 m ρ) c
/-- No core owes another anything: no level is assigned. -/
abbrev Lq : GSem nD τ sig → Finset Unit := fun _ => ∅
abbrev lvq : GSem nD τ sig → Unit → ℕ := fun _ _ => 0
/-- What rides beside the buffers through every segment: the core's generator register at some state and its dues, at nothing. -/
abbrev Rest (c : Dev nD) : sProp 𝕄 := iprop((∃ r, prngReg c r) ∗ ∃ W, owes (c : Thread nD τ) (0 : CellTallies nD τ sig Unit) W)
/-- A host stretch as a segment over the unscoped references from the contents `W`, `Rest` riding along. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none Lq lvq :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at `B16`, the generator register at some state. -/
abbrev lastState (c : Dev nD) : sProp 𝕄 := iprop(StableHlo.held (c : Thread nD τ) (Pipeline.ucRefs τ sig) (B16 m ρ c) ∗ ∃ r, prngReg c r)

/-! ## The regions as segments -/

set_option backward.isDefEq.respectTransparency.types false in
/-- Region 0 over the thread state: entered from every unscoped buffer at `B1`, left at `B2`. Its arrays are split
    out of the unscoped buffers and put back at the exit contents; the generator register goes into the pipeline's
    invariant and comes back; nothing is owed; the kernel has no semaphore of its own. -/
def reg0 : Pipeline.RegionSeg (pcfgs (F := F)) Gen.adm (regionData m ρ) () defs₀ Variants.none Lq lvq 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ Lq lvq 0 fun _ _ => rfl
  pre c := iprop(StableHlo.held (c : Thread nD τ) (Pipeline.ucRefs τ sig) (B1 m ρ c) ∗ Rest c)
  post c := iprop(StableHlo.held (c : Thread nD τ) (Pipeline.ucRefs τ sig) (B2 m ρ c) ∗ Rest c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) Gen.adm (regionData m ρ) launch0.win launch0.arr_whole c
      ((regionData m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (regionData m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (regionData m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (regionData m ρ) ((regionData m ρ 0 c).share_full fun _ => rfl)
      (E1 m ρ c) (E2 m ρ c) ((regionData m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `B3`, left at `B4`. Its arrays are split
    out of the unscoped buffers and put back at the exit contents; the generator register goes into the pipeline's
    invariant and comes back; nothing is owed; the kernel has no semaphore of its own. -/
def reg1 : Pipeline.RegionSeg (pcfgs (F := F)) Gen.adm (regionData m ρ) () defs₀ Variants.none Lq lvq 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ Lq lvq 1 fun _ _ => rfl
  pre c := iprop(StableHlo.held (c : Thread nD τ) (Pipeline.ucRefs τ sig) (B3 m ρ c) ∗ Rest c)
  post c := iprop(StableHlo.held (c : Thread nD τ) (Pipeline.ucRefs τ sig) (B4 m ρ c) ∗ Rest c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) Gen.adm (regionData m ρ) launch1.win launch1.arr_whole c
      ((regionData m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (regionData m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (regionData m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (regionData m ρ) ((regionData m ρ 1 c).share_full fun _ => rfl)
      (E3 m ρ c) (E4 m ρ c) ((regionData m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `B5`, left at `B6`. Its arrays are split
    out of the unscoped buffers and put back at the exit contents; the generator register goes into the pipeline's
    invariant and comes back; nothing is owed; the kernel has no semaphore of its own. -/
def reg2 : Pipeline.RegionSeg (pcfgs (F := F)) Gen.adm (regionData m ρ) () defs₀ Variants.none Lq lvq 2 where
  win := launch2.win.to₀
  block_pos := launch2.block_pos
  stage_whole := launch2.stage_whole
  K := PEmpty
  osem k := k.elim
  ho := Pipeline.OwnSemFacts.none _
  hbody c := (body_obligation2 (E5 m ρ) c).loose
  hwaits := Pipeline.hwaits_of_owed_zero _ _ _ _ Lq lvq 2 fun _ _ => rfl
  pre c := iprop(StableHlo.held (c : Thread nD τ) (Pipeline.ucRefs τ sig) (B5 m ρ c) ∗ Rest c)
  post c := iprop(StableHlo.held (c : Thread nD τ) (Pipeline.ucRefs τ sig) (B6 m ρ c) ∗ Rest c)
  X c := iprop(∃ r, prngReg c r)
  Y c := iprop(∃ r, prngReg c r)
  Z c := Pipeline.unscopedRest (Ix := Unit) (Name := ℕ) (U := UR sig nD τ) (Lvl := ℕ) spec2 c (E5 m ρ c)
  hentry c := by
    rw [Pipeline.ownSems0_none]
    have hsplit := Pipeline.arrays_of_unscopedBufs (p := 2) (pcfgs (F := F)) Gen.adm (regionData m ρ) launch2.win launch2.arr_whole c
      ((regionData m ρ 2 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (regionData m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (regionData m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (regionData m ρ) ((regionData m ρ 2 c).share_full fun _ => rfl)
      (E5 m ρ c) (E6 m ρ c) ((regionData m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `B7`, left at `B8`. Its arrays are split
    out of the unscoped buffers and put back at the exit contents; the generator register goes into the pipeline's
    invariant and comes back; nothing is owed; the kernel has no semaphore of its own. -/
def reg3 : Pipeline.RegionSeg (pcfgs (F := F)) Gen.adm (regionData m ρ) () defs₀ Variants.none Lq lvq 3 where
  win := launch3.win.to₀
  block_pos := launch3.block_pos
  stage_whole := launch3.stage_whole
  K := PEmpty
  osem k := k.elim
  ho := Pipeline.OwnSemFacts.none _
  hbody c := (body_obligation3 (E7 m ρ) c).loose
  hwaits := Pipeline.hwaits_of_owed_zero _ _ _ _ Lq lvq 3 fun _ _ => rfl
  pre c := iprop(StableHlo.held (c : Thread nD τ) (Pipeline.ucRefs τ sig) (B7 m ρ c) ∗ Rest c)
  post c := iprop(StableHlo.held (c : Thread nD τ) (Pipeline.ucRefs τ sig) (B8 m ρ c) ∗ Rest c)
  X c := iprop(∃ r, prngReg c r)
  Y c := iprop(∃ r, prngReg c r)
  Z c := Pipeline.unscopedRest (Ix := Unit) (Name := ℕ) (U := UR sig nD τ) (Lvl := ℕ) spec3 c (E7 m ρ c)
  hentry c := by
    rw [Pipeline.ownSems0_none]
    have hsplit := Pipeline.arrays_of_unscopedBufs (p := 3) (pcfgs (F := F)) Gen.adm (regionData m ρ) launch3.win launch3.arr_whole c
      ((regionData m ρ 3 c).share_full fun _ => rfl) (E7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (regionData m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (regionData m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (regionData m ρ) ((regionData m ρ 3 c).share_full fun _ => rfl)
      (E7 m ρ c) (E8 m ρ c) ((regionData m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `B9`, left at `B10`. Its arrays are split
    out of the unscoped buffers and put back at the exit contents; the generator register goes into the pipeline's
    invariant and comes back; nothing is owed; the kernel has no semaphore of its own. -/
def reg4 : Pipeline.RegionSeg (pcfgs (F := F)) Gen.adm (regionData m ρ) () defs₀ Variants.none Lq lvq 4 where
  win := launch4.win.to₀
  block_pos := launch4.block_pos
  stage_whole := launch4.stage_whole
  K := PEmpty
  osem k := k.elim
  ho := Pipeline.OwnSemFacts.none _
  hbody c := (body_obligation4 (E9 m ρ) c).loose
  hwaits := Pipeline.hwaits_of_owed_zero _ _ _ _ Lq lvq 4 fun _ _ => rfl
  pre c := iprop(StableHlo.held (c : Thread nD τ) (Pipeline.ucRefs τ sig) (B9 m ρ c) ∗ Rest c)
  post c := iprop(StableHlo.held (c : Thread nD τ) (Pipeline.ucRefs τ sig) (B10 m ρ c) ∗ Rest c)
  X c := iprop(∃ r, prngReg c r)
  Y c := iprop(∃ r, prngReg c r)
  Z c := Pipeline.unscopedRest (Ix := Unit) (Name := ℕ) (U := UR sig nD τ) (Lvl := ℕ) spec4 c (E9 m ρ c)
  hentry c := by
    rw [Pipeline.ownSems0_none]
    have hsplit := Pipeline.arrays_of_unscopedBufs (p := 4) (pcfgs (F := F)) Gen.adm (regionData m ρ) launch4.win launch4.arr_whole c
      ((regionData m ρ 4 c).share_full fun _ => rfl) (E9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (regionData m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (regionData m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) Gen.adm (Ix := Unit) (Name := ℕ) (U := UR sig nD τ) (Lvl := ℕ)
      launch4.win launch4.arr_whole c (regionData m ρ) ((regionData m ρ 4 c).share_full fun _ => rfl)
      (E9 m ρ c) (E10 m ρ c) ((regionData m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `B11`, left at `B12`. Its arrays are split
    out of the unscoped buffers and put back at the exit contents; the generator register goes into the pipeline's
    invariant and comes back; nothing is owed; the kernel has no semaphore of its own. -/
def reg5 : Pipeline.RegionSeg (pcfgs (F := F)) Gen.adm (regionData m ρ) () defs₀ Variants.none Lq lvq 5 where
  win := launch5.win.to₀
  block_pos := launch5.block_pos
  stage_whole := launch5.stage_whole
  K := PEmpty
  osem k := k.elim
  ho := Pipeline.OwnSemFacts.none _
  hbody c := (body_obligation5 (E11 m ρ) c).loose
  hwaits := Pipeline.hwaits_of_owed_zero _ _ _ _ Lq lvq 5 fun _ _ => rfl
  pre c := iprop(StableHlo.held (c : Thread nD τ) (Pipeline.ucRefs τ sig) (B11 m ρ c) ∗ Rest c)
  post c := iprop(StableHlo.held (c : Thread nD τ) (Pipeline.ucRefs τ sig) (B12 m ρ c) ∗ Rest c)
  X c := iprop(∃ r, prngReg c r)
  Y c := iprop(∃ r, prngReg c r)
  Z c := Pipeline.unscopedRest (Ix := Unit) (Name := ℕ) (U := UR sig nD τ) (Lvl := ℕ) spec5 c (E11 m ρ c)
  hentry c := by
    rw [Pipeline.ownSems0_none]
    have hsplit := Pipeline.arrays_of_unscopedBufs (p := 5) (pcfgs (F := F)) Gen.adm (regionData m ρ) launch5.win launch5.arr_whole c
      ((regionData m ρ 5 c).share_full fun _ => rfl) (E11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (regionData m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (regionData m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) Gen.adm (Ix := Unit) (Name := ℕ) (U := UR sig nD τ) (Lvl := ℕ)
      launch5.win launch5.arr_whole c (regionData m ρ) ((regionData m ρ 5 c).share_full fun _ => rfl)
      (E11 m ρ c) (E12 m ρ c) ((regionData m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at `B13`, left at `B14`. Its arrays are split
    out of the unscoped buffers and put back at the exit contents; the generator register goes into the pipeline's
    invariant and comes back; nothing is owed; the kernel has no semaphore of its own. -/
def reg6 : Pipeline.RegionSeg (pcfgs (F := F)) Gen.adm (regionData m ρ) () defs₀ Variants.none Lq lvq 6 where
  win := launch6.win.to₀
  block_pos := launch6.block_pos
  stage_whole := launch6.stage_whole
  K := PEmpty
  osem k := k.elim
  ho := Pipeline.OwnSemFacts.none _
  hbody c := (body_obligation6 (E13 m ρ) c).loose
  hwaits := Pipeline.hwaits_of_owed_zero _ _ _ _ Lq lvq 6 fun _ _ => rfl
  pre c := iprop(StableHlo.held (c : Thread nD τ) (Pipeline.ucRefs τ sig) (B13 m ρ c) ∗ Rest c)
  post c := iprop(StableHlo.held (c : Thread nD τ) (Pipeline.ucRefs τ sig) (B14 m ρ c) ∗ Rest c)
  X c := iprop(∃ r, prngReg c r)
  Y c := iprop(∃ r, prngReg c r)
  Z c := Pipeline.unscopedRest (Ix := Unit) (Name := ℕ) (U := UR sig nD τ) (Lvl := ℕ) spec6 c (E13 m ρ c)
  hentry c := by
    rw [Pipeline.ownSems0_none]
    have hsplit := Pipeline.arrays_of_unscopedBufs (p := 6) (pcfgs (F := F)) Gen.adm (regionData m ρ) launch6.win launch6.arr_whole c
      ((regionData m ρ 6 c).share_full fun _ => rfl) (E13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (regionData m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (regionData m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) Gen.adm (Ix := Unit) (Name := ℕ) (U := UR sig nD τ) (Lvl := ℕ)
      launch6.win launch6.arr_whole c (regionData m ρ) ((regionData m ρ 6 c).share_full fun _ => rfl)
      (E13 m ρ c) (E14 m ρ c) ((regionData m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 over the thread state: entered from every unscoped buffer at `B15`, left at `B16`. Its arrays are split
    out of the unscoped buffers and put back at the exit contents; the generator register goes into the pipeline's
    invariant and comes back; nothing is owed; the kernel has no semaphore of its own. -/
def reg7 : Pipeline.RegionSeg (pcfgs (F := F)) Gen.adm (regionData m ρ) () defs₀ Variants.none Lq lvq 7 where
  win := launch7.win.to₀
  block_pos := launch7.block_pos
  stage_whole := launch7.stage_whole
  K := PEmpty
  osem k := k.elim
  ho := Pipeline.OwnSemFacts.none _
  hbody c := (body_obligation7 (E15 m ρ) c).loose
  hwaits := Pipeline.hwaits_of_owed_zero _ _ _ _ Lq lvq 7 fun _ _ => rfl
  pre c := iprop(StableHlo.held (c : Thread nD τ) (Pipeline.ucRefs τ sig) (B15 m ρ c) ∗ Rest c)
  post c := iprop(lastState m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec7 c (E15 m ρ c)
  hentry c := by
    rw [Pipeline.ownSems0_none]
    have hsplit := Pipeline.arrays_of_unscopedBufs (p := 7) (pcfgs (F := F)) Gen.adm (regionData m ρ) launch7.win launch7.arr_whole c
      ((regionData m ρ 7 c).share_full fun _ => rfl) (E15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (regionData m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (regionData m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) Gen.adm (Ix := Unit) (Name := ℕ) (U := UR sig nD τ) (Lvl := ℕ)
      launch7.win launch7.arr_whole c (regionData m ρ) ((regionData m ρ 7 c).share_full fun _ => rfl)
      (E15 m ρ c) (E16 m ρ c) ((regionData m ρ 7 c).arrAt · cfg7.N) (hF7 m ρ c) (hrest7 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev mainSegs : List (Pipeline.Seg (pcfgs (F := F)) Gen.adm (regionData m ρ) () defs₀ Variants.none Lq lvq) :=
  [ .host (hostSeg hostOps0 hostOps0_sub Gen.hostOps0_fresh (B0 m ρ)),
    .region (reg0 m ρ),
    .host (hostSeg hostOps1 hostOps1_sub Gen.hostOps1_fresh (B2 m ρ)),
    .region (reg1 m ρ),
    .host (hostSeg hostOps2 hostOps2_sub Gen.hostOps2_fresh (B4 m ρ)),
    .region (reg2 m ρ),
    .host (hostSeg hostOps3 hostOps3_sub Gen.hostOps3_fresh (B6 m ρ)),
    .region (reg3 m ρ),
    .host (hostSeg hostOps4 hostOps4_sub Gen.hostOps4_fresh (B8 m ρ)),
    .region (reg4 m ρ),
    .host (hostSeg hostOps5 hostOps5_sub Gen.hostOps5_fresh (B10 m ρ)),
    .region (reg5 m ρ),
    .host (hostSeg hostOps6 hostOps6_sub Gen.hostOps6_fresh (B12 m ρ)),
    .region (reg6 m ρ),
    .host (hostSeg hostOps7 hostOps7_sub Gen.hostOps7_fresh (B14 m ρ)),
    .region (reg7 m ρ) ]

set_option backward.isDefEq.respectTransparency.types false in
/-- THE RUN: from any memory with zero counters, every weakly fair execution of @main on the TensorCores terminates,
    nothing faulting, and in every final state each unscoped buffer holds what the sixteenth boundary says. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B16 m ρ c b) :=
  Pipeline.θ_run_regions_kit (pcfgs (F := F)) Gen.adm (regionData m ρ) () cellOf_inj emb₁ defs₀ Variants.none Lq lvq m ρ main (mainSegs m ρ)
    (fun c Q => by
      rewrite [main_chain c, Pipeline.Seg.run_eq_chain,
        show (mainSegs m ρ).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()) ] from rfl]
      exact .rfl)
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Rest c)) (Tₙ := lastState m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach Lq lvq fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B16 m ρ c b)
    (hfin := fun c s' => by
      iintro ⟨⟨Hh, -⟩, HSI⟩
      unfold StableHlo.held
      imodintro
      iapply (pointsTo_read_all (Pipeline.ucRefs τ sig) (fun b => (((c : Thread nD τ)).1, b)) (B16 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_uc main_arg0 (by decide))).trans (B16_main_arg0 m ρ c),
    (h c _ (mem_uc main_arg1 (by decide))).trans (B16_main_arg1 m ρ c),
    (h c _ (mem_uc main_arg2 (by decide))).trans (B16_main_arg2 m ρ c),
    (h c _ (mem_uc main_arg3 (by decide))).trans (B16_main_arg3 m ρ c),
    (h c _ (mem_uc main_arg4 (by decide))).trans (B16_main_arg4 m ρ c),
    (h c _ (mem_uc main_arg5 (by decide))).trans (B16_main_arg5 m ρ c),
    (h c _ (mem_uc main_arg6 (by decide))).trans (B16_main_arg6 m ρ c),
    (h c _ (mem_uc main_arg7 (by decide))).trans (B16_main_arg7 m ρ c),
    (h c _ (mem_uc main_arg8 (by decide))).trans (B16_main_arg8 m ρ c),
    (h c _ (mem_uc main_arg9 (by decide))).trans (B16_main_arg9 m ρ c),
    (h c _ (mem_uc main_arg10 (by decide))).trans (B16_main_arg10 m ρ c),
    (h c _ (mem_uc main_arg11 (by decide))).trans (B16_main_arg11 m ρ c),
    (h c _ (mem_uc main_arg12 (by decide))).trans (B16_main_arg12 m ρ c)⟩) (run_all m ρ)

end Cert.KernelIdeal.Frame

end
-- ==== Proof.KernelIdealArgs.lean ====
/-
  No host stretch and no region writes an argument: at every one of the sixteen boundaries each argument's buffer
  still holds its launch contents.
-/
import proofs.«160791_j62036507623881_2_alg».proof.Proof.KernelIdealRun

set_option maxRecDepth 16384

noncomputable section

namespace Cert.KernelIdeal.Frame

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem arg1_0 (c : Dev nD) : B1 m ρ c (Proc.devRef .tc main_arg0) = m ((c : Thread nD τ).loc main_arg0) := (StableHlo.after_of_writes_sub hostOps0 _ Gen.hostOps0_writes (by decide : main_arg0 ∉ Gen.hostOps0_W)).trans rfl
theorem arg2_0 (c : Dev nD) : B2 m ρ c (Proc.devRef .tc main_arg0) = m ((c : Thread nD τ).loc main_arg0) := ((B2_arr m ρ c 0).trans (((dat0 (E1 m ρ) c).arrAt_in 0 rfl _).trans (A_eq0 (E1 m ρ) c 0))).trans (arg1_0 m ρ c)
theorem arg3_0 (c : Dev nD) : B3 m ρ c (Proc.devRef .tc main_arg0) = m ((c : Thread nD τ).loc main_arg0) := (StableHlo.after_of_writes_sub hostOps1 _ Gen.hostOps1_writes (by decide : main_arg0 ∉ Gen.hostOps1_W)).trans (arg2_0 m ρ c)
theorem arg4_0 (c : Dev nD) : B4 m ρ c (Proc.devRef .tc main_arg0) = m ((c : Thread nD τ).loc main_arg0) := (B4_of_ne m ρ c main_arg0 (by decide)).trans (arg3_0 m ρ c)
theorem arg5_0 (c : Dev nD) : B5 m ρ c (Proc.devRef .tc main_arg0) = m ((c : Thread nD τ).loc main_arg0) := (StableHlo.after_of_writes_sub hostOps2 _ Gen.hostOps2_writes (by decide : main_arg0 ∉ Gen.hostOps2_W)).trans (arg4_0 m ρ c)
theorem arg6_0 (c : Dev nD) : B6 m ρ c (Proc.devRef .tc main_arg0) = m ((c : Thread nD τ).loc main_arg0) := (B6_of_ne m ρ c main_arg0 (by decide)).trans (arg5_0 m ρ c)
theorem arg7_0 (c : Dev nD) : B7 m ρ c (Proc.devRef .tc main_arg0) = m ((c : Thread nD τ).loc main_arg0) := (StableHlo.after_of_writes_sub hostOps3 _ Gen.hostOps3_writes (by decide : main_arg0 ∉ Gen.hostOps3_W)).trans (arg6_0 m ρ c)
theorem arg8_0 (c : Dev nD) : B8 m ρ c (Proc.devRef .tc main_arg0) = m ((c : Thread nD τ).loc main_arg0) := (B8_of_ne m ρ c main_arg0 (by decide)).trans (arg7_0 m ρ c)
theorem arg9_0 (c : Dev nD) : B9 m ρ c (Proc.devRef .tc main_arg0) = m ((c : Thread nD τ).loc main_arg0) := (StableHlo.after_of_writes_sub hostOps4 _ Gen.hostOps4_writes (by decide : main_arg0 ∉ Gen.hostOps4_W)).trans (arg8_0 m ρ c)
theorem arg10_0 (c : Dev nD) : B10 m ρ c (Proc.devRef .tc main_arg0) = m ((c : Thread nD τ).loc main_arg0) := (B10_of_ne m ρ c main_arg0 (by decide)).trans (arg9_0 m ρ c)
theorem arg11_0 (c : Dev nD) : B11 m ρ c (Proc.devRef .tc main_arg0) = m ((c : Thread nD τ).loc main_arg0) := (StableHlo.after_of_writes_sub hostOps5 _ Gen.hostOps5_writes (by decide : main_arg0 ∉ Gen.hostOps5_W)).trans (arg10_0 m ρ c)
theorem arg12_0 (c : Dev nD) : B12 m ρ c (Proc.devRef .tc main_arg0) = m ((c : Thread nD τ).loc main_arg0) := (B12_of_ne m ρ c main_arg0 (by decide)).trans (arg11_0 m ρ c)
theorem arg13_0 (c : Dev nD) : B13 m ρ c (Proc.devRef .tc main_arg0) = m ((c : Thread nD τ).loc main_arg0) := (StableHlo.after_of_writes_sub hostOps6 _ Gen.hostOps6_writes (by decide : main_arg0 ∉ Gen.hostOps6_W)).trans (arg12_0 m ρ c)
theorem arg14_0 (c : Dev nD) : B14 m ρ c (Proc.devRef .tc main_arg0) = m ((c : Thread nD τ).loc main_arg0) := (B14_of_ne m ρ c main_arg0 (by decide)).trans (arg13_0 m ρ c)
theorem arg15_0 (c : Dev nD) : B15 m ρ c (Proc.devRef .tc main_arg0) = m ((c : Thread nD τ).loc main_arg0) := (StableHlo.after_of_writes_sub hostOps7 _ Gen.hostOps7_writes (by decide : main_arg0 ∉ Gen.hostOps7_W)).trans (arg14_0 m ρ c)
theorem arg16_0 (c : Dev nD) : B16 m ρ c (Proc.devRef .tc main_arg0) = m ((c : Thread nD τ).loc main_arg0) := (B16_of_ne m ρ c main_arg0 (by decide)).trans (arg15_0 m ρ c)
theorem arg1_1 (c : Dev nD) : B1 m ρ c (Proc.devRef .tc main_arg1) = m ((c : Thread nD τ).loc main_arg1) := (StableHlo.after_of_writes_sub hostOps0 _ Gen.hostOps0_writes (by decide : main_arg1 ∉ Gen.hostOps0_W)).trans rfl
theorem arg2_1 (c : Dev nD) : B2 m ρ c (Proc.devRef .tc main_arg1) = m ((c : Thread nD τ).loc main_arg1) := (B2_of_ne m ρ c main_arg1 (by decide)).trans (arg1_1 m ρ c)
theorem arg3_1 (c : Dev nD) : B3 m ρ c (Proc.devRef .tc main_arg1) = m ((c : Thread nD τ).loc main_arg1) := (StableHlo.after_of_writes_sub hostOps1 _ Gen.hostOps1_writes (by decide : main_arg1 ∉ Gen.hostOps1_W)).trans (arg2_1 m ρ c)
theorem arg4_1 (c : Dev nD) : B4 m ρ c (Proc.devRef .tc main_arg1) = m ((c : Thread nD τ).loc main_arg1) := (B4_of_ne m ρ c main_arg1 (by decide)).trans (arg3_1 m ρ c)
theorem arg5_1 (c : Dev nD) : B5 m ρ c (Proc.devRef .tc main_arg1) = m ((c : Thread nD τ).loc main_arg1) := (StableHlo.after_of_writes_sub hostOps2 _ Gen.hostOps2_writes (by decide : main_arg1 ∉ Gen.hostOps2_W)).trans (arg4_1 m ρ c)
theorem arg6_1 (c : Dev nD) : B6 m ρ c (Proc.devRef .tc main_arg1) = m ((c : Thread nD τ).loc main_arg1) := (B6_of_ne m ρ c main_arg1 (by decide)).trans (arg5_1 m ρ c)
theorem arg7_1 (c : Dev nD) : B7 m ρ c (Proc.devRef .tc main_arg1) = m ((c : Thread nD τ).loc main_arg1) := (StableHlo.after_of_writes_sub hostOps3 _ Gen.hostOps3_writes (by decide : main_arg1 ∉ Gen.hostOps3_W)).trans (arg6_1 m ρ c)
theorem arg8_1 (c : Dev nD) : B8 m ρ c (Proc.devRef .tc main_arg1) = m ((c : Thread nD τ).loc main_arg1) := ((B8_arr m ρ c 0).trans (((dat3 (E7 m ρ) c).arrAt_in 0 rfl _).trans (A_eq3 (E7 m ρ) c 0))).trans (arg7_1 m ρ c)
theorem arg9_1 (c : Dev nD) : B9 m ρ c (Proc.devRef .tc main_arg1) = m ((c : Thread nD τ).loc main_arg1) := (StableHlo.after_of_writes_sub hostOps4 _ Gen.hostOps4_writes (by decide : main_arg1 ∉ Gen.hostOps4_W)).trans (arg8_1 m ρ c)
theorem arg10_1 (c : Dev nD) : B10 m ρ c (Proc.devRef .tc main_arg1) = m ((c : Thread nD τ).loc main_arg1) := (B10_of_ne m ρ c main_arg1 (by decide)).trans (arg9_1 m ρ c)
theorem arg11_1 (c : Dev nD) : B11 m ρ c (Proc.devRef .tc main_arg1) = m ((c : Thread nD τ).loc main_arg1) := (StableHlo.after_of_writes_sub hostOps5 _ Gen.hostOps5_writes (by decide : main_arg1 ∉ Gen.hostOps5_W)).trans (arg10_1 m ρ c)
theorem arg12_1 (c : Dev nD) : B12 m ρ c (Proc.devRef .tc main_arg1) = m ((c : Thread nD τ).loc main_arg1) := (B12_of_ne m ρ c main_arg1 (by decide)).trans (arg11_1 m ρ c)
theorem arg13_1 (c : Dev nD) : B13 m ρ c (Proc.devRef .tc main_arg1) = m ((c : Thread nD τ).loc main_arg1) := (StableHlo.after_of_writes_sub hostOps6 _ Gen.hostOps6_writes (by decide : main_arg1 ∉ Gen.hostOps6_W)).trans (arg12_1 m ρ c)
theorem arg14_1 (c : Dev nD) : B14 m ρ c (Proc.devRef .tc main_arg1) = m ((c : Thread nD τ).loc main_arg1) := (B14_of_ne m ρ c main_arg1 (by decide)).trans (arg13_1 m ρ c)
theorem arg15_1 (c : Dev nD) : B15 m ρ c (Proc.devRef .tc main_arg1) = m ((c : Thread nD τ).loc main_arg1) := (StableHlo.after_of_writes_sub hostOps7 _ Gen.hostOps7_writes (by decide : main_arg1 ∉ Gen.hostOps7_W)).trans (arg14_1 m ρ c)
theorem arg16_1 (c : Dev nD) : B16 m ρ c (Proc.devRef .tc main_arg1) = m ((c : Thread nD τ).loc main_arg1) := (B16_of_ne m ρ c main_arg1 (by decide)).trans (arg15_1 m ρ c)
theorem arg1_2 (c : Dev nD) : B1 m ρ c (Proc.devRef .tc main_arg2) = m ((c : Thread nD τ).loc main_arg2) := (StableHlo.after_of_writes_sub hostOps0 _ Gen.hostOps0_writes (by decide : main_arg2 ∉ Gen.hostOps0_W)).trans rfl
theorem arg2_2 (c : Dev nD) : B2 m ρ c (Proc.devRef .tc main_arg2) = m ((c : Thread nD τ).loc main_arg2) := (B2_of_ne m ρ c main_arg2 (by decide)).trans (arg1_2 m ρ c)
theorem arg3_2 (c : Dev nD) : B3 m ρ c (Proc.devRef .tc main_arg2) = m ((c : Thread nD τ).loc main_arg2) := (StableHlo.after_of_writes_sub hostOps1 _ Gen.hostOps1_writes (by decide : main_arg2 ∉ Gen.hostOps1_W)).trans (arg2_2 m ρ c)
theorem arg4_2 (c : Dev nD) : B4 m ρ c (Proc.devRef .tc main_arg2) = m ((c : Thread nD τ).loc main_arg2) := (B4_of_ne m ρ c main_arg2 (by decide)).trans (arg3_2 m ρ c)
theorem arg5_2 (c : Dev nD) : B5 m ρ c (Proc.devRef .tc main_arg2) = m ((c : Thread nD τ).loc main_arg2) := (StableHlo.after_of_writes_sub hostOps2 _ Gen.hostOps2_writes (by decide : main_arg2 ∉ Gen.hostOps2_W)).trans (arg4_2 m ρ c)
theorem arg6_2 (c : Dev nD) : B6 m ρ c (Proc.devRef .tc main_arg2) = m ((c : Thread nD τ).loc main_arg2) := (B6_of_ne m ρ c main_arg2 (by decide)).trans (arg5_2 m ρ c)
theorem arg7_2 (c : Dev nD) : B7 m ρ c (Proc.devRef .tc main_arg2) = m ((c : Thread nD τ).loc main_arg2) := (StableHlo.after_of_writes_sub hostOps3 _ Gen.hostOps3_writes (by decide : main_arg2 ∉ Gen.hostOps3_W)).trans (arg6_2 m ρ c)
theorem arg8_2 (c : Dev nD) : B8 m ρ c (Proc.devRef .tc main_arg2) = m ((c : Thread nD τ).loc main_arg2) := (B8_of_ne m ρ c main_arg2 (by decide)).trans (arg7_2 m ρ c)
theorem arg9_2 (c : Dev nD) : B9 m ρ c (Proc.devRef .tc main_arg2) = m ((c : Thread nD τ).loc main_arg2) := (StableHlo.after_of_writes_sub hostOps4 _ Gen.hostOps4_writes (by decide : main_arg2 ∉ Gen.hostOps4_W)).trans (arg8_2 m ρ c)
theorem arg10_2 (c : Dev nD) : B10 m ρ c (Proc.devRef .tc main_arg2) = m ((c : Thread nD τ).loc main_arg2) := (B10_of_ne m ρ c main_arg2 (by decide)).trans (arg9_2 m ρ c)
theorem arg11_2 (c : Dev nD) : B11 m ρ c (Proc.devRef .tc main_arg2) = m ((c : Thread nD τ).loc main_arg2) := (StableHlo.after_of_writes_sub hostOps5 _ Gen.hostOps5_writes (by decide : main_arg2 ∉ Gen.hostOps5_W)).trans (arg10_2 m ρ c)
theorem arg12_2 (c : Dev nD) : B12 m ρ c (Proc.devRef .tc main_arg2) = m ((c : Thread nD τ).loc main_arg2) := (B12_of_ne m ρ c main_arg2 (by decide)).trans (arg11_2 m ρ c)
theorem arg13_2 (c : Dev nD) : B13 m ρ c (Proc.devRef .tc main_arg2) = m ((c : Thread nD τ).loc main_arg2) := (StableHlo.after_of_writes_sub hostOps6 _ Gen.hostOps6_writes (by decide : main_arg2 ∉ Gen.hostOps6_W)).trans (arg12_2 m ρ c)
theorem arg14_2 (c : Dev nD) : B14 m ρ c (Proc.devRef .tc main_arg2) = m ((c : Thread nD τ).loc main_arg2) := (B14_of_ne m ρ c main_arg2 (by decide)).trans (arg13_2 m ρ c)
theorem arg15_2 (c : Dev nD) : B15 m ρ c (Proc.devRef .tc main_arg2) = m ((c : Thread nD τ).loc main_arg2) := (StableHlo.after_of_writes_sub hostOps7 _ Gen.hostOps7_writes (by decide : main_arg2 ∉ Gen.hostOps7_W)).trans (arg14_2 m ρ c)
theorem arg16_2 (c : Dev nD) : B16 m ρ c (Proc.devRef .tc main_arg2) = m ((c : Thread nD τ).loc main_arg2) := (B16_of_ne m ρ c main_arg2 (by decide)).trans (arg15_2 m ρ c)
theorem arg1_3 (c : Dev nD) : B1 m ρ c (Proc.devRef .tc main_arg3) = m ((c : Thread nD τ).loc main_arg3) := (StableHlo.after_of_writes_sub hostOps0 _ Gen.hostOps0_writes (by decide : main_arg3 ∉ Gen.hostOps0_W)).trans rfl
theorem arg2_3 (c : Dev nD) : B2 m ρ c (Proc.devRef .tc main_arg3) = m ((c : Thread nD τ).loc main_arg3) := (B2_of_ne m ρ c main_arg3 (by decide)).trans (arg1_3 m ρ c)
theorem arg3_3 (c : Dev nD) : B3 m ρ c (Proc.devRef .tc main_arg3) = m ((c : Thread nD τ).loc main_arg3) := (StableHlo.after_of_writes_sub hostOps1 _ Gen.hostOps1_writes (by decide : main_arg3 ∉ Gen.hostOps1_W)).trans (arg2_3 m ρ c)
theorem arg4_3 (c : Dev nD) : B4 m ρ c (Proc.devRef .tc main_arg3) = m ((c : Thread nD τ).loc main_arg3) := (B4_of_ne m ρ c main_arg3 (by decide)).trans (arg3_3 m ρ c)
theorem arg5_3 (c : Dev nD) : B5 m ρ c (Proc.devRef .tc main_arg3) = m ((c : Thread nD τ).loc main_arg3) := (StableHlo.after_of_writes_sub hostOps2 _ Gen.hostOps2_writes (by decide : main_arg3 ∉ Gen.hostOps2_W)).trans (arg4_3 m ρ c)
theorem arg6_3 (c : Dev nD) : B6 m ρ c (Proc.devRef .tc main_arg3) = m ((c : Thread nD τ).loc main_arg3) := (B6_of_ne m ρ c main_arg3 (by decide)).trans (arg5_3 m ρ c)
theorem arg7_3 (c : Dev nD) : B7 m ρ c (Proc.devRef .tc main_arg3) = m ((c : Thread nD τ).loc main_arg3) := (StableHlo.after_of_writes_sub hostOps3 _ Gen.hostOps3_writes (by decide : main_arg3 ∉ Gen.hostOps3_W)).trans (arg6_3 m ρ c)
theorem arg8_3 (c : Dev nD) : B8 m ρ c (Proc.devRef .tc main_arg3) = m ((c : Thread nD τ).loc main_arg3) := (B8_of_ne m ρ c main_arg3 (by decide)).trans (arg7_3 m ρ c)
theorem arg9_3 (c : Dev nD) : B9 m ρ c (Proc.devRef .tc main_arg3) = m ((c : Thread nD τ).loc main_arg3) := (StableHlo.after_of_writes_sub hostOps4 _ Gen.hostOps4_writes (by decide : main_arg3 ∉ Gen.hostOps4_W)).trans (arg8_3 m ρ c)
theorem arg10_3 (c : Dev nD) : B10 m ρ c (Proc.devRef .tc main_arg3) = m ((c : Thread nD τ).loc main_arg3) := (B10_of_ne m ρ c main_arg3 (by decide)).trans (arg9_3 m ρ c)
theorem arg11_3 (c : Dev nD) : B11 m ρ c (Proc.devRef .tc main_arg3) = m ((c : Thread nD τ).loc main_arg3) := (StableHlo.after_of_writes_sub hostOps5 _ Gen.hostOps5_writes (by decide : main_arg3 ∉ Gen.hostOps5_W)).trans (arg10_3 m ρ c)
theorem arg12_3 (c : Dev nD) : B12 m ρ c (Proc.devRef .tc main_arg3) = m ((c : Thread nD τ).loc main_arg3) := (B12_of_ne m ρ c main_arg3 (by decide)).trans (arg11_3 m ρ c)
theorem arg13_3 (c : Dev nD) : B13 m ρ c (Proc.devRef .tc main_arg3) = m ((c : Thread nD τ).loc main_arg3) := (StableHlo.after_of_writes_sub hostOps6 _ Gen.hostOps6_writes (by decide : main_arg3 ∉ Gen.hostOps6_W)).trans (arg12_3 m ρ c)
theorem arg14_3 (c : Dev nD) : B14 m ρ c (Proc.devRef .tc main_arg3) = m ((c : Thread nD τ).loc main_arg3) := (B14_of_ne m ρ c main_arg3 (by decide)).trans (arg13_3 m ρ c)
theorem arg15_3 (c : Dev nD) : B15 m ρ c (Proc.devRef .tc main_arg3) = m ((c : Thread nD τ).loc main_arg3) := (StableHlo.after_of_writes_sub hostOps7 _ Gen.hostOps7_writes (by decide : main_arg3 ∉ Gen.hostOps7_W)).trans (arg14_3 m ρ c)
theorem arg16_3 (c : Dev nD) : B16 m ρ c (Proc.devRef .tc main_arg3) = m ((c : Thread nD τ).loc main_arg3) := (B16_of_ne m ρ c main_arg3 (by decide)).trans (arg15_3 m ρ c)
theorem arg1_4 (c : Dev nD) : B1 m ρ c (Proc.devRef .tc main_arg4) = m ((c : Thread nD τ).loc main_arg4) := (StableHlo.after_of_writes_sub hostOps0 _ Gen.hostOps0_writes (by decide : main_arg4 ∉ Gen.hostOps0_W)).trans rfl
theorem arg2_4 (c : Dev nD) : B2 m ρ c (Proc.devRef .tc main_arg4) = m ((c : Thread nD τ).loc main_arg4) := (B2_of_ne m ρ c main_arg4 (by decide)).trans (arg1_4 m ρ c)
theorem arg3_4 (c : Dev nD) : B3 m ρ c (Proc.devRef .tc main_arg4) = m ((c : Thread nD τ).loc main_arg4) := (StableHlo.after_of_writes_sub hostOps1 _ Gen.hostOps1_writes (by decide : main_arg4 ∉ Gen.hostOps1_W)).trans (arg2_4 m ρ c)
theorem arg4_4 (c : Dev nD) : B4 m ρ c (Proc.devRef .tc main_arg4) = m ((c : Thread nD τ).loc main_arg4) := (B4_of_ne m ρ c main_arg4 (by decide)).trans (arg3_4 m ρ c)
theorem arg5_4 (c : Dev nD) : B5 m ρ c (Proc.devRef .tc main_arg4) = m ((c : Thread nD τ).loc main_arg4) := (StableHlo.after_of_writes_sub hostOps2 _ Gen.hostOps2_writes (by decide : main_arg4 ∉ Gen.hostOps2_W)).trans (arg4_4 m ρ c)
theorem arg6_4 (c : Dev nD) : B6 m ρ c (Proc.devRef .tc main_arg4) = m ((c : Thread nD τ).loc main_arg4) := (B6_of_ne m ρ c main_arg4 (by decide)).trans (arg5_4 m ρ c)
theorem arg7_4 (c : Dev nD) : B7 m ρ c (Proc.devRef .tc main_arg4) = m ((c : Thread nD τ).loc main_arg4) := (StableHlo.after_of_writes_sub hostOps3 _ Gen.hostOps3_writes (by decide : main_arg4 ∉ Gen.hostOps3_W)).trans (arg6_4 m ρ c)
theorem arg8_4 (c : Dev nD) : B8 m ρ c (Proc.devRef .tc main_arg4) = m ((c : Thread nD τ).loc main_arg4) := (B8_of_ne m ρ c main_arg4 (by decide)).trans (arg7_4 m ρ c)
theorem arg9_4 (c : Dev nD) : B9 m ρ c (Proc.devRef .tc main_arg4) = m ((c : Thread nD τ).loc main_arg4) := (StableHlo.after_of_writes_sub hostOps4 _ Gen.hostOps4_writes (by decide : main_arg4 ∉ Gen.hostOps4_W)).trans (arg8_4 m ρ c)
theorem arg10_4 (c : Dev nD) : B10 m ρ c (Proc.devRef .tc main_arg4) = m ((c : Thread nD τ).loc main_arg4) := (B10_of_ne m ρ c main_arg4 (by decide)).trans (arg9_4 m ρ c)
theorem arg11_4 (c : Dev nD) : B11 m ρ c (Proc.devRef .tc main_arg4) = m ((c : Thread nD τ).loc main_arg4) := (StableHlo.after_of_writes_sub hostOps5 _ Gen.hostOps5_writes (by decide : main_arg4 ∉ Gen.hostOps5_W)).trans (arg10_4 m ρ c)
theorem arg12_4 (c : Dev nD) : B12 m ρ c (Proc.devRef .tc main_arg4) = m ((c : Thread nD τ).loc main_arg4) := (B12_of_ne m ρ c main_arg4 (by decide)).trans (arg11_4 m ρ c)
theorem arg13_4 (c : Dev nD) : B13 m ρ c (Proc.devRef .tc main_arg4) = m ((c : Thread nD τ).loc main_arg4) := (StableHlo.after_of_writes_sub hostOps6 _ Gen.hostOps6_writes (by decide : main_arg4 ∉ Gen.hostOps6_W)).trans (arg12_4 m ρ c)
theorem arg14_4 (c : Dev nD) : B14 m ρ c (Proc.devRef .tc main_arg4) = m ((c : Thread nD τ).loc main_arg4) := (B14_of_ne m ρ c main_arg4 (by decide)).trans (arg13_4 m ρ c)
theorem arg15_4 (c : Dev nD) : B15 m ρ c (Proc.devRef .tc main_arg4) = m ((c : Thread nD τ).loc main_arg4) := (StableHlo.after_of_writes_sub hostOps7 _ Gen.hostOps7_writes (by decide : main_arg4 ∉ Gen.hostOps7_W)).trans (arg14_4 m ρ c)
theorem arg16_4 (c : Dev nD) : B16 m ρ c (Proc.devRef .tc main_arg4) = m ((c : Thread nD τ).loc main_arg4) := (B16_of_ne m ρ c main_arg4 (by decide)).trans (arg15_4 m ρ c)
theorem arg1_5 (c : Dev nD) : B1 m ρ c (Proc.devRef .tc main_arg5) = m ((c : Thread nD τ).loc main_arg5) := (StableHlo.after_of_writes_sub hostOps0 _ Gen.hostOps0_writes (by decide : main_arg5 ∉ Gen.hostOps0_W)).trans rfl
theorem arg2_5 (c : Dev nD) : B2 m ρ c (Proc.devRef .tc main_arg5) = m ((c : Thread nD τ).loc main_arg5) := (B2_of_ne m ρ c main_arg5 (by decide)).trans (arg1_5 m ρ c)
theorem arg3_5 (c : Dev nD) : B3 m ρ c (Proc.devRef .tc main_arg5) = m ((c : Thread nD τ).loc main_arg5) := (StableHlo.after_of_writes_sub hostOps1 _ Gen.hostOps1_writes (by decide : main_arg5 ∉ Gen.hostOps1_W)).trans (arg2_5 m ρ c)
theorem arg4_5 (c : Dev nD) : B4 m ρ c (Proc.devRef .tc main_arg5) = m ((c : Thread nD τ).loc main_arg5) := (B4_of_ne m ρ c main_arg5 (by decide)).trans (arg3_5 m ρ c)
theorem arg5_5 (c : Dev nD) : B5 m ρ c (Proc.devRef .tc main_arg5) = m ((c : Thread nD τ).loc main_arg5) := (StableHlo.after_of_writes_sub hostOps2 _ Gen.hostOps2_writes (by decide : main_arg5 ∉ Gen.hostOps2_W)).trans (arg4_5 m ρ c)
theorem arg6_5 (c : Dev nD) : B6 m ρ c (Proc.devRef .tc main_arg5) = m ((c : Thread nD τ).loc main_arg5) := (B6_of_ne m ρ c main_arg5 (by decide)).trans (arg5_5 m ρ c)
theorem arg7_5 (c : Dev nD) : B7 m ρ c (Proc.devRef .tc main_arg5) = m ((c : Thread nD τ).loc main_arg5) := (StableHlo.after_of_writes_sub hostOps3 _ Gen.hostOps3_writes (by decide : main_arg5 ∉ Gen.hostOps3_W)).trans (arg6_5 m ρ c)
theorem arg8_5 (c : Dev nD) : B8 m ρ c (Proc.devRef .tc main_arg5) = m ((c : Thread nD τ).loc main_arg5) := (B8_of_ne m ρ c main_arg5 (by decide)).trans (arg7_5 m ρ c)
theorem arg9_5 (c : Dev nD) : B9 m ρ c (Proc.devRef .tc main_arg5) = m ((c : Thread nD τ).loc main_arg5) := (StableHlo.after_of_writes_sub hostOps4 _ Gen.hostOps4_writes (by decide : main_arg5 ∉ Gen.hostOps4_W)).trans (arg8_5 m ρ c)
theorem arg10_5 (c : Dev nD) : B10 m ρ c (Proc.devRef .tc main_arg5) = m ((c : Thread nD τ).loc main_arg5) := (B10_of_ne m ρ c main_arg5 (by decide)).trans (arg9_5 m ρ c)
theorem arg11_5 (c : Dev nD) : B11 m ρ c (Proc.devRef .tc main_arg5) = m ((c : Thread nD τ).loc main_arg5) := (StableHlo.after_of_writes_sub hostOps5 _ Gen.hostOps5_writes (by decide : main_arg5 ∉ Gen.hostOps5_W)).trans (arg10_5 m ρ c)
theorem arg12_5 (c : Dev nD) : B12 m ρ c (Proc.devRef .tc main_arg5) = m ((c : Thread nD τ).loc main_arg5) := (B12_of_ne m ρ c main_arg5 (by decide)).trans (arg11_5 m ρ c)
theorem arg13_5 (c : Dev nD) : B13 m ρ c (Proc.devRef .tc main_arg5) = m ((c : Thread nD τ).loc main_arg5) := (StableHlo.after_of_writes_sub hostOps6 _ Gen.hostOps6_writes (by decide : main_arg5 ∉ Gen.hostOps6_W)).trans (arg12_5 m ρ c)
theorem arg14_5 (c : Dev nD) : B14 m ρ c (Proc.devRef .tc main_arg5) = m ((c : Thread nD τ).loc main_arg5) := (B14_of_ne m ρ c main_arg5 (by decide)).trans (arg13_5 m ρ c)
theorem arg15_5 (c : Dev nD) : B15 m ρ c (Proc.devRef .tc main_arg5) = m ((c : Thread nD τ).loc main_arg5) := (StableHlo.after_of_writes_sub hostOps7 _ Gen.hostOps7_writes (by decide : main_arg5 ∉ Gen.hostOps7_W)).trans (arg14_5 m ρ c)
theorem arg16_5 (c : Dev nD) : B16 m ρ c (Proc.devRef .tc main_arg5) = m ((c : Thread nD τ).loc main_arg5) := (B16_of_ne m ρ c main_arg5 (by decide)).trans (arg15_5 m ρ c)
theorem arg1_6 (c : Dev nD) : B1 m ρ c (Proc.devRef .tc main_arg6) = m ((c : Thread nD τ).loc main_arg6) := (StableHlo.after_of_writes_sub hostOps0 _ Gen.hostOps0_writes (by decide : main_arg6 ∉ Gen.hostOps0_W)).trans rfl
theorem arg2_6 (c : Dev nD) : B2 m ρ c (Proc.devRef .tc main_arg6) = m ((c : Thread nD τ).loc main_arg6) := (B2_of_ne m ρ c main_arg6 (by decide)).trans (arg1_6 m ρ c)
theorem arg3_6 (c : Dev nD) : B3 m ρ c (Proc.devRef .tc main_arg6) = m ((c : Thread nD τ).loc main_arg6) := (StableHlo.after_of_writes_sub hostOps1 _ Gen.hostOps1_writes (by decide : main_arg6 ∉ Gen.hostOps1_W)).trans (arg2_6 m ρ c)
theorem arg4_6 (c : Dev nD) : B4 m ρ c (Proc.devRef .tc main_arg6) = m ((c : Thread nD τ).loc main_arg6) := (B4_of_ne m ρ c main_arg6 (by decide)).trans (arg3_6 m ρ c)
theorem arg5_6 (c : Dev nD) : B5 m ρ c (Proc.devRef .tc main_arg6) = m ((c : Thread nD τ).loc main_arg6) := (StableHlo.after_of_writes_sub hostOps2 _ Gen.hostOps2_writes (by decide : main_arg6 ∉ Gen.hostOps2_W)).trans (arg4_6 m ρ c)
theorem arg6_6 (c : Dev nD) : B6 m ρ c (Proc.devRef .tc main_arg6) = m ((c : Thread nD τ).loc main_arg6) := (B6_of_ne m ρ c main_arg6 (by decide)).trans (arg5_6 m ρ c)
theorem arg7_6 (c : Dev nD) : B7 m ρ c (Proc.devRef .tc main_arg6) = m ((c : Thread nD τ).loc main_arg6) := (StableHlo.after_of_writes_sub hostOps3 _ Gen.hostOps3_writes (by decide : main_arg6 ∉ Gen.hostOps3_W)).trans (arg6_6 m ρ c)
theorem arg8_6 (c : Dev nD) : B8 m ρ c (Proc.devRef .tc main_arg6) = m ((c : Thread nD τ).loc main_arg6) := (B8_of_ne m ρ c main_arg6 (by decide)).trans (arg7_6 m ρ c)
theorem arg9_6 (c : Dev nD) : B9 m ρ c (Proc.devRef .tc main_arg6) = m ((c : Thread nD τ).loc main_arg6) := (StableHlo.after_of_writes_sub hostOps4 _ Gen.hostOps4_writes (by decide : main_arg6 ∉ Gen.hostOps4_W)).trans (arg8_6 m ρ c)
theorem arg10_6 (c : Dev nD) : B10 m ρ c (Proc.devRef .tc main_arg6) = m ((c : Thread nD τ).loc main_arg6) := (B10_of_ne m ρ c main_arg6 (by decide)).trans (arg9_6 m ρ c)
theorem arg11_6 (c : Dev nD) : B11 m ρ c (Proc.devRef .tc main_arg6) = m ((c : Thread nD τ).loc main_arg6) := (StableHlo.after_of_writes_sub hostOps5 _ Gen.hostOps5_writes (by decide : main_arg6 ∉ Gen.hostOps5_W)).trans (arg10_6 m ρ c)
theorem arg12_6 (c : Dev nD) : B12 m ρ c (Proc.devRef .tc main_arg6) = m ((c : Thread nD τ).loc main_arg6) := (B12_of_ne m ρ c main_arg6 (by decide)).trans (arg11_6 m ρ c)
theorem arg13_6 (c : Dev nD) : B13 m ρ c (Proc.devRef .tc main_arg6) = m ((c : Thread nD τ).loc main_arg6) := (StableHlo.after_of_writes_sub hostOps6 _ Gen.hostOps6_writes (by decide : main_arg6 ∉ Gen.hostOps6_W)).trans (arg12_6 m ρ c)
theorem arg14_6 (c : Dev nD) : B14 m ρ c (Proc.devRef .tc main_arg6) = m ((c : Thread nD τ).loc main_arg6) := (B14_of_ne m ρ c main_arg6 (by decide)).trans (arg13_6 m ρ c)
theorem arg15_6 (c : Dev nD) : B15 m ρ c (Proc.devRef .tc main_arg6) = m ((c : Thread nD τ).loc main_arg6) := (StableHlo.after_of_writes_sub hostOps7 _ Gen.hostOps7_writes (by decide : main_arg6 ∉ Gen.hostOps7_W)).trans (arg14_6 m ρ c)
theorem arg16_6 (c : Dev nD) : B16 m ρ c (Proc.devRef .tc main_arg6) = m ((c : Thread nD τ).loc main_arg6) := (B16_of_ne m ρ c main_arg6 (by decide)).trans (arg15_6 m ρ c)
theorem arg1_7 (c : Dev nD) : B1 m ρ c (Proc.devRef .tc main_arg7) = m ((c : Thread nD τ).loc main_arg7) := (StableHlo.after_of_writes_sub hostOps0 _ Gen.hostOps0_writes (by decide : main_arg7 ∉ Gen.hostOps0_W)).trans rfl
theorem arg2_7 (c : Dev nD) : B2 m ρ c (Proc.devRef .tc main_arg7) = m ((c : Thread nD τ).loc main_arg7) := (B2_of_ne m ρ c main_arg7 (by decide)).trans (arg1_7 m ρ c)
theorem arg3_7 (c : Dev nD) : B3 m ρ c (Proc.devRef .tc main_arg7) = m ((c : Thread nD τ).loc main_arg7) := (StableHlo.after_of_writes_sub hostOps1 _ Gen.hostOps1_writes (by decide : main_arg7 ∉ Gen.hostOps1_W)).trans (arg2_7 m ρ c)
theorem arg4_7 (c : Dev nD) : B4 m ρ c (Proc.devRef .tc main_arg7) = m ((c : Thread nD τ).loc main_arg7) := (B4_of_ne m ρ c main_arg7 (by decide)).trans (arg3_7 m ρ c)
theorem arg5_7 (c : Dev nD) : B5 m ρ c (Proc.devRef .tc main_arg7) = m ((c : Thread nD τ).loc main_arg7) := (StableHlo.after_of_writes_sub hostOps2 _ Gen.hostOps2_writes (by decide : main_arg7 ∉ Gen.hostOps2_W)).trans (arg4_7 m ρ c)
theorem arg6_7 (c : Dev nD) : B6 m ρ c (Proc.devRef .tc main_arg7) = m ((c : Thread nD τ).loc main_arg7) := (B6_of_ne m ρ c main_arg7 (by decide)).trans (arg5_7 m ρ c)
theorem arg7_7 (c : Dev nD) : B7 m ρ c (Proc.devRef .tc main_arg7) = m ((c : Thread nD τ).loc main_arg7) := (StableHlo.after_of_writes_sub hostOps3 _ Gen.hostOps3_writes (by decide : main_arg7 ∉ Gen.hostOps3_W)).trans (arg6_7 m ρ c)
theorem arg8_7 (c : Dev nD) : B8 m ρ c (Proc.devRef .tc main_arg7) = m ((c : Thread nD τ).loc main_arg7) := (B8_of_ne m ρ c main_arg7 (by decide)).trans (arg7_7 m ρ c)
theorem arg9_7 (c : Dev nD) : B9 m ρ c (Proc.devRef .tc main_arg7) = m ((c : Thread nD τ).loc main_arg7) := (StableHlo.after_of_writes_sub hostOps4 _ Gen.hostOps4_writes (by decide : main_arg7 ∉ Gen.hostOps4_W)).trans (arg8_7 m ρ c)
theorem arg10_7 (c : Dev nD) : B10 m ρ c (Proc.devRef .tc main_arg7) = m ((c : Thread nD τ).loc main_arg7) := (B10_of_ne m ρ c main_arg7 (by decide)).trans (arg9_7 m ρ c)
theorem arg11_7 (c : Dev nD) : B11 m ρ c (Proc.devRef .tc main_arg7) = m ((c : Thread nD τ).loc main_arg7) := (StableHlo.after_of_writes_sub hostOps5 _ Gen.hostOps5_writes (by decide : main_arg7 ∉ Gen.hostOps5_W)).trans (arg10_7 m ρ c)
theorem arg12_7 (c : Dev nD) : B12 m ρ c (Proc.devRef .tc main_arg7) = m ((c : Thread nD τ).loc main_arg7) := (B12_of_ne m ρ c main_arg7 (by decide)).trans (arg11_7 m ρ c)
theorem arg13_7 (c : Dev nD) : B13 m ρ c (Proc.devRef .tc main_arg7) = m ((c : Thread nD τ).loc main_arg7) := (StableHlo.after_of_writes_sub hostOps6 _ Gen.hostOps6_writes (by decide : main_arg7 ∉ Gen.hostOps6_W)).trans (arg12_7 m ρ c)
theorem arg14_7 (c : Dev nD) : B14 m ρ c (Proc.devRef .tc main_arg7) = m ((c : Thread nD τ).loc main_arg7) := (B14_of_ne m ρ c main_arg7 (by decide)).trans (arg13_7 m ρ c)
theorem arg15_7 (c : Dev nD) : B15 m ρ c (Proc.devRef .tc main_arg7) = m ((c : Thread nD τ).loc main_arg7) := (StableHlo.after_of_writes_sub hostOps7 _ Gen.hostOps7_writes (by decide : main_arg7 ∉ Gen.hostOps7_W)).trans (arg14_7 m ρ c)
theorem arg16_7 (c : Dev nD) : B16 m ρ c (Proc.devRef .tc main_arg7) = m ((c : Thread nD τ).loc main_arg7) := (B16_of_ne m ρ c main_arg7 (by decide)).trans (arg15_7 m ρ c)
theorem arg1_8 (c : Dev nD) : B1 m ρ c (Proc.devRef .tc main_arg8) = m ((c : Thread nD τ).loc main_arg8) := (StableHlo.after_of_writes_sub hostOps0 _ Gen.hostOps0_writes (by decide : main_arg8 ∉ Gen.hostOps0_W)).trans rfl
theorem arg2_8 (c : Dev nD) : B2 m ρ c (Proc.devRef .tc main_arg8) = m ((c : Thread nD τ).loc main_arg8) := (B2_of_ne m ρ c main_arg8 (by decide)).trans (arg1_8 m ρ c)
theorem arg3_8 (c : Dev nD) : B3 m ρ c (Proc.devRef .tc main_arg8) = m ((c : Thread nD τ).loc main_arg8) := (StableHlo.after_of_writes_sub hostOps1 _ Gen.hostOps1_writes (by decide : main_arg8 ∉ Gen.hostOps1_W)).trans (arg2_8 m ρ c)
theorem arg4_8 (c : Dev nD) : B4 m ρ c (Proc.devRef .tc main_arg8) = m ((c : Thread nD τ).loc main_arg8) := (B4_of_ne m ρ c main_arg8 (by decide)).trans (arg3_8 m ρ c)
theorem arg5_8 (c : Dev nD) : B5 m ρ c (Proc.devRef .tc main_arg8) = m ((c : Thread nD τ).loc main_arg8) := (StableHlo.after_of_writes_sub hostOps2 _ Gen.hostOps2_writes (by decide : main_arg8 ∉ Gen.hostOps2_W)).trans (arg4_8 m ρ c)
theorem arg6_8 (c : Dev nD) : B6 m ρ c (Proc.devRef .tc main_arg8) = m ((c : Thread nD τ).loc main_arg8) := (B6_of_ne m ρ c main_arg8 (by decide)).trans (arg5_8 m ρ c)
theorem arg7_8 (c : Dev nD) : B7 m ρ c (Proc.devRef .tc main_arg8) = m ((c : Thread nD τ).loc main_arg8) := (StableHlo.after_of_writes_sub hostOps3 _ Gen.hostOps3_writes (by decide : main_arg8 ∉ Gen.hostOps3_W)).trans (arg6_8 m ρ c)
theorem arg8_8 (c : Dev nD) : B8 m ρ c (Proc.devRef .tc main_arg8) = m ((c : Thread nD τ).loc main_arg8) := (B8_of_ne m ρ c main_arg8 (by decide)).trans (arg7_8 m ρ c)
theorem arg9_8 (c : Dev nD) : B9 m ρ c (Proc.devRef .tc main_arg8) = m ((c : Thread nD τ).loc main_arg8) := (StableHlo.after_of_writes_sub hostOps4 _ Gen.hostOps4_writes (by decide : main_arg8 ∉ Gen.hostOps4_W)).trans (arg8_8 m ρ c)
theorem arg10_8 (c : Dev nD) : B10 m ρ c (Proc.devRef .tc main_arg8) = m ((c : Thread nD τ).loc main_arg8) := (B10_of_ne m ρ c main_arg8 (by decide)).trans (arg9_8 m ρ c)
theorem arg11_8 (c : Dev nD) : B11 m ρ c (Proc.devRef .tc main_arg8) = m ((c : Thread nD τ).loc main_arg8) := (StableHlo.after_of_writes_sub hostOps5 _ Gen.hostOps5_writes (by decide : main_arg8 ∉ Gen.hostOps5_W)).trans (arg10_8 m ρ c)
theorem arg12_8 (c : Dev nD) : B12 m ρ c (Proc.devRef .tc main_arg8) = m ((c : Thread nD τ).loc main_arg8) := (B12_of_ne m ρ c main_arg8 (by decide)).trans (arg11_8 m ρ c)
theorem arg13_8 (c : Dev nD) : B13 m ρ c (Proc.devRef .tc main_arg8) = m ((c : Thread nD τ).loc main_arg8) := (StableHlo.after_of_writes_sub hostOps6 _ Gen.hostOps6_writes (by decide : main_arg8 ∉ Gen.hostOps6_W)).trans (arg12_8 m ρ c)
theorem arg14_8 (c : Dev nD) : B14 m ρ c (Proc.devRef .tc main_arg8) = m ((c : Thread nD τ).loc main_arg8) := (B14_of_ne m ρ c main_arg8 (by decide)).trans (arg13_8 m ρ c)
theorem arg15_8 (c : Dev nD) : B15 m ρ c (Proc.devRef .tc main_arg8) = m ((c : Thread nD τ).loc main_arg8) := (StableHlo.after_of_writes_sub hostOps7 _ Gen.hostOps7_writes (by decide : main_arg8 ∉ Gen.hostOps7_W)).trans (arg14_8 m ρ c)
theorem arg16_8 (c : Dev nD) : B16 m ρ c (Proc.devRef .tc main_arg8) = m ((c : Thread nD τ).loc main_arg8) := (B16_of_ne m ρ c main_arg8 (by decide)).trans (arg15_8 m ρ c)
theorem arg1_9 (c : Dev nD) : B1 m ρ c (Proc.devRef .tc main_arg9) = m ((c : Thread nD τ).loc main_arg9) := (StableHlo.after_of_writes_sub hostOps0 _ Gen.hostOps0_writes (by decide : main_arg9 ∉ Gen.hostOps0_W)).trans rfl
theorem arg2_9 (c : Dev nD) : B2 m ρ c (Proc.devRef .tc main_arg9) = m ((c : Thread nD τ).loc main_arg9) := (B2_of_ne m ρ c main_arg9 (by decide)).trans (arg1_9 m ρ c)
theorem arg3_9 (c : Dev nD) : B3 m ρ c (Proc.devRef .tc main_arg9) = m ((c : Thread nD τ).loc main_arg9) := (StableHlo.after_of_writes_sub hostOps1 _ Gen.hostOps1_writes (by decide : main_arg9 ∉ Gen.hostOps1_W)).trans (arg2_9 m ρ c)
theorem arg4_9 (c : Dev nD) : B4 m ρ c (Proc.devRef .tc main_arg9) = m ((c : Thread nD τ).loc main_arg9) := (B4_of_ne m ρ c main_arg9 (by decide)).trans (arg3_9 m ρ c)
theorem arg5_9 (c : Dev nD) : B5 m ρ c (Proc.devRef .tc main_arg9) = m ((c : Thread nD τ).loc main_arg9) := (StableHlo.after_of_writes_sub hostOps2 _ Gen.hostOps2_writes (by decide : main_arg9 ∉ Gen.hostOps2_W)).trans (arg4_9 m ρ c)
theorem arg6_9 (c : Dev nD) : B6 m ρ c (Proc.devRef .tc main_arg9) = m ((c : Thread nD τ).loc main_arg9) := (B6_of_ne m ρ c main_arg9 (by decide)).trans (arg5_9 m ρ c)
theorem arg7_9 (c : Dev nD) : B7 m ρ c (Proc.devRef .tc main_arg9) = m ((c : Thread nD τ).loc main_arg9) := (StableHlo.after_of_writes_sub hostOps3 _ Gen.hostOps3_writes (by decide : main_arg9 ∉ Gen.hostOps3_W)).trans (arg6_9 m ρ c)
theorem arg8_9 (c : Dev nD) : B8 m ρ c (Proc.devRef .tc main_arg9) = m ((c : Thread nD τ).loc main_arg9) := (B8_of_ne m ρ c main_arg9 (by decide)).trans (arg7_9 m ρ c)
theorem arg9_9 (c : Dev nD) : B9 m ρ c (Proc.devRef .tc main_arg9) = m ((c : Thread nD τ).loc main_arg9) := (StableHlo.after_of_writes_sub hostOps4 _ Gen.hostOps4_writes (by decide : main_arg9 ∉ Gen.hostOps4_W)).trans (arg8_9 m ρ c)
theorem arg10_9 (c : Dev nD) : B10 m ρ c (Proc.devRef .tc main_arg9) = m ((c : Thread nD τ).loc main_arg9) := (B10_of_ne m ρ c main_arg9 (by decide)).trans (arg9_9 m ρ c)
theorem arg11_9 (c : Dev nD) : B11 m ρ c (Proc.devRef .tc main_arg9) = m ((c : Thread nD τ).loc main_arg9) := (StableHlo.after_of_writes_sub hostOps5 _ Gen.hostOps5_writes (by decide : main_arg9 ∉ Gen.hostOps5_W)).trans (arg10_9 m ρ c)
theorem arg12_9 (c : Dev nD) : B12 m ρ c (Proc.devRef .tc main_arg9) = m ((c : Thread nD τ).loc main_arg9) := (B12_of_ne m ρ c main_arg9 (by decide)).trans (arg11_9 m ρ c)
theorem arg13_9 (c : Dev nD) : B13 m ρ c (Proc.devRef .tc main_arg9) = m ((c : Thread nD τ).loc main_arg9) := (StableHlo.after_of_writes_sub hostOps6 _ Gen.hostOps6_writes (by decide : main_arg9 ∉ Gen.hostOps6_W)).trans (arg12_9 m ρ c)
theorem arg14_9 (c : Dev nD) : B14 m ρ c (Proc.devRef .tc main_arg9) = m ((c : Thread nD τ).loc main_arg9) := (B14_of_ne m ρ c main_arg9 (by decide)).trans (arg13_9 m ρ c)
theorem arg15_9 (c : Dev nD) : B15 m ρ c (Proc.devRef .tc main_arg9) = m ((c : Thread nD τ).loc main_arg9) := (StableHlo.after_of_writes_sub hostOps7 _ Gen.hostOps7_writes (by decide : main_arg9 ∉ Gen.hostOps7_W)).trans (arg14_9 m ρ c)
theorem arg16_9 (c : Dev nD) : B16 m ρ c (Proc.devRef .tc main_arg9) = m ((c : Thread nD τ).loc main_arg9) := (B16_of_ne m ρ c main_arg9 (by decide)).trans (arg15_9 m ρ c)
theorem arg1_10 (c : Dev nD) : B1 m ρ c (Proc.devRef .tc main_arg10) = m ((c : Thread nD τ).loc main_arg10) := (StableHlo.after_of_writes_sub hostOps0 _ Gen.hostOps0_writes (by decide : main_arg10 ∉ Gen.hostOps0_W)).trans rfl
theorem arg2_10 (c : Dev nD) : B2 m ρ c (Proc.devRef .tc main_arg10) = m ((c : Thread nD τ).loc main_arg10) := (B2_of_ne m ρ c main_arg10 (by decide)).trans (arg1_10 m ρ c)
theorem arg3_10 (c : Dev nD) : B3 m ρ c (Proc.devRef .tc main_arg10) = m ((c : Thread nD τ).loc main_arg10) := (StableHlo.after_of_writes_sub hostOps1 _ Gen.hostOps1_writes (by decide : main_arg10 ∉ Gen.hostOps1_W)).trans (arg2_10 m ρ c)
theorem arg4_10 (c : Dev nD) : B4 m ρ c (Proc.devRef .tc main_arg10) = m ((c : Thread nD τ).loc main_arg10) := (B4_of_ne m ρ c main_arg10 (by decide)).trans (arg3_10 m ρ c)
theorem arg5_10 (c : Dev nD) : B5 m ρ c (Proc.devRef .tc main_arg10) = m ((c : Thread nD τ).loc main_arg10) := (StableHlo.after_of_writes_sub hostOps2 _ Gen.hostOps2_writes (by decide : main_arg10 ∉ Gen.hostOps2_W)).trans (arg4_10 m ρ c)
theorem arg6_10 (c : Dev nD) : B6 m ρ c (Proc.devRef .tc main_arg10) = m ((c : Thread nD τ).loc main_arg10) := (B6_of_ne m ρ c main_arg10 (by decide)).trans (arg5_10 m ρ c)
theorem arg7_10 (c : Dev nD) : B7 m ρ c (Proc.devRef .tc main_arg10) = m ((c : Thread nD τ).loc main_arg10) := (StableHlo.after_of_writes_sub hostOps3 _ Gen.hostOps3_writes (by decide : main_arg10 ∉ Gen.hostOps3_W)).trans (arg6_10 m ρ c)
theorem arg8_10 (c : Dev nD) : B8 m ρ c (Proc.devRef .tc main_arg10) = m ((c : Thread nD τ).loc main_arg10) := (B8_of_ne m ρ c main_arg10 (by decide)).trans (arg7_10 m ρ c)
theorem arg9_10 (c : Dev nD) : B9 m ρ c (Proc.devRef .tc main_arg10) = m ((c : Thread nD τ).loc main_arg10) := (StableHlo.after_of_writes_sub hostOps4 _ Gen.hostOps4_writes (by decide : main_arg10 ∉ Gen.hostOps4_W)).trans (arg8_10 m ρ c)
theorem arg10_10 (c : Dev nD) : B10 m ρ c (Proc.devRef .tc main_arg10) = m ((c : Thread nD τ).loc main_arg10) := (B10_of_ne m ρ c main_arg10 (by decide)).trans (arg9_10 m ρ c)
theorem arg11_10 (c : Dev nD) : B11 m ρ c (Proc.devRef .tc main_arg10) = m ((c : Thread nD τ).loc main_arg10) := (StableHlo.after_of_writes_sub hostOps5 _ Gen.hostOps5_writes (by decide : main_arg10 ∉ Gen.hostOps5_W)).trans (arg10_10 m ρ c)
theorem arg12_10 (c : Dev nD) : B12 m ρ c (Proc.devRef .tc main_arg10) = m ((c : Thread nD τ).loc main_arg10) := (B12_of_ne m ρ c main_arg10 (by decide)).trans (arg11_10 m ρ c)
theorem arg13_10 (c : Dev nD) : B13 m ρ c (Proc.devRef .tc main_arg10) = m ((c : Thread nD τ).loc main_arg10) := (StableHlo.after_of_writes_sub hostOps6 _ Gen.hostOps6_writes (by decide : main_arg10 ∉ Gen.hostOps6_W)).trans (arg12_10 m ρ c)
theorem arg14_10 (c : Dev nD) : B14 m ρ c (Proc.devRef .tc main_arg10) = m ((c : Thread nD τ).loc main_arg10) := (B14_of_ne m ρ c main_arg10 (by decide)).trans (arg13_10 m ρ c)
theorem arg15_10 (c : Dev nD) : B15 m ρ c (Proc.devRef .tc main_arg10) = m ((c : Thread nD τ).loc main_arg10) := (StableHlo.after_of_writes_sub hostOps7 _ Gen.hostOps7_writes (by decide : main_arg10 ∉ Gen.hostOps7_W)).trans (arg14_10 m ρ c)
theorem arg16_10 (c : Dev nD) : B16 m ρ c (Proc.devRef .tc main_arg10) = m ((c : Thread nD τ).loc main_arg10) := (B16_of_ne m ρ c main_arg10 (by decide)).trans (arg15_10 m ρ c)
theorem arg1_11 (c : Dev nD) : B1 m ρ c (Proc.devRef .tc main_arg11) = m ((c : Thread nD τ).loc main_arg11) := (StableHlo.after_of_writes_sub hostOps0 _ Gen.hostOps0_writes (by decide : main_arg11 ∉ Gen.hostOps0_W)).trans rfl
theorem arg2_11 (c : Dev nD) : B2 m ρ c (Proc.devRef .tc main_arg11) = m ((c : Thread nD τ).loc main_arg11) := (B2_of_ne m ρ c main_arg11 (by decide)).trans (arg1_11 m ρ c)
theorem arg3_11 (c : Dev nD) : B3 m ρ c (Proc.devRef .tc main_arg11) = m ((c : Thread nD τ).loc main_arg11) := (StableHlo.after_of_writes_sub hostOps1 _ Gen.hostOps1_writes (by decide : main_arg11 ∉ Gen.hostOps1_W)).trans (arg2_11 m ρ c)
theorem arg4_11 (c : Dev nD) : B4 m ρ c (Proc.devRef .tc main_arg11) = m ((c : Thread nD τ).loc main_arg11) := (B4_of_ne m ρ c main_arg11 (by decide)).trans (arg3_11 m ρ c)
theorem arg5_11 (c : Dev nD) : B5 m ρ c (Proc.devRef .tc main_arg11) = m ((c : Thread nD τ).loc main_arg11) := (StableHlo.after_of_writes_sub hostOps2 _ Gen.hostOps2_writes (by decide : main_arg11 ∉ Gen.hostOps2_W)).trans (arg4_11 m ρ c)
theorem arg6_11 (c : Dev nD) : B6 m ρ c (Proc.devRef .tc main_arg11) = m ((c : Thread nD τ).loc main_arg11) := (B6_of_ne m ρ c main_arg11 (by decide)).trans (arg5_11 m ρ c)
theorem arg7_11 (c : Dev nD) : B7 m ρ c (Proc.devRef .tc main_arg11) = m ((c : Thread nD τ).loc main_arg11) := (StableHlo.after_of_writes_sub hostOps3 _ Gen.hostOps3_writes (by decide : main_arg11 ∉ Gen.hostOps3_W)).trans (arg6_11 m ρ c)
theorem arg8_11 (c : Dev nD) : B8 m ρ c (Proc.devRef .tc main_arg11) = m ((c : Thread nD τ).loc main_arg11) := (B8_of_ne m ρ c main_arg11 (by decide)).trans (arg7_11 m ρ c)
theorem arg9_11 (c : Dev nD) : B9 m ρ c (Proc.devRef .tc main_arg11) = m ((c : Thread nD τ).loc main_arg11) := (StableHlo.after_of_writes_sub hostOps4 _ Gen.hostOps4_writes (by decide : main_arg11 ∉ Gen.hostOps4_W)).trans (arg8_11 m ρ c)
theorem arg10_11 (c : Dev nD) : B10 m ρ c (Proc.devRef .tc main_arg11) = m ((c : Thread nD τ).loc main_arg11) := (B10_of_ne m ρ c main_arg11 (by decide)).trans (arg9_11 m ρ c)
theorem arg11_11 (c : Dev nD) : B11 m ρ c (Proc.devRef .tc main_arg11) = m ((c : Thread nD τ).loc main_arg11) := (StableHlo.after_of_writes_sub hostOps5 _ Gen.hostOps5_writes (by decide : main_arg11 ∉ Gen.hostOps5_W)).trans (arg10_11 m ρ c)
theorem arg12_11 (c : Dev nD) : B12 m ρ c (Proc.devRef .tc main_arg11) = m ((c : Thread nD τ).loc main_arg11) := (B12_of_ne m ρ c main_arg11 (by decide)).trans (arg11_11 m ρ c)
theorem arg13_11 (c : Dev nD) : B13 m ρ c (Proc.devRef .tc main_arg11) = m ((c : Thread nD τ).loc main_arg11) := (StableHlo.after_of_writes_sub hostOps6 _ Gen.hostOps6_writes (by decide : main_arg11 ∉ Gen.hostOps6_W)).trans (arg12_11 m ρ c)
theorem arg14_11 (c : Dev nD) : B14 m ρ c (Proc.devRef .tc main_arg11) = m ((c : Thread nD τ).loc main_arg11) := (B14_of_ne m ρ c main_arg11 (by decide)).trans (arg13_11 m ρ c)
theorem arg15_11 (c : Dev nD) : B15 m ρ c (Proc.devRef .tc main_arg11) = m ((c : Thread nD τ).loc main_arg11) := (StableHlo.after_of_writes_sub hostOps7 _ Gen.hostOps7_writes (by decide : main_arg11 ∉ Gen.hostOps7_W)).trans (arg14_11 m ρ c)
theorem arg16_11 (c : Dev nD) : B16 m ρ c (Proc.devRef .tc main_arg11) = m ((c : Thread nD τ).loc main_arg11) := (B16_of_ne m ρ c main_arg11 (by decide)).trans (arg15_11 m ρ c)
theorem arg1_12 (c : Dev nD) : B1 m ρ c (Proc.devRef .tc main_arg12) = m ((c : Thread nD τ).loc main_arg12) := (StableHlo.after_of_writes_sub hostOps0 _ Gen.hostOps0_writes (by decide : main_arg12 ∉ Gen.hostOps0_W)).trans rfl
theorem arg2_12 (c : Dev nD) : B2 m ρ c (Proc.devRef .tc main_arg12) = m ((c : Thread nD τ).loc main_arg12) := (B2_of_ne m ρ c main_arg12 (by decide)).trans (arg1_12 m ρ c)
theorem arg3_12 (c : Dev nD) : B3 m ρ c (Proc.devRef .tc main_arg12) = m ((c : Thread nD τ).loc main_arg12) := (StableHlo.after_of_writes_sub hostOps1 _ Gen.hostOps1_writes (by decide : main_arg12 ∉ Gen.hostOps1_W)).trans (arg2_12 m ρ c)
theorem arg4_12 (c : Dev nD) : B4 m ρ c (Proc.devRef .tc main_arg12) = m ((c : Thread nD τ).loc main_arg12) := (B4_of_ne m ρ c main_arg12 (by decide)).trans (arg3_12 m ρ c)
theorem arg5_12 (c : Dev nD) : B5 m ρ c (Proc.devRef .tc main_arg12) = m ((c : Thread nD τ).loc main_arg12) := (StableHlo.after_of_writes_sub hostOps2 _ Gen.hostOps2_writes (by decide : main_arg12 ∉ Gen.hostOps2_W)).trans (arg4_12 m ρ c)
theorem arg6_12 (c : Dev nD) : B6 m ρ c (Proc.devRef .tc main_arg12) = m ((c : Thread nD τ).loc main_arg12) := (B6_of_ne m ρ c main_arg12 (by decide)).trans (arg5_12 m ρ c)
theorem arg7_12 (c : Dev nD) : B7 m ρ c (Proc.devRef .tc main_arg12) = m ((c : Thread nD τ).loc main_arg12) := (StableHlo.after_of_writes_sub hostOps3 _ Gen.hostOps3_writes (by decide : main_arg12 ∉ Gen.hostOps3_W)).trans (arg6_12 m ρ c)
theorem arg8_12 (c : Dev nD) : B8 m ρ c (Proc.devRef .tc main_arg12) = m ((c : Thread nD τ).loc main_arg12) := (B8_of_ne m ρ c main_arg12 (by decide)).trans (arg7_12 m ρ c)
theorem arg9_12 (c : Dev nD) : B9 m ρ c (Proc.devRef .tc main_arg12) = m ((c : Thread nD τ).loc main_arg12) := (StableHlo.after_of_writes_sub hostOps4 _ Gen.hostOps4_writes (by decide : main_arg12 ∉ Gen.hostOps4_W)).trans (arg8_12 m ρ c)
theorem arg10_12 (c : Dev nD) : B10 m ρ c (Proc.devRef .tc main_arg12) = m ((c : Thread nD τ).loc main_arg12) := (B10_of_ne m ρ c main_arg12 (by decide)).trans (arg9_12 m ρ c)
theorem arg11_12 (c : Dev nD) : B11 m ρ c (Proc.devRef .tc main_arg12) = m ((c : Thread nD τ).loc main_arg12) := (StableHlo.after_of_writes_sub hostOps5 _ Gen.hostOps5_writes (by decide : main_arg12 ∉ Gen.hostOps5_W)).trans (arg10_12 m ρ c)
theorem arg12_12 (c : Dev nD) : B12 m ρ c (Proc.devRef .tc main_arg12) = m ((c : Thread nD τ).loc main_arg12) := (B12_of_ne m ρ c main_arg12 (by decide)).trans (arg11_12 m ρ c)
theorem arg13_12 (c : Dev nD) : B13 m ρ c (Proc.devRef .tc main_arg12) = m ((c : Thread nD τ).loc main_arg12) := (StableHlo.after_of_writes_sub hostOps6 _ Gen.hostOps6_writes (by decide : main_arg12 ∉ Gen.hostOps6_W)).trans (arg12_12 m ρ c)
theorem arg14_12 (c : Dev nD) : B14 m ρ c (Proc.devRef .tc main_arg12) = m ((c : Thread nD τ).loc main_arg12) := (B14_of_ne m ρ c main_arg12 (by decide)).trans (arg13_12 m ρ c)
theorem arg15_12 (c : Dev nD) : B15 m ρ c (Proc.devRef .tc main_arg12) = m ((c : Thread nD τ).loc main_arg12) := (StableHlo.after_of_writes_sub hostOps7 _ Gen.hostOps7_writes (by decide : main_arg12 ∉ Gen.hostOps7_W)).trans (arg14_12 m ρ c)
theorem arg16_12 (c : Dev nD) : B16 m ρ c (Proc.devRef .tc main_arg12) = m ((c : Thread nD τ).loc main_arg12) := (B16_of_ne m ρ c main_arg12 (by decide)).trans (arg15_12 m ρ c)

end Cert.KernelIdeal.Frame

end
-- ==== Proof.LibDotRows.lean ====
/-
  A plain matrix product read at an index.  For shapes [R, K] · [K, J] → [R, J] whose dimension
  numbers contract the left operand's axis 1 with the right operand's axis 0 (no batch axis), the
  sum over the contraction index that `tpu.matmul` and `dot_general` denote at the ideal values is
  the textbook sum over `k : Fin K` of `lhs (r, k) * rhs (k, c)`.  The four coordinate facts about
  the dimension numbers' operand indices are hypotheses: for a record with literal lists each of
  them holds by `rfl`.
-/
import Idealize.ShloMosaic.PureOps.Ideal.Laws
import Idealize.ShloMosaic.Lib.ValueIdx

noncomputable section

open scoped BigOperators

namespace Idealize.ShloMosaic.ValueIdx

open Idealize.ShloMosaic

/-- The contraction sum of a plain [R, K] · [K, J] product at output index `j` is the sum over
    `k : Fin K` of the left operand at `(j 0, k)` times the right operand at `(k, j 1)`. -/
theorem dot_rows_sum {M : Type*} [AddCommMonoid M] {R K J : Nat}
    (d : DotDims ⟨2, ![R, K]⟩ ⟨2, ![K, J]⟩ ⟨2, ![R, J]⟩)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (g : (⟨2, ![R, K]⟩ : Shape).Idx → (⟨2, ![K, J]⟩ : Shape).Idx → M) (j : (⟨2, ![R, J]⟩ : Shape).Idx) :
    ∑ k : d.contr.Idx, g (d.lhsIdx j k) (d.rhsIdx j k) = ∑ k : Fin K, g (ix2 (j 0) k) (ix2 k (j 1)) := by
  rw [← Equiv.sum_comp (contrEquiv1 d K hr hs).symm]
  refine Finset.sum_congr rfl fun k _ => ?_
  have e1 : d.lhsIdx j ((contrEquiv1 d K hr hs).symm k) = ix2 (j 0) k := by
    funext a
    match a with
    | ⟨0, _⟩ => exact Fin.ext (h1 j _)
    | ⟨1, _⟩ => exact Fin.ext ((h2 j _).trans (contrEquiv1_symm_val d K hr hs k))
  have e2 : d.rhsIdx j ((contrEquiv1 d K hr hs).symm k) = ix2 k (j 1) := by
    funext a
    match a with
    | ⟨0, _⟩ => exact Fin.ext ((h3 j _).trans (contrEquiv1_symm_val d K hr hs k))
    | ⟨1, _⟩ => exact Fin.ext (h4 j _)
  exact congrArg₂ g e1 e2

/-- A `tpu.matmul` into the zero accumulator, at the ideal values, read at `(r, c)`. -/
theorem matmul_zero_rows {R K J : Nat} {φ₁ φ₂ : FTy}
    (d : DotDims ⟨2, ![R, K]⟩ ⟨2, ![K, J]⟩ ⟨2, ![R, J]⟩) (prec : Option ContractPrecision)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.matmul d prec lhs rhs (constant ⟨2, ![R, J]⟩ .f32 0x00000000#32) (ix2 r c)
      = ∑ k : Fin K, lhs (ix2 r k) * rhs (ix2 k c) := by
  rw [Ideal.matmul_constant_zero_apply]
  exact dot_rows_sum d hr hs h1 h2 h3 h4 (fun a b => lhs a * rhs b) (ix2 r c)

/-- The host's `dot_general`, at the ideal values, read at `(r, c)`. -/
theorem dotGeneral_rows {R K J : Nat} {φ₁ φ₂ : FTy}
    (d : DotDims ⟨2, ![R, K]⟩ ⟨2, ![K, J]⟩ ⟨2, ![R, J]⟩) (prec : Option ContractPrecision) (sched : HostSchedule)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.dotGeneral d prec sched lhs rhs (ix2 r c) = ∑ k : Fin K, lhs (ix2 r k) * rhs (ix2 k c) := by
  rw [Ideal.dotGeneral_apply]
  exact dot_rows_sum d hr hs h1 h2 h3 h4 (fun a b => lhs a * rhs b) (ix2 r c)

end Idealize.ShloMosaic.ValueIdx

end
-- ==== Proof.Spec.lean ====
/-
  The network's layers as functions of whole arrays, at the ideal values (every entry an extended real), written
  with the host's own operations so that each is, term for term, what a host program computing the same layer denotes:
  a graph layer max((h + agg) · W, 0); a cell layer's combination max((t0 + sd) + su, 0); the product of a matrix of
  rows by a weight matrix, entry by entry the sum over the 128 contracted features; the final array [h | s1 + s2].
  Each comes with its reading at a row and a column.
-/
import proofs.«160791_j62036507623881_2_alg».proof.Proof.Gen.ReferenceIdeal
import proofs.«160791_j62036507623881_2_alg».proof.Proof.LibDotRows
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Spec

open Cert.ReferenceIdeal Cert.ReferenceIdeal.Gen
open Idealize.ShloMosaic Idealize.ShloMosaic.ValueIdx

/-- A graph layer on whole arrays: max((h + agg) · W, 0). -/
def layer (h a : FVec Ideal S20000x128 .f32) (w : FVec Ideal S128x128 .f32) : FVec Ideal S20000x128 .f32 :=
  maximumf (F := Ideal) (φ := .f32) (Host.dotGeneral (F := Ideal) dot_S20000x128_S128x128_S20000x128_1_0_0_1_n_n none (addf (F := Ideal) (φ := .f32) h a) w)
    (broadcastInDim S20000x128 ![] bcast_S_S20000x128 (constant (F := Ideal) S_ .f32 0x00000000#32))

/-- The graph layer at row `r`, column `q`. -/
theorem layer_apply (h a : FVec Ideal S20000x128 .f32) (w : FVec Ideal S128x128 .f32) (r : Fin 20000) (q : Fin 128) :
    layer h a w (ix2 r q) = max (∑ k : Fin 128, (h (ix2 r k) + a (ix2 r k)) * w (ix2 k q)) (Ideal.ofBits .f32 0x00000000#32) := by
  unfold layer
  show max (Host.dotGeneral (F := Ideal) dot_S20000x128_S128x128_S20000x128_1_0_0_1_n_n none (addf (F := Ideal) (φ := .f32) h a) w (ix2 r q)) _ = _
  simp only [Host.dotGeneral]
  rw [dotGeneral_rows dot_S20000x128_S128x128_S20000x128_1_0_0_1_n_n none _ rfl rfl (fun _ _ => rfl) (fun _ _ => rfl) (fun _ _ => rfl) (fun _ _ => rfl) (addf (F := Ideal) (φ := .f32) h a) w r q]
  rfl

/-- A cell layer's combination on whole arrays: max((t0 + sd) + su, 0). -/
def combine (t0 sd su : FVec Ideal S200000x128 .f32) : FVec Ideal S200000x128 .f32 :=
  maximumf (F := Ideal) (φ := .f32) (addf (F := Ideal) (φ := .f32) (addf (F := Ideal) (φ := .f32) t0 sd) su)
    (broadcastInDim S200000x128 ![] bcast_S_S200000x128 (constant (F := Ideal) S_ .f32 0x00000000#32))

/-- The combination at row `r`, column `q`. -/
theorem combine_apply (t0 sd su : FVec Ideal S200000x128 .f32) (r : Fin 200000) (q : Fin 128) :
    combine t0 sd su (ix2 r q) = max ((t0 (ix2 r q) + sd (ix2 r q)) + su (ix2 r q)) (Ideal.ofBits .f32 0x00000000#32) := rfl

/-- The product of a matrix of rows by a weight matrix: at (r, q) the sum over the 128 contracted features. -/
def rowsProduct {R J : ℕ} (X : (⟨2, ![R, 128]⟩ : Shape).Idx → EReal) (w : (⟨2, ![128, J]⟩ : Shape).Idx → EReal) :
    (⟨2, ![R, J]⟩ : Shape).Idx → EReal :=
  fun i => ∑ k : Fin 128, X (ix2 (⟨(i 0).val, (i 0).isLt⟩ : Fin R) k) * w (ix2 k (⟨(i 1).val, (i 1).isLt⟩ : Fin J))

theorem rowsProduct_apply {R J : ℕ} (X : (⟨2, ![R, 128]⟩ : Shape).Idx → EReal) (w : (⟨2, ![128, J]⟩ : Shape).Idx → EReal)
    (r : Fin R) (q : Fin J) : rowsProduct X w (ix2 r q) = ∑ k : Fin 128, X (ix2 r k) * w (ix2 k q) := rfl

/-- The host's product of the cell features by one 128x128 weight matrix, at (r, q). -/
theorem cellDot_apply (X : FVec Ideal S200000x128 .f32) (w : FVec Ideal S128x128 .f32) (r : Fin 200000) (q : Fin 128) :
    Host.dotGeneral (F := Ideal) dot_S200000x128_S128x128_S200000x128_1_0_0_1_n_n none X w (ix2 r q) = ∑ k : Fin 128, X (ix2 r k) * w (ix2 k q) := by
  simp only [Host.dotGeneral]
  exact dotGeneral_rows dot_S200000x128_S128x128_S200000x128_1_0_0_1_n_n none _ rfl rfl (fun _ _ => rfl) (fun _ _ => rfl) (fun _ _ => rfl) (fun _ _ => rfl) X w r q

/-- The final array on whole arrays: the node features beside the sum of the two scattered cell sums. -/
def nodeConcat (h s1 s2 : FVec Ideal S20000x128 .f32) : FVec Ideal S20000x256 .f32 :=
  concatenate S20000x256 1 [⟨S20000x128, h⟩, ⟨S20000x128, addf (F := Ideal) (φ := .f32) s1 s2⟩] concatenates_S20000x128_S20000x128_S20000x256_d1

/-- The final array in its left half, -/
theorem nodeConcat_left (h s1 s2 : FVec Ideal S20000x128 .f32) (r : Fin 20000) (q : Fin 128) (q' : Fin 256) (hq : q'.val = q.val) :
    nodeConcat h s1 s2 (ix2 r q') = h (ix2 r q) := by
  unfold nodeConcat
  refine concatenate_apply_piece (t := S20000x256) (1 : Fin 2) [⟨S20000x128, h⟩, ⟨S20000x128, addf (F := Ideal) (φ := .f32) s1 s2⟩] (show Shape.Concatenates (([⟨S20000x128, h⟩, ⟨S20000x128, addf (F := Ideal) (φ := .f32) s1 s2⟩] : List ((s : Shape) × (s.Idx → EReal))).map (·.1)) S20000x256 1 from concatenates_S20000x128_S20000x128_S20000x256_d1) (ix2 r q') 0 (by simp) S20000x128 h rfl rfl 0 ?_ (ix2 r q) ?_ ?_
  · simp
  · intro b hb
    match b with
    | ⟨0, _⟩ => rfl
    | ⟨1, _⟩ => exact absurd rfl hb
  · show 0 + q.val = q'.val
    omega

/-- and in its right half. -/
theorem nodeConcat_right (h s1 s2 : FVec Ideal S20000x128 .f32) (r : Fin 20000) (q : Fin 128) (q' : Fin 256) (hq : q'.val = 128 + q.val) :
    nodeConcat h s1 s2 (ix2 r q') = s1 (ix2 r q) + s2 (ix2 r q) := by
  unfold nodeConcat
  refine (concatenate_apply_piece (t := S20000x256) (1 : Fin 2) [⟨S20000x128, h⟩, ⟨S20000x128, addf (F := Ideal) (φ := .f32) s1 s2⟩] (show Shape.Concatenates (([⟨S20000x128, h⟩, ⟨S20000x128, addf (F := Ideal) (φ := .f32) s1 s2⟩] : List ((s : Shape) × (s.Idx → EReal))).map (·.1)) S20000x256 1 from concatenates_S20000x128_S20000x128_S20000x256_d1) (ix2 r q') 1 (by simp) S20000x128 (addf (F := Ideal) (φ := .f32) s1 s2) rfl rfl 128 ?_ (ix2 r q) ?_ ?_).trans rfl
  · simp
  · intro b hb
    match b with
    | ⟨0, _⟩ => rfl
    | ⟨1, _⟩ => exact absurd rfl hb
  · show 128 + q.val = q'.val
    omega

end Cert.Spec

end
-- ==== Proof.KernelIdealVal0.lean ====
/-
  What region 0 (a graph layer) leaves in its output array, at the ideal values, as one function of the arrays it
  reads: at row r and column q, max(∑ₖ (h(r,k) + agg(r,k)) · W(k,q), 0).  Grid point t covers rows 2000·t … 2000·t + 1999:
  the blocks of h and of agg at t are those rows, the weight block is the whole matrix, and the ten blocks cover the array.
-/
import proofs.«160791_j62036507623881_2_alg».proof.Proof.KernelIdealRegion0
import proofs.«160791_j62036507623881_2_alg».proof.Proof.LibDotRows
import proofs.«160791_j62036507623881_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Cert.KernelIdeal Cert.KernelIdeal.Gen Cert.KernelIdeal.Frame
open Idealize.ShloMosaic Idealize.ShloMosaic.TcCoe Idealize.ShloMosaic.ValueIdx Idealize.SL.Sem
open Idealize.ShloMosaic.Pipeline (Dat)

open Cert.Spec

theorem hz0 : (![0, 0] : Fin 2 → Nat) = fun _ => 0 := funext fun a => by fin_cases a <;> rfl

/-- The body's payload at row `p`, column `q` of the block. -/
theorem pay0_apply (x0 x1 : Vec Ideal S2000x128 .f32) (x2 : Vec Ideal S128x128 .f32) (p : Fin 2000) (q : Fin 128) :
    k0_pay1 (F := Ideal) x0 x1 x2 (ix2 p q) = max (∑ k : Fin 128, (x0 (ix2 p k) + x1 (ix2 p k)) * x2 (ix2 k q)) (Ideal.ofBits .f32 0x00000000#32) := by
  unfold k0_pay1
  simp only [shapeCast_self]
  refine (congrArg (fun z => max z (Ideal.ofBits .f32 0x00000000#32)) (matmul_zero_rows dot_S2000x128_S128x128_S2000x128_1_0_0_1_n_n none rfl rfl (fun _ _ => rfl) (fun _ _ => rfl) (fun _ _ => rfl) (fun _ _ => rfl) _ _ p q)).trans ?_
  rfl

variable (V : (c : Dev nD) → (b : Ref sig .tc) → Buf (Elt Ideal) ((c : Thread nD τ).loc b))

/-- The printed index maps over the grid: a row-blocked window sits at block row `t`, a weight window at block (0, 0). -/
theorem idx_facts0 : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0 :=
  (by decide +kernel : ∀ t : Fin grid0.N, _)

theorem t_lt0 (t : Fin cfg0.N) : t.val < 10 := Nat.lt_of_lt_of_eq t.isLt N_0

/-- Row `p` of grid point `t`'s block is row `2000·t + p` of the array. -/
def row0 (t : Fin cfg0.N) (p : Fin 2000) : Fin 20000 := ⟨t.val * 2000 + p.val, by have := t_lt0 t; have := p.isLt; omega⟩

/-- Input 0's block at point `t`, read at (p, k): the array at (2000·t + p, k). -/
theorem blk0_0 (c : Dev nD) (t : Fin cfg0.N) (p : Fin 2000) (k : Fin 128) :
    (iblk0 V c 0 t : S2000x128.Idx → EReal) (ix2 p k) = (V c main_arg0 : S20000x128.Idx → EReal) (ix2 (row0 t p) k) := by
  obtain ⟨e0, e1, -⟩ := idx_facts0 t
  unfold iblk0
  rw [View.read_apply]
  refine congrArg (V c main_arg0 : S20000x128.Idx → EReal) (funext fun a => Fin.ext ?_)
  match a with
  | ⟨0, _⟩ => show win0_0.index t (0 : Fin 2) * 2000 + 1 * p.val = t.val * 2000 + p.val; rw [e0]; omega
  | ⟨1, _⟩ => show win0_0.index t (1 : Fin 2) * 128 + 1 * k.val = k.val; rw [e1]; omega
/-- Input 1's block at point `t`, read at (p, k): the array at (2000·t + p, k). -/
theorem blk0_1 (c : Dev nD) (t : Fin cfg0.N) (p : Fin 2000) (k : Fin 128) :
    (iblk0 V c 1 t : S2000x128.Idx → EReal) (ix2 p k) = (V c main_v13 : S20000x128.Idx → EReal) (ix2 (row0 t p) k) := by
  obtain ⟨-, -, e0, e1, -⟩ := idx_facts0 t
  unfold iblk0
  rw [View.read_apply]
  refine congrArg (V c main_v13 : S20000x128.Idx → EReal) (funext fun a => Fin.ext ?_)
  match a with
  | ⟨0, _⟩ => show win0_1.index t (0 : Fin 2) * 2000 + 1 * p.val = t.val * 2000 + p.val; rw [e0]; omega
  | ⟨1, _⟩ => show win0_1.index t (1 : Fin 2) * 128 + 1 * k.val = k.val; rw [e1]; omega
/-- The weight block at any point is the whole matrix. -/
theorem blk0_2 (c : Dev nD) (t : Fin cfg0.N) (k : Fin 128) (q : Fin 128) :
    (iblk0 V c 2 t : S128x128.Idx → EReal) (ix2 k q) = (V c main_v15 : S128x128.Idx → EReal) (ix2 k q) := by
  obtain ⟨-, -, -, -, e0, e1, -⟩ := idx_facts0 t
  unfold iblk0
  rw [View.read_apply]
  refine congrArg (V c main_v15 : S128x128.Idx → EReal) (funext fun a => Fin.ext ?_)
  match a with
  | ⟨0, _⟩ => show win0_2.index t (0 : Fin 2) * 128 + 1 * k.val = k.val; rw [e0]; omega
  | ⟨1, _⟩ => show win0_2.index t (1 : Fin 2) * 128 + 1 * q.val = q.val; rw [e1]; omega

/-- WHAT POINT `t` WRITES BACK is block `t` of the region's function of the arrays it finds. -/
theorem flushed0_eq (c : Dev nD) (t : Fin cfg0.N) :
    (dat0 V c).flushed 3 t = ((cfg0.win 3).blk t).view.read (Elt Ideal) (layer (V c main_arg0) (V c main_v13) (V c main_v15)) := by
  show (cfg0.win 3).cut (grid0.coords t) ((dat0 V c).after 3 t) = _
  rw [after0_3]
  unfold out0_3
  rw [View.canon_unit_zero hz0]
  simp only [View.ld_unit_zero (S := S2000x128) hz0, View.ld_unit_zero (S := S128x128) hz0]
  obtain ⟨-, -, -, -, -, -, e0, e1⟩ := idx_facts0 t
  funext j
  obtain ⟨p, q, rfl⟩ : ∃ (p : Fin 2000) (q : Fin 128), j = ix2 p q := ⟨j 0, j 1, eq_ix2 j⟩
  refine (pay0_apply _ _ _ p q).trans ?_
  rw [View.read_apply]
  have hemb : ((cfg0.win 3).blk t).view.emb (ix2 p q) = ix2 (row0 t p) q := by
    funext a; apply Fin.ext
    match a with
    | ⟨0, _⟩ => show win0_3.index t (0 : Fin 2) * 2000 + 1 * p.val = t.val * 2000 + p.val; rw [e0]; omega
    | ⟨1, _⟩ => show win0_3.index t (1 : Fin 2) * 128 + 1 * q.val = q.val; rw [e1]; omega
  rw [hemb]
  rw [layer_apply]
  simp only [blk0_0, blk0_1, blk0_2]
  rfl

/-- An index of the array is in point `t`'s block iff each coordinate is in the block's range on its axis. -/
theorem mem_blk0 (t : Fin cfg0.N) (i : S20000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v16).slice (win0_3.rect t)).set ↔ _
  rw [View.set_slice_whole, Rect.mem_set_unit]
  exact Iff.rfl

/-- THE OUTPUT ARRAY after the region: the region's function of the arrays it finds. -/
theorem final0 (c : Dev nD) :
    (dat0 V c).arrAt 3 cfg0.N = layer (V c main_arg0) (V c main_v13) (V c main_v15) :=
  (dat0 V c).arrAt_eq_of_cover 3 _ (fun t _ => flushed0_eq V c t) fun i => by
    have hi0 : (i 0).val < 20000 := (i 0).isLt
    have hi1 : (i 1).val < 128 := (i 1).isLt
    have hN : cfg0.N = 10 := N_0
    refine ⟨⟨(i 0).val / 2000, by rw [hN]; omega⟩, flush0_3 _, ?_⟩
    rw [mem_blk0]
    obtain ⟨-, -, -, -, -, -, e0, e1⟩ := idx_facts0 ⟨(i 0).val / 2000, by rw [hN]; omega⟩
    intro a
    match a with
    | ⟨0, _⟩ => show win0_3.index _ (0 : Fin 2) * 2000 ≤ (i 0).val ∧ (i 0).val < win0_3.index _ (0 : Fin 2) * 2000 + 2000; rw [e0]; show (i 0).val / 2000 * 2000 ≤ (i 0).val ∧ (i 0).val < (i 0).val / 2000 * 2000 + 2000; omega
    | ⟨1, _⟩ => show win0_3.index _ (1 : Fin 2) * 128 ≤ (i 1).val ∧ (i 1).val < win0_3.index _ (1 : Fin 2) * 128 + 128; rw [e1]; omega

end Cert.KernelIdeal.Val

end
-- ==== Proof.KernelIdealVal1.lean ====
/-
  What region 1 (a graph layer) leaves in its output array, at the ideal values, as one function of the arrays it
  reads: at row r and column q, max(∑ₖ (h(r,k) + agg(r,k)) · W(k,q), 0).  Grid point t covers rows 2000·t … 2000·t + 1999:
  the blocks of h and of agg at t are those rows, the weight block is the whole matrix, and the ten blocks cover the array.
-/
import proofs.«160791_j62036507623881_2_alg».proof.Proof.KernelIdealRegion1
import proofs.«160791_j62036507623881_2_alg».proof.Proof.LibDotRows
import proofs.«160791_j62036507623881_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Cert.KernelIdeal Cert.KernelIdeal.Gen Cert.KernelIdeal.Frame
open Idealize.ShloMosaic Idealize.ShloMosaic.TcCoe Idealize.ShloMosaic.ValueIdx Idealize.SL.Sem
open Idealize.ShloMosaic.Pipeline (Dat)

open Cert.Spec

theorem hz1 : (![0, 0] : Fin 2 → Nat) = fun _ => 0 := funext fun a => by fin_cases a <;> rfl

/-- The body's payload at row `p`, column `q` of the block. -/
theorem pay1_apply (x0 x1 : Vec Ideal S2000x128 .f32) (x2 : Vec Ideal S128x128 .f32) (p : Fin 2000) (q : Fin 128) :
    k1_pay1 (F := Ideal) x0 x1 x2 (ix2 p q) = max (∑ k : Fin 128, (x0 (ix2 p k) + x1 (ix2 p k)) * x2 (ix2 k q)) (Ideal.ofBits .f32 0x00000000#32) := by
  unfold k1_pay1
  simp only [shapeCast_self]
  refine (congrArg (fun z => max z (Ideal.ofBits .f32 0x00000000#32)) (matmul_zero_rows dot_S2000x128_S128x128_S2000x128_1_0_0_1_n_n none rfl rfl (fun _ _ => rfl) (fun _ _ => rfl) (fun _ _ => rfl) (fun _ _ => rfl) _ _ p q)).trans ?_
  rfl

variable (V : (c : Dev nD) → (b : Ref sig .tc) → Buf (Elt Ideal) ((c : Thread nD τ).loc b))

/-- The printed index maps over the grid: a row-blocked window sits at block row `t`, a weight window at block (0, 0). -/
theorem idx_facts1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = t.val
    ∧ win1_3.index t (1 : Fin 2) = 0 :=
  (by decide +kernel : ∀ t : Fin grid1.N, _)

theorem t_lt1 (t : Fin cfg1.N) : t.val < 10 := Nat.lt_of_lt_of_eq t.isLt N_1

/-- Row `p` of grid point `t`'s block is row `2000·t + p` of the array. -/
def row1 (t : Fin cfg1.N) (p : Fin 2000) : Fin 20000 := ⟨t.val * 2000 + p.val, by have := t_lt1 t; have := p.isLt; omega⟩

/-- Input 0's block at point `t`, read at (p, k): the array at (2000·t + p, k). -/
theorem blk1_0 (c : Dev nD) (t : Fin cfg1.N) (p : Fin 2000) (k : Fin 128) :
    (iblk1 V c 0 t : S2000x128.Idx → EReal) (ix2 p k) = (V c main_v16 : S20000x128.Idx → EReal) (ix2 (row1 t p) k) := by
  obtain ⟨e0, e1, -⟩ := idx_facts1 t
  unfold iblk1
  rw [View.read_apply]
  refine congrArg (V c main_v16 : S20000x128.Idx → EReal) (funext fun a => Fin.ext ?_)
  match a with
  | ⟨0, _⟩ => show win1_0.index t (0 : Fin 2) * 2000 + 1 * p.val = t.val * 2000 + p.val; rw [e0]; omega
  | ⟨1, _⟩ => show win1_0.index t (1 : Fin 2) * 128 + 1 * k.val = k.val; rw [e1]; omega
/-- Input 1's block at point `t`, read at (p, k): the array at (2000·t + p, k). -/
theorem blk1_1 (c : Dev nD) (t : Fin cfg1.N) (p : Fin 2000) (k : Fin 128) :
    (iblk1 V c 1 t : S2000x128.Idx → EReal) (ix2 p k) = (V c main_v26 : S20000x128.Idx → EReal) (ix2 (row1 t p) k) := by
  obtain ⟨-, -, e0, e1, -⟩ := idx_facts1 t
  unfold iblk1
  rw [View.read_apply]
  refine congrArg (V c main_v26 : S20000x128.Idx → EReal) (funext fun a => Fin.ext ?_)
  match a with
  | ⟨0, _⟩ => show win1_1.index t (0 : Fin 2) * 2000 + 1 * p.val = t.val * 2000 + p.val; rw [e0]; omega
  | ⟨1, _⟩ => show win1_1.index t (1 : Fin 2) * 128 + 1 * k.val = k.val; rw [e1]; omega
/-- The weight block at any point is the whole matrix. -/
theorem blk1_2 (c : Dev nD) (t : Fin cfg1.N) (k : Fin 128) (q : Fin 128) :
    (iblk1 V c 2 t : S128x128.Idx → EReal) (ix2 k q) = (V c main_v28 : S128x128.Idx → EReal) (ix2 k q) := by
  obtain ⟨-, -, -, -, e0, e1, -⟩ := idx_facts1 t
  unfold iblk1
  rw [View.read_apply]
  refine congrArg (V c main_v28 : S128x128.Idx → EReal) (funext fun a => Fin.ext ?_)
  match a with
  | ⟨0, _⟩ => show win1_2.index t (0 : Fin 2) * 128 + 1 * k.val = k.val; rw [e0]; omega
  | ⟨1, _⟩ => show win1_2.index t (1 : Fin 2) * 128 + 1 * q.val = q.val; rw [e1]; omega

/-- WHAT POINT `t` WRITES BACK is block `t` of the region's function of the arrays it finds. -/
theorem flushed1_eq (c : Dev nD) (t : Fin cfg1.N) :
    (dat1 V c).flushed 3 t = ((cfg1.win 3).blk t).view.read (Elt Ideal) (layer (V c main_v16) (V c main_v26) (V c main_v28)) := by
  show (cfg1.win 3).cut (grid1.coords t) ((dat1 V c).after 3 t) = _
  rw [after1_3]
  unfold out1_3
  rw [View.canon_unit_zero hz1]
  simp only [View.ld_unit_zero (S := S2000x128) hz1, View.ld_unit_zero (S := S128x128) hz1]
  obtain ⟨-, -, -, -, -, -, e0, e1⟩ := idx_facts1 t
  funext j
  obtain ⟨p, q, rfl⟩ : ∃ (p : Fin 2000) (q : Fin 128), j = ix2 p q := ⟨j 0, j 1, eq_ix2 j⟩
  refine (pay1_apply _ _ _ p q).trans ?_
  rw [View.read_apply]
  have hemb : ((cfg1.win 3).blk t).view.emb (ix2 p q) = ix2 (row1 t p) q := by
    funext a; apply Fin.ext
    match a with
    | ⟨0, _⟩ => show win1_3.index t (0 : Fin 2) * 2000 + 1 * p.val = t.val * 2000 + p.val; rw [e0]; omega
    | ⟨1, _⟩ => show win1_3.index t (1 : Fin 2) * 128 + 1 * q.val = q.val; rw [e1]; omega
  rw [hemb]
  rw [layer_apply]
  simp only [blk1_0, blk1_1, blk1_2]
  rfl

/-- An index of the array is in point `t`'s block iff each coordinate is in the block's range on its axis. -/
theorem mem_blk1 (t : Fin cfg1.N) (i : S20000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v29).slice (win1_3.rect t)).set ↔ _
  rw [View.set_slice_whole, Rect.mem_set_unit]
  exact Iff.rfl

/-- THE OUTPUT ARRAY after the region: the region's function of the arrays it finds. -/
theorem final1 (c : Dev nD) :
    (dat1 V c).arrAt 3 cfg1.N = layer (V c main_v16) (V c main_v26) (V c main_v28) :=
  (dat1 V c).arrAt_eq_of_cover 3 _ (fun t _ => flushed1_eq V c t) fun i => by
    have hi0 : (i 0).val < 20000 := (i 0).isLt
    have hi1 : (i 1).val < 128 := (i 1).isLt
    have hN : cfg1.N = 10 := N_1
    refine ⟨⟨(i 0).val / 2000, by rw [hN]; omega⟩, flush1_3 _, ?_⟩
    rw [mem_blk1]
    obtain ⟨-, -, -, -, -, -, e0, e1⟩ := idx_facts1 ⟨(i 0).val / 2000, by rw [hN]; omega⟩
    intro a
    match a with
    | ⟨0, _⟩ => show win1_3.index _ (0 : Fin 2) * 2000 ≤ (i 0).val ∧ (i 0).val < win1_3.index _ (0 : Fin 2) * 2000 + 2000; rw [e0]; show (i 0).val / 2000 * 2000 ≤ (i 0).val ∧ (i 0).val < (i 0).val / 2000 * 2000 + 2000; omega
    | ⟨1, _⟩ => show win1_3.index _ (1 : Fin 2) * 128 ≤ (i 1).val ∧ (i 1).val < win1_3.index _ (1 : Fin 2) * 128 + 128; rw [e1]; omega

end Cert.KernelIdeal.Val

end
-- ==== Proof.KernelIdealVal2.lean ====
/-
  What region 2 (a graph layer) leaves in its output array, at the ideal values, as one function of the arrays it
  reads: at row r and column q, max(∑ₖ (h(r,k) + agg(r,k)) · W(k,q), 0).  Grid point t covers rows 2000·t … 2000·t + 1999:
  the blocks of h and of agg at t are those rows, the weight block is the whole matrix, and the ten blocks cover the array.
-/
import proofs.«160791_j62036507623881_2_alg».proof.Proof.KernelIdealRegion2
import proofs.«160791_j62036507623881_2_alg».proof.Proof.LibDotRows
import proofs.«160791_j62036507623881_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Cert.KernelIdeal Cert.KernelIdeal.Gen Cert.KernelIdeal.Frame
open Idealize.ShloMosaic Idealize.ShloMosaic.TcCoe Idealize.ShloMosaic.ValueIdx Idealize.SL.Sem
open Idealize.ShloMosaic.Pipeline (Dat)

open Cert.Spec

theorem hz2 : (![0, 0] : Fin 2 → Nat) = fun _ => 0 := funext fun a => by fin_cases a <;> rfl

/-- The body's payload at row `p`, column `q` of the block. -/
theorem pay2_apply (x0 x1 : Vec Ideal S2000x128 .f32) (x2 : Vec Ideal S128x128 .f32) (p : Fin 2000) (q : Fin 128) :
    k2_pay1 (F := Ideal) x0 x1 x2 (ix2 p q) = max (∑ k : Fin 128, (x0 (ix2 p k) + x1 (ix2 p k)) * x2 (ix2 k q)) (Ideal.ofBits .f32 0x00000000#32) := by
  unfold k2_pay1
  simp only [shapeCast_self]
  refine (congrArg (fun z => max z (Ideal.ofBits .f32 0x00000000#32)) (matmul_zero_rows dot_S2000x128_S128x128_S2000x128_1_0_0_1_n_n none rfl rfl (fun _ _ => rfl) (fun _ _ => rfl) (fun _ _ => rfl) (fun _ _ => rfl) _ _ p q)).trans ?_
  rfl

variable (V : (c : Dev nD) → (b : Ref sig .tc) → Buf (Elt Ideal) ((c : Thread nD τ).loc b))

/-- The printed index maps over the grid: a row-blocked window sits at block row `t`, a weight window at block (0, 0). -/
theorem idx_facts2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 2) = t.val
    ∧ win2_3.index t (1 : Fin 2) = 0 :=
  (by decide +kernel : ∀ t : Fin grid2.N, _)

theorem t_lt2 (t : Fin cfg2.N) : t.val < 10 := Nat.lt_of_lt_of_eq t.isLt N_2

/-- Row `p` of grid point `t`'s block is row `2000·t + p` of the array. -/
def row2 (t : Fin cfg2.N) (p : Fin 2000) : Fin 20000 := ⟨t.val * 2000 + p.val, by have := t_lt2 t; have := p.isLt; omega⟩

/-- Input 0's block at point `t`, read at (p, k): the array at (2000·t + p, k). -/
theorem blk2_0 (c : Dev nD) (t : Fin cfg2.N) (p : Fin 2000) (k : Fin 128) :
    (iblk2 V c 0 t : S2000x128.Idx → EReal) (ix2 p k) = (V c main_v29 : S20000x128.Idx → EReal) (ix2 (row2 t p) k) := by
  obtain ⟨e0, e1, -⟩ := idx_facts2 t
  unfold iblk2
  rw [View.read_apply]
  refine congrArg (V c main_v29 : S20000x128.Idx → EReal) (funext fun a => Fin.ext ?_)
  match a with
  | ⟨0, _⟩ => show win2_0.index t (0 : Fin 2) * 2000 + 1 * p.val = t.val * 2000 + p.val; rw [e0]; omega
  | ⟨1, _⟩ => show win2_0.index t (1 : Fin 2) * 128 + 1 * k.val = k.val; rw [e1]; omega
/-- Input 1's block at point `t`, read at (p, k): the array at (2000·t + p, k). -/
theorem blk2_1 (c : Dev nD) (t : Fin cfg2.N) (p : Fin 2000) (k : Fin 128) :
    (iblk2 V c 1 t : S2000x128.Idx → EReal) (ix2 p k) = (V c main_v39 : S20000x128.Idx → EReal) (ix2 (row2 t p) k) := by
  obtain ⟨-, -, e0, e1, -⟩ := idx_facts2 t
  unfold iblk2
  rw [View.read_apply]
  refine congrArg (V c main_v39 : S20000x128.Idx → EReal) (funext fun a => Fin.ext ?_)
  match a with
  | ⟨0, _⟩ => show win2_1.index t (0 : Fin 2) * 2000 + 1 * p.val = t.val * 2000 + p.val; rw [e0]; omega
  | ⟨1, _⟩ => show win2_1.index t (1 : Fin 2) * 128 + 1 * k.val = k.val; rw [e1]; omega
/-- The weight block at any point is the whole matrix. -/
theorem blk2_2 (c : Dev nD) (t : Fin cfg2.N) (k : Fin 128) (q : Fin 128) :
    (iblk2 V c 2 t : S128x128.Idx → EReal) (ix2 k q) = (V c main_v41 : S128x128.Idx → EReal) (ix2 k q) := by
  obtain ⟨-, -, -, -, e0, e1, -⟩ := idx_facts2 t
  unfold iblk2
  rw [View.read_apply]
  refine congrArg (V c main_v41 : S128x128.Idx → EReal) (funext fun a => Fin.ext ?_)
  match a with
  | ⟨0, _⟩ => show win2_2.index t (0 : Fin 2) * 128 + 1 * k.val = k.val; rw [e0]; omega
  | ⟨1, _⟩ => show win2_2.index t (1 : Fin 2) * 128 + 1 * q.val = q.val; rw [e1]; omega

/-- WHAT POINT `t` WRITES BACK is block `t` of the region's function of the arrays it finds. -/
theorem flushed2_eq (c : Dev nD) (t : Fin cfg2.N) :
    (dat2 V c).flushed 3 t = ((cfg2.win 3).blk t).view.read (Elt Ideal) (layer (V c main_v29) (V c main_v39) (V c main_v41)) := by
  show (cfg2.win 3).cut (grid2.coords t) ((dat2 V c).after 3 t) = _
  rw [after2_3]
  unfold out2_3
  rw [View.canon_unit_zero hz2]
  simp only [View.ld_unit_zero (S := S2000x128) hz2, View.ld_unit_zero (S := S128x128) hz2]
  obtain ⟨-, -, -, -, -, -, e0, e1⟩ := idx_facts2 t
  funext j
  obtain ⟨p, q, rfl⟩ : ∃ (p : Fin 2000) (q : Fin 128), j = ix2 p q := ⟨j 0, j 1, eq_ix2 j⟩
  refine (pay2_apply _ _ _ p q).trans ?_
  rw [View.read_apply]
  have hemb : ((cfg2.win 3).blk t).view.emb (ix2 p q) = ix2 (row2 t p) q := by
    funext a; apply Fin.ext
    match a with
    | ⟨0, _⟩ => show win2_3.index t (0 : Fin 2) * 2000 + 1 * p.val = t.val * 2000 + p.val; rw [e0]; omega
    | ⟨1, _⟩ => show win2_3.index t (1 : Fin 2) * 128 + 1 * q.val = q.val; rw [e1]; omega
  rw [hemb]
  rw [layer_apply]
  simp only [blk2_0, blk2_1, blk2_2]
  rfl

/-- An index of the array is in point `t`'s block iff each coordinate is in the block's range on its axis. -/
theorem mem_blk2 (t : Fin cfg2.N) (i : S20000x128.Idx) :
    i ∈ ((cfg2.win 3).blk t).view.set ↔ ∀ a : Fin 2, win2_3.index t a * S2000x128.size a ≤ (i a).val ∧ (i a).val < win2_3.index t a * S2000x128.size a + S2000x128.size a := by
  show i ∈ ((View.whole main_v42).slice (win2_3.rect t)).set ↔ _
  rw [View.set_slice_whole, Rect.mem_set_unit]
  exact Iff.rfl

/-- THE OUTPUT ARRAY after the region: the region's function of the arrays it finds. -/
theorem final2 (c : Dev nD) :
    (dat2 V c).arrAt 3 cfg2.N = layer (V c main_v29) (V c main_v39) (V c main_v41) :=
  (dat2 V c).arrAt_eq_of_cover 3 _ (fun t _ => flushed2_eq V c t) fun i => by
    have hi0 : (i 0).val < 20000 := (i 0).isLt
    have hi1 : (i 1).val < 128 := (i 1).isLt
    have hN : cfg2.N = 10 := N_2
    refine ⟨⟨(i 0).val / 2000, by rw [hN]; omega⟩, flush2_3 _, ?_⟩
    rw [mem_blk2]
    obtain ⟨-, -, -, -, -, -, e0, e1⟩ := idx_facts2 ⟨(i 0).val / 2000, by rw [hN]; omega⟩
    intro a
    match a with
    | ⟨0, _⟩ => show win2_3.index _ (0 : Fin 2) * 2000 ≤ (i 0).val ∧ (i 0).val < win2_3.index _ (0 : Fin 2) * 2000 + 2000; rw [e0]; show (i 0).val / 2000 * 2000 ≤ (i 0).val ∧ (i 0).val < (i 0).val / 2000 * 2000 + 2000; omega
    | ⟨1, _⟩ => show win2_3.index _ (1 : Fin 2) * 128 ≤ (i 1).val ∧ (i 1).val < win2_3.index _ (1 : Fin 2) * 128 + 128; rw [e1]; omega

end Cert.KernelIdeal.Val

end
-- ==== Proof.KernelIdealStagesA.lean ====
/-
  The graph layers of the kernel's run, boundary by boundary, against the reference's stages.  The host stretch before
  each layer computes the neighbour sums and the layer's weight matrix with the very operations the reference applies,
  on the same arguments and on the previous layer's output; the region then leaves the layer of those arrays.  So after
  region K the output array is the reference's K-th graph layer of the arguments.
-/
import proofs.«160791_j62036507623881_2_alg».proof.Proof.KernelIdealRun
import proofs.«160791_j62036507623881_2_alg».proof.Proof.KernelIdealArgs
import proofs.«160791_j62036507623881_2_alg».proof.Proof.KernelIdealVal0
import proofs.«160791_j62036507623881_2_alg».proof.Proof.KernelIdealVal1
import proofs.«160791_j62036507623881_2_alg».proof.Proof.KernelIdealVal2
import proofs.«160791_j62036507623881_2_alg».proof.Proof.Spec
import proofs.«160791_j62036507623881_2_alg».proof.Proof.Gen.ReferenceIdeal.Read
import Idealize.ShloMosaic.Lib.StableHlo.Run

set_option maxRecDepth 16384

noncomputable section

namespace Cert.KernelIdeal.Val

open Cert.KernelIdeal Cert.KernelIdeal.Gen Cert.KernelIdeal.Frame Cert.Spec
open Idealize.ShloMosaic Idealize.ShloMosaic.TcCoe Idealize.ShloMosaic.StableHlo Idealize.SL.Sem
open Idealize.ShloMosaic.Pipeline (Dat)
open Cert.ReferenceIdeal.Read (val_main_v1 val_main_v3 val_main_v13 val_main_v16 val_main_v18 val_main_v28 val_main_v31 val_main_v33 val_main_v43 val_main_v46 val_main_v48)

variable (m : (ℓ : Loc nD τ sig) → Buf (Elt Ideal) ℓ) (ρ : Dev nD → PrngReg) (c : Dev nD)

/-- The arguments' launch contents. -/
abbrev x0 := m ((c : Thread nD τ).loc main_arg0)
abbrev x1 := m ((c : Thread nD τ).loc main_arg1)
abbrev x2 := m ((c : Thread nD τ).loc main_arg2)
abbrev x3 := m ((c : Thread nD τ).loc main_arg3)
abbrev x4 := m ((c : Thread nD τ).loc main_arg4)
abbrev x5 := m ((c : Thread nD τ).loc main_arg5)
abbrev x6 := m ((c : Thread nD τ).loc main_arg6)
abbrev x7 := m ((c : Thread nD τ).loc main_arg7)
abbrev x8 := m ((c : Thread nD τ).loc main_arg8)
abbrev x9 := m ((c : Thread nD τ).loc main_arg9)
abbrev x10 := m ((c : Thread nD τ).loc main_arg10)
abbrev x11 := m ((c : Thread nD τ).loc main_arg11)
abbrev x12 := m ((c : Thread nD τ).loc main_arg12)

/-! ## Stretch 0 and region 0 -/

theorem sv1_1 : B1 m ρ c (Proc.devRef .tc main_v1) = val_main_v1 (F := Ideal) (x8 m c) := by
  show StableHlo.after hostOps0 (B0 m ρ c) (Proc.devRef .tc main_v1) = _
  after_results_simp
  rfl
theorem sv3_1 : B1 m ρ c (Proc.devRef .tc main_v3) = val_main_v3 (F := Ideal) (x8 m c) := by
  show StableHlo.after hostOps0 (B0 m ρ c) (Proc.devRef .tc main_v3) = _
  after_results_simp
  rfl
set_option maxHeartbeats 2000000 in
theorem sagg0 : B1 m ρ c (Proc.devRef .tc main_v13) = val_main_v13 (F := Ideal) (x0 m c) (x8 m c) := by
  show StableHlo.after hostOps0 (B0 m ρ c) (Proc.devRef .tc main_v13) = _
  after_results_simp
  rfl
theorem sw0 : B1 m ρ c (Proc.devRef .tc main_v15) = val_main_v16 (F := Ideal) (x2 m c) := by
  show StableHlo.after hostOps0 (B0 m ρ c) (Proc.devRef .tc main_v15) = _
  after_results_simp
  rfl
/-- After region 0: the first graph layer. -/
theorem sh1_2 : B2 m ρ c (Proc.devRef .tc main_v16) = val_main_v18 (F := Ideal) (x0 m c) (x2 m c) (x8 m c) := by
  refine (B2_arr m ρ c 3).trans ((final0 (E1 m ρ) c).trans ?_)
  show layer (B1 m ρ c (Proc.devRef .tc main_arg0)) (B1 m ρ c (Proc.devRef .tc main_v13)) (B1 m ρ c (Proc.devRef .tc main_v15)) = _
  rw [arg1_0 m ρ c, sagg0 m ρ c, sw0 m ρ c]
  rfl

/-! ## Stretch 1 and region 1 -/

theorem sv1_2 : B2 m ρ c (Proc.devRef .tc main_v1) = val_main_v1 (F := Ideal) (x8 m c) := (B2_of_ne m ρ c main_v1 (by decide)).trans (sv1_1 m ρ c)
theorem sv1_3 : B3 m ρ c (Proc.devRef .tc main_v1) = val_main_v1 (F := Ideal) (x8 m c) := (StableHlo.after_of_writes_sub hostOps1 _ Gen.hostOps1_writes (by decide : main_v1 ∉ Gen.hostOps1_W)).trans (sv1_2 m ρ c)
theorem sv1_4 : B4 m ρ c (Proc.devRef .tc main_v1) = val_main_v1 (F := Ideal) (x8 m c) := (B4_of_ne m ρ c main_v1 (by decide)).trans (sv1_3 m ρ c)
theorem sv3_2 : B2 m ρ c (Proc.devRef .tc main_v3) = val_main_v3 (F := Ideal) (x8 m c) := (B2_of_ne m ρ c main_v3 (by decide)).trans (sv3_1 m ρ c)
theorem sv3_3 : B3 m ρ c (Proc.devRef .tc main_v3) = val_main_v3 (F := Ideal) (x8 m c) := (StableHlo.after_of_writes_sub hostOps1 _ Gen.hostOps1_writes (by decide : main_v3 ∉ Gen.hostOps1_W)).trans (sv3_2 m ρ c)
theorem sv3_4 : B4 m ρ c (Proc.devRef .tc main_v3) = val_main_v3 (F := Ideal) (x8 m c) := (B4_of_ne m ρ c main_v3 (by decide)).trans (sv3_3 m ρ c)
theorem sh1_3 : B3 m ρ c (Proc.devRef .tc main_v16) = val_main_v18 (F := Ideal) (x0 m c) (x2 m c) (x8 m c) := (StableHlo.after_of_writes_sub hostOps1 _ Gen.hostOps1_writes (by decide : main_v16 ∉ Gen.hostOps1_W)).trans (sh1_2 m ρ c)
set_option maxHeartbeats 2000000 in
theorem sagg1 : B3 m ρ c (Proc.devRef .tc main_v26) = val_main_v28 (F := Ideal) (x0 m c) (x2 m c) (x8 m c) := by
  show StableHlo.after hostOps1 (B2 m ρ c) (Proc.devRef .tc main_v26) = _
  after_results_simp
  rw [sh1_2 m ρ c, sv1_2 m ρ c, sv3_2 m ρ c]
  rfl
theorem sw1 : B3 m ρ c (Proc.devRef .tc main_v28) = val_main_v31 (F := Ideal) (x2 m c) := by
  show StableHlo.after hostOps1 (B2 m ρ c) (Proc.devRef .tc main_v28) = _
  after_results_simp
  rw [arg2_2 m ρ c]
  rfl
/-- After region 1: the second graph layer. -/
theorem sh2_4 : B4 m ρ c (Proc.devRef .tc main_v29) = val_main_v33 (F := Ideal) (x0 m c) (x2 m c) (x8 m c) := by
  refine (B4_arr m ρ c 3).trans ((final1 (E3 m ρ) c).trans ?_)
  show layer (B3 m ρ c (Proc.devRef .tc main_v16)) (B3 m ρ c (Proc.devRef .tc main_v26)) (B3 m ρ c (Proc.devRef .tc main_v28)) = _
  rw [sh1_3 m ρ c, sagg1 m ρ c, sw1 m ρ c]
  rfl

/-! ## Stretch 2 and region 2 -/

theorem sh2_5 : B5 m ρ c (Proc.devRef .tc main_v29) = val_main_v33 (F := Ideal) (x0 m c) (x2 m c) (x8 m c) := (StableHlo.after_of_writes_sub hostOps2 _ Gen.hostOps2_writes (by decide : main_v29 ∉ Gen.hostOps2_W)).trans (sh2_4 m ρ c)
set_option maxHeartbeats 2000000 in
theorem sagg2 : B5 m ρ c (Proc.devRef .tc main_v39) = val_main_v43 (F := Ideal) (x0 m c) (x2 m c) (x8 m c) := by
  show StableHlo.after hostOps2 (B4 m ρ c) (Proc.devRef .tc main_v39) = _
  after_results_simp
  rw [sh2_4 m ρ c, sv1_4 m ρ c, sv3_4 m ρ c]
  rfl
theorem sw2 : B5 m ρ c (Proc.devRef .tc main_v41) = val_main_v46 (F := Ideal) (x2 m c) := by
  show StableHlo.after hostOps2 (B4 m ρ c) (Proc.devRef .tc main_v41) = _
  after_results_simp
  rw [arg4_2 m ρ c]
  rfl
/-- After region 2: the third graph layer, the node features the final array keeps. -/
theorem sh3_6 : B6 m ρ c (Proc.devRef .tc main_v42) = val_main_v48 (F := Ideal) (x0 m c) (x2 m c) (x8 m c) := by
  refine (B6_arr m ρ c 3).trans ((final2 (E5 m ρ) c).trans ?_)
  show layer (B5 m ρ c (Proc.devRef .tc main_v29)) (B5 m ρ c (Proc.devRef .tc main_v39)) (B5 m ρ c (Proc.devRef .tc main_v41)) = _
  rw [sh2_5 m ρ c, sagg2 m ρ c, sw2 m ρ c]
  rfl
theorem sh3_7 : B7 m ρ c (Proc.devRef .tc main_v42) = val_main_v48 (F := Ideal) (x0 m c) (x2 m c) (x8 m c) := (StableHlo.after_of_writes_sub hostOps3 _ Gen.hostOps3_writes (by decide : main_v42 ∉ Gen.hostOps3_W)).trans (sh3_6 m ρ c)
theorem sh3_8 : B8 m ρ c (Proc.devRef .tc main_v42) = val_main_v48 (F := Ideal) (x0 m c) (x2 m c) (x8 m c) := (B8_of_ne m ρ c main_v42 (by decide)).trans (sh3_7 m ρ c)
theorem sh3_9 : B9 m ρ c (Proc.devRef .tc main_v42) = val_main_v48 (F := Ideal) (x0 m c) (x2 m c) (x8 m c) := (StableHlo.after_of_writes_sub hostOps4 _ Gen.hostOps4_writes (by decide : main_v42 ∉ Gen.hostOps4_W)).trans (sh3_8 m ρ c)
theorem sh3_10 : B10 m ρ c (Proc.devRef .tc main_v42) = val_main_v48 (F := Ideal) (x0 m c) (x2 m c) (x8 m c) := (B10_of_ne m ρ c main_v42 (by decide)).trans (sh3_9 m ρ c)
theorem sh3_11 : B11 m ρ c (Proc.devRef .tc main_v42) = val_main_v48 (F := Ideal) (x0 m c) (x2 m c) (x8 m c) := (StableHlo.after_of_writes_sub hostOps5 _ Gen.hostOps5_writes (by decide : main_v42 ∉ Gen.hostOps5_W)).trans (sh3_10 m ρ c)
theorem sh3_12 : B12 m ρ c (Proc.devRef .tc main_v42) = val_main_v48 (F := Ideal) (x0 m c) (x2 m c) (x8 m c) := (B12_of_ne m ρ c main_v42 (by decide)).trans (sh3_11 m ρ c)
theorem sh3_13 : B13 m ρ c (Proc.devRef .tc main_v42) = val_main_v48 (F := Ideal) (x0 m c) (x2 m c) (x8 m c) := (StableHlo.after_of_writes_sub hostOps6 _ Gen.hostOps6_writes (by decide : main_v42 ∉ Gen.hostOps6_W)).trans (sh3_12 m ρ c)
theorem sh3_14 : B14 m ρ c (Proc.devRef .tc main_v42) = val_main_v48 (F := Ideal) (x0 m c) (x2 m c) (x8 m c) := (B14_of_ne m ρ c main_v42 (by decide)).trans (sh3_13 m ρ c)
theorem sh3_15 : B15 m ρ c (Proc.devRef .tc main_v42) = val_main_v48 (F := Ideal) (x0 m c) (x2 m c) (x8 m c) := (StableHlo.after_of_writes_sub hostOps7 _ Gen.hostOps7_writes (by decide : main_v42 ∉ Gen.hostOps7_W)).trans (sh3_14 m ρ c)

end Cert.KernelIdeal.Val

end
-- ==== Proof.KernelIdealVal3.lean ====
/-
  What region 3 (the first cell layer's product) leaves in its output array, at the ideal values, as one function of
  the arrays it reads: at row r and column q, ∑ₖ xe(r,k) · W(k,q), W the 128x384 matrix of the three weight matrices
  side by side.  Grid point t covers rows 4000·t … 4000·t + 3999; the weight block is the whole matrix; the fifty blocks
  cover the array.
-/
import proofs.«160791_j62036507623881_2_alg».proof.Proof.KernelIdealRegion3
import proofs.«160791_j62036507623881_2_alg».proof.Proof.LibDotRows
import proofs.«160791_j62036507623881_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Cert.KernelIdeal Cert.KernelIdeal.Gen Cert.KernelIdeal.Frame
open Idealize.ShloMosaic Idealize.ShloMosaic.TcCoe Idealize.ShloMosaic.ValueIdx Idealize.SL.Sem
open Idealize.ShloMosaic.Pipeline (Dat)

open Cert.Spec

theorem hz3 : (![0, 0] : Fin 2 → Nat) = fun _ => 0 := funext fun a => by fin_cases a <;> rfl

/-- The body's payload at row `p`, column `q` of the block. -/
theorem pay3_apply (x0 : Vec Ideal S4000x128 .f32) (x1 : Vec Ideal S128x384 .f32) (p : Fin 4000) (q : Fin 384) :
    k3_pay1 (F := Ideal) x0 x1 (ix2 p q) = ∑ k : Fin 128, x0 (ix2 p k) * x1 (ix2 k q) := by
  unfold k3_pay1
  simp only [shapeCast_self]
  refine (matmul_zero_rows dot_S4000x128_S128x384_S4000x384_1_0_0_1_n_n none rfl rfl (fun _ _ => rfl) (fun _ _ => rfl) (fun _ _ => rfl) (fun _ _ => rfl) _ _ p q).trans ?_
  rfl

variable (V : (c : Dev nD) → (b : Ref sig .tc) → Buf (Elt Ideal) ((c : Thread nD τ).loc b))

/-- The printed index maps over the grid: a row-blocked window sits at block row `t`, a weight window at block (0, 0). -/
theorem idx_facts3 : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

theorem t_lt3 (t : Fin cfg3.N) : t.val < 50 := Nat.lt_of_lt_of_eq t.isLt N_3

/-- Row `p` of grid point `t`'s block is row `4000·t + p` of the array. -/
def row3 (t : Fin cfg3.N) (p : Fin 4000) : Fin 200000 := ⟨t.val * 4000 + p.val, by have := t_lt3 t; have := p.isLt; omega⟩

/-- Input 0's block at point `t`, read at (p, k): the array at (4000·t + p, k). -/
theorem blk3_0 (c : Dev nD) (t : Fin cfg3.N) (p : Fin 4000) (k : Fin 128) :
    (iblk3 V c 0 t : S4000x128.Idx → EReal) (ix2 p k) = (V c main_arg1 : S200000x128.Idx → EReal) (ix2 (row3 t p) k) := by
  obtain ⟨e0, e1, -⟩ := idx_facts3 t
  unfold iblk3
  rw [View.read_apply]
  refine congrArg (V c main_arg1 : S200000x128.Idx → EReal) (funext fun a => Fin.ext ?_)
  match a with
  | ⟨0, _⟩ => show win3_0.index t (0 : Fin 2) * 4000 + 1 * p.val = t.val * 4000 + p.val; rw [e0]; omega
  | ⟨1, _⟩ => show win3_0.index t (1 : Fin 2) * 128 + 1 * k.val = k.val; rw [e1]; omega
/-- The weight block at any point is the whole matrix. -/
theorem blk3_1 (c : Dev nD) (t : Fin cfg3.N) (k : Fin 128) (q : Fin 384) :
    (iblk3 V c 1 t : S128x384.Idx → EReal) (ix2 k q) = (V c main_v49 : S128x384.Idx → EReal) (ix2 k q) := by
  obtain ⟨-, -, e0, e1, -⟩ := idx_facts3 t
  unfold iblk3
  rw [View.read_apply]
  refine congrArg (V c main_v49 : S128x384.Idx → EReal) (funext fun a => Fin.ext ?_)
  match a with
  | ⟨0, _⟩ => show win3_1.index t (0 : Fin 2) * 128 + 1 * k.val = k.val; rw [e0]; omega
  | ⟨1, _⟩ => show win3_1.index t (1 : Fin 2) * 384 + 1 * q.val = q.val; rw [e1]; omega

/-- WHAT POINT `t` WRITES BACK is block `t` of the region's function of the arrays it finds. -/
theorem flushed3_eq (c : Dev nD) (t : Fin cfg3.N) :
    (dat3 V c).flushed 2 t = ((cfg3.win 2).blk t).view.read (Elt Ideal) (rowsProduct (R := 200000) (J := 384) (V c main_arg1) (V c main_v49)) := by
  show (cfg3.win 2).cut (grid3.coords t) ((dat3 V c).after 2 t) = _
  rw [after3_2]
  unfold out3_2
  rw [View.canon_unit_zero hz3]
  simp only [View.ld_unit_zero (S := S4000x128) hz3, View.ld_unit_zero (S := S128x384) hz3]
  obtain ⟨-, -, -, -, e0, e1⟩ := idx_facts3 t
  funext j
  obtain ⟨p, q, rfl⟩ : ∃ (p : Fin 4000) (q : Fin 384), j = ix2 p q := ⟨j 0, j 1, eq_ix2 j⟩
  refine (pay3_apply _ _ p q).trans ?_
  rw [View.read_apply]
  have hemb : ((cfg3.win 2).blk t).view.emb (ix2 p q) = ix2 (row3 t p) q := by
    funext a; apply Fin.ext
    match a with
    | ⟨0, _⟩ => show win3_2.index t (0 : Fin 2) * 4000 + 1 * p.val = t.val * 4000 + p.val; rw [e0]; omega
    | ⟨1, _⟩ => show win3_2.index t (1 : Fin 2) * 384 + 1 * q.val = q.val; rw [e1]; omega
  rw [hemb]
  rw [rowsProduct_apply]
  simp only [blk3_0, blk3_1]
  rfl

/-- An index of the array is in point `t`'s block iff each coordinate is in the block's range on its axis. -/
theorem mem_blk3 (t : Fin cfg3.N) (i : S200000x384.Idx) :
    i ∈ ((cfg3.win 2).blk t).view.set ↔ ∀ a : Fin 2, win3_2.index t a * S4000x384.size a ≤ (i a).val ∧ (i a).val < win3_2.index t a * S4000x384.size a + S4000x384.size a := by
  show i ∈ ((View.whole main_v50).slice (win3_2.rect t)).set ↔ _
  rw [View.set_slice_whole, Rect.mem_set_unit]
  exact Iff.rfl

/-- THE OUTPUT ARRAY after the region: the region's function of the arrays it finds. -/
theorem final3 (c : Dev nD) :
    (dat3 V c).arrAt 2 cfg3.N = rowsProduct (R := 200000) (J := 384) (V c main_arg1) (V c main_v49) :=
  (dat3 V c).arrAt_eq_of_cover 2 _ (fun t _ => flushed3_eq V c t) fun i => by
    have hi0 : (i 0).val < 200000 := (i 0).isLt
    have hi1 : (i 1).val < 384 := (i 1).isLt
    have hN : cfg3.N = 50 := N_3
    refine ⟨⟨(i 0).val / 4000, by rw [hN]; omega⟩, flush3_2 _, ?_⟩
    rw [mem_blk3]
    obtain ⟨-, -, -, -, e0, e1⟩ := idx_facts3 ⟨(i 0).val / 4000, by rw [hN]; omega⟩
    intro a
    match a with
    | ⟨0, _⟩ => show win3_2.index _ (0 : Fin 2) * 4000 ≤ (i 0).val ∧ (i 0).val < win3_2.index _ (0 : Fin 2) * 4000 + 4000; rw [e0]; show (i 0).val / 4000 * 4000 ≤ (i 0).val ∧ (i 0).val < (i 0).val / 4000 * 4000 + 4000; omega
    | ⟨1, _⟩ => show win3_2.index _ (1 : Fin 2) * 384 ≤ (i 1).val ∧ (i 1).val < win3_2.index _ (1 : Fin 2) * 384 + 384; rw [e1]; omega

end Cert.KernelIdeal.Val

end
-- ==== Proof.KernelIdealVal4.lean ====
/-
  What region 4 (a cell layer's combination fused with the next layer's product) leaves in its output array, at the
  ideal values, as one function of the arrays it reads: at row r and column q, ∑ₖ max((t0(r,k) + sd(r,k)) + su(r,k), 0) · W(k,q).
  Grid point t covers rows 2000·t … 2000·t + 1999; the weight block is the whole matrix; the hundred blocks cover the array.
-/
import proofs.«160791_j62036507623881_2_alg».proof.Proof.KernelIdealRegion4
import proofs.«160791_j62036507623881_2_alg».proof.Proof.LibDotRows
import proofs.«160791_j62036507623881_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Cert.KernelIdeal Cert.KernelIdeal.Gen Cert.KernelIdeal.Frame
open Idealize.ShloMosaic Idealize.ShloMosaic.TcCoe Idealize.ShloMosaic.ValueIdx Idealize.SL.Sem
open Idealize.ShloMosaic.Pipeline (Dat)

open Cert.Spec

theorem hz4 : (![0, 0] : Fin 2 → Nat) = fun _ => 0 := funext fun a => by fin_cases a <;> rfl

/-- The body's payload at row `p`, column `q` of the block. -/
theorem pay4_apply (x0 : Vec Ideal S2000x128 .bf16) (x1 x2 : Vec Ideal S2000x128 .f32) (x3 : Vec Ideal S128x384 .f32) (p : Fin 2000) (q : Fin 384) :
    k4_pay1 (F := Ideal) x0 x1 x2 x3 (ix2 p q) = ∑ k : Fin 128, max ((x0 (ix2 p k) + x1 (ix2 p k)) + x2 (ix2 p k)) (Ideal.ofBits .f32 0x00000000#32) * x3 (ix2 k q) := by
  unfold k4_pay1
  simp only [shapeCast_self]
  refine (matmul_zero_rows dot_S2000x128_S128x384_S2000x384_1_0_0_1_n_n none rfl rfl (fun _ _ => rfl) (fun _ _ => rfl) (fun _ _ => rfl) (fun _ _ => rfl) _ _ p q).trans ?_
  rfl

variable (V : (c : Dev nD) → (b : Ref sig .tc) → Buf (Elt Ideal) ((c : Thread nD τ).loc b))

/-- The printed index maps over the grid: a row-blocked window sits at block row `t`, a weight window at block (0, 0). -/
theorem idx_facts4 : ∀ t : Fin cfg4.N, win4_0.index t (0 : Fin 2) = t.val
    ∧ win4_0.index t (1 : Fin 2) = 0
    ∧ win4_1.index t (0 : Fin 2) = t.val
    ∧ win4_1.index t (1 : Fin 2) = 0
    ∧ win4_2.index t (0 : Fin 2) = t.val
    ∧ win4_2.index t (1 : Fin 2) = 0
    ∧ win4_3.index t (0 : Fin 2) = 0
    ∧ win4_3.index t (1 : Fin 2) = 0
    ∧ win4_4.index t (0 : Fin 2) = t.val
    ∧ win4_4.index t (1 : Fin 2) = 0 :=
  (by decide +kernel : ∀ t : Fin grid4.N, _)

theorem t_lt4 (t : Fin cfg4.N) : t.val < 100 := Nat.lt_of_lt_of_eq t.isLt N_4

/-- Row `p` of grid point `t`'s block is row `2000·t + p` of the array. -/
def row4 (t : Fin cfg4.N) (p : Fin 2000) : Fin 200000 := ⟨t.val * 2000 + p.val, by have := t_lt4 t; have := p.isLt; omega⟩

/-- Input 0's block at point `t`, read at (p, k): the array at (2000·t + p, k). -/
theorem blk4_0 (c : Dev nD) (t : Fin cfg4.N) (p : Fin 2000) (k : Fin 128) :
    (iblk4 V c 0 t : S2000x128.Idx → EReal) (ix2 p k) = (V c main_v51 : S200000x128.Idx → EReal) (ix2 (row4 t p) k) := by
  obtain ⟨e0, e1, -⟩ := idx_facts4 t
  unfold iblk4
  rw [View.read_apply]
  refine congrArg (V c main_v51 : S200000x128.Idx → EReal) (funext fun a => Fin.ext ?_)
  match a with
  | ⟨0, _⟩ => show win4_0.index t (0 : Fin 2) * 2000 + 1 * p.val = t.val * 2000 + p.val; rw [e0]; omega
  | ⟨1, _⟩ => show win4_0.index t (1 : Fin 2) * 128 + 1 * k.val = k.val; rw [e1]; omega
/-- Input 1's block at point `t`, read at (p, k): the array at (2000·t + p, k). -/
theorem blk4_1 (c : Dev nD) (t : Fin cfg4.N) (p : Fin 2000) (k : Fin 128) :
    (iblk4 V c 1 t : S2000x128.Idx → EReal) (ix2 p k) = (V c main_v71 : S200000x128.Idx → EReal) (ix2 (row4 t p) k) := by
  obtain ⟨-, -, e0, e1, -⟩ := idx_facts4 t
  unfold iblk4
  rw [View.read_apply]
  refine congrArg (V c main_v71 : S200000x128.Idx → EReal) (funext fun a => Fin.ext ?_)
  match a with
  | ⟨0, _⟩ => show win4_1.index t (0 : Fin 2) * 2000 + 1 * p.val = t.val * 2000 + p.val; rw [e0]; omega
  | ⟨1, _⟩ => show win4_1.index t (1 : Fin 2) * 128 + 1 * k.val = k.val; rw [e1]; omega
/-- Input 2's block at point `t`, read at (p, k): the array at (2000·t + p, k). -/
theorem blk4_2 (c : Dev nD) (t : Fin cfg4.N) (p : Fin 2000) (k : Fin 128) :
    (iblk4 V c 2 t : S2000x128.Idx → EReal) (ix2 p k) = (V c main_v89 : S200000x128.Idx → EReal) (ix2 (row4 t p) k) := by
  obtain ⟨-, -, -, -, e0, e1, -⟩ := idx_facts4 t
  unfold iblk4
  rw [View.read_apply]
  refine congrArg (V c main_v89 : S200000x128.Idx → EReal) (funext fun a => Fin.ext ?_)
  match a with
  | ⟨0, _⟩ => show win4_2.index t (0 : Fin 2) * 2000 + 1 * p.val = t.val * 2000 + p.val; rw [e0]; omega
  | ⟨1, _⟩ => show win4_2.index t (1 : Fin 2) * 128 + 1 * k.val = k.val; rw [e1]; omega
/-- The weight block at any point is the whole matrix. -/
theorem blk4_3 (c : Dev nD) (t : Fin cfg4.N) (k : Fin 128) (q : Fin 384) :
    (iblk4 V c 3 t : S128x384.Idx → EReal) (ix2 k q) = (V c main_v96 : S128x384.Idx → EReal) (ix2 k q) := by
  obtain ⟨-, -, -, -, -, -, e0, e1, -⟩ := idx_facts4 t
  unfold iblk4
  rw [View.read_apply]
  refine congrArg (V c main_v96 : S128x384.Idx → EReal) (funext fun a => Fin.ext ?_)
  match a with
  | ⟨0, _⟩ => show win4_3.index t (0 : Fin 2) * 128 + 1 * k.val = k.val; rw [e0]; omega
  | ⟨1, _⟩ => show win4_3.index t (1 : Fin 2) * 384 + 1 * q.val = q.val; rw [e1]; omega

/-- WHAT POINT `t` WRITES BACK is block `t` of the region's function of the arrays it finds. -/
theorem flushed4_eq (c : Dev nD) (t : Fin cfg4.N) :
    (dat4 V c).flushed 4 t = ((cfg4.win 4).blk t).view.read (Elt Ideal) (rowsProduct (R := 200000) (J := 384) (combine (V c main_v51) (V c main_v71) (V c main_v89)) (V c main_v96)) := by
  show (cfg4.win 4).cut (grid4.coords t) ((dat4 V c).after 4 t) = _
  rw [after4_4]
  unfold out4_4
  rw [View.canon_unit_zero hz4]
  simp only [View.ld_unit_zero (S := S2000x128) hz4, View.ld_unit_zero (S := S128x384) hz4]
  obtain ⟨-, -, -, -, -, -, -, -, e0, e1⟩ := idx_facts4 t
  funext j
  obtain ⟨p, q, rfl⟩ : ∃ (p : Fin 2000) (q : Fin 384), j = ix2 p q := ⟨j 0, j 1, eq_ix2 j⟩
  refine (pay4_apply _ _ _ _ p q).trans ?_
  rw [View.read_apply]
  have hemb : ((cfg4.win 4).blk t).view.emb (ix2 p q) = ix2 (row4 t p) q := by
    funext a; apply Fin.ext
    match a with
    | ⟨0, _⟩ => show win4_4.index t (0 : Fin 2) * 2000 + 1 * p.val = t.val * 2000 + p.val; rw [e0]; omega
    | ⟨1, _⟩ => show win4_4.index t (1 : Fin 2) * 384 + 1 * q.val = q.val; rw [e1]; omega
  rw [hemb]
  rw [rowsProduct_apply]
  simp only [combine_apply, blk4_0, blk4_1, blk4_2, blk4_3]
  rfl

/-- An index of the array is in point `t`'s block iff each coordinate is in the block's range on its axis. -/
theorem mem_blk4 (t : Fin cfg4.N) (i : S200000x384.Idx) :
    i ∈ ((cfg4.win 4).blk t).view.set ↔ ∀ a : Fin 2, win4_4.index t a * S2000x384.size a ≤ (i a).val ∧ (i a).val < win4_4.index t a * S2000x384.size a + S2000x384.size a := by
  show i ∈ ((View.whole main_v97).slice (win4_4.rect t)).set ↔ _
  rw [View.set_slice_whole, Rect.mem_set_unit]
  exact Iff.rfl

/-- THE OUTPUT ARRAY after the region: the region's function of the arrays it finds. -/
theorem final4 (c : Dev nD) :
    (dat4 V c).arrAt 4 cfg4.N = rowsProduct (R := 200000) (J := 384) (combine (V c main_v51) (V c main_v71) (V c main_v89)) (V c main_v96) :=
  (dat4 V c).arrAt_eq_of_cover 4 _ (fun t _ => flushed4_eq V c t) fun i => by
    have hi0 : (i 0).val < 200000 := (i 0).isLt
    have hi1 : (i 1).val < 384 := (i 1).isLt
    have hN : cfg4.N = 100 := N_4
    refine ⟨⟨(i 0).val / 2000, by rw [hN]; omega⟩, flush4_4 _, ?_⟩
    rw [mem_blk4]
    obtain ⟨-, -, -, -, -, -, -, -, e0, e1⟩ := idx_facts4 ⟨(i 0).val / 2000, by rw [hN]; omega⟩
    intro a
    match a with
    | ⟨0, _⟩ => show win4_4.index _ (0 : Fin 2) * 2000 ≤ (i 0).val ∧ (i 0).val < win4_4.index _ (0 : Fin 2) * 2000 + 2000; rw [e0]; show (i 0).val / 2000 * 2000 ≤ (i 0).val ∧ (i 0).val < (i 0).val / 2000 * 2000 + 2000; omega
    | ⟨1, _⟩ => show win4_4.index _ (1 : Fin 2) * 384 ≤ (i 1).val ∧ (i 1).val < win4_4.index _ (1 : Fin 2) * 384 + 384; rw [e1]; omega

end Cert.KernelIdeal.Val

end
-- ==== Proof.KernelIdealVal5.lean ====
/-
  What region 5 (a cell layer's combination fused with the next layer's product) leaves in its output array, at the
  ideal values, as one function of the arrays it reads: at row r and column q, ∑ₖ max((t0(r,k) + sd(r,k)) + su(r,k), 0) · W(k,q).
  Grid point t covers rows 2000·t … 2000·t + 1999; the weight block is the whole matrix; the hundred blocks cover the array.
-/
import proofs.«160791_j62036507623881_2_alg».proof.Proof.KernelIdealRegion5
import proofs.«160791_j62036507623881_2_alg».proof.Proof.LibDotRows
import proofs.«160791_j62036507623881_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Cert.KernelIdeal Cert.KernelIdeal.Gen Cert.KernelIdeal.Frame
open Idealize.ShloMosaic Idealize.ShloMosaic.TcCoe Idealize.ShloMosaic.ValueIdx Idealize.SL.Sem
open Idealize.ShloMosaic.Pipeline (Dat)

open Cert.Spec

theorem hz5 : (![0, 0] : Fin 2 → Nat) = fun _ => 0 := funext fun a => by fin_cases a <;> rfl

/-- The body's payload at row `p`, column `q` of the block. -/
theorem pay5_apply (x0 : Vec Ideal S2000x128 .bf16) (x1 x2 : Vec Ideal S2000x128 .f32) (x3 : Vec Ideal S128x384 .f32) (p : Fin 2000) (q : Fin 384) :
    k5_pay1 (F := Ideal) x0 x1 x2 x3 (ix2 p q) = ∑ k : Fin 128, max ((x0 (ix2 p k) + x1 (ix2 p k)) + x2 (ix2 p k)) (Ideal.ofBits .f32 0x00000000#32) * x3 (ix2 k q) := by
  unfold k5_pay1
  simp only [shapeCast_self]
  refine (matmul_zero_rows dot_S2000x128_S128x384_S2000x384_1_0_0_1_n_n none rfl rfl (fun _ _ => rfl) (fun _ _ => rfl) (fun _ _ => rfl) (fun _ _ => rfl) _ _ p q).trans ?_
  rfl

variable (V : (c : Dev nD) → (b : Ref sig .tc) → Buf (Elt Ideal) ((c : Thread nD τ).loc b))

/-- The printed index maps over the grid: a row-blocked window sits at block row `t`, a weight window at block (0, 0). -/
theorem idx_facts5 : ∀ t : Fin cfg5.N, win5_0.index t (0 : Fin 2) = t.val
    ∧ win5_0.index t (1 : Fin 2) = 0
    ∧ win5_1.index t (0 : Fin 2) = t.val
    ∧ win5_1.index t (1 : Fin 2) = 0
    ∧ win5_2.index t (0 : Fin 2) = t.val
    ∧ win5_2.index t (1 : Fin 2) = 0
    ∧ win5_3.index t (0 : Fin 2) = 0
    ∧ win5_3.index t (1 : Fin 2) = 0
    ∧ win5_4.index t (0 : Fin 2) = t.val
    ∧ win5_4.index t (1 : Fin 2) = 0 :=
  (by decide +kernel : ∀ t : Fin grid5.N, _)

theorem t_lt5 (t : Fin cfg5.N) : t.val < 100 := Nat.lt_of_lt_of_eq t.isLt N_5

/-- Row `p` of grid point `t`'s block is row `2000·t + p` of the array. -/
def row5 (t : Fin cfg5.N) (p : Fin 2000) : Fin 200000 := ⟨t.val * 2000 + p.val, by have := t_lt5 t; have := p.isLt; omega⟩

/-- Input 0's block at point `t`, read at (p, k): the array at (2000·t + p, k). -/
theorem blk5_0 (c : Dev nD) (t : Fin cfg5.N) (p : Fin 2000) (k : Fin 128) :
    (iblk5 V c 0 t : S2000x128.Idx → EReal) (ix2 p k) = (V c main_v98 : S200000x128.Idx → EReal) (ix2 (row5 t p) k) := by
  obtain ⟨e0, e1, -⟩ := idx_facts5 t
  unfold iblk5
  rw [View.read_apply]
  refine congrArg (V c main_v98 : S200000x128.Idx → EReal) (funext fun a => Fin.ext ?_)
  match a with
  | ⟨0, _⟩ => show win5_0.index t (0 : Fin 2) * 2000 + 1 * p.val = t.val * 2000 + p.val; rw [e0]; omega
  | ⟨1, _⟩ => show win5_0.index t (1 : Fin 2) * 128 + 1 * k.val = k.val; rw [e1]; omega
/-- Input 1's block at point `t`, read at (p, k): the array at (2000·t + p, k). -/
theorem blk5_1 (c : Dev nD) (t : Fin cfg5.N) (p : Fin 2000) (k : Fin 128) :
    (iblk5 V c 1 t : S2000x128.Idx → EReal) (ix2 p k) = (V c main_v118 : S200000x128.Idx → EReal) (ix2 (row5 t p) k) := by
  obtain ⟨-, -, e0, e1, -⟩ := idx_facts5 t
  unfold iblk5
  rw [View.read_apply]
  refine congrArg (V c main_v118 : S200000x128.Idx → EReal) (funext fun a => Fin.ext ?_)
  match a with
  | ⟨0, _⟩ => show win5_1.index t (0 : Fin 2) * 2000 + 1 * p.val = t.val * 2000 + p.val; rw [e0]; omega
  | ⟨1, _⟩ => show win5_1.index t (1 : Fin 2) * 128 + 1 * k.val = k.val; rw [e1]; omega
/-- Input 2's block at point `t`, read at (p, k): the array at (2000·t + p, k). -/
theorem blk5_2 (c : Dev nD) (t : Fin cfg5.N) (p : Fin 2000) (k : Fin 128) :
    (iblk5 V c 2 t : S2000x128.Idx → EReal) (ix2 p k) = (V c main_v136 : S200000x128.Idx → EReal) (ix2 (row5 t p) k) := by
  obtain ⟨-, -, -, -, e0, e1, -⟩ := idx_facts5 t
  unfold iblk5
  rw [View.read_apply]
  refine congrArg (V c main_v136 : S200000x128.Idx → EReal) (funext fun a => Fin.ext ?_)
  match a with
  | ⟨0, _⟩ => show win5_2.index t (0 : Fin 2) * 2000 + 1 * p.val = t.val * 2000 + p.val; rw [e0]; omega
  | ⟨1, _⟩ => show win5_2.index t (1 : Fin 2) * 128 + 1 * k.val = k.val; rw [e1]; omega
/-- The weight block at any point is the whole matrix. -/
theorem blk5_3 (c : Dev nD) (t : Fin cfg5.N) (k : Fin 128) (q : Fin 384) :
    (iblk5 V c 3 t : S128x384.Idx → EReal) (ix2 k q) = (V c main_v143 : S128x384.Idx → EReal) (ix2 k q) := by
  obtain ⟨-, -, -, -, -, -, e0, e1, -⟩ := idx_facts5 t
  unfold iblk5
  rw [View.read_apply]
  refine congrArg (V c main_v143 : S128x384.Idx → EReal) (funext fun a => Fin.ext ?_)
  match a with
  | ⟨0, _⟩ => show win5_3.index t (0 : Fin 2) * 128 + 1 * k.val = k.val; rw [e0]; omega
  | ⟨1, _⟩ => show win5_3.index t (1 : Fin 2) * 384 + 1 * q.val = q.val; rw [e1]; omega

/-- WHAT POINT `t` WRITES BACK is block `t` of the region's function of the arrays it finds. -/
theorem flushed5_eq (c : Dev nD) (t : Fin cfg5.N) :
    (dat5 V c).flushed 4 t = ((cfg5.win 4).blk t).view.read (Elt Ideal) (rowsProduct (R := 200000) (J := 384) (combine (V c main_v98) (V c main_v118) (V c main_v136)) (V c main_v143)) := by
  show (cfg5.win 4).cut (grid5.coords t) ((dat5 V c).after 4 t) = _
  rw [after5_4]
  unfold out5_4
  rw [View.canon_unit_zero hz5]
  simp only [View.ld_unit_zero (S := S2000x128) hz5, View.ld_unit_zero (S := S128x384) hz5]
  obtain ⟨-, -, -, -, -, -, -, -, e0, e1⟩ := idx_facts5 t
  funext j
  obtain ⟨p, q, rfl⟩ : ∃ (p : Fin 2000) (q : Fin 384), j = ix2 p q := ⟨j 0, j 1, eq_ix2 j⟩
  refine (pay5_apply _ _ _ _ p q).trans ?_
  rw [View.read_apply]
  have hemb : ((cfg5.win 4).blk t).view.emb (ix2 p q) = ix2 (row5 t p) q := by
    funext a; apply Fin.ext
    match a with
    | ⟨0, _⟩ => show win5_4.index t (0 : Fin 2) * 2000 + 1 * p.val = t.val * 2000 + p.val; rw [e0]; omega
    | ⟨1, _⟩ => show win5_4.index t (1 : Fin 2) * 384 + 1 * q.val = q.val; rw [e1]; omega
  rw [hemb]
  rw [rowsProduct_apply]
  simp only [combine_apply, blk5_0, blk5_1, blk5_2, blk5_3]
  rfl

/-- An index of the array is in point `t`'s block iff each coordinate is in the block's range on its axis. -/
theorem mem_blk5 (t : Fin cfg5.N) (i : S200000x384.Idx) :
    i ∈ ((cfg5.win 4).blk t).view.set ↔ ∀ a : Fin 2, win5_4.index t a * S2000x384.size a ≤ (i a).val ∧ (i a).val < win5_4.index t a * S2000x384.size a + S2000x384.size a := by
  show i ∈ ((View.whole main_v144).slice (win5_4.rect t)).set ↔ _
  rw [View.set_slice_whole, Rect.mem_set_unit]
  exact Iff.rfl

/-- THE OUTPUT ARRAY after the region: the region's function of the arrays it finds. -/
theorem final5 (c : Dev nD) :
    (dat5 V c).arrAt 4 cfg5.N = rowsProduct (R := 200000) (J := 384) (combine (V c main_v98) (V c main_v118) (V c main_v136)) (V c main_v143) :=
  (dat5 V c).arrAt_eq_of_cover 4 _ (fun t _ => flushed5_eq V c t) fun i => by
    have hi0 : (i 0).val < 200000 := (i 0).isLt
    have hi1 : (i 1).val < 384 := (i 1).isLt
    have hN : cfg5.N = 100 := N_5
    refine ⟨⟨(i 0).val / 2000, by rw [hN]; omega⟩, flush5_4 _, ?_⟩
    rw [mem_blk5]
    obtain ⟨-, -, -, -, -, -, -, -, e0, e1⟩ := idx_facts5 ⟨(i 0).val / 2000, by rw [hN]; omega⟩
    intro a
    match a with
    | ⟨0, _⟩ => show win5_4.index _ (0 : Fin 2) * 2000 ≤ (i 0).val ∧ (i 0).val < win5_4.index _ (0 : Fin 2) * 2000 + 2000; rw [e0]; show (i 0).val / 2000 * 2000 ≤ (i 0).val ∧ (i 0).val < (i 0).val / 2000 * 2000 + 2000; omega
    | ⟨1, _⟩ => show win5_4.index _ (1 : Fin 2) * 384 ≤ (i 1).val ∧ (i 1).val < win5_4.index _ (1 : Fin 2) * 384 + 384; rw [e1]; omega

end Cert.KernelIdeal.Val

end
-- ==== Proof.KernelIdealVal6.lean ====
/-
  What region 6 (the last cell layer's combination) leaves in its output array, at the ideal values, as one function of
  the arrays it reads: at row r and column q, max((t0(r,q) + sd(r,q)) + su(r,q), 0).  Grid point t covers rows
  4000·t … 4000·t + 3999; the fifty blocks cover the array.
-/
import proofs.«160791_j62036507623881_2_alg».proof.Proof.KernelIdealRegion6
import proofs.«160791_j62036507623881_2_alg».proof.Proof.LibDotRows
import proofs.«160791_j62036507623881_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Cert.KernelIdeal Cert.KernelIdeal.Gen Cert.KernelIdeal.Frame
open Idealize.ShloMosaic Idealize.ShloMosaic.TcCoe Idealize.ShloMosaic.ValueIdx Idealize.SL.Sem
open Idealize.ShloMosaic.Pipeline (Dat)

open Cert.Spec

theorem hz6 : (![0, 0] : Fin 2 → Nat) = fun _ => 0 := funext fun a => by fin_cases a <;> rfl

/-- The body's payload at row `p`, column `q` of the block. -/
theorem pay6_apply (x0 : Vec Ideal S4000x128 .bf16) (x1 x2 : Vec Ideal S4000x128 .f32) (p : Fin 4000) (q : Fin 128) :
    k6_pay1 (F := Ideal) x0 x1 x2 (ix2 p q) = max ((x0 (ix2 p q) + x1 (ix2 p q)) + x2 (ix2 p q)) (Ideal.ofBits .f32 0x00000000#32) := by
  unfold k6_pay1
  simp only [shapeCast_self]
  rfl

variable (V : (c : Dev nD) → (b : Ref sig .tc) → Buf (Elt Ideal) ((c : Thread nD τ).loc b))

/-- The printed index maps over the grid: a row-blocked window sits at block row `t`, a weight window at block (0, 0). -/
theorem idx_facts6 : ∀ t : Fin cfg6.N, win6_0.index t (0 : Fin 2) = t.val
    ∧ win6_0.index t (1 : Fin 2) = 0
    ∧ win6_1.index t (0 : Fin 2) = t.val
    ∧ win6_1.index t (1 : Fin 2) = 0
    ∧ win6_2.index t (0 : Fin 2) = t.val
    ∧ win6_2.index t (1 : Fin 2) = 0
    ∧ win6_3.index t (0 : Fin 2) = t.val
    ∧ win6_3.index t (1 : Fin 2) = 0 :=
  (by decide +kernel : ∀ t : Fin grid6.N, _)

theorem t_lt6 (t : Fin cfg6.N) : t.val < 50 := Nat.lt_of_lt_of_eq t.isLt N_6

/-- Row `p` of grid point `t`'s block is row `4000·t + p` of the array. -/
def row6 (t : Fin cfg6.N) (p : Fin 4000) : Fin 200000 := ⟨t.val * 4000 + p.val, by have := t_lt6 t; have := p.isLt; omega⟩

/-- Input 0's block at point `t`, read at (p, k): the array at (4000·t + p, k). -/
theorem blk6_0 (c : Dev nD) (t : Fin cfg6.N) (p : Fin 4000) (k : Fin 128) :
    (iblk6 V c 0 t : S4000x128.Idx → EReal) (ix2 p k) = (V c main_v145 : S200000x128.Idx → EReal) (ix2 (row6 t p) k) := by
  obtain ⟨e0, e1, -⟩ := idx_facts6 t
  unfold iblk6
  rw [View.read_apply]
  refine congrArg (V c main_v145 : S200000x128.Idx → EReal) (funext fun a => Fin.ext ?_)
  match a with
  | ⟨0, _⟩ => show win6_0.index t (0 : Fin 2) * 4000 + 1 * p.val = t.val * 4000 + p.val; rw [e0]; omega
  | ⟨1, _⟩ => show win6_0.index t (1 : Fin 2) * 128 + 1 * k.val = k.val; rw [e1]; omega
/-- Input 1's block at point `t`, read at (p, k): the array at (4000·t + p, k). -/
theorem blk6_1 (c : Dev nD) (t : Fin cfg6.N) (p : Fin 4000) (k : Fin 128) :
    (iblk6 V c 1 t : S4000x128.Idx → EReal) (ix2 p k) = (V c main_v165 : S200000x128.Idx → EReal) (ix2 (row6 t p) k) := by
  obtain ⟨-, -, e0, e1, -⟩ := idx_facts6 t
  unfold iblk6
  rw [View.read_apply]
  refine congrArg (V c main_v165 : S200000x128.Idx → EReal) (funext fun a => Fin.ext ?_)
  match a with
  | ⟨0, _⟩ => show win6_1.index t (0 : Fin 2) * 4000 + 1 * p.val = t.val * 4000 + p.val; rw [e0]; omega
  | ⟨1, _⟩ => show win6_1.index t (1 : Fin 2) * 128 + 1 * k.val = k.val; rw [e1]; omega
/-- Input 2's block at point `t`, read at (p, k): the array at (4000·t + p, k). -/
theorem blk6_2 (c : Dev nD) (t : Fin cfg6.N) (p : Fin 4000) (k : Fin 128) :
    (iblk6 V c 2 t : S4000x128.Idx → EReal) (ix2 p k) = (V c main_v183 : S200000x128.Idx → EReal) (ix2 (row6 t p) k) := by
  obtain ⟨-, -, -, -, e0, e1, -⟩ := idx_facts6 t
  unfold iblk6
  rw [View.read_apply]
  refine congrArg (V c main_v183 : S200000x128.Idx → EReal) (funext fun a => Fin.ext ?_)
  match a with
  | ⟨0, _⟩ => show win6_2.index t (0 : Fin 2) * 4000 + 1 * p.val = t.val * 4000 + p.val; rw [e0]; omega
  | ⟨1, _⟩ => show win6_2.index t (1 : Fin 2) * 128 + 1 * k.val = k.val; rw [e1]; omega

/-- WHAT POINT `t` WRITES BACK is block `t` of the region's function of the arrays it finds. -/
theorem flushed6_eq (c : Dev nD) (t : Fin cfg6.N) :
    (dat6 V c).flushed 3 t = ((cfg6.win 3).blk t).view.read (Elt Ideal) (combine (V c main_v145) (V c main_v165) (V c main_v183)) := by
  show (cfg6.win 3).cut (grid6.coords t) ((dat6 V c).after 3 t) = _
  rw [after6_3]
  unfold out6_3
  rw [View.canon_unit_zero hz6]
  simp only [View.ld_unit_zero (S := S4000x128) hz6]
  obtain ⟨-, -, -, -, -, -, e0, e1⟩ := idx_facts6 t
  funext j
  obtain ⟨p, q, rfl⟩ : ∃ (p : Fin 4000) (q : Fin 128), j = ix2 p q := ⟨j 0, j 1, eq_ix2 j⟩
  refine (pay6_apply _ _ _ p q).trans ?_
  rw [View.read_apply]
  have hemb : ((cfg6.win 3).blk t).view.emb (ix2 p q) = ix2 (row6 t p) q := by
    funext a; apply Fin.ext
    match a with
    | ⟨0, _⟩ => show win6_3.index t (0 : Fin 2) * 4000 + 1 * p.val = t.val * 4000 + p.val; rw [e0]; omega
    | ⟨1, _⟩ => show win6_3.index t (1 : Fin 2) * 128 + 1 * q.val = q.val; rw [e1]; omega
  rw [hemb]
  rw [combine_apply]
  simp only [blk6_0, blk6_1, blk6_2]
  rfl

/-- An index of the array is in point `t`'s block iff each coordinate is in the block's range on its axis. -/
theorem mem_blk6 (t : Fin cfg6.N) (i : S200000x128.Idx) :
    i ∈ ((cfg6.win 3).blk t).view.set ↔ ∀ a : Fin 2, win6_3.index t a * S4000x128.size a ≤ (i a).val ∧ (i a).val < win6_3.index t a * S4000x128.size a + S4000x128.size a := by
  show i ∈ ((View.whole main_v184).slice (win6_3.rect t)).set ↔ _
  rw [View.set_slice_whole, Rect.mem_set_unit]
  exact Iff.rfl

/-- THE OUTPUT ARRAY after the region: the region's function of the arrays it finds. -/
theorem final6 (c : Dev nD) :
    (dat6 V c).arrAt 3 cfg6.N = combine (V c main_v145) (V c main_v165) (V c main_v183) :=
  (dat6 V c).arrAt_eq_of_cover 3 _ (fun t _ => flushed6_eq V c t) fun i => by
    have hi0 : (i 0).val < 200000 := (i 0).isLt
    have hi1 : (i 1).val < 128 := (i 1).isLt
    have hN : cfg6.N = 50 := N_6
    refine ⟨⟨(i 0).val / 4000, by rw [hN]; omega⟩, flush6_3 _, ?_⟩
    rw [mem_blk6]
    obtain ⟨-, -, -, -, -, -, e0, e1⟩ := idx_facts6 ⟨(i 0).val / 4000, by rw [hN]; omega⟩
    intro a
    match a with
    | ⟨0, _⟩ => show win6_3.index _ (0 : Fin 2) * 4000 ≤ (i 0).val ∧ (i 0).val < win6_3.index _ (0 : Fin 2) * 4000 + 4000; rw [e0]; show (i 0).val / 4000 * 4000 ≤ (i 0).val ∧ (i 0).val < (i 0).val / 4000 * 4000 + 4000; omega
    | ⟨1, _⟩ => show win6_3.index _ (1 : Fin 2) * 128 ≤ (i 1).val ∧ (i 1).val < win6_3.index _ (1 : Fin 2) * 128 + 128; rw [e1]; omega

end Cert.KernelIdeal.Val

end
-- ==== Proof.KernelIdealVal7.lean ====
/-
  What region 7 (the final concatenation) leaves in its output array, at the ideal values, as one function of the arrays
  it reads: at row r, column q < 128 the node features h(r,q), and at column 128 + q the sum s1(r,q) + s2(r,q) of the two
  scattered cell sums.  Grid point t covers rows 2000·t … 2000·t + 1999; its two stores fill the left and the right 128
  columns of the block; the ten blocks cover the array.
-/
import proofs.«160791_j62036507623881_2_alg».proof.Proof.KernelIdealRegion7
import proofs.«160791_j62036507623881_2_alg».proof.Proof.LibDotRows
import proofs.«160791_j62036507623881_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Cert.KernelIdeal Cert.KernelIdeal.Gen Cert.KernelIdeal.Frame
open Idealize.ShloMosaic Idealize.ShloMosaic.TcCoe Idealize.ShloMosaic.ValueIdx Idealize.SL.Sem
open Idealize.ShloMosaic.Pipeline (Dat)

open Cert.Spec

theorem hz7 : (![0, 0] : Fin 2 → Nat) = fun _ => 0 := funext fun a => by fin_cases a <;> rfl

/-- The two payloads at row `p`, column `q` of their half block. -/
theorem pay7l_apply (x0 : Vec Ideal S2000x128 .f32) (p : Fin 2000) (q : Fin 128) : k7_pay1 (F := Ideal) x0 (ix2 p q) = x0 (ix2 p q) := by
  unfold k7_pay1
  simp only [shapeCast_self]
theorem pay7r_apply (x1 x2 : Vec Ideal S2000x128 .f32) (p : Fin 2000) (q : Fin 128) : k7_pay2 (F := Ideal) x1 x2 (ix2 p q) = x1 (ix2 p q) + x2 (ix2 p q) := by
  unfold k7_pay2
  simp only [shapeCast_self]
  rfl

variable (V : (c : Dev nD) → (b : Ref sig .tc) → Buf (Elt Ideal) ((c : Thread nD τ).loc b))

/-- The printed index maps over the grid: a row-blocked window sits at block row `t`, a weight window at block (0, 0). -/
theorem idx_facts7 : ∀ t : Fin cfg7.N, win7_0.index t (0 : Fin 2) = t.val
    ∧ win7_0.index t (1 : Fin 2) = 0
    ∧ win7_1.index t (0 : Fin 2) = t.val
    ∧ win7_1.index t (1 : Fin 2) = 0
    ∧ win7_2.index t (0 : Fin 2) = t.val
    ∧ win7_2.index t (1 : Fin 2) = 0
    ∧ win7_3.index t (0 : Fin 2) = t.val
    ∧ win7_3.index t (1 : Fin 2) = 0 :=
  (by decide +kernel : ∀ t : Fin grid7.N, _)

theorem t_lt7 (t : Fin cfg7.N) : t.val < 10 := Nat.lt_of_lt_of_eq t.isLt N_7

/-- Row `p` of grid point `t`'s block is row `2000·t + p` of the array. -/
def row7 (t : Fin cfg7.N) (p : Fin 2000) : Fin 20000 := ⟨t.val * 2000 + p.val, by have := t_lt7 t; have := p.isLt; omega⟩

/-- Input 0's block at point `t`, read at (p, k): the array at (2000·t + p, k). -/
theorem blk7_0 (c : Dev nD) (t : Fin cfg7.N) (p : Fin 2000) (k : Fin 128) :
    (iblk7 V c 0 t : S2000x128.Idx → EReal) (ix2 p k) = (V c main_v42 : S20000x128.Idx → EReal) (ix2 (row7 t p) k) := by
  obtain ⟨e0, e1, -⟩ := idx_facts7 t
  unfold iblk7
  rw [View.read_apply]
  refine congrArg (V c main_v42 : S20000x128.Idx → EReal) (funext fun a => Fin.ext ?_)
  match a with
  | ⟨0, _⟩ => show win7_0.index t (0 : Fin 2) * 2000 + 1 * p.val = t.val * 2000 + p.val; rw [e0]; omega
  | ⟨1, _⟩ => show win7_0.index t (1 : Fin 2) * 128 + 1 * k.val = k.val; rw [e1]; omega
/-- Input 1's block at point `t`, read at (p, k): the array at (2000·t + p, k). -/
theorem blk7_1 (c : Dev nD) (t : Fin cfg7.N) (p : Fin 2000) (k : Fin 128) :
    (iblk7 V c 1 t : S2000x128.Idx → EReal) (ix2 p k) = (V c main_v187 : S20000x128.Idx → EReal) (ix2 (row7 t p) k) := by
  obtain ⟨-, -, e0, e1, -⟩ := idx_facts7 t
  unfold iblk7
  rw [View.read_apply]
  refine congrArg (V c main_v187 : S20000x128.Idx → EReal) (funext fun a => Fin.ext ?_)
  match a with
  | ⟨0, _⟩ => show win7_1.index t (0 : Fin 2) * 2000 + 1 * p.val = t.val * 2000 + p.val; rw [e0]; omega
  | ⟨1, _⟩ => show win7_1.index t (1 : Fin 2) * 128 + 1 * k.val = k.val; rw [e1]; omega
/-- Input 2's block at point `t`, read at (p, k): the array at (2000·t + p, k). -/
theorem blk7_2 (c : Dev nD) (t : Fin cfg7.N) (p : Fin 2000) (k : Fin 128) :
    (iblk7 V c 2 t : S2000x128.Idx → EReal) (ix2 p k) = (V c main_v190 : S20000x128.Idx → EReal) (ix2 (row7 t p) k) := by
  obtain ⟨-, -, -, -, e0, e1, -⟩ := idx_facts7 t
  unfold iblk7
  rw [View.read_apply]
  refine congrArg (V c main_v190 : S20000x128.Idx → EReal) (funext fun a => Fin.ext ?_)
  match a with
  | ⟨0, _⟩ => show win7_2.index t (0 : Fin 2) * 2000 + 1 * p.val = t.val * 2000 + p.val; rw [e0]; omega
  | ⟨1, _⟩ => show win7_2.index t (1 : Fin 2) * 128 + 1 * k.val = k.val; rw [e1]; omega

/-- WHAT POINT `t` WRITES BACK is block `t` of the region's function of the arrays it finds. -/
theorem flushed7_eq (c : Dev nD) (t : Fin cfg7.N) :
    (dat7 V c).flushed 3 t = ((cfg7.win 3).blk t).view.read (Elt Ideal) (nodeConcat (V c main_v42) (V c main_v187) (V c main_v190)) := by
  show (cfg7.win 3).cut (grid7.coords t) ((dat7 V c).after 3 t) = _
  rw [after7_3]
  unfold out7_3
  simp only [View.ld_unit_zero (S := S2000x128) hz7]
  obtain ⟨-, -, -, -, -, -, e0, e1⟩ := idx_facts7 t
  funext j
  obtain ⟨p, q', rfl⟩ : ∃ (p : Fin 2000) (q' : Fin 256), j = ix2 p q' := ⟨j 0, j 1, eq_ix2 j⟩
  rw [View.read_apply]
  have hemb : ((cfg7.win 3).blk t).view.emb (ix2 p q') = ix2 (row7 t p) q' := by
    funext a; apply Fin.ext
    match a with
    | ⟨0, _⟩ => show win7_3.index t (0 : Fin 2) * 2000 + 1 * p.val = t.val * 2000 + p.val; rw [e0]; omega
    | ⟨1, _⟩ => show win7_3.index t (1 : Fin 2) * 256 + 1 * q'.val = q'.val; rw [e1]; omega
  rw [hemb]
  show View.canon [(⟨r7_r, k7_pay2 (F := Ideal) (iblk7 V c 1 t) (iblk7 V c 2 t)⟩ : View.Piece (Elt Ideal) S2000x256 .f32), ⟨r7_l, k7_pay1 (F := Ideal) (iblk7 V c 0 t)⟩] (ix2 p q') = _
  by_cases hq : q'.val < 128
  · have hnot : (ix2 p q' : S2000x256.Idx) ∉ r7_r.set := by
      rw [Rect.mem_set_unit]
      intro h
      have h1 : 128 ≤ q'.val := (h (1 : Fin 2)).1
      omega
    rw [View.canon_cons_of_not_mem (⟨r7_r, _⟩ : View.Piece (Elt Ideal) S2000x256 .f32) [⟨r7_l, _⟩] hnot]
    have hl : (ix2 p q' : S2000x256.Idx) = r7_l.emb (ix2 p (⟨q'.val, hq⟩ : Fin 128)) := by
      funext a; apply Fin.ext
      match a with
      | ⟨0, _⟩ => show p.val = 0 + 1 * p.val; omega
      | ⟨1, _⟩ => show q'.val = 0 + 1 * q'.val; omega
    rw [hl, View.canon_cons_emb, pay7l_apply, nodeConcat_left _ _ _ (row7 t p) ⟨q'.val, hq⟩ q' rfl]
    exact blk7_0 V c t p _
  · have hq2 : q'.val - 128 < 128 := by have := q'.isLt; omega
    have hr : (ix2 p q' : S2000x256.Idx) = r7_r.emb (ix2 p (⟨q'.val - 128, hq2⟩ : Fin 128)) := by
      funext a; apply Fin.ext
      match a with
      | ⟨0, _⟩ => show p.val = 0 + 1 * p.val; omega
      | ⟨1, _⟩ => show q'.val = 128 + 1 * (q'.val - 128); omega
    rw [hr, View.canon_cons_emb, pay7r_apply, nodeConcat_right _ _ _ (row7 t p) ⟨q'.val - 128, hq2⟩ q' (by show q'.val = 128 + (q'.val - 128); omega)]
    rw [blk7_1 V c t p _, blk7_2 V c t p _]
    rfl

/-- An index of the array is in point `t`'s block iff each coordinate is in the block's range on its axis. -/
theorem mem_blk7 (t : Fin cfg7.N) (i : S20000x256.Idx) :
    i ∈ ((cfg7.win 3).blk t).view.set ↔ ∀ a : Fin 2, win7_3.index t a * S2000x256.size a ≤ (i a).val ∧ (i a).val < win7_3.index t a * S2000x256.size a + S2000x256.size a := by
  show i ∈ ((View.whole main_v191).slice (win7_3.rect t)).set ↔ _
  rw [View.set_slice_whole, Rect.mem_set_unit]
  exact Iff.rfl

/-- THE OUTPUT ARRAY after the region: the region's function of the arrays it finds. -/
theorem final7 (c : Dev nD) :
    (dat7 V c).arrAt 3 cfg7.N = nodeConcat (V c main_v42) (V c main_v187) (V c main_v190) :=
  (dat7 V c).arrAt_eq_of_cover 3 _ (fun t _ => flushed7_eq V c t) fun i => by
    have hi0 : (i 0).val < 20000 := (i 0).isLt
    have hi1 : (i 1).val < 256 := (i 1).isLt
    have hN : cfg7.N = 10 := N_7
    refine ⟨⟨(i 0).val / 2000, by rw [hN]; omega⟩, flush7_3 _, ?_⟩
    rw [mem_blk7]
    obtain ⟨-, -, -, -, -, -, e0, e1⟩ := idx_facts7 ⟨(i 0).val / 2000, by rw [hN]; omega⟩
    intro a
    match a with
    | ⟨0, _⟩ => show win7_3.index _ (0 : Fin 2) * 2000 ≤ (i 0).val ∧ (i 0).val < win7_3.index _ (0 : Fin 2) * 2000 + 2000; rw [e0]; show (i 0).val / 2000 * 2000 ≤ (i 0).val ∧ (i 0).val < (i 0).val / 2000 * 2000 + 2000; omega
    | ⟨1, _⟩ => show win7_3.index _ (1 : Fin 2) * 256 ≤ (i 1).val ∧ (i 1).val < win7_3.index _ (1 : Fin 2) * 256 + 256; rw [e1]; omega

end Cert.KernelIdeal.Val

end
-- ==== Proof.LibPadCat.lean ====
/-
  Column layouts read at an index: a matrix padded on the right of its columns, and three or four matrices of one shape
  set side by side. Reading the padded matrix inside the original columns gives the operand's element; reading the
  concatenation at column `T·g + j` gives piece `g` at column `j`. Together with a column slice and a transpose (the
  library's) these read a gate-major weight matrix whose gates were each padded to their own lane tile.
-/
import Idealize.ShloMosaic.Lib.Pipeline.Value
import Idealize.ShloMosaic.Lib.ValueLayout
import Idealize.ShloMosaic.Lib.ValueIdx

open Idealize.ShloMosaic Idealize.ShloMosaic.ValueIdx

namespace Idealize.ShloMosaic.PadCat

variable {α : Type}

/-- A matrix padded on the right of its columns (no low padding, no interior padding) reads, inside the original
    columns, the operand. -/
theorem pad_cols_apply {R Cw T P : Nat} {u : Shape} (X : (⟨2, ![R, Cw]⟩ : Shape).Idx → α) (v : u.Idx → α)
    (h : (⟨2, ![R, Cw]⟩ : Shape).Pads ![0, 0] ![0, P] ![0, 0] ⟨2, ![R, T]⟩) (hu : 0 < u.numel)
    (k : Fin R) (j : Fin Cw) (j' : Fin T) (hj : j'.val = j.val) :
    pad ⟨2, ![R, T]⟩ ![0, 0] ![0, P] ![0, 0] X v h hu (ix2 k j') = X (ix2 k j) := by
  unfold pad
  have hk : k.val < R := k.isLt
  have hjl : j.val < Cw := j.isLt
  split
  · refine congrArg X (funext fun a => Fin.ext ?_)
    match a with
    | ⟨0, _⟩ => show (k.val - 0) / (0 + 1) = k.val; omega
    | ⟨1, _⟩ => show (j'.val - 0) / (0 + 1) = j.val; omega
  · rename_i hnot
    exfalso; apply hnot
    intro a
    match a with
    | ⟨0, _⟩ => show 0 ≤ k.val ∧ (k.val - 0) % (0 + 1) = 0 ∧ (k.val - 0) / (0 + 1) < R; omega
    | ⟨1, _⟩ => show 0 ≤ j'.val ∧ (j'.val - 0) % (0 + 1) = 0 ∧ (j'.val - 0) / (0 + 1) < Cw; omega

/-- The same padded matrix reads the padding value in the added columns. -/
theorem pad_cols_apply_hi {R Cw T P : Nat} {u : Shape} (X : (⟨2, ![R, Cw]⟩ : Shape).Idx → α) (v : u.Idx → α)
    (h : (⟨2, ![R, Cw]⟩ : Shape).Pads ![0, 0] ![0, P] ![0, 0] ⟨2, ![R, T]⟩) (hu : 0 < u.numel)
    (k : Fin R) (j' : Fin T) (hj : Cw ≤ j'.val) :
    pad ⟨2, ![R, T]⟩ ![0, 0] ![0, P] ![0, 0] X v h hu (ix2 k j') = v (Shape.Idx.first hu) := by
  unfold pad
  split
  · rename_i hin
    exfalso
    have h1 : (j'.val - 0) / (0 + 1) < Cw := (hin 1).2.2
    omega
  · rfl

/-- A sum over `n + p` coordinates whose last `p` terms vanish is the sum over the first `n`. -/
theorem sum_pad_zero {M : Type*} [AddCommMonoid M] {n p : Nat} (f : Fin (n + p) → M) (h : ∀ k : Fin p, f (Fin.natAdd n k) = 0) :
    ∑ k : Fin (n + p), f k = ∑ k : Fin n, f (Fin.castAdd p k) := by
  rw [Fin.sum_univ_add, Finset.sum_eq_zero (fun k _ => h k), add_zero]

/-- 3 matrices side by side, read in piece 0. -/
theorem cat3_0 {R T TT : Nat} (x0 x1 x2 : (⟨2, ![R, T]⟩ : Shape).Idx → α)
    (h : Shape.Concatenates (([⟨⟨2, ![R, T]⟩, x0⟩, ⟨⟨2, ![R, T]⟩, x1⟩, ⟨⟨2, ![R, T]⟩, x2⟩] : List ((s : Shape) × (s.Idx → α))).map (·.1)) ⟨2, ![R, TT]⟩ 1)
    (k : Fin R) (j : Fin T) (j' : Fin TT) (hj : j'.val = T * 0 + j.val) :
    concatenate ⟨2, ![R, TT]⟩ 1 [⟨⟨2, ![R, T]⟩, x0⟩, ⟨⟨2, ![R, T]⟩, x1⟩, ⟨⟨2, ![R, T]⟩, x2⟩] h (ix2 k j') = x0 (ix2 k j) := by
  refine concatenate_apply_piece (1 : Fin 2) _ h (ix2 k j') 0 (by simp) ⟨2, ![R, T]⟩ x0 rfl rfl (T * 0) ?_ (ix2 k j) ?_ ?_
  · simp; try omega
  · intro b hb
    match b with
    | ⟨0, _⟩ => rfl
    | ⟨1, _⟩ => exact absurd rfl hb
  · show T * 0 + j.val = j'.val
    omega

/-- 3 matrices side by side, read in piece 1. -/
theorem cat3_1 {R T TT : Nat} (x0 x1 x2 : (⟨2, ![R, T]⟩ : Shape).Idx → α)
    (h : Shape.Concatenates (([⟨⟨2, ![R, T]⟩, x0⟩, ⟨⟨2, ![R, T]⟩, x1⟩, ⟨⟨2, ![R, T]⟩, x2⟩] : List ((s : Shape) × (s.Idx → α))).map (·.1)) ⟨2, ![R, TT]⟩ 1)
    (k : Fin R) (j : Fin T) (j' : Fin TT) (hj : j'.val = T * 1 + j.val) :
    concatenate ⟨2, ![R, TT]⟩ 1 [⟨⟨2, ![R, T]⟩, x0⟩, ⟨⟨2, ![R, T]⟩, x1⟩, ⟨⟨2, ![R, T]⟩, x2⟩] h (ix2 k j') = x1 (ix2 k j) := by
  refine concatenate_apply_piece (1 : Fin 2) _ h (ix2 k j') 1 (by simp) ⟨2, ![R, T]⟩ x1 rfl rfl (T * 1) ?_ (ix2 k j) ?_ ?_
  · simp; try omega
  · intro b hb
    match b with
    | ⟨0, _⟩ => rfl
    | ⟨1, _⟩ => exact absurd rfl hb
  · show T * 1 + j.val = j'.val
    omega

/-- 3 matrices side by side, read in piece 2. -/
theorem cat3_2 {R T TT : Nat} (x0 x1 x2 : (⟨2, ![R, T]⟩ : Shape).Idx → α)
    (h : Shape.Concatenates (([⟨⟨2, ![R, T]⟩, x0⟩, ⟨⟨2, ![R, T]⟩, x1⟩, ⟨⟨2, ![R, T]⟩, x2⟩] : List ((s : Shape) × (s.Idx → α))).map (·.1)) ⟨2, ![R, TT]⟩ 1)
    (k : Fin R) (j : Fin T) (j' : Fin TT) (hj : j'.val = T * 2 + j.val) :
    concatenate ⟨2, ![R, TT]⟩ 1 [⟨⟨2, ![R, T]⟩, x0⟩, ⟨⟨2, ![R, T]⟩, x1⟩, ⟨⟨2, ![R, T]⟩, x2⟩] h (ix2 k j') = x2 (ix2 k j) := by
  refine concatenate_apply_piece (1 : Fin 2) _ h (ix2 k j') 2 (by simp) ⟨2, ![R, T]⟩ x2 rfl rfl (T * 2) ?_ (ix2 k j) ?_ ?_
  · simp; try omega
  · intro b hb
    match b with
    | ⟨0, _⟩ => rfl
    | ⟨1, _⟩ => exact absurd rfl hb
  · show T * 2 + j.val = j'.val
    omega

/-- 4 matrices side by side, read in piece 0. -/
theorem cat4_0 {R T TT : Nat} (x0 x1 x2 x3 : (⟨2, ![R, T]⟩ : Shape).Idx → α)
    (h : Shape.Concatenates (([⟨⟨2, ![R, T]⟩, x0⟩, ⟨⟨2, ![R, T]⟩, x1⟩, ⟨⟨2, ![R, T]⟩, x2⟩, ⟨⟨2, ![R, T]⟩, x3⟩] : List ((s : Shape) × (s.Idx → α))).map (·.1)) ⟨2, ![R, TT]⟩ 1)
    (k : Fin R) (j : Fin T) (j' : Fin TT) (hj : j'.val = T * 0 + j.val) :
    concatenate ⟨2, ![R, TT]⟩ 1 [⟨⟨2, ![R, T]⟩, x0⟩, ⟨⟨2, ![R, T]⟩, x1⟩, ⟨⟨2, ![R, T]⟩, x2⟩, ⟨⟨2, ![R, T]⟩, x3⟩] h (ix2 k j') = x0 (ix2 k j) := by
  refine concatenate_apply_piece (1 : Fin 2) _ h (ix2 k j') 0 (by simp) ⟨2, ![R, T]⟩ x0 rfl rfl (T * 0) ?_ (ix2 k j) ?_ ?_
  · simp; try omega
  · intro b hb
    match b with
    | ⟨0, _⟩ => rfl
    | ⟨1, _⟩ => exact absurd rfl hb
  · show T * 0 + j.val = j'.val
    omega

/-- 4 matrices side by side, read in piece 1. -/
theorem cat4_1 {R T TT : Nat} (x0 x1 x2 x3 : (⟨2, ![R, T]⟩ : Shape).Idx → α)
    (h : Shape.Concatenates (([⟨⟨2, ![R, T]⟩, x0⟩, ⟨⟨2, ![R, T]⟩, x1⟩, ⟨⟨2, ![R, T]⟩, x2⟩, ⟨⟨2, ![R, T]⟩, x3⟩] : List ((s : Shape) × (s.Idx → α))).map (·.1)) ⟨2, ![R, TT]⟩ 1)
    (k : Fin R) (j : Fin T) (j' : Fin TT) (hj : j'.val = T * 1 + j.val) :
    concatenate ⟨2, ![R, TT]⟩ 1 [⟨⟨2, ![R, T]⟩, x0⟩, ⟨⟨2, ![R, T]⟩, x1⟩, ⟨⟨2, ![R, T]⟩, x2⟩, ⟨⟨2, ![R, T]⟩, x3⟩] h (ix2 k j') = x1 (ix2 k j) := by
  refine concatenate_apply_piece (1 : Fin 2) _ h (ix2 k j') 1 (by simp) ⟨2, ![R, T]⟩ x1 rfl rfl (T * 1) ?_ (ix2 k j) ?_ ?_
  · simp; try omega
  · intro b hb
    match b with
    | ⟨0, _⟩ => rfl
    | ⟨1, _⟩ => exact absurd rfl hb
  · show T * 1 + j.val = j'.val
    omega

/-- 4 matrices side by side, read in piece 2. -/
theorem cat4_2 {R T TT : Nat} (x0 x1 x2 x3 : (⟨2, ![R, T]⟩ : Shape).Idx → α)
    (h : Shape.Concatenates (([⟨⟨2, ![R, T]⟩, x0⟩, ⟨⟨2, ![R, T]⟩, x1⟩, ⟨⟨2, ![R, T]⟩, x2⟩, ⟨⟨2, ![R, T]⟩, x3⟩] : List ((s : Shape) × (s.Idx → α))).map (·.1)) ⟨2, ![R, TT]⟩ 1)
    (k : Fin R) (j : Fin T) (j' : Fin TT) (hj : j'.val = T * 2 + j.val) :
    concatenate ⟨2, ![R, TT]⟩ 1 [⟨⟨2, ![R, T]⟩, x0⟩, ⟨⟨2, ![R, T]⟩, x1⟩, ⟨⟨2, ![R, T]⟩, x2⟩, ⟨⟨2, ![R, T]⟩, x3⟩] h (ix2 k j') = x2 (ix2 k j) := by
  refine concatenate_apply_piece (1 : Fin 2) _ h (ix2 k j') 2 (by simp) ⟨2, ![R, T]⟩ x2 rfl rfl (T * 2) ?_ (ix2 k j) ?_ ?_
  · simp; try omega
  · intro b hb
    match b with
    | ⟨0, _⟩ => rfl
    | ⟨1, _⟩ => exact absurd rfl hb
  · show T * 2 + j.val = j'.val
    omega

/-- 4 matrices side by side, read in piece 3. -/
theorem cat4_3 {R T TT : Nat} (x0 x1 x2 x3 : (⟨2, ![R, T]⟩ : Shape).Idx → α)
    (h : Shape.Concatenates (([⟨⟨2, ![R, T]⟩, x0⟩, ⟨⟨2, ![R, T]⟩, x1⟩, ⟨⟨2, ![R, T]⟩, x2⟩, ⟨⟨2, ![R, T]⟩, x3⟩] : List ((s : Shape) × (s.Idx → α))).map (·.1)) ⟨2, ![R, TT]⟩ 1)
    (k : Fin R) (j : Fin T) (j' : Fin TT) (hj : j'.val = T * 3 + j.val) :
    concatenate ⟨2, ![R, TT]⟩ 1 [⟨⟨2, ![R, T]⟩, x0⟩, ⟨⟨2, ![R, T]⟩, x1⟩, ⟨⟨2, ![R, T]⟩, x2⟩, ⟨⟨2, ![R, T]⟩, x3⟩] h (ix2 k j') = x3 (ix2 k j) := by
  refine concatenate_apply_piece (1 : Fin 2) _ h (ix2 k j') 3 (by simp) ⟨2, ![R, T]⟩ x3 rfl rfl (T * 3) ?_ (ix2 k j) ?_ ?_
  · simp; try omega
  · intro b hb
    match b with
    | ⟨0, _⟩ => rfl
    | ⟨1, _⟩ => exact absurd rfl hb
  · show T * 3 + j.val = j'.val
    omega

end Idealize.ShloMosaic.PadCat
-- ==== Proof.KernelIdealSlices.lean ====
/-
  A column third of the product by three weight matrices side by side is the product by that matrix: with W the 128x384
  matrix [W0 | W1 | W2], column 128·g + q of X · W is ∑ₖ X(r,k) · W_g(k,q), which is what the host's product of X by W_g
  denotes at (r, q).
-/
import proofs.«160791_j62036507623881_2_alg».proof.Proof.Spec
import proofs.«160791_j62036507623881_2_alg».proof.Proof.LibPadCat
import proofs.«160791_j62036507623881_2_alg».proof.Proof.Gen.KernelIdeal

set_option maxRecDepth 16384

noncomputable section

open scoped BigOperators

namespace Cert.KernelIdeal.Val

open Cert.KernelIdeal Cert.KernelIdeal.Gen Cert.Spec
open Idealize.ShloMosaic Idealize.ShloMosaic.ValueIdx

/-- The three weight matrices side by side. -/
def wcat (w0 w1 w2 : FVec Ideal S128x128 .f32) : FVec Ideal S128x384 .f32 :=
  concatenate S128x384 1 [⟨S128x128, w0⟩, ⟨S128x128, w1⟩, ⟨S128x128, w2⟩] concatenates_S128x128_S128x128_S128x128_S128x384_d1

/-- Columns 0 … 127 of the product by the three matrices side by side: the product by matrix 0. -/
theorem slice0_product (X : FVec Ideal S200000x128 .f32) (w0 w1 w2 : FVec Ideal S128x128 .f32) :
    (extractStridedSlice S200000x128 ![0, 0] (rowsProduct (R := 200000) (J := 384) X (wcat w0 w1 w2)) slices_S200000x384_S200000x128_0_0 : S200000x128.Idx → EReal)
      = Host.dotGeneral (F := Ideal) Cert.ReferenceIdeal.dot_S200000x128_S128x128_S200000x128_1_0_0_1_n_n none X w0 := by
  funext i
  obtain ⟨r, q, rfl⟩ : ∃ (r : Fin 200000) (q : Fin 128), i = ix2 r q := ⟨i 0, i 1, eq_ix2 i⟩
  have hq : 0 + q.val < 384 := by have := q.isLt; omega
  rw [cellDot_apply, extractStridedSlice_apply ![0, 0] _ slices_S200000x384_S200000x128_0_0 (ix2 r q) (ix2 r (⟨0 + q.val, hq⟩ : Fin 384)) (fun a => by
    match a with
    | ⟨0, _⟩ => show r.val = 0 + r.val; omega
    | ⟨1, _⟩ => rfl), rowsProduct_apply]
  refine Finset.sum_congr rfl fun k _ => ?_
  unfold wcat
  rw [PadCat.cat3_0 w0 w1 w2 concatenates_S128x128_S128x128_S128x128_S128x384_d1 k q ⟨0 + q.val, hq⟩ (by show 0 + q.val = 128 * 0 + q.val; omega)]

/-- Columns 128 … 255 of the product by the three matrices side by side: the product by matrix 1. -/
theorem slice1_product (X : FVec Ideal S200000x128 .f32) (w0 w1 w2 : FVec Ideal S128x128 .f32) :
    (extractStridedSlice S200000x128 ![0, 128] (rowsProduct (R := 200000) (J := 384) X (wcat w0 w1 w2)) slices_S200000x384_S200000x128_0_128 : S200000x128.Idx → EReal)
      = Host.dotGeneral (F := Ideal) Cert.ReferenceIdeal.dot_S200000x128_S128x128_S200000x128_1_0_0_1_n_n none X w1 := by
  funext i
  obtain ⟨r, q, rfl⟩ : ∃ (r : Fin 200000) (q : Fin 128), i = ix2 r q := ⟨i 0, i 1, eq_ix2 i⟩
  have hq : 128 + q.val < 384 := by have := q.isLt; omega
  rw [cellDot_apply, extractStridedSlice_apply ![0, 128] _ slices_S200000x384_S200000x128_0_128 (ix2 r q) (ix2 r (⟨128 + q.val, hq⟩ : Fin 384)) (fun a => by
    match a with
    | ⟨0, _⟩ => show r.val = 0 + r.val; omega
    | ⟨1, _⟩ => rfl), rowsProduct_apply]
  refine Finset.sum_congr rfl fun k _ => ?_
  unfold wcat
  rw [PadCat.cat3_1 w0 w1 w2 concatenates_S128x128_S128x128_S128x128_S128x384_d1 k q ⟨128 + q.val, hq⟩ (by show 128 + q.val = 128 * 1 + q.val; omega)]

/-- Columns 256 … 383 of the product by the three matrices side by side: the product by matrix 2. -/
theorem slice2_product (X : FVec Ideal S200000x128 .f32) (w0 w1 w2 : FVec Ideal S128x128 .f32) :
    (extractStridedSlice S200000x128 ![0, 256] (rowsProduct (R := 200000) (J := 384) X (wcat w0 w1 w2)) slices_S200000x384_S200000x128_0_256 : S200000x128.Idx → EReal)
      = Host.dotGeneral (F := Ideal) Cert.ReferenceIdeal.dot_S200000x128_S128x128_S200000x128_1_0_0_1_n_n none X w2 := by
  funext i
  obtain ⟨r, q, rfl⟩ : ∃ (r : Fin 200000) (q : Fin 128), i = ix2 r q := ⟨i 0, i 1, eq_ix2 i⟩
  have hq : 256 + q.val < 384 := by have := q.isLt; omega
  rw [cellDot_apply, extractStridedSlice_apply ![0, 256] _ slices_S200000x384_S200000x128_0_256 (ix2 r q) (ix2 r (⟨256 + q.val, hq⟩ : Fin 384)) (fun a => by
    match a with
    | ⟨0, _⟩ => show r.val = 0 + r.val; omega
    | ⟨1, _⟩ => rfl), rowsProduct_apply]
  refine Finset.sum_congr rfl fun k _ => ?_
  unfold wcat
  rw [PadCat.cat3_2 w0 w1 w2 concatenates_S128x128_S128x128_S128x128_S128x384_d1 k q ⟨256 + q.val, hq⟩ (by show 256 + q.val = 128 * 2 + q.val; omega)]

end Cert.KernelIdeal.Val

end
-- ==== Proof.KernelIdealStagesB.lean ====
/-
  The cell layers of the kernel's run, boundary by boundary, against the reference's stages.  Where the reference
  multiplies the cell features by W0, W1 and W2 separately, the kernel multiplies them once by the three matrices side
  by side and slices the product into thirds; a third of that product is the product by its matrix.  The sparse
  products that follow (a gather of rows of one third, a scaling by the stored values, a scatter-add into rows) are the
  same host operations on both sides, so equal thirds give equal sums; and the combination max((t0 + sd) + su, 0) that
  the reference computes on the host the kernel computes inside its next region, before that region's product.
-/
import proofs.«160791_j62036507623881_2_alg».proof.Proof.KernelIdealRun
import proofs.«160791_j62036507623881_2_alg».proof.Proof.KernelIdealArgs
import proofs.«160791_j62036507623881_2_alg».proof.Proof.KernelIdealStagesA
import proofs.«160791_j62036507623881_2_alg».proof.Proof.KernelIdealVal3
import proofs.«160791_j62036507623881_2_alg».proof.Proof.KernelIdealVal4
import proofs.«160791_j62036507623881_2_alg».proof.Proof.KernelIdealVal5
import proofs.«160791_j62036507623881_2_alg».proof.Proof.KernelIdealVal6
import proofs.«160791_j62036507623881_2_alg».proof.Proof.KernelIdealVal7
import proofs.«160791_j62036507623881_2_alg».proof.Proof.KernelIdealSlices
import proofs.«160791_j62036507623881_2_alg».proof.Proof.Spec
import proofs.«160791_j62036507623881_2_alg».proof.Proof.Gen.ReferenceIdeal.Read
import Idealize.ShloMosaic.Lib.StableHlo.Run

set_option maxRecDepth 16384

noncomputable section

namespace Cert.KernelIdeal.Val

open Cert.KernelIdeal Cert.KernelIdeal.Gen Cert.KernelIdeal.Frame Cert.Spec
open Idealize.ShloMosaic Idealize.ShloMosaic.TcCoe Idealize.ShloMosaic.StableHlo Idealize.SL.Sem
open Idealize.ShloMosaic.Pipeline (Dat)
open Cert.ReferenceIdeal.Read (val_main_v48 val_main_v50 val_main_v51 val_main_v53 val_main_v54 val_main_v63 val_main_v65 val_main_v69 val_main_v70 val_main_v71 val_main_v74 val_main_v75 val_main_v92 val_main_v94 val_main_v96 val_main_v97 val_main_v99 val_main_v100 val_main_v117 val_main_v120 val_main_v121 val_main_v138 val_main_v140 val_main_v142 val_main_v143 val_main_v145 val_main_v146 val_main_v163 val_main_v166 val_main_v167 val_main_v184 val_main_v186 val_main_v189 val_main_v192 val_main_v194)

variable (m : (ℓ : Loc nD τ sig) → Buf (Elt Ideal) ℓ) (ρ : Dev nD → PrngReg) (c : Dev nD)

/-- The sparse product on the host: rows of a table gathered at the column indices, scaled by the stored values, and
    scatter-added into the rows the row indices name. -/
def spmm (T : FVec Ideal S200000x128 .f32) (vals : (⟨S400000, .f32⟩ : BufTy).Contents (Elt Ideal)) (idx : (⟨S2x400000, .i32⟩ : BufTy).Contents (Elt Ideal)) : FVec Ideal S200000x128 .f32 :=
  Host.scatterAdd Cert.ReferenceIdeal.scatter_S200000x128_S400000x1_S400000x128_1_0_0_1 (val_main_v69 (F := Ideal)) (val_main_v70 (F := Ideal) idx)
    (mulf (F := Ideal) (φ := .f32) (val_main_v65 (F := Ideal) vals) (Host.gather Cert.ReferenceIdeal.gather_S200000x128_S400000x1_S400000x128_1_0_n_n_0_1_1128 T (val_main_v63 (F := Ideal) idx)))

/-! ## The reference's stages as the shared functions -/

theorem ref_t0_0 : val_main_v51 (F := Ideal) (x1 m c) (x3 m c) = Host.dotGeneral (F := Ideal) (φ₁ := .f32) (φ₂ := .f32) Cert.ReferenceIdeal.dot_S200000x128_S128x128_S200000x128_1_0_0_1_n_n none (x1 m c) (val_main_v50 (F := Ideal) (x3 m c)) := rfl
theorem ref_sd0 : val_main_v71 (F := Ideal) (x1 m c) (x4 m c) (x6 m c) (x11 m c) = spmm (Host.dotGeneral (F := Ideal) (φ₁ := .f32) (φ₂ := .f32) Cert.ReferenceIdeal.dot_S200000x128_S128x128_S200000x128_1_0_0_1_n_n none (x1 m c) (val_main_v53 (F := Ideal) (x4 m c))) (x6 m c) (x11 m c) := rfl
theorem ref_su0 : val_main_v92 (F := Ideal) (x1 m c) (x5 m c) (x7 m c) (x12 m c) = spmm (Host.dotGeneral (F := Ideal) (φ₁ := .f32) (φ₂ := .f32) Cert.ReferenceIdeal.dot_S200000x128_S128x128_S200000x128_1_0_0_1_n_n none (x1 m c) (val_main_v74 (F := Ideal) (x5 m c))) (x7 m c) (x12 m c) := rfl
theorem ref_t0_1 : val_main_v97 (F := Ideal) (x1 m c) (x3 m c) (x4 m c) (x5 m c) (x6 m c) (x7 m c) (x11 m c) (x12 m c) = Host.dotGeneral (F := Ideal) (φ₁ := .f32) (φ₂ := .f32) Cert.ReferenceIdeal.dot_S200000x128_S128x128_S200000x128_1_0_0_1_n_n none (val_main_v94 (F := Ideal) (x1 m c) (x3 m c) (x4 m c) (x5 m c) (x6 m c) (x7 m c) (x11 m c) (x12 m c)) (val_main_v96 (F := Ideal) (x3 m c)) := rfl
theorem ref_sd1 : val_main_v117 (F := Ideal) (x1 m c) (x3 m c) (x4 m c) (x5 m c) (x6 m c) (x7 m c) (x11 m c) (x12 m c) = spmm (Host.dotGeneral (F := Ideal) (φ₁ := .f32) (φ₂ := .f32) Cert.ReferenceIdeal.dot_S200000x128_S128x128_S200000x128_1_0_0_1_n_n none (val_main_v94 (F := Ideal) (x1 m c) (x3 m c) (x4 m c) (x5 m c) (x6 m c) (x7 m c) (x11 m c) (x12 m c)) (val_main_v99 (F := Ideal) (x4 m c))) (x6 m c) (x11 m c) := rfl
theorem ref_su1 : val_main_v138 (F := Ideal) (x1 m c) (x3 m c) (x4 m c) (x5 m c) (x6 m c) (x7 m c) (x11 m c) (x12 m c) = spmm (Host.dotGeneral (F := Ideal) (φ₁ := .f32) (φ₂ := .f32) Cert.ReferenceIdeal.dot_S200000x128_S128x128_S200000x128_1_0_0_1_n_n none (val_main_v94 (F := Ideal) (x1 m c) (x3 m c) (x4 m c) (x5 m c) (x6 m c) (x7 m c) (x11 m c) (x12 m c)) (val_main_v120 (F := Ideal) (x5 m c))) (x7 m c) (x12 m c) := rfl
theorem ref_t0_2 : val_main_v143 (F := Ideal) (x1 m c) (x3 m c) (x4 m c) (x5 m c) (x6 m c) (x7 m c) (x11 m c) (x12 m c) = Host.dotGeneral (F := Ideal) (φ₁ := .f32) (φ₂ := .f32) Cert.ReferenceIdeal.dot_S200000x128_S128x128_S200000x128_1_0_0_1_n_n none (val_main_v140 (F := Ideal) (x1 m c) (x3 m c) (x4 m c) (x5 m c) (x6 m c) (x7 m c) (x11 m c) (x12 m c)) (val_main_v142 (F := Ideal) (x3 m c)) := rfl
theorem ref_sd2 : val_main_v163 (F := Ideal) (x1 m c) (x3 m c) (x4 m c) (x5 m c) (x6 m c) (x7 m c) (x11 m c) (x12 m c) = spmm (Host.dotGeneral (F := Ideal) (φ₁ := .f32) (φ₂ := .f32) Cert.ReferenceIdeal.dot_S200000x128_S128x128_S200000x128_1_0_0_1_n_n none (val_main_v140 (F := Ideal) (x1 m c) (x3 m c) (x4 m c) (x5 m c) (x6 m c) (x7 m c) (x11 m c) (x12 m c)) (val_main_v145 (F := Ideal) (x4 m c))) (x6 m c) (x11 m c) := rfl
theorem ref_su2 : val_main_v184 (F := Ideal) (x1 m c) (x3 m c) (x4 m c) (x5 m c) (x6 m c) (x7 m c) (x11 m c) (x12 m c) = spmm (Host.dotGeneral (F := Ideal) (φ₁ := .f32) (φ₂ := .f32) Cert.ReferenceIdeal.dot_S200000x128_S128x128_S200000x128_1_0_0_1_n_n none (val_main_v140 (F := Ideal) (x1 m c) (x3 m c) (x4 m c) (x5 m c) (x6 m c) (x7 m c) (x11 m c) (x12 m c)) (val_main_v166 (F := Ideal) (x5 m c))) (x7 m c) (x12 m c) := rfl

/-! ## Stretch 3 and region 3: the first product -/

set_option maxHeartbeats 2000000 in
theorem swcat0_a : B7 m ρ c (Proc.devRef .tc main_v44) = val_main_v50 (F := Ideal) (x3 m c) := by
  show StableHlo.after hostOps3 (B6 m ρ c) (Proc.devRef .tc main_v44) = _
  after_results_simp
  rw [arg6_3 m ρ c]
  rfl
set_option maxHeartbeats 2000000 in
theorem swcat0_b : B7 m ρ c (Proc.devRef .tc main_v46) = val_main_v53 (F := Ideal) (x4 m c) := by
  show StableHlo.after hostOps3 (B6 m ρ c) (Proc.devRef .tc main_v46) = _
  after_results_simp
  rw [arg6_4 m ρ c]
  rfl
set_option maxHeartbeats 2000000 in
theorem swcat0_c : B7 m ρ c (Proc.devRef .tc main_v48) = val_main_v74 (F := Ideal) (x5 m c) := by
  show StableHlo.after hostOps3 (B6 m ρ c) (Proc.devRef .tc main_v48) = _
  after_results_simp
  rw [arg6_5 m ρ c]
  rfl
set_option maxHeartbeats 2000000 in
theorem swcat0 : B7 m ρ c (Proc.devRef .tc main_v49) = wcat (val_main_v50 (F := Ideal) (x3 m c)) (val_main_v53 (F := Ideal) (x4 m c)) (val_main_v74 (F := Ideal) (x5 m c)) := by
  have h : B7 m ρ c (Proc.devRef .tc main_v49) = wcat (B7 m ρ c (Proc.devRef .tc main_v44)) (B7 m ρ c (Proc.devRef .tc main_v46)) (B7 m ρ c (Proc.devRef .tc main_v48)) := by
    show StableHlo.after hostOps3 (B6 m ρ c) (Proc.devRef .tc main_v49) = wcat (StableHlo.after hostOps3 (B6 m ρ c) (Proc.devRef .tc main_v44)) (StableHlo.after hostOps3 (B6 m ρ c) (Proc.devRef .tc main_v46)) (StableHlo.after hostOps3 (B6 m ρ c) (Proc.devRef .tc main_v48))
    simp (disch := decide) only [after_cons, after_nil, nary_result', nary_result_ne']
    rfl
  rw [h, swcat0_a m ρ c, swcat0_b m ρ c, swcat0_c m ρ c]
/-- After region 3: the cell features times the three first-layer matrices side by side. -/
theorem stcat0 : B8 m ρ c (Proc.devRef .tc main_v50) = rowsProduct (R := 200000) (J := 384) (x1 m c) (wcat (val_main_v50 (F := Ideal) (x3 m c)) (val_main_v53 (F := Ideal) (x4 m c)) (val_main_v74 (F := Ideal) (x5 m c))) := by
  refine (B8_arr m ρ c 2).trans ((final3 (E7 m ρ) c).trans ?_)
  show rowsProduct (R := 200000) (J := 384) (B7 m ρ c (Proc.devRef .tc main_arg1)) (B7 m ρ c (Proc.devRef .tc main_v49)) = _
  rw [arg7_1 m ρ c, swcat0 m ρ c]

/-! ## Stretch 4 and region 4: the first layer's sparse products, its combination and the second product -/

set_option maxHeartbeats 2000000 in
theorem st0_0 : (B9 m ρ c (Proc.devRef .tc main_v51) : S200000x128.Idx → EReal) = val_main_v51 (F := Ideal) (x1 m c) (x3 m c) := by
  show StableHlo.after hostOps4 (B8 m ρ c) (Proc.devRef .tc main_v51) = _
  after_results_simp
  rw [stcat0 m ρ c]
  exact (slice0_product (x1 m c) (val_main_v50 (F := Ideal) (x3 m c)) (val_main_v53 (F := Ideal) (x4 m c)) (val_main_v74 (F := Ideal) (x5 m c))).trans (ref_t0_0 m c).symm
set_option maxHeartbeats 2000000 in
theorem ssd0 : B9 m ρ c (Proc.devRef .tc main_v71) = val_main_v71 (F := Ideal) (x1 m c) (x4 m c) (x6 m c) (x11 m c) := by
  show StableHlo.after hostOps4 (B8 m ρ c) (Proc.devRef .tc main_v71) = _
  after_results_simp
  rw [arg8_6 m ρ c, arg8_11 m ρ c, stcat0 m ρ c]
  exact (congrArg (fun T => spmm T (x6 m c) (x11 m c)) (slice1_product (x1 m c) (val_main_v50 (F := Ideal) (x3 m c)) (val_main_v53 (F := Ideal) (x4 m c)) (val_main_v74 (F := Ideal) (x5 m c)))).trans (ref_sd0 m c).symm
set_option maxHeartbeats 2000000 in
theorem ssu0 : B9 m ρ c (Proc.devRef .tc main_v89) = val_main_v92 (F := Ideal) (x1 m c) (x5 m c) (x7 m c) (x12 m c) := by
  show StableHlo.after hostOps4 (B8 m ρ c) (Proc.devRef .tc main_v89) = _
  after_results_simp
  rw [arg8_7 m ρ c, arg8_12 m ρ c, stcat0 m ρ c]
  exact (congrArg (fun T => spmm T (x7 m c) (x12 m c)) (slice2_product (x1 m c) (val_main_v50 (F := Ideal) (x3 m c)) (val_main_v53 (F := Ideal) (x4 m c)) (val_main_v74 (F := Ideal) (x5 m c)))).trans (ref_su0 m c).symm
set_option maxHeartbeats 2000000 in
theorem swcat1_a : B9 m ρ c (Proc.devRef .tc main_v91) = val_main_v96 (F := Ideal) (x3 m c) := by
  show StableHlo.after hostOps4 (B8 m ρ c) (Proc.devRef .tc main_v91) = _
  after_results_simp
  rw [arg8_3 m ρ c]
  rfl
set_option maxHeartbeats 2000000 in
theorem swcat1_b : B9 m ρ c (Proc.devRef .tc main_v93) = val_main_v99 (F := Ideal) (x4 m c) := by
  show StableHlo.after hostOps4 (B8 m ρ c) (Proc.devRef .tc main_v93) = _
  after_results_simp
  rw [arg8_4 m ρ c]
  rfl
set_option maxHeartbeats 2000000 in
theorem swcat1_c : B9 m ρ c (Proc.devRef .tc main_v95) = val_main_v120 (F := Ideal) (x5 m c) := by
  show StableHlo.after hostOps4 (B8 m ρ c) (Proc.devRef .tc main_v95) = _
  after_results_simp
  rw [arg8_5 m ρ c]
  rfl
set_option maxHeartbeats 2000000 in
theorem swcat1 : B9 m ρ c (Proc.devRef .tc main_v96) = wcat (val_main_v96 (F := Ideal) (x3 m c)) (val_main_v99 (F := Ideal) (x4 m c)) (val_main_v120 (F := Ideal) (x5 m c)) := by
  have h : B9 m ρ c (Proc.devRef .tc main_v96) = wcat (B9 m ρ c (Proc.devRef .tc main_v91)) (B9 m ρ c (Proc.devRef .tc main_v93)) (B9 m ρ c (Proc.devRef .tc main_v95)) := by
    show StableHlo.after hostOps4 (B8 m ρ c) (Proc.devRef .tc main_v96) = wcat (StableHlo.after hostOps4 (B8 m ρ c) (Proc.devRef .tc main_v91)) (StableHlo.after hostOps4 (B8 m ρ c) (Proc.devRef .tc main_v93)) (StableHlo.after hostOps4 (B8 m ρ c) (Proc.devRef .tc main_v95))
    simp (disch := decide) only [after_cons, after_nil, nary_result', nary_result_ne']
    rfl
  rw [h, swcat1_a m ρ c, swcat1_b m ρ c, swcat1_c m ρ c]
/-- After region 4: the first cell layer's output times the three second-layer matrices side by side. -/
theorem stcat1 : B10 m ρ c (Proc.devRef .tc main_v97) = rowsProduct (R := 200000) (J := 384) (val_main_v94 (F := Ideal) (x1 m c) (x3 m c) (x4 m c) (x5 m c) (x6 m c) (x7 m c) (x11 m c) (x12 m c)) (wcat (val_main_v96 (F := Ideal) (x3 m c)) (val_main_v99 (F := Ideal) (x4 m c)) (val_main_v120 (F := Ideal) (x5 m c))) := by
  refine (B10_arr m ρ c 4).trans ((final4 (E9 m ρ) c).trans ?_)
  show rowsProduct (R := 200000) (J := 384) (combine (B9 m ρ c (Proc.devRef .tc main_v51)) (B9 m ρ c (Proc.devRef .tc main_v71)) (B9 m ρ c (Proc.devRef .tc main_v89))) (B9 m ρ c (Proc.devRef .tc main_v96)) = _
  rw [st0_0 m ρ c, ssd0 m ρ c, ssu0 m ρ c, swcat1 m ρ c]
  rfl

/-! ## Stretch 5 and region 5 -/

set_option maxHeartbeats 2000000 in
theorem st0_1 : (B11 m ρ c (Proc.devRef .tc main_v98) : S200000x128.Idx → EReal) = val_main_v97 (F := Ideal) (x1 m c) (x3 m c) (x4 m c) (x5 m c) (x6 m c) (x7 m c) (x11 m c) (x12 m c) := by
  show StableHlo.after hostOps5 (B10 m ρ c) (Proc.devRef .tc main_v98) = _
  after_results_simp
  rw [stcat1 m ρ c]
  exact (slice0_product (val_main_v94 (F := Ideal) (x1 m c) (x3 m c) (x4 m c) (x5 m c) (x6 m c) (x7 m c) (x11 m c) (x12 m c)) (val_main_v96 (F := Ideal) (x3 m c)) (val_main_v99 (F := Ideal) (x4 m c)) (val_main_v120 (F := Ideal) (x5 m c))).trans (ref_t0_1 m c).symm
set_option maxHeartbeats 2000000 in
theorem ssd1 : B11 m ρ c (Proc.devRef .tc main_v118) = val_main_v117 (F := Ideal) (x1 m c) (x3 m c) (x4 m c) (x5 m c) (x6 m c) (x7 m c) (x11 m c) (x12 m c) := by
  show StableHlo.after hostOps5 (B10 m ρ c) (Proc.devRef .tc main_v118) = _
  after_results_simp
  rw [arg10_6 m ρ c, arg10_11 m ρ c, stcat1 m ρ c]
  exact (congrArg (fun T => spmm T (x6 m c) (x11 m c)) (slice1_product (val_main_v94 (F := Ideal) (x1 m c) (x3 m c) (x4 m c) (x5 m c) (x6 m c) (x7 m c) (x11 m c) (x12 m c)) (val_main_v96 (F := Ideal) (x3 m c)) (val_main_v99 (F := Ideal) (x4 m c)) (val_main_v120 (F := Ideal) (x5 m c)))).trans (ref_sd1 m c).symm
set_option maxHeartbeats 2000000 in
theorem ssu1 : B11 m ρ c (Proc.devRef .tc main_v136) = val_main_v138 (F := Ideal) (x1 m c) (x3 m c) (x4 m c) (x5 m c) (x6 m c) (x7 m c) (x11 m c) (x12 m c) := by
  show StableHlo.after hostOps5 (B10 m ρ c) (Proc.devRef .tc main_v136) = _
  after_results_simp
  rw [arg10_7 m ρ c, arg10_12 m ρ c, stcat1 m ρ c]
  exact (congrArg (fun T => spmm T (x7 m c) (x12 m c)) (slice2_product (val_main_v94 (F := Ideal) (x1 m c) (x3 m c) (x4 m c) (x5 m c) (x6 m c) (x7 m c) (x11 m c) (x12 m c)) (val_main_v96 (F := Ideal) (x3 m c)) (val_main_v99 (F := Ideal) (x4 m c)) (val_main_v120 (F := Ideal) (x5 m c)))).trans (ref_su1 m c).symm
set_option maxHeartbeats 2000000 in
theorem swcat2_a : B11 m ρ c (Proc.devRef .tc main_v138) = val_main_v142 (F := Ideal) (x3 m c) := by
  show StableHlo.after hostOps5 (B10 m ρ c) (Proc.devRef .tc main_v138) = _
  after_results_simp
  rw [arg10_3 m ρ c]
  rfl
set_option maxHeartbeats 2000000 in
theorem swcat2_b : B11 m ρ c (Proc.devRef .tc main_v140) = val_main_v145 (F := Ideal) (x4 m c) := by
  show StableHlo.after hostOps5 (B10 m ρ c) (Proc.devRef .tc main_v140) = _
  after_results_simp
  rw [arg10_4 m ρ c]
  rfl
set_option maxHeartbeats 2000000 in
theorem swcat2_c : B11 m ρ c (Proc.devRef .tc main_v142) = val_main_v166 (F := Ideal) (x5 m c) := by
  show StableHlo.after hostOps5 (B10 m ρ c) (Proc.devRef .tc main_v142) = _
  after_results_simp
  rw [arg10_5 m ρ c]
  rfl
set_option maxHeartbeats 2000000 in
theorem swcat2 : B11 m ρ c (Proc.devRef .tc main_v143) = wcat (val_main_v142 (F := Ideal) (x3 m c)) (val_main_v145 (F := Ideal) (x4 m c)) (val_main_v166 (F := Ideal) (x5 m c)) := by
  have h : B11 m ρ c (Proc.devRef .tc main_v143) = wcat (B11 m ρ c (Proc.devRef .tc main_v138)) (B11 m ρ c (Proc.devRef .tc main_v140)) (B11 m ρ c (Proc.devRef .tc main_v142)) := by
    show StableHlo.after hostOps5 (B10 m ρ c) (Proc.devRef .tc main_v143) = wcat (StableHlo.after hostOps5 (B10 m ρ c) (Proc.devRef .tc main_v138)) (StableHlo.after hostOps5 (B10 m ρ c) (Proc.devRef .tc main_v140)) (StableHlo.after hostOps5 (B10 m ρ c) (Proc.devRef .tc main_v142))
    simp (disch := decide) only [after_cons, after_nil, nary_result', nary_result_ne']
    rfl
  rw [h, swcat2_a m ρ c, swcat2_b m ρ c, swcat2_c m ρ c]
/-- After region 5: the second cell layer's output times the three third-layer matrices side by side. -/
theorem stcat2 : B12 m ρ c (Proc.devRef .tc main_v144) = rowsProduct (R := 200000) (J := 384) (val_main_v140 (F := Ideal) (x1 m c) (x3 m c) (x4 m c) (x5 m c) (x6 m c) (x7 m c) (x11 m c) (x12 m c)) (wcat (val_main_v142 (F := Ideal) (x3 m c)) (val_main_v145 (F := Ideal) (x4 m c)) (val_main_v166 (F := Ideal) (x5 m c))) := by
  refine (B12_arr m ρ c 4).trans ((final5 (E11 m ρ) c).trans ?_)
  show rowsProduct (R := 200000) (J := 384) (combine (B11 m ρ c (Proc.devRef .tc main_v98)) (B11 m ρ c (Proc.devRef .tc main_v118)) (B11 m ρ c (Proc.devRef .tc main_v136))) (B11 m ρ c (Proc.devRef .tc main_v143)) = _
  rw [st0_1 m ρ c, ssd1 m ρ c, ssu1 m ρ c, swcat2 m ρ c]
  rfl

/-! ## Stretch 6 and region 6: the last combination -/

set_option maxHeartbeats 2000000 in
theorem st0_2 : (B13 m ρ c (Proc.devRef .tc main_v145) : S200000x128.Idx → EReal) = val_main_v143 (F := Ideal) (x1 m c) (x3 m c) (x4 m c) (x5 m c) (x6 m c) (x7 m c) (x11 m c) (x12 m c) := by
  show StableHlo.after hostOps6 (B12 m ρ c) (Proc.devRef .tc main_v145) = _
  after_results_simp
  rw [stcat2 m ρ c]
  exact (slice0_product (val_main_v140 (F := Ideal) (x1 m c) (x3 m c) (x4 m c) (x5 m c) (x6 m c) (x7 m c) (x11 m c) (x12 m c)) (val_main_v142 (F := Ideal) (x3 m c)) (val_main_v145 (F := Ideal) (x4 m c)) (val_main_v166 (F := Ideal) (x5 m c))).trans (ref_t0_2 m c).symm
set_option maxHeartbeats 2000000 in
theorem ssd2 : B13 m ρ c (Proc.devRef .tc main_v165) = val_main_v163 (F := Ideal) (x1 m c) (x3 m c) (x4 m c) (x5 m c) (x6 m c) (x7 m c) (x11 m c) (x12 m c) := by
  show StableHlo.after hostOps6 (B12 m ρ c) (Proc.devRef .tc main_v165) = _
  after_results_simp
  rw [arg12_6 m ρ c, arg12_11 m ρ c, stcat2 m ρ c]
  exact (congrArg (fun T => spmm T (x6 m c) (x11 m c)) (slice1_product (val_main_v140 (F := Ideal) (x1 m c) (x3 m c) (x4 m c) (x5 m c) (x6 m c) (x7 m c) (x11 m c) (x12 m c)) (val_main_v142 (F := Ideal) (x3 m c)) (val_main_v145 (F := Ideal) (x4 m c)) (val_main_v166 (F := Ideal) (x5 m c)))).trans (ref_sd2 m c).symm
set_option maxHeartbeats 2000000 in
theorem ssu2 : B13 m ρ c (Proc.devRef .tc main_v183) = val_main_v184 (F := Ideal) (x1 m c) (x3 m c) (x4 m c) (x5 m c) (x6 m c) (x7 m c) (x11 m c) (x12 m c) := by
  show StableHlo.after hostOps6 (B12 m ρ c) (Proc.devRef .tc main_v183) = _
  after_results_simp
  rw [arg12_7 m ρ c, arg12_12 m ρ c, stcat2 m ρ c]
  exact (congrArg (fun T => spmm T (x7 m c) (x12 m c)) (slice2_product (val_main_v140 (F := Ideal) (x1 m c) (x3 m c) (x4 m c) (x5 m c) (x6 m c) (x7 m c) (x11 m c) (x12 m c)) (val_main_v142 (F := Ideal) (x3 m c)) (val_main_v145 (F := Ideal) (x4 m c)) (val_main_v166 (F := Ideal) (x5 m c)))).trans (ref_su2 m c).symm
/-- After region 6: the cell features after the third layer. -/
theorem she : B14 m ρ c (Proc.devRef .tc main_v184) = val_main_v186 (F := Ideal) (x1 m c) (x3 m c) (x4 m c) (x5 m c) (x6 m c) (x7 m c) (x11 m c) (x12 m c) := by
  refine (B14_arr m ρ c 3).trans ((final6 (E13 m ρ) c).trans ?_)
  show combine (B13 m ρ c (Proc.devRef .tc main_v145)) (B13 m ρ c (Proc.devRef .tc main_v165)) (B13 m ρ c (Proc.devRef .tc main_v183)) = _
  rw [st0_2 m ρ c, ssd2 m ρ c, ssu2 m ρ c]
  rfl

/-! ## Stretch 7 and region 7: the two scatters to the nodes and the final array -/

set_option maxHeartbeats 2000000 in
theorem ss1 : B15 m ρ c (Proc.devRef .tc main_v187) = val_main_v189 (F := Ideal) (x1 m c) (x3 m c) (x4 m c) (x5 m c) (x6 m c) (x7 m c) (x9 m c) (x11 m c) (x12 m c) := by
  show StableHlo.after hostOps7 (B14 m ρ c) (Proc.devRef .tc main_v187) = _
  after_results_simp
  rw [arg14_9 m ρ c, she m ρ c]
  rfl
set_option maxHeartbeats 2000000 in
theorem ss2 : B15 m ρ c (Proc.devRef .tc main_v190) = val_main_v192 (F := Ideal) (x1 m c) (x3 m c) (x4 m c) (x5 m c) (x6 m c) (x7 m c) (x10 m c) (x11 m c) (x12 m c) := by
  show StableHlo.after hostOps7 (B14 m ρ c) (Proc.devRef .tc main_v190) = _
  after_results_simp
  rw [arg14_10 m ρ c, she m ρ c]
  rfl
/-- THE RESULT: after region 7 the result array is the reference's result term of the arguments. -/
theorem result_eq : B16 m ρ c (Proc.devRef .tc main_v191) = val_main_v194 (F := Ideal) (x0 m c) (x1 m c) (x2 m c) (x3 m c) (x4 m c) (x5 m c) (x6 m c) (x7 m c) (x8 m c) (x9 m c) (x10 m c) (x11 m c) (x12 m c) := by
  refine (B16_arr m ρ c 3).trans ((final7 (E15 m ρ) c).trans ?_)
  show nodeConcat (B15 m ρ c (Proc.devRef .tc main_v42)) (B15 m ρ c (Proc.devRef .tc main_v187)) (B15 m ρ c (Proc.devRef .tc main_v190)) = _
  rw [sh3_15 m ρ c, ss1 m ρ c, ss2 m ρ c]
  rfl

end Cert.KernelIdeal.Val

end
-- ==== Proof.lean ====
/-
  The certificate of the cell network: the kernel (three graph layers, three cell layers and the final concatenation in
  eight pipelined regions among stretches of host gathers and scatter-adds) against its reference on the host.

  Frames.  Each kernel program runs as sixteen segments, a host stretch then a region, eight times.  A region's body
  loads whole blocks, computes and stores whole blocks, so each region's proof data is what the body leaves at every grid
  point; no stretch and no region writes an argument, so every argument ends as launched.  The reference is host
  operations only, and its generated run gives its frame.

  Equal results at the ideal values.  Region by region the kernel's arrays are the reference's stages: a graph layer is
  max((h + agg) · W, 0) on both sides, the neighbour sums computed by the same host operations; the kernel's one product
  by [W0 | W1 | W2] sliced into thirds is the reference's three products, since a column third of the product is the
  product by that third; the sparse products gather, scale and scatter-add the same rows; the combination
  max((t0 + sd) + su, 0) is the same sum in the same order; and the final array sets the same two matrices side by side.
  Changes of float format are the identity at the ideal values, and no law beyond unfolding both sides to the same sums
  is used, so the precondition is never opened.  No operation of the kernel is rewritten by the idealization, so the
  preservation conjunct is trivial.
-/
import proofs.«160791_j62036507623881_2_alg».proof.Defs
import proofs.«160791_j62036507623881_2_alg».proof.Proof.Gen.Kernel
import proofs.«160791_j62036507623881_2_alg».proof.Proof.Gen.KernelIdeal
import proofs.«160791_j62036507623881_2_alg».proof.Proof.Gen.ReferenceIdeal
import proofs.«160791_j62036507623881_2_alg».proof.Proof.Gen.Pre_finite_inputs
import proofs.«160791_j62036507623881_2_alg».proof.Proof.Gen.ReferenceIdeal.Run
import proofs.«160791_j62036507623881_2_alg».proof.Proof.Gen.ReferenceIdeal.Read
import proofs.«160791_j62036507623881_2_alg».proof.Proof.KernelRun
import proofs.«160791_j62036507623881_2_alg».proof.Proof.KernelIdealRun
import proofs.«160791_j62036507623881_2_alg».proof.Proof.KernelIdealStagesB
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Frame.frame m ρ
theorem frame_ki : Cert.frame_KernelIdeal := fun m ρ _ => Cert.KernelIdeal.Frame.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both idealized programs, run from memories agreeing on the arguments, end with the same result array: the kernel's
    last boundary holds the reference's result term of the arguments. -/
theorem algebraic : Cert.algebraic_KernelIdeal_ReferenceIdeal := by
  intro m ρ m' ρ' _ hagree
  refine ⟨fun c => Cert.KernelIdeal.Frame.B16 m ρ c (Proc.devRef .tc Cert.KernelIdeal.main_v191), ?_, ?_⟩
  · exact (θ_run Cert.KernelIdeal.defs _ _).mono (fun r h c => ⟨h c _ (Cert.KernelIdeal.Frame.mem_uc Cert.KernelIdeal.main_v191 (by decide)),
      (h c _ (Cert.KernelIdeal.Frame.mem_uc Cert.KernelIdeal.main_arg0 (by decide))).trans (Cert.KernelIdeal.Frame.B16_main_arg0 m ρ c),
      (h c _ (Cert.KernelIdeal.Frame.mem_uc Cert.KernelIdeal.main_arg1 (by decide))).trans (Cert.KernelIdeal.Frame.B16_main_arg1 m ρ c),
      (h c _ (Cert.KernelIdeal.Frame.mem_uc Cert.KernelIdeal.main_arg2 (by decide))).trans (Cert.KernelIdeal.Frame.B16_main_arg2 m ρ c),
      (h c _ (Cert.KernelIdeal.Frame.mem_uc Cert.KernelIdeal.main_arg3 (by decide))).trans (Cert.KernelIdeal.Frame.B16_main_arg3 m ρ c),
      (h c _ (Cert.KernelIdeal.Frame.mem_uc Cert.KernelIdeal.main_arg4 (by decide))).trans (Cert.KernelIdeal.Frame.B16_main_arg4 m ρ c),
      (h c _ (Cert.KernelIdeal.Frame.mem_uc Cert.KernelIdeal.main_arg5 (by decide))).trans (Cert.KernelIdeal.Frame.B16_main_arg5 m ρ c),
      (h c _ (Cert.KernelIdeal.Frame.mem_uc Cert.KernelIdeal.main_arg6 (by decide))).trans (Cert.KernelIdeal.Frame.B16_main_arg6 m ρ c),
      (h c _ (Cert.KernelIdeal.Frame.mem_uc Cert.KernelIdeal.main_arg7 (by decide))).trans (Cert.KernelIdeal.Frame.B16_main_arg7 m ρ c),
      (h c _ (Cert.KernelIdeal.Frame.mem_uc Cert.KernelIdeal.main_arg8 (by decide))).trans (Cert.KernelIdeal.Frame.B16_main_arg8 m ρ c),
      (h c _ (Cert.KernelIdeal.Frame.mem_uc Cert.KernelIdeal.main_arg9 (by decide))).trans (Cert.KernelIdeal.Frame.B16_main_arg9 m ρ c),
      (h c _ (Cert.KernelIdeal.Frame.mem_uc Cert.KernelIdeal.main_arg10 (by decide))).trans (Cert.KernelIdeal.Frame.B16_main_arg10 m ρ c),
      (h c _ (Cert.KernelIdeal.Frame.mem_uc Cert.KernelIdeal.main_arg11 (by decide))).trans (Cert.KernelIdeal.Frame.B16_main_arg11 m ρ c),
      (h c _ (Cert.KernelIdeal.Frame.mem_uc Cert.KernelIdeal.main_arg12 (by decide))).trans (Cert.KernelIdeal.Frame.B16_main_arg12 m ρ c)⟩)
      (Cert.KernelIdeal.Frame.run_all m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v194_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]
    exact (Cert.KernelIdeal.Val.result_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
